-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12x64x256x256 : Shape := ⟨4, ![12, 64, 256, 256]⟩
abbrev S_ : Shape := ⟨0, ![]⟩

class Facts : Prop where
  bcast_S_S12x64x256x256 : S_.BroadcastsInDim S12x64x256x256 (![] : Fin 0 → Fin S12x64x256x256.rank)
  reducesTo_S12x64x256x256_S_d0_1_2_3 : S12x64x256x256.ReducesTo [0, 1, 2, 3] S_
  h_S_ : 0 < S_.numel

variable [Facts]

def fn {F : FTy → Type} [FloatOps F] (main_arg0 : FVec F S12x64x256x256 .f32) : IVec S_ 1 :=
  let main_v0 : FVec F S12x64x256x256 .f32 := Host.absf main_arg0
  let main_cst : FVec F S_ .f32 := constant S_ .f32 0x7F800000#32
  let main_v1 : FVec F S12x64x256x256 .f32 := broadcastInDim S12x64x256x256 ![] bcast_S_S12x64x256x256 main_cst
  let main_v2 : IVec S12x64x256x256 1 := cmpf .olt main_v0 main_v1
  let main_c : IVec S_ 1 := constantI S_ 1 1#1
  let main_v3 : IVec S_ 1 := (fun x v => Host.reduce IntOp.andi x v reducesTo_S12x64x256x256_S_d0_1_2_3 h_S_) main_v2 main_c
  main_v3
-- ==== Kernel.lean ====
abbrev S12x64x256x256 : Shape := ⟨4, ![12, 64, 256, 256]⟩
abbrev S2x6x64x256x256 : Shape := ⟨5, ![2, 6, 64, 256, 256]⟩
abbrev S2x1x64x256x256 : Shape := ⟨5, ![2, 1, 64, 256, 256]⟩
abbrev S2x64x256x256 : Shape := ⟨4, ![2, 64, 256, 256]⟩
abbrev S2x64x1x256 : Shape := ⟨4, ![2, 64, 1, 256]⟩
abbrev S2x64x256x1 : Shape := ⟨4, ![2, 64, 256, 1]⟩
abbrev S2x1x64x1x256 : Shape := ⟨5, ![2, 1, 64, 1, 256]⟩
abbrev S2x6x64x1x256 : Shape := ⟨5, ![2, 6, 64, 1, 256]⟩
abbrev S2x1x64x256x1 : Shape := ⟨5, ![2, 1, 64, 256, 1]⟩
abbrev S2x6x64x256x1 : Shape := ⟨5, ![2, 6, 64, 256, 1]⟩
abbrev S2x6x64x1x1 : Shape := ⟨5, ![2, 6, 64, 1, 1]⟩
abbrev S2x6x64x258x1 : Shape := ⟨5, ![2, 6, 64, 258, 1]⟩
abbrev S768x256x256 : Shape := ⟨3, ![768, 256, 256]⟩
abbrev S768x1x256 : Shape := ⟨3, ![768, 1, 256]⟩
abbrev S768x258x1 : Shape := ⟨3, ![768, 258, 1]⟩
abbrev S768x258x258 : Shape := ⟨3, ![768, 258, 258]⟩
abbrev S16x256x256 : Shape := ⟨3, ![16, 256, 256]⟩
abbrev S16x1x256 : Shape := ⟨3, ![16, 1, 256]⟩
abbrev S16x258x1 : Shape := ⟨3, ![16, 258, 1]⟩
abbrev S16x258x258 : Shape := ⟨3, ![16, 258, 258]⟩
abbrev S12x64x258x258 : Shape := ⟨4, ![12, 64, 258, 258]⟩

abbrev nBuf : Space → Nat
  | .hbm => 98
  | .vmem => 12
  | .smem => 0
  | _ => 0

abbrev bufTy : (tb : Table) → Fin (tcTables nBuf tb) → BufTy
  | .hbm, ⟨0, _⟩ => ⟨S12x64x256x256, .f32⟩
  | .hbm, ⟨1, _⟩ => ⟨S2x6x64x256x256, .f32⟩
  | .hbm, ⟨2, _⟩ => ⟨S2x1x64x256x256, .f32⟩
  | .hbm, ⟨3, _⟩ => ⟨S2x64x256x256, .f32⟩
  | .hbm, ⟨4, _⟩ => ⟨S2x1x64x256x256, .f32⟩
  | .hbm, ⟨5, _⟩ => ⟨S2x64x256x256, .f32⟩
  | .hbm, ⟨6, _⟩ => ⟨S2x1x64x256x256, .f32⟩
  | .hbm, ⟨7, _⟩ => ⟨S2x64x256x256, .f32⟩
  | .hbm, ⟨8, _⟩ => ⟨S2x1x64x256x256, .f32⟩
  | .hbm, ⟨9, _⟩ => ⟨S2x64x256x256, .f32⟩
  | .hbm, ⟨10, _⟩ => ⟨S2x1x64x256x256, .f32⟩
  | .hbm, ⟨11, _⟩ => ⟨S2x64x256x256, .f32⟩
  | .hbm, ⟨12, _⟩ => ⟨S2x1x64x256x256, .f32⟩
  | .hbm, ⟨13, _⟩ => ⟨S2x64x256x256, .f32⟩
  | .hbm, ⟨14, _⟩ => ⟨S2x64x1x256, .f32⟩
  | .hbm, ⟨15, _⟩ => ⟨S2x64x256x1, .f32⟩
  | .hbm, ⟨16, _⟩ => ⟨S2x64x1x256, .f32⟩
  | .hbm, ⟨17, _⟩ => ⟨S2x64x1x256, .f32⟩
  | .hbm, ⟨18, _⟩ => ⟨S2x64x1x256, .f32⟩
  | .hbm, ⟨19, _⟩ => ⟨S2x64x1x256, .f32⟩
  | .hbm, ⟨20, _⟩ => ⟨S2x64x256x1, .f32⟩
  | .hbm, ⟨21, _⟩ => ⟨S2x64x1x256, .f32⟩
  | .hbm, ⟨22, _⟩ => ⟨S2x64x1x256, .f32⟩
  | .hbm, ⟨23, _⟩ => ⟨S2x64x1x256, .f32⟩
  | .hbm, ⟨24, _⟩ => ⟨S2x64x1x256, .f32⟩
  | .hbm, ⟨25, _⟩ => ⟨S2x64x1x256, .f32⟩
  | .hbm, ⟨26, _⟩ => ⟨S2x1x64x1x256, .f32⟩
  | .hbm, ⟨27, _⟩ => ⟨S2x1x64x1x256, .f32⟩
  | .hbm, ⟨28, _⟩ => ⟨S2x1x64x1x256, .f32⟩
  | .hbm, ⟨29, _⟩ => ⟨S2x1x64x1x256, .f32⟩
  | .hbm, ⟨30, _⟩ => ⟨S2x1x64x1x256, .f32⟩
  | .hbm, ⟨31, _⟩ => ⟨S2x1x64x1x256, .f32⟩
  | .hbm, ⟨32, _⟩ => ⟨S2x6x64x1x256, .f32⟩
  | .hbm, ⟨33, _⟩ => ⟨S2x64x1x256, .f32⟩
  | .hbm, ⟨34, _⟩ => ⟨S2x64x256x1, .f32⟩
  | .hbm, ⟨35, _⟩ => ⟨S2x64x1x256, .f32⟩
  | .hbm, ⟨36, _⟩ => ⟨S2x64x1x256, .f32⟩
  | .hbm, ⟨37, _⟩ => ⟨S2x64x1x256, .f32⟩
  | .hbm, ⟨38, _⟩ => ⟨S2x64x1x256, .f32⟩
  | .hbm, ⟨39, _⟩ => ⟨S2x64x256x1, .f32⟩
  | .hbm, ⟨40, _⟩ => ⟨S2x64x1x256, .f32⟩
  | .hbm, ⟨41, _⟩ => ⟨S2x64x1x256, .f32⟩
  | .hbm, ⟨42, _⟩ => ⟨S2x64x1x256, .f32⟩
  | .hbm, ⟨43, _⟩ => ⟨S2x64x1x256, .f32⟩
  | .hbm, ⟨44, _⟩ => ⟨S2x64x1x256, .f32⟩
  | .hbm, ⟨45, _⟩ => ⟨S2x1x64x1x256, .f32⟩
  | .hbm, ⟨46, _⟩ => ⟨S2x1x64x1x256, .f32⟩
  | .hbm, ⟨47, _⟩ => ⟨S2x1x64x1x256, .f32⟩
  | .hbm, ⟨48, _⟩ => ⟨S2x1x64x1x256, .f32⟩
  | .hbm, ⟨49, _⟩ => ⟨S2x1x64x1x256, .f32⟩
  | .hbm, ⟨50, _⟩ => ⟨S2x1x64x1x256, .f32⟩
  | .hbm, ⟨51, _⟩ => ⟨S2x6x64x1x256, .f32⟩
  | .hbm, ⟨52, _⟩ => ⟨S2x64x256x1, .f32⟩
  | .hbm, ⟨53, _⟩ => ⟨S2x64x256x1, .f32⟩
  | .hbm, ⟨54, _⟩ => ⟨S2x64x256x1, .f32⟩
  | .hbm, ⟨55, _⟩ => ⟨S2x64x256x1, .f32⟩
  | .hbm, ⟨56, _⟩ => ⟨S2x64x1x256, .f32⟩
  | .hbm, ⟨57, _⟩ => ⟨S2x64x256x1, .f32⟩
  | .hbm, ⟨58, _⟩ => ⟨S2x64x1x256, .f32⟩
  | .hbm, ⟨59, _⟩ => ⟨S2x64x256x1, .f32⟩
  | .hbm, ⟨60, _⟩ => ⟨S2x64x256x1, .f32⟩
  | .hbm, ⟨61, _⟩ => ⟨S2x1x64x256x1, .f32⟩
  | .hbm, ⟨62, _⟩ => ⟨S2x1x64x256x1, .f32⟩
  | .hbm, ⟨63, _⟩ => ⟨S2x1x64x256x1, .f32⟩
  | .hbm, ⟨64, _⟩ => ⟨S2x1x64x256x1, .f32⟩
  | .hbm, ⟨65, _⟩ => ⟨S2x1x64x256x1, .f32⟩
  | .hbm, ⟨66, _⟩ => ⟨S2x1x64x256x1, .f32⟩
  | .hbm, ⟨67, _⟩ => ⟨S2x6x64x256x1, .f32⟩
  | .hbm, ⟨68, _⟩ => ⟨S2x64x256x1, .f32⟩
  | .hbm, ⟨69, _⟩ => ⟨S2x64x256x1, .f32⟩
  | .hbm, ⟨70, _⟩ => ⟨S2x64x256x1, .f32⟩
  | .hbm, ⟨71, _⟩ => ⟨S2x64x256x1, .f32⟩
  | .hbm, ⟨72, _⟩ => ⟨S2x64x1x256, .f32⟩
  | .hbm, ⟨73, _⟩ => ⟨S2x64x256x1, .f32⟩
  | .hbm, ⟨74, _⟩ => ⟨S2x64x256x1, .f32⟩
  | .hbm, ⟨75, _⟩ => ⟨S2x64x1x256, .f32⟩
  | .hbm, ⟨76, _⟩ => ⟨S2x64x1x256, .f32⟩
  | .hbm, ⟨77, _⟩ => ⟨S2x64x256x1, .f32⟩
  | .hbm, ⟨78, _⟩ => ⟨S2x1x64x256x1, .f32⟩
  | .hbm, ⟨79, _⟩ => ⟨S2x1x64x256x1, .f32⟩
  | .hbm, ⟨80, _⟩ => ⟨S2x1x64x256x1, .f32⟩
  | .hbm, ⟨81, _⟩ => ⟨S2x1x64x256x1, .f32⟩
  | .hbm, ⟨82, _⟩ => ⟨S2x1x64x256x1, .f32⟩
  | .hbm, ⟨83, _⟩ => ⟨S2x1x64x256x1, .f32⟩
  | .hbm, ⟨84, _⟩ => ⟨S2x6x64x256x1, .f32⟩
  | .hbm, ⟨85, _⟩ => ⟨S2x6x64x1x1, .f32⟩
  | .hbm, ⟨86, _⟩ => ⟨S2x6x64x1x1, .f32⟩
  | .hbm, ⟨87, _⟩ => ⟨S2x6x64x1x1, .f32⟩
  | .hbm, ⟨88, _⟩ => ⟨S2x6x64x1x1, .f32⟩
  | .hbm, ⟨89, _⟩ => ⟨S2x6x64x258x1, .f32⟩
  | .hbm, ⟨90, _⟩ => ⟨S2x6x64x258x1, .f32⟩
  | .hbm, ⟨91, _⟩ => ⟨S768x256x256, .f32⟩
  | .hbm, ⟨92, _⟩ => ⟨S768x1x256, .f32⟩
  | .hbm, ⟨93, _⟩ => ⟨S768x1x256, .f32⟩
  | .hbm, ⟨94, _⟩ => ⟨S768x258x1, .f32⟩
  | .hbm, ⟨95, _⟩ => ⟨S768x258x1, .f32⟩
  | .hbm, ⟨96, _⟩ => ⟨S768x258x258, .f32⟩
  | .hbm, ⟨97, _⟩ => ⟨S12x64x258x258, .f32⟩
  | .local _ .vmem, ⟨0, _⟩ => ⟨S16x256x256, .f32⟩
  | .local _ .vmem, ⟨1, _⟩ => ⟨S16x256x256, .f32⟩
  | .local _ .vmem, ⟨2, _⟩ => ⟨S16x1x256, .f32⟩
  | .local _ .vmem, ⟨3, _⟩ => ⟨S16x1x256, .f32⟩
  | .local _ .vmem, ⟨4, _⟩ => ⟨S16x1x256, .f32⟩
  | .local _ .vmem, ⟨5, _⟩ => ⟨S16x1x256, .f32⟩
  | .local _ .vmem, ⟨6, _⟩ => ⟨S16x258x1, .f32⟩
  | .local _ .vmem, ⟨7, _⟩ => ⟨S16x258x1, .f32⟩
  | .local _ .vmem, ⟨8, _⟩ => ⟨S16x258x1, .f32⟩
  | .local _ .vmem, ⟨9, _⟩ => ⟨S16x258x1, .f32⟩
  | .local _ .vmem, ⟨10, _⟩ => ⟨S16x258x258, .f32⟩
  | .local _ .vmem, ⟨11, _⟩ => ⟨S16x258x258, .f32⟩
  | _, _ => ⟨S12x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x258x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x258x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x258x258 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S12x64x256x256_S2x6x64x256x256 : S12x64x256x256.ShapeCasts S2x6x64x256x256
  slices_S2x6x64x256x256_S2x1x64x256x256_0_0_0_0_0 : S2x6x64x256x256.Slices ![0, 0, 0, 0, 0] S2x1x64x256x256
  shapeCasts_S2x1x64x256x256_S2x64x256x256 : S2x1x64x256x256.ShapeCasts S2x64x256x256
  slices_S2x6x64x256x256_S2x1x64x256x256_0_1_0_0_0 : S2x6x64x256x256.Slices ![0, 1, 0, 0, 0] S2x1x64x256x256
  slices_S2x6x64x256x256_S2x1x64x256x256_0_2_0_0_0 : S2x6x64x256x256.Slices ![0, 2, 0, 0, 0] S2x1x64x256x256
  slices_S2x6x64x256x256_S2x1x64x256x256_0_3_0_0_0 : S2x6x64x256x256.Slices ![0, 3, 0, 0, 0] S2x1x64x256x256
  slices_S2x6x64x256x256_S2x1x64x256x256_0_4_0_0_0 : S2x6x64x256x256.Slices ![0, 4, 0, 0, 0] S2x1x64x256x256
  slices_S2x6x64x256x256_S2x1x64x256x256_0_5_0_0_0 : S2x6x64x256x256.Slices ![0, 5, 0, 0, 0] S2x1x64x256x256
  slices_S2x64x256x256_S2x64x1x256_0_0_255_0 : S2x64x256x256.Slices ![0, 0, 255, 0] S2x64x1x256
  slices_S2x64x256x256_S2x64x256x1_0_0_0_255 : S2x64x256x256.Slices ![0, 0, 0, 255] S2x64x256x1
  transposes_S2x64x256x1_S2x64x1x256_0_1_3_2 : S2x64x256x1.Transposes [0, 1, 3, 2] S2x64x1x256
  slices_S2x64x256x256_S2x64x1x256_0_0_0_0 : S2x64x256x256.Slices ![0, 0, 0, 0] S2x64x1x256
  slices_S2x64x256x256_S2x64x256x1_0_0_0_0 : S2x64x256x256.Slices ![0, 0, 0, 0] S2x64x256x1
  bcast_S2x64x1x256_S2x1x64x1x256_0_2_3_4 : S2x64x1x256.BroadcastsInDim S2x1x64x1x256 (![0, 2, 3, 4] : Fin 4 → Fin S2x1x64x1x256.rank)
  concatenates_S2x1x64x1x256_S2x1x64x1x256_S2x1x64x1x256_S2x1x64x1x256_S2x1x64x1x256_S2x1x64x1x256_S2x6x64x1x256_d1 : Shape.Concatenates [S2x1x64x1x256, S2x1x64x1x256, S2x1x64x1x256, S2x1x64x1x256, S2x1x64x1x256, S2x1x64x1x256] S2x6x64x1x256 1
  transposes_S2x64x1x256_S2x64x256x1_0_1_3_2 : S2x64x1x256.Transposes [0, 1, 3, 2] S2x64x256x1
  bcast_S2x64x256x1_S2x1x64x256x1_0_2_3_4 : S2x64x256x1.BroadcastsInDim S2x1x64x256x1 (![0, 2, 3, 4] : Fin 4 → Fin S2x1x64x256x1.rank)
  concatenates_S2x1x64x256x1_S2x1x64x256x1_S2x1x64x256x1_S2x1x64x256x1_S2x1x64x256x1_S2x1x64x256x1_S2x6x64x256x1_d1 : Shape.Concatenates [S2x1x64x256x1, S2x1x64x256x1, S2x1x64x256x1, S2x1x64x256x1, S2x1x64x256x1, S2x1x64x256x1] S2x6x64x256x1 1
  slices_S2x6x64x1x256_S2x6x64x1x1_0_0_0_0_255 : S2x6x64x1x256.Slices ![0, 0, 0, 0, 255] S2x6x64x1x1
  slices_S2x6x64x1x256_S2x6x64x1x1_0_0_0_0_0 : S2x6x64x1x256.Slices ![0, 0, 0, 0, 0] S2x6x64x1x1
  concatenates_S2x6x64x1x1_S2x6x64x256x1_S2x6x64x1x1_S2x6x64x258x1_d3 : Shape.Concatenates [S2x6x64x1x1, S2x6x64x256x1, S2x6x64x1x1] S2x6x64x258x1 3
  shapeCasts_S2x6x64x256x256_S768x256x256 : S2x6x64x256x256.ShapeCasts S768x256x256
  shapeCasts_S2x6x64x1x256_S768x1x256 : S2x6x64x1x256.ShapeCasts S768x1x256
  shapeCasts_S2x6x64x258x1_S768x258x1 : S2x6x64x258x1.ShapeCasts S768x258x1
  inb_S16x1x256_S16x1x256_0_0_0 : ∀ a, (![0, 0, 0] : Fin 3 → Nat) a + S16x1x256.size a ≤ S16x1x256.size a
  h_S16x1x256 : 0 < S16x1x256.numel
  shapeCasts_S16x1x256_S16x1x256 : S16x1x256.ShapeCasts S16x1x256
  inb_S16x258x258_S16x1x256_0_0_1 : ∀ a, (![0, 0, 1] : Fin 3 → Nat) a + S16x1x256.size a ≤ S16x258x258.size a
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  inb_S16x258x258_S16x256x256_0_1_1 : ∀ a, (![0, 1, 1] : Fin 3 → Nat) a + S16x256x256.size a ≤ S16x258x258.size a
  inb_S16x258x258_S16x1x256_0_257_1 : ∀ a, (![0, 257, 1] : Fin 3 → Nat) a + S16x1x256.size a ≤ S16x258x258.size a
  inb_S16x258x1_S16x258x1_0_0_0 : ∀ a, (![0, 0, 0] : Fin 3 → Nat) a + S16x258x1.size a ≤ S16x258x1.size a
  h_S16x258x1 : 0 < S16x258x1.numel
  shapeCasts_S16x258x1_S16x258x1 : S16x258x1.ShapeCasts S16x258x1
  inb_S16x258x258_S16x258x1_0_0_0 : ∀ a, (![0, 0, 0] : Fin 3 → Nat) a + S16x258x1.size a ≤ S16x258x258.size a
  inb_S16x258x258_S16x258x1_0_0_257 : ∀ a, (![0, 0, 257] : Fin 3 → Nat) a + S16x258x1.size a ≤ S16x258x258.size a
  shapeCasts_S768x258x258_S12x64x258x258 : S768x258x258.ShapeCasts S12x64x258x258
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S768x256x256.size a
  hwx0_0 : ∀ i : grid0.Coords, EltTy.bits .f32 = 32 ∨ (Rect.block (s := S768x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x256.size a ≤ S768x1x256.size a
  hwx0_1 : ∀ i : grid0.Coords, EltTy.bits .f32 = 32 ∨ (Rect.block (s := S768x1x256) S16x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x256.size a ≤ S768x1x256.size a
  hwx0_2 : ∀ i : grid0.Coords, EltTy.bits .f32 = 32 ∨ (Rect.block (s := S768x1x256) S16x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x258x1.size a ≤ S768x258x1.size a
  hwx0_3 : ∀ i : grid0.Coords, EltTy.bits .f32 = 32 ∨ (Rect.block (s := S768x258x1) S16x258x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x258x1.size a ≤ S768x258x1.size a
  hwx0_4 : ∀ i : grid0.Coords, EltTy.bits .f32 = 32 ∨ (Rect.block (s := S768x258x1) S16x258x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x258x258.size a ≤ S768x258x258.size a
  hwx0_5 : ∀ i : grid0.Coords, EltTy.bits .f32 = 32 ∨ (Rect.block (s := S768x258x258) S16x258x258.size (cc0_transform_5 i) (hinb0_5 i)).WholeWords (EltTy.packing .f32)

variable [Facts₀]

abbrev win0_0 : Pipeline.Window sig grid0 :=
  Pipeline.Window.ofSpec (Memref.whole main_v90) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v91) S16x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v92) S16x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v93) S16x258x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v94) S16x258x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v95) S16x258x258.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S12x64x256x256 : Shape := ⟨4, ![12, 64, 256, 256]⟩
abbrev S2x6x64x256x256 : Shape := ⟨5, ![2, 6, 64, 256, 256]⟩
abbrev S2x1x64x256x256 : Shape := ⟨5, ![2, 1, 64, 256, 256]⟩
abbrev S2x64x256x256 : Shape := ⟨4, ![2, 64, 256, 256]⟩
abbrev S2x64x1x256 : Shape := ⟨4, ![2, 64, 1, 256]⟩
abbrev S2x64x256x1 : Shape := ⟨4, ![2, 64, 256, 1]⟩
abbrev S1x2x64x1x256 : Shape := ⟨5, ![1, 2, 64, 1, 256]⟩
abbrev S6x2x64x1x256 : Shape := ⟨5, ![6, 2, 64, 1, 256]⟩
abbrev S1x2x64x256x1 : Shape := ⟨5, ![1, 2, 64, 256, 1]⟩
abbrev S6x2x64x256x1 : Shape := ⟨5, ![6, 2, 64, 256, 1]⟩
abbrev S6x2x64x1x1 : Shape := ⟨5, ![6, 2, 64, 1, 1]⟩
abbrev S1x6x1x2x1x64x1x1x1x1 : Shape := ⟨10, ![1, 6, 1, 2, 1, 64, 1, 1, 1, 1]⟩
abbrev S2x6x64x1x1 : Shape := ⟨5, ![2, 6, 64, 1, 1]⟩
abbrev S2x6x64x256x1 : Shape := ⟨5, ![2, 6, 64, 256, 1]⟩
abbrev S2x6x64x258x1 : Shape := ⟨5, ![2, 6, 64, 258, 1]⟩
abbrev S2x6x64x1x256 : Shape := ⟨5, ![2, 6, 64, 1, 256]⟩
abbrev S2x6x64x258x256 : Shape := ⟨5, ![2, 6, 64, 258, 256]⟩
abbrev S2x6x64x258x258 : Shape := ⟨5, ![2, 6, 64, 258, 258]⟩
abbrev S12x64x258x258 : Shape := ⟨4, ![12, 64, 258, 258]⟩

abbrev nBuf : Space → Nat
  | .hbm => 118
  | .vmem => 0
  | .smem => 0
  | _ => 0

abbrev bufTy : (tb : Table) → Fin (tcTables nBuf tb) → BufTy
  | .hbm, ⟨0, _⟩ => ⟨S12x64x256x256, .f32⟩
  | .hbm, ⟨1, _⟩ => ⟨S2x6x64x256x256, .f32⟩
  | .hbm, ⟨2, _⟩ => ⟨S2x1x64x256x256, .f32⟩
  | .hbm, ⟨3, _⟩ => ⟨S2x64x256x256, .f32⟩
  | .hbm, ⟨4, _⟩ => ⟨S2x1x64x256x256, .f32⟩
  | .hbm, ⟨5, _⟩ => ⟨S2x64x256x256, .f32⟩
  | .hbm, ⟨6, _⟩ => ⟨S2x1x64x256x256, .f32⟩
  | .hbm, ⟨7, _⟩ => ⟨S2x64x256x256, .f32⟩
  | .hbm, ⟨8, _⟩ => ⟨S2x1x64x256x256, .f32⟩
  | .hbm, ⟨9, _⟩ => ⟨S2x64x256x256, .f32⟩
  | .hbm, ⟨10, _⟩ => ⟨S2x1x64x256x256, .f32⟩
  | .hbm, ⟨11, _⟩ => ⟨S2x64x256x256, .f32⟩
  | .hbm, ⟨12, _⟩ => ⟨S2x1x64x256x256, .f32⟩
  | .hbm, ⟨13, _⟩ => ⟨S2x64x256x256, .f32⟩
  | .hbm, ⟨14, _⟩ => ⟨S2x64x1x256, .f32⟩
  | .hbm, ⟨15, _⟩ => ⟨S2x64x256x1, .f32⟩
  | .hbm, ⟨16, _⟩ => ⟨S2x64x1x256, .f32⟩
  | .hbm, ⟨17, _⟩ => ⟨S2x64x1x256, .f32⟩
  | .hbm, ⟨18, _⟩ => ⟨S2x64x1x256, .f32⟩
  | .hbm, ⟨19, _⟩ => ⟨S2x64x1x256, .f32⟩
  | .hbm, ⟨20, _⟩ => ⟨S2x64x256x1, .f32⟩
  | .hbm, ⟨21, _⟩ => ⟨S2x64x1x256, .f32⟩
  | .hbm, ⟨22, _⟩ => ⟨S2x64x1x256, .f32⟩
  | .hbm, ⟨23, _⟩ => ⟨S2x64x1x256, .f32⟩
  | .hbm, ⟨24, _⟩ => ⟨S2x64x1x256, .f32⟩
  | .hbm, ⟨25, _⟩ => ⟨S2x64x1x256, .f32⟩
  | .hbm, ⟨26, _⟩ => ⟨S1x2x64x1x256, .f32⟩
  | .hbm, ⟨27, _⟩ => ⟨S1x2x64x1x256, .f32⟩
  | .hbm, ⟨28, _⟩ => ⟨S1x2x64x1x256, .f32⟩
  | .hbm, ⟨29, _⟩ => ⟨S1x2x64x1x256, .f32⟩
  | .hbm, ⟨30, _⟩ => ⟨S1x2x64x1x256, .f32⟩
  | .hbm, ⟨31, _⟩ => ⟨S1x2x64x1x256, .f32⟩
  | .hbm, ⟨32, _⟩ => ⟨S6x2x64x1x256, .f32⟩
  | .hbm, ⟨33, _⟩ => ⟨S2x64x1x256, .f32⟩
  | .hbm, ⟨34, _⟩ => ⟨S2x64x256x1, .f32⟩
  | .hbm, ⟨35, _⟩ => ⟨S2x64x1x256, .f32⟩
  | .hbm, ⟨36, _⟩ => ⟨S2x64x1x256, .f32⟩
  | .hbm, ⟨37, _⟩ => ⟨S2x64x1x256, .f32⟩
  | .hbm, ⟨38, _⟩ => ⟨S2x64x1x256, .f32⟩
  | .hbm, ⟨39, _⟩ => ⟨S2x64x256x1, .f32⟩
  | .hbm, ⟨40, _⟩ => ⟨S2x64x1x256, .f32⟩
  | .hbm, ⟨41, _⟩ => ⟨S2x64x1x256, .f32⟩
  | .hbm, ⟨42, _⟩ => ⟨S2x64x1x256, .f32⟩
  | .hbm, ⟨43, _⟩ => ⟨S2x64x1x256, .f32⟩
  | .hbm, ⟨44, _⟩ => ⟨S2x64x1x256, .f32⟩
  | .hbm, ⟨45, _⟩ => ⟨S1x2x64x1x256, .f32⟩
  | .hbm, ⟨46, _⟩ => ⟨S1x2x64x1x256, .f32⟩
  | .hbm, ⟨47, _⟩ => ⟨S1x2x64x1x256, .f32⟩
  | .hbm, ⟨48, _⟩ => ⟨S1x2x64x1x256, .f32⟩
  | .hbm, ⟨49, _⟩ => ⟨S1x2x64x1x256, .f32⟩
  | .hbm, ⟨50, _⟩ => ⟨S1x2x64x1x256, .f32⟩
  | .hbm, ⟨51, _⟩ => ⟨S6x2x64x1x256, .f32⟩
  | .hbm, ⟨52, _⟩ => ⟨S2x64x256x1, .f32⟩
  | .hbm, ⟨53, _⟩ => ⟨S2x64x256x1, .f32⟩
  | .hbm, ⟨54, _⟩ => ⟨S2x64x256x1, .f32⟩
  | .hbm, ⟨55, _⟩ => ⟨S2x64x256x1, .f32⟩
  | .hbm, ⟨56, _⟩ => ⟨S2x64x1x256, .f32⟩
  | .hbm, ⟨57, _⟩ => ⟨S2x64x256x1, .f32⟩
  | .hbm, ⟨58, _⟩ => ⟨S2x64x1x256, .f32⟩
  | .hbm, ⟨59, _⟩ => ⟨S2x64x256x1, .f32⟩
  | .hbm, ⟨60, _⟩ => ⟨S2x64x256x1, .f32⟩
  | .hbm, ⟨61, _⟩ => ⟨S1x2x64x256x1, .f32⟩
  | .hbm, ⟨62, _⟩ => ⟨S1x2x64x256x1, .f32⟩
  | .hbm, ⟨63, _⟩ => ⟨S1x2x64x256x1, .f32⟩
  | .hbm, ⟨64, _⟩ => ⟨S1x2x64x256x1, .f32⟩
  | .hbm, ⟨65, _⟩ => ⟨S1x2x64x256x1, .f32⟩
  | .hbm, ⟨66, _⟩ => ⟨S1x2x64x256x1, .f32⟩
  | .hbm, ⟨67, _⟩ => ⟨S6x2x64x256x1, .f32⟩
  | .hbm, ⟨68, _⟩ => ⟨S2x64x256x1, .f32⟩
  | .hbm, ⟨69, _⟩ => ⟨S2x64x256x1, .f32⟩
  | .hbm, ⟨70, _⟩ => ⟨S2x64x256x1, .f32⟩
  | .hbm, ⟨71, _⟩ => ⟨S2x64x256x1, .f32⟩
  | .hbm, ⟨72, _⟩ => ⟨S2x64x1x256, .f32⟩
  | .hbm, ⟨73, _⟩ => ⟨S2x64x256x1, .f32⟩
  | .hbm, ⟨74, _⟩ => ⟨S2x64x256x1, .f32⟩
  | .hbm, ⟨75, _⟩ => ⟨S2x64x1x256, .f32⟩
  | .hbm, ⟨76, _⟩ => ⟨S2x64x1x256, .f32⟩
  | .hbm, ⟨77, _⟩ => ⟨S2x64x256x1, .f32⟩
  | .hbm, ⟨78, _⟩ => ⟨S1x2x64x256x1, .f32⟩
  | .hbm, ⟨79, _⟩ => ⟨S1x2x64x256x1, .f32⟩
  | .hbm, ⟨80, _⟩ => ⟨S1x2x64x256x1, .f32⟩
  | .hbm, ⟨81, _⟩ => ⟨S1x2x64x256x1, .f32⟩
  | .hbm, ⟨82, _⟩ => ⟨S1x2x64x256x1, .f32⟩
  | .hbm, ⟨83, _⟩ => ⟨S1x2x64x256x1, .f32⟩
  | .hbm, ⟨84, _⟩ => ⟨S6x2x64x256x1, .f32⟩
  | .hbm, ⟨85, _⟩ => ⟨S6x2x64x1x1, .f32⟩
  | .hbm, ⟨86, _⟩ => ⟨S6x2x64x1x1, .f32⟩
  | .hbm, ⟨87, _⟩ => ⟨S1x6x1x2x1x64x1x1x1x1, .f32⟩
  | .hbm, ⟨88, _⟩ => ⟨S1x6x1x2x1x64x1x1x1x1, .f32⟩
  | .hbm, ⟨89, _⟩ => ⟨S6x2x64x1x1, .f32⟩
  | .hbm, ⟨90, _⟩ => ⟨S6x2x64x1x1, .f32⟩
  | .hbm, ⟨91, _⟩ => ⟨S6x2x64x1x1, .f32⟩
  | .hbm, ⟨92, _⟩ => ⟨S1x6x1x2x1x64x1x1x1x1, .f32⟩
  | .hbm, ⟨93, _⟩ => ⟨S1x6x1x2x1x64x1x1x1x1, .f32⟩
  | .hbm, ⟨94, _⟩ => ⟨S6x2x64x1x1, .f32⟩
  | .hbm, ⟨95, _⟩ => ⟨S6x2x64x1x1, .f32⟩
  | .hbm, ⟨96, _⟩ => ⟨S6x2x64x1x1, .f32⟩
  | .hbm, ⟨97, _⟩ => ⟨S1x6x1x2x1x64x1x1x1x1, .f32⟩
  | .hbm, ⟨98, _⟩ => ⟨S1x6x1x2x1x64x1x1x1x1, .f32⟩
  | .hbm, ⟨99, _⟩ => ⟨S6x2x64x1x1, .f32⟩
  | .hbm, ⟨100, _⟩ => ⟨S6x2x64x1x1, .f32⟩
  | .hbm, ⟨101, _⟩ => ⟨S6x2x64x1x1, .f32⟩
  | .hbm, ⟨102, _⟩ => ⟨S1x6x1x2x1x64x1x1x1x1, .f32⟩
  | .hbm, ⟨103, _⟩ => ⟨S1x6x1x2x1x64x1x1x1x1, .f32⟩
  | .hbm, ⟨104, _⟩ => ⟨S6x2x64x1x1, .f32⟩
  | .hbm, ⟨105, _⟩ => ⟨S2x6x64x1x1, .f32⟩
  | .hbm, ⟨106, _⟩ => ⟨S2x6x64x256x1, .f32⟩
  | .hbm, ⟨107, _⟩ => ⟨S2x6x64x1x1, .f32⟩
  | .hbm, ⟨108, _⟩ => ⟨S2x6x64x258x1, .f32⟩
  | .hbm, ⟨109, _⟩ => ⟨S2x6x64x1x1, .f32⟩
  | .hbm, ⟨110, _⟩ => ⟨S2x6x64x256x1, .f32⟩
  | .hbm, ⟨111, _⟩ => ⟨S2x6x64x1x1, .f32⟩
  | .hbm, ⟨112, _⟩ => ⟨S2x6x64x258x1, .f32⟩
  | .hbm, ⟨113, _⟩ => ⟨S2x6x64x1x256, .f32⟩
  | .hbm, ⟨114, _⟩ => ⟨S2x6x64x1x256, .f32⟩
  | .hbm, ⟨115, _⟩ => ⟨S2x6x64x258x256, .f32⟩
  | .hbm, ⟨116, _⟩ => ⟨S2x6x64x258x258, .f32⟩
  | .hbm, ⟨117, _⟩ => ⟨S12x64x258x258, .f32⟩
  | _, _ => ⟨S12x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_v98 : Ref sig .tc := ⟨.hbm, 99, rfl⟩
abbrev main_v99 : Ref sig .tc := ⟨.hbm, 100, rfl⟩
abbrev main_v100 : Ref sig .tc := ⟨.hbm, 101, rfl⟩
abbrev main_v101 : Ref sig .tc := ⟨.hbm, 102, rfl⟩
abbrev main_v102 : Ref sig .tc := ⟨.hbm, 103, rfl⟩
abbrev main_v103 : Ref sig .tc := ⟨.hbm, 104, rfl⟩
abbrev main_v104 : Ref sig .tc := ⟨.hbm, 105, rfl⟩
abbrev main_v105 : Ref sig .tc := ⟨.hbm, 106, rfl⟩
abbrev main_v106 : Ref sig .tc := ⟨.hbm, 107, rfl⟩
abbrev main_v107 : Ref sig .tc := ⟨.hbm, 108, rfl⟩
abbrev main_v108 : Ref sig .tc := ⟨.hbm, 109, rfl⟩
abbrev main_v109 : Ref sig .tc := ⟨.hbm, 110, rfl⟩
abbrev main_v110 : Ref sig .tc := ⟨.hbm, 111, rfl⟩
abbrev main_v111 : Ref sig .tc := ⟨.hbm, 112, rfl⟩
abbrev main_v112 : Ref sig .tc := ⟨.hbm, 113, rfl⟩
abbrev main_v113 : Ref sig .tc := ⟨.hbm, 114, rfl⟩
abbrev main_v114 : Ref sig .tc := ⟨.hbm, 115, rfl⟩
abbrev main_v115 : Ref sig .tc := ⟨.hbm, 116, rfl⟩
abbrev main_v116 : Ref sig .tc := ⟨.hbm, 117, rfl⟩

abbrev nD : Nat := 1
abbrev τ : Topo := Topo.v7x

variable {F : FTy → Type} [FloatOps F]

class Facts₀ : Prop where
  shapeCasts_S12x64x256x256_S2x6x64x256x256 : S12x64x256x256.ShapeCasts S2x6x64x256x256
  slices_S2x6x64x256x256_S2x1x64x256x256_0_0_0_0_0 : S2x6x64x256x256.Slices ![0, 0, 0, 0, 0] S2x1x64x256x256
  shapeCasts_S2x1x64x256x256_S2x64x256x256 : S2x1x64x256x256.ShapeCasts S2x64x256x256
  slices_S2x6x64x256x256_S2x1x64x256x256_0_1_0_0_0 : S2x6x64x256x256.Slices ![0, 1, 0, 0, 0] S2x1x64x256x256
  slices_S2x6x64x256x256_S2x1x64x256x256_0_2_0_0_0 : S2x6x64x256x256.Slices ![0, 2, 0, 0, 0] S2x1x64x256x256
  slices_S2x6x64x256x256_S2x1x64x256x256_0_3_0_0_0 : S2x6x64x256x256.Slices ![0, 3, 0, 0, 0] S2x1x64x256x256
  slices_S2x6x64x256x256_S2x1x64x256x256_0_4_0_0_0 : S2x6x64x256x256.Slices ![0, 4, 0, 0, 0] S2x1x64x256x256
  slices_S2x6x64x256x256_S2x1x64x256x256_0_5_0_0_0 : S2x6x64x256x256.Slices ![0, 5, 0, 0, 0] S2x1x64x256x256
  slices_S2x64x256x256_S2x64x1x256_0_0_255_0 : S2x64x256x256.Slices ![0, 0, 255, 0] S2x64x1x256
  slices_S2x64x256x256_S2x64x256x1_0_0_0_255 : S2x64x256x256.Slices ![0, 0, 0, 255] S2x64x256x1
  transposes_S2x64x256x1_S2x64x1x256_0_1_3_2 : S2x64x256x1.Transposes [0, 1, 3, 2] S2x64x1x256
  slices_S2x64x256x256_S2x64x1x256_0_0_0_0 : S2x64x256x256.Slices ![0, 0, 0, 0] S2x64x1x256
  slices_S2x64x256x256_S2x64x256x1_0_0_0_0 : S2x64x256x256.Slices ![0, 0, 0, 0] S2x64x256x1
  bcast_S2x64x1x256_S1x2x64x1x256_1_2_3_4 : S2x64x1x256.BroadcastsInDim S1x2x64x1x256 (![1, 2, 3, 4] : Fin 4 → Fin S1x2x64x1x256.rank)
  concatenates_S1x2x64x1x256_S1x2x64x1x256_S1x2x64x1x256_S1x2x64x1x256_S1x2x64x1x256_S1x2x64x1x256_S6x2x64x1x256_d0 : Shape.Concatenates [S1x2x64x1x256, S1x2x64x1x256, S1x2x64x1x256, S1x2x64x1x256, S1x2x64x1x256, S1x2x64x1x256] S6x2x64x1x256 0
  transposes_S2x64x1x256_S2x64x256x1_0_1_3_2 : S2x64x1x256.Transposes [0, 1, 3, 2] S2x64x256x1
  bcast_S2x64x256x1_S1x2x64x256x1_1_2_3_4 : S2x64x256x1.BroadcastsInDim S1x2x64x256x1 (![1, 2, 3, 4] : Fin 4 → Fin S1x2x64x256x1.rank)
  concatenates_S1x2x64x256x1_S1x2x64x256x1_S1x2x64x256x1_S1x2x64x256x1_S1x2x64x256x1_S1x2x64x256x1_S6x2x64x256x1_d0 : Shape.Concatenates [S1x2x64x256x1, S1x2x64x256x1, S1x2x64x256x1, S1x2x64x256x1, S1x2x64x256x1, S1x2x64x256x1] S6x2x64x256x1 0
  slices_S6x2x64x1x256_S6x2x64x1x1_0_0_0_0_255 : S6x2x64x1x256.Slices ![0, 0, 0, 0, 255] S6x2x64x1x1
  slices_S6x2x64x256x1_S6x2x64x1x1_0_0_0_0_0 : S6x2x64x256x1.Slices ![0, 0, 0, 0, 0] S6x2x64x1x1
  shapeCasts_S6x2x64x1x1_S1x6x1x2x1x64x1x1x1x1 : S6x2x64x1x1.ShapeCasts S1x6x1x2x1x64x1x1x1x1
  bcast_S1x6x1x2x1x64x1x1x1x1_S1x6x1x2x1x64x1x1x1x1_0_1_2_3_4_5_6_7_8_9 : S1x6x1x2x1x64x1x1x1x1.BroadcastsInDim S1x6x1x2x1x64x1x1x1x1 (![0, 1, 2, 3, 4, 5, 6, 7, 8, 9] : Fin 10 → Fin S1x6x1x2x1x64x1x1x1x1.rank)
  shapeCasts_S1x6x1x2x1x64x1x1x1x1_S6x2x64x1x1 : S1x6x1x2x1x64x1x1x1x1.ShapeCasts S6x2x64x1x1
  slices_S6x2x64x1x256_S6x2x64x1x1_0_0_0_0_0 : S6x2x64x1x256.Slices ![0, 0, 0, 0, 0] S6x2x64x1x1
  slices_S6x2x64x256x1_S6x2x64x1x1_0_0_0_255_0 : S6x2x64x256x1.Slices ![0, 0, 0, 255, 0] S6x2x64x1x1
  transposes_S6x2x64x1x1_S2x6x64x1x1_1_0_2_3_4 : S6x2x64x1x1.Transposes [1, 0, 2, 3, 4] S2x6x64x1x1
  transposes_S6x2x64x256x1_S2x6x64x256x1_1_0_2_3_4 : S6x2x64x256x1.Transposes [1, 0, 2, 3, 4] S2x6x64x256x1
  concatenates_S2x6x64x1x1_S2x6x64x256x1_S2x6x64x1x1_S2x6x64x258x1_d3 : Shape.Concatenates [S2x6x64x1x1, S2x6x64x256x1, S2x6x64x1x1] S2x6x64x258x1 3
  transposes_S6x2x64x1x256_S2x6x64x1x256_1_0_2_3_4 : S6x2x64x1x256.Transposes [1, 0, 2, 3, 4] S2x6x64x1x256
  concatenates_S2x6x64x1x256_S2x6x64x256x256_S2x6x64x1x256_S2x6x64x258x256_d3 : Shape.Concatenates [S2x6x64x1x256, S2x6x64x256x256, S2x6x64x1x256] S2x6x64x258x256 3
  concatenates_S2x6x64x258x1_S2x6x64x258x256_S2x6x64x258x1_S2x6x64x258x258_d4 : Shape.Concatenates [S2x6x64x258x1, S2x6x64x258x256, S2x6x64x258x1] S2x6x64x258x258 4
  shapeCasts_S2x6x64x258x258_S12x64x258x258 : S2x6x64x258x258.ShapeCasts S12x64x258x258

variable [Facts₀]

class Facts : Prop extends Facts₀ where

variable [Facts]
-- ==== Proof.WEntry.lean ====
/-
  What the padding region finds in memory. Before the region the program cuts the six faces out of the input,
  takes from them the 24 edge pieces (a row or a column of a face, some transposed and reversed), stacks the pieces
  face by face into the border rows and the border columns (the columns closed by their corner pixels), and flattens
  everything to 768 = 2 · 6 · 64 images. `V0 m c` is core `c`'s memory after those operations, from the initial
  memory `m`; `V m c b` reads it at a buffer.
-/
import proofs.«116597_j71528385347689_2_alg».proof.Proof.Gen.Kernel.Launch

noncomputable section

namespace Cert.Kernel.Pad

open Cert.Kernel Cert.Kernel.Gen Idealize.ShloMosaic Idealize.ShloMosaic.TcCoe
open Idealize.SL Idealize.SL.Sem

variable {F : FTy → Type} [FloatOps F]
variable (m : (ℓ : Loc nD τ sig) → Buf (Elt F) ℓ)

/-- The operations before the region, in program order, as the stretches the program text is cut into. -/
abbrev entryOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]

/-- Core `c`'s memory when the region is entered. -/
abbrev V0 (c : Dev nD) : Valuation τ sig (Elt F) := StableHlo.after (List.flatten entryOps) (fun b => m (c, b))

/-- The same, read at a buffer. -/
abbrev V (c : Dev nD) (b : Ref sig .tc) : Buf (Elt F) ((c : Thread nD τ).loc b) := V0 m c (Proc.devRef .tc b)

end Cert.Kernel.Pad

end
-- ==== Proof.WFrame.lean ====
/-
  The padding region runs, and what it leaves.

  The region walks 48 grid points; at point `t` it is handed images `16 t … 16 t + 15` of five arrays — the faces
  (16 × 256 × 256), the top and the bottom border rows (16 × 1 × 256 each) and the left and right border columns with
  their corner pixels (16 × 258 × 1 each) — and fills one 16 × 258 × 258 block of the result with five stores: the top
  row into row 0, columns 1…256; the faces into rows and columns 1…256; the bottom row into row 257, columns 1…256; the
  left column into column 0 and the right column into column 257, all 258 rows. The five rectangles tile the block, so
  whatever the block held before (the body also loads it, and drops what it loaded), afterwards it holds exactly those
  five pieces (`padBlock`). Nothing else is written: the input array ends as it began.

  Everything here holds for any reading of the floats (`F`): no float is ever computed with.
-/
import proofs.«116597_j71528385347689_2_alg».proof.Proof.WEntry
import proofs.«116597_j71528385347689_2_alg».proof.Proof.Gen.Kernel.Skeleton
import proofs.«116597_j71528385347689_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The operations before the region touch TensorCore buffers only. -/
theorem entryOps_sub : (entryOps : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub⟩

/-- They allocate nothing: every one writes a buffer the program declared. -/
theorem entryOps_fresh : (entryOps : List (List (HloOp τ sig (Elt F)))).Forall fun ops => ops.Forall fun op => op.fresh = ∅ := by
  simp only [List.Forall]; repeat' constructor

/-- Neither does the one operation after the region (the result cut back into cubes and channels). -/
theorem tailOps_fresh : (hostOps1 : List (HloOp τ sig (Elt F))).Forall fun op => op.fresh = ∅ := by
  simp only [List.Forall]; repeat' constructor

/-- The program is: the operations before the region, the region, the operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main entryOps [hostOps1] entryOps_sub entryOps_fresh main_chain

/-- The operation after the region touches only buffers the region does not keep for itself. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tailOps_fresh) op hop

/-- It writes the final result only, which is none of the six arrays of the region. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No operation before the region writes the input array: the region finds it as it was at the start. -/
theorem V_arg (c : Dev nD) : V m c main_arg0 = m ((c : Thread nD τ).loc main_arg0) :=
  StableHlo.after_of_forall_not_mem (b := Proc.devRef .tc main_arg0) _ _ (List.forall_iff_forall_mem.mp (by
    simp only [entryOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the operation after it: the input array ends as it began. -/
theorem W_arg (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_arg m c

/-! ## Each window's block at a point -/

/-- Window `w`'s block at point `t`, read off its array as the region finds it: images `16 t … 16 t + 15`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (the block index moves with
    the point, and the body leaves the buffer as it found it). -/
theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (the block index moves with
    the point, and the body leaves the buffer as it found it). -/
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (the block index moves with
    the point, and the body leaves the buffer as it found it). -/
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (the block index moves with
    the point, and the body leaves the buffer as it found it). -/
theorem held3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (the block index moves with
    the point, and the body leaves the buffer as it found it). -/
theorem held4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

/-- A run that ends with every array of the region as the proof data says, and every other buffer as the operation
    after the region leaves it, ends with the input array as it began. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_arg m dats c))) h

/-! ## What one point writes -/

/-- The three kinds of input block, each loaded whole. -/
abbrev rFaces : Rect S16x256x256 := Rect.unit (s := S16x256x256) ![0, 0, 0] S16x256x256.size inb_S16x256x256_S16x256x256_0_0_0
abbrev rRow : Rect S16x1x256 := Rect.unit (s := S16x1x256) ![0, 0, 0] S16x1x256.size inb_S16x1x256_S16x1x256_0_0_0
abbrev rCol : Rect S16x258x1 := Rect.unit (s := S16x258x1) ![0, 0, 0] S16x258x1.size inb_S16x258x1_S16x258x1_0_0_0
/-- The five places of the output block: row 0 (columns 1…256), the interior, row 257 (columns 1…256), column 0 and
    column 257 (all rows). -/
abbrev rTopAt : Rect S16x258x258 := Rect.unit (s := S16x258x258) ![0, 0, 1] S16x1x256.size inb_S16x258x258_S16x1x256_0_0_1
abbrev rMidAt : Rect S16x258x258 := Rect.unit (s := S16x258x258) ![0, 1, 1] S16x256x256.size inb_S16x258x258_S16x256x256_0_1_1
abbrev rBotAt : Rect S16x258x258 := Rect.unit (s := S16x258x258) ![0, 257, 1] S16x1x256.size inb_S16x258x258_S16x1x256_0_257_1
abbrev rLefAt : Rect S16x258x258 := Rect.unit (s := S16x258x258) ![0, 0, 0] S16x258x1.size inb_S16x258x258_S16x258x1_0_0_0
abbrev rRigAt : Rect S16x258x258 := Rect.unit (s := S16x258x258) ![0, 0, 257] S16x258x1.size inb_S16x258x258_S16x258x1_0_0_257

/-- The output block after the body, from the five input blocks: its five stores as pieces, the last store first. -/
def padBlock (xf : Vec F S16x256x256 .f32) (xt xb : Vec F S16x1x256 .f32) (xl xr : Vec F S16x258x1 .f32) : Vec F S16x258x258 .f32 :=
  View.canon [⟨rRigAt, k0_pay5 (View.ld xr rCol)⟩, ⟨rLefAt, k0_pay4 (View.ld xl rCol)⟩, ⟨rBotAt, k0_pay3 (View.ld xb rRow)⟩,
    ⟨rMidAt, k0_pay2 (View.ld xf rFaces)⟩, ⟨rTopAt, k0_pay1 (View.ld xt rRow)⟩]

/-- The five places cover the block: a pixel in column 0 or 257 lies in a border column; any other in row 0, in row
    257, or in the interior. -/
theorem padBlock_cover (p5 p4 : Vec F S16x258x1 .f32) (p3 : Vec F S16x1x256 .f32) (p2 : Vec F S16x256x256 .f32) (p1 : Vec F S16x1x256 .f32)
    (y : S16x258x258.Idx) :
    ∃ pc ∈ ([⟨rRigAt, p5⟩, ⟨rLefAt, p4⟩, ⟨rBotAt, p3⟩, ⟨rMidAt, p2⟩, ⟨rTopAt, p1⟩] : List (View.Piece (Elt F) S16x258x258 .f32)), y ∈ pc.1.set := by
  have h0 : (y 0).val < 16 := (y 0).isLt
  have h1 : (y 1).val < 258 := (y 1).isLt
  have h2 : (y 2).val < 258 := (y 2).isLt
  by_cases c0 : (y 2).val = 0
  · have hy : y ∈ rLefAt.set := by
      rw [Rect.mem_set_unit]; intro a
      match a with
      | ⟨0, _⟩ => exact ⟨Nat.zero_le _, by show (y 0).val < 0 + 16; omega⟩
      | ⟨1, _⟩ => exact ⟨Nat.zero_le _, by show (y 1).val < 0 + 258; omega⟩
      | ⟨2, _⟩ => exact ⟨Nat.zero_le _, by show (y 2).val < 0 + 1; omega⟩
    exact ⟨⟨rLefAt, p4⟩, by simp, hy⟩
  by_cases c1 : (y 2).val = 257
  · have hy : y ∈ rRigAt.set := by
      rw [Rect.mem_set_unit]; intro a
      match a with
      | ⟨0, _⟩ => exact ⟨Nat.zero_le _, by show (y 0).val < 0 + 16; omega⟩
      | ⟨1, _⟩ => exact ⟨Nat.zero_le _, by show (y 1).val < 0 + 258; omega⟩
      | ⟨2, _⟩ => exact ⟨by show 257 ≤ (y 2).val; omega, by show (y 2).val < 257 + 1; omega⟩
    exact ⟨⟨rRigAt, p5⟩, by simp, hy⟩
  by_cases r0 : (y 1).val = 0
  · have hy : y ∈ rTopAt.set := by
      rw [Rect.mem_set_unit]; intro a
      match a with
      | ⟨0, _⟩ => exact ⟨Nat.zero_le _, by show (y 0).val < 0 + 16; omega⟩
      | ⟨1, _⟩ => exact ⟨Nat.zero_le _, by show (y 1).val < 0 + 1; omega⟩
      | ⟨2, _⟩ => exact ⟨by show 1 ≤ (y 2).val; omega, by show (y 2).val < 1 + 256; omega⟩
    exact ⟨⟨rTopAt, p1⟩, by simp, hy⟩
  by_cases r1 : (y 1).val = 257
  · have hy : y ∈ rBotAt.set := by
      rw [Rect.mem_set_unit]; intro a
      match a with
      | ⟨0, _⟩ => exact ⟨Nat.zero_le _, by show (y 0).val < 0 + 16; omega⟩
      | ⟨1, _⟩ => exact ⟨by show 257 ≤ (y 1).val; omega, by show (y 1).val < 257 + 1; omega⟩
      | ⟨2, _⟩ => exact ⟨by show 1 ≤ (y 2).val; omega, by show (y 2).val < 1 + 256; omega⟩
    exact ⟨⟨rBotAt, p3⟩, by simp, hy⟩
  · have hy : y ∈ rMidAt.set := by
      rw [Rect.mem_set_unit]; intro a
      match a with
      | ⟨0, _⟩ => exact ⟨Nat.zero_le _, by show (y 0).val < 0 + 16; omega⟩
      | ⟨1, _⟩ => exact ⟨by show 1 ≤ (y 1).val; omega, by show (y 1).val < 1 + 256; omega⟩
      | ⟨2, _⟩ => exact ⟨by show 1 ≤ (y 2).val; omega, by show (y 2).val < 1 + 256; omega⟩
    exact ⟨⟨rMidAt, p2⟩, by simp, hy⟩

end Cert.Kernel.Pad

end
-- ==== Proof.WBody.lean ====
/-
  The body of the padding region, run once: it loads each of its five input blocks whole and stores it into its place
  in the output block. Before each store it also loads that place of the output block and drops what it loaded, so the
  output block may hold anything at the start; the five places cover it, so at the end it holds the five pieces and
  nothing of what it held before (`padBlock`). The input blocks are left as they were.
-/
import proofs.«116597_j71528385347689_2_alg».proof.Proof.WFrame

set_option maxRecDepth 16384

noncomputable section

namespace Cert.Kernel.Pad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers — the five inputs at contents read as `xf`, `xt`, `xb`, `xl`, `xr`, the
    output at anything — runs to the end, leaving the inputs as they were and the output at `padBlock` of them. -/
theorem sound_kernel (c : Dev nD) (E : Set ℕ) (i : grid0.Coords)
    (arg1 : Memref sig .tc .vmem S16x256x256 .f32) (harg1 : arg1.IsWhole) (arg2 : Memref sig .tc .vmem S16x1x256 .f32) (harg2 : arg2.IsWhole)
    (arg3 : Memref sig .tc .vmem S16x1x256 .f32) (harg3 : arg3.IsWhole) (arg4 : Memref sig .tc .vmem S16x258x1 .f32) (harg4 : arg4.IsWhole)
    (arg5 : Memref sig .tc .vmem S16x258x1 .f32) (harg5 : arg5.IsWhole) (arg6 : Memref sig .tc .vmem S16x258x258 .f32) (harg6 : arg6.IsWhole)
    (xf : Vec F S16x256x256 .f32) (xt xb : Vec F S16x1x256 .f32) (xl xr : Vec F S16x258x1 .f32) (K : PUnit → sProp 𝕄) :
    iprop(owns (c : Thread nD τ) arg1 fullShare xf ∗ owns (c : Thread nD τ) arg2 fullShare xt ∗ owns (c : Thread nD τ) arg3 fullShare xb
        ∗ owns (c : Thread nD τ) arg4 fullShare xl ∗ owns (c : Thread nD τ) arg5 fullShare xr ∗ (∃ d, owns (c : Thread nD τ) arg6 fullShare d)
        ∗ (iprop(owns (c : Thread nD τ) arg1 fullShare xf ∗ owns (c : Thread nD τ) arg2 fullShare xt ∗ owns (c : Thread nD τ) arg3 fullShare xb
            ∗ owns (c : Thread nD τ) arg4 fullShare xl ∗ owns (c : Thread nD τ) arg5 fullShare xr
            ∗ owns (c : Thread nD τ) arg6 fullShare (padBlock xf xt xb xl xr)) -∗ K ⟨⟩))
      ⊢ wp frame (wpE (defs₀ (F := F)) Variants.none c none) E
          (cc0__pad_kernel i arg1 harg1 arg2 harg2 arg3 harg3 arg4 harg4 arg5 harg5 arg6 harg6) K := by
  simp only [cc0__pad_kernel_eq_skeleton]; unfold cc0__pad_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (padBlock_cover _ _ _ _ _)

end Cert.Kernel.Pad

end
-- ==== Proof.WRun.lean ====
/-
  The whole run. At point `t` each input window's staging buffer holds that window's block of 16 images, and after
  the body the output window's buffer holds `padBlock` of the five blocks, which the region writes back as block
  `t` of the result. With that as the proof data the region runs at every point, and around it the program's other
  operations: every execution ends, nothing faults, and the input array is as it was at the start.
-/
import proofs.«116597_j71528385347689_2_alg».proof.Proof.WBody

set_option maxRecDepth 16384

noncomputable section

namespace Cert.Kernel.Pad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer still at its
    block and the output's at `padBlock` of the five blocks; the rest of the core's memory untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => padBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = padBlock (iblk m c 0 t) (iblk m c 1 t) (iblk m c 2 t) (iblk m c 3 t) (iblk m c 4 t) := by dsimp only [dats]

theorem held_0 (c : Dev nD) (t : Fin cfg0.N) (d) : (dats m 0 c).before 0 t d = iblk m c 0 t :=
  held0_of m (dats m 0 c) (A_eq m c 0) (after_0 m c) t d
theorem held_1 (c : Dev nD) (t : Fin cfg0.N) (d) : (dats m 0 c).before 1 t d = iblk m c 1 t :=
  held1_of m (dats m 0 c) (A_eq m c 1) (after_1 m c) t d
theorem held_2 (c : Dev nD) (t : Fin cfg0.N) (d) : (dats m 0 c).before 2 t d = iblk m c 2 t :=
  held2_of m (dats m 0 c) (A_eq m c 2) (after_2 m c) t d
theorem held_3 (c : Dev nD) (t : Fin cfg0.N) (d) : (dats m 0 c).before 3 t d = iblk m c 3 t :=
  held3_of m (dats m 0 c) (A_eq m c 3) (after_3 m c) t d
theorem held_4 (c : Dev nD) (t : Fin cfg0.N) (d) : (dats m 0 c).before 4 t d = iblk m c 4 t :=
  held4_of m (dats m 0 c) (A_eq m c 4) (after_4 m c) t d

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the rest of the
    core's memory passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every execution of the program ends, nothing faulting, with every array of
    the region at what the proof data says (the result array: every block at what its point wrote back) and every
    other buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the program runs and the input array ends as it began, for any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.Kernel.Pad

end
-- ==== Proof.KEntry.lean ====
/-
  What the padding region finds in memory. Before the region the program cuts the six faces out of the input,
  takes from them the 24 edge pieces (a row or a column of a face, some transposed and reversed), stacks the pieces
  face by face into the border rows and the border columns (the columns closed by their corner pixels), and flattens
  everything to 768 = 2 · 6 · 64 images. `V0 m c` is core `c`'s memory after those operations, from the initial
  memory `m`; `V m c b` reads it at a buffer.
-/
import proofs.«116597_j71528385347689_2_alg».proof.Proof.Gen.KernelIdeal.Launch

noncomputable section

namespace Cert.KernelIdeal.Pad

open Cert.KernelIdeal Cert.KernelIdeal.Gen Idealize.ShloMosaic Idealize.ShloMosaic.TcCoe
open Idealize.SL Idealize.SL.Sem

variable {F : FTy → Type} [FloatOps F]
variable (m : (ℓ : Loc nD τ sig) → Buf (Elt F) ℓ)

/-- The operations before the region, in program order, as the stretches the program text is cut into. -/
abbrev entryOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]

/-- Core `c`'s memory when the region is entered. -/
abbrev V0 (c : Dev nD) : Valuation τ sig (Elt F) := StableHlo.after (List.flatten entryOps) (fun b => m (c, b))

/-- The same, read at a buffer. -/
abbrev V (c : Dev nD) (b : Ref sig .tc) : Buf (Elt F) ((c : Thread nD τ).loc b) := V0 m c (Proc.devRef .tc b)

end Cert.KernelIdeal.Pad

end
-- ==== Proof.KFrame.lean ====
/-
  The padding region runs, and what it leaves.

  The region walks 48 grid points; at point `t` it is handed images `16 t … 16 t + 15` of five arrays — the faces
  (16 × 256 × 256), the top and the bottom border rows (16 × 1 × 256 each) and the left and right border columns with
  their corner pixels (16 × 258 × 1 each) — and fills one 16 × 258 × 258 block of the result with five stores: the top
  row into row 0, columns 1…256; the faces into rows and columns 1…256; the bottom row into row 257, columns 1…256; the
  left column into column 0 and the right column into column 257, all 258 rows. The five rectangles tile the block, so
  whatever the block held before (the body also loads it, and drops what it loaded), afterwards it holds exactly those
  five pieces (`padBlock`). Nothing else is written: the input array ends as it began.

  Everything here holds for any reading of the floats (`F`): no float is ever computed with.
-/
import proofs.«116597_j71528385347689_2_alg».proof.Proof.KEntry
import proofs.«116597_j71528385347689_2_alg».proof.Proof.Gen.KernelIdeal.Skeleton
import proofs.«116597_j71528385347689_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The operations before the region touch TensorCore buffers only. -/
theorem entryOps_sub : (entryOps : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub⟩

/-- They allocate nothing: every one writes a buffer the program declared. -/
theorem entryOps_fresh : (entryOps : List (List (HloOp τ sig (Elt F)))).Forall fun ops => ops.Forall fun op => op.fresh = ∅ := by
  simp only [List.Forall]; repeat' constructor

/-- Neither does the one operation after the region (the result cut back into cubes and channels). -/
theorem tailOps_fresh : (hostOps1 : List (HloOp τ sig (Elt F))).Forall fun op => op.fresh = ∅ := by
  simp only [List.Forall]; repeat' constructor

/-- The program is: the operations before the region, the region, the operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main entryOps [hostOps1] entryOps_sub entryOps_fresh main_chain

/-- The operation after the region touches only buffers the region does not keep for itself. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tailOps_fresh) op hop

/-- It writes the final result only, which is none of the six arrays of the region. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No operation before the region writes the input array: the region finds it as it was at the start. -/
theorem V_arg (c : Dev nD) : V m c main_arg0 = m ((c : Thread nD τ).loc main_arg0) :=
  StableHlo.after_of_forall_not_mem (b := Proc.devRef .tc main_arg0) _ _ (List.forall_iff_forall_mem.mp (by
    simp only [entryOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the operation after it: the input array ends as it began. -/
theorem W_arg (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_arg m c

/-! ## Each window's block at a point -/

/-- Window `w`'s block at point `t`, read off its array as the region finds it: images `16 t … 16 t + 15`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (the block index moves with
    the point, and the body leaves the buffer as it found it). -/
theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (the block index moves with
    the point, and the body leaves the buffer as it found it). -/
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (the block index moves with
    the point, and the body leaves the buffer as it found it). -/
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (the block index moves with
    the point, and the body leaves the buffer as it found it). -/
theorem held3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (the block index moves with
    the point, and the body leaves the buffer as it found it). -/
theorem held4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

/-- A run that ends with every array of the region as the proof data says, and every other buffer as the operation
    after the region leaves it, ends with the input array as it began. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_arg m dats c))) h

/-! ## What one point writes -/

/-- The three kinds of input block, each loaded whole. -/
abbrev rFaces : Rect S16x256x256 := Rect.unit (s := S16x256x256) ![0, 0, 0] S16x256x256.size inb_S16x256x256_S16x256x256_0_0_0
abbrev rRow : Rect S16x1x256 := Rect.unit (s := S16x1x256) ![0, 0, 0] S16x1x256.size inb_S16x1x256_S16x1x256_0_0_0
abbrev rCol : Rect S16x258x1 := Rect.unit (s := S16x258x1) ![0, 0, 0] S16x258x1.size inb_S16x258x1_S16x258x1_0_0_0
/-- The five places of the output block: row 0 (columns 1…256), the interior, row 257 (columns 1…256), column 0 and
    column 257 (all rows). -/
abbrev rTopAt : Rect S16x258x258 := Rect.unit (s := S16x258x258) ![0, 0, 1] S16x1x256.size inb_S16x258x258_S16x1x256_0_0_1
abbrev rMidAt : Rect S16x258x258 := Rect.unit (s := S16x258x258) ![0, 1, 1] S16x256x256.size inb_S16x258x258_S16x256x256_0_1_1
abbrev rBotAt : Rect S16x258x258 := Rect.unit (s := S16x258x258) ![0, 257, 1] S16x1x256.size inb_S16x258x258_S16x1x256_0_257_1
abbrev rLefAt : Rect S16x258x258 := Rect.unit (s := S16x258x258) ![0, 0, 0] S16x258x1.size inb_S16x258x258_S16x258x1_0_0_0
abbrev rRigAt : Rect S16x258x258 := Rect.unit (s := S16x258x258) ![0, 0, 257] S16x258x1.size inb_S16x258x258_S16x258x1_0_0_257

/-- The output block after the body, from the five input blocks: its five stores as pieces, the last store first. -/
def padBlock (xf : Vec F S16x256x256 .f32) (xt xb : Vec F S16x1x256 .f32) (xl xr : Vec F S16x258x1 .f32) : Vec F S16x258x258 .f32 :=
  View.canon [⟨rRigAt, k0_pay5 (View.ld xr rCol)⟩, ⟨rLefAt, k0_pay4 (View.ld xl rCol)⟩, ⟨rBotAt, k0_pay3 (View.ld xb rRow)⟩,
    ⟨rMidAt, k0_pay2 (View.ld xf rFaces)⟩, ⟨rTopAt, k0_pay1 (View.ld xt rRow)⟩]

/-- The five places cover the block: a pixel in column 0 or 257 lies in a border column; any other in row 0, in row
    257, or in the interior. -/
theorem padBlock_cover (p5 p4 : Vec F S16x258x1 .f32) (p3 : Vec F S16x1x256 .f32) (p2 : Vec F S16x256x256 .f32) (p1 : Vec F S16x1x256 .f32)
    (y : S16x258x258.Idx) :
    ∃ pc ∈ ([⟨rRigAt, p5⟩, ⟨rLefAt, p4⟩, ⟨rBotAt, p3⟩, ⟨rMidAt, p2⟩, ⟨rTopAt, p1⟩] : List (View.Piece (Elt F) S16x258x258 .f32)), y ∈ pc.1.set := by
  have h0 : (y 0).val < 16 := (y 0).isLt
  have h1 : (y 1).val < 258 := (y 1).isLt
  have h2 : (y 2).val < 258 := (y 2).isLt
  by_cases c0 : (y 2).val = 0
  · have hy : y ∈ rLefAt.set := by
      rw [Rect.mem_set_unit]; intro a
      match a with
      | ⟨0, _⟩ => exact ⟨Nat.zero_le _, by show (y 0).val < 0 + 16; omega⟩
      | ⟨1, _⟩ => exact ⟨Nat.zero_le _, by show (y 1).val < 0 + 258; omega⟩
      | ⟨2, _⟩ => exact ⟨Nat.zero_le _, by show (y 2).val < 0 + 1; omega⟩
    exact ⟨⟨rLefAt, p4⟩, by simp, hy⟩
  by_cases c1 : (y 2).val = 257
  · have hy : y ∈ rRigAt.set := by
      rw [Rect.mem_set_unit]; intro a
      match a with
      | ⟨0, _⟩ => exact ⟨Nat.zero_le _, by show (y 0).val < 0 + 16; omega⟩
      | ⟨1, _⟩ => exact ⟨Nat.zero_le _, by show (y 1).val < 0 + 258; omega⟩
      | ⟨2, _⟩ => exact ⟨by show 257 ≤ (y 2).val; omega, by show (y 2).val < 257 + 1; omega⟩
    exact ⟨⟨rRigAt, p5⟩, by simp, hy⟩
  by_cases r0 : (y 1).val = 0
  · have hy : y ∈ rTopAt.set := by
      rw [Rect.mem_set_unit]; intro a
      match a with
      | ⟨0, _⟩ => exact ⟨Nat.zero_le _, by show (y 0).val < 0 + 16; omega⟩
      | ⟨1, _⟩ => exact ⟨Nat.zero_le _, by show (y 1).val < 0 + 1; omega⟩
      | ⟨2, _⟩ => exact ⟨by show 1 ≤ (y 2).val; omega, by show (y 2).val < 1 + 256; omega⟩
    exact ⟨⟨rTopAt, p1⟩, by simp, hy⟩
  by_cases r1 : (y 1).val = 257
  · have hy : y ∈ rBotAt.set := by
      rw [Rect.mem_set_unit]; intro a
      match a with
      | ⟨0, _⟩ => exact ⟨Nat.zero_le _, by show (y 0).val < 0 + 16; omega⟩
      | ⟨1, _⟩ => exact ⟨by show 257 ≤ (y 1).val; omega, by show (y 1).val < 257 + 1; omega⟩
      | ⟨2, _⟩ => exact ⟨by show 1 ≤ (y 2).val; omega, by show (y 2).val < 1 + 256; omega⟩
    exact ⟨⟨rBotAt, p3⟩, by simp, hy⟩
  · have hy : y ∈ rMidAt.set := by
      rw [Rect.mem_set_unit]; intro a
      match a with
      | ⟨0, _⟩ => exact ⟨Nat.zero_le _, by show (y 0).val < 0 + 16; omega⟩
      | ⟨1, _⟩ => exact ⟨by show 1 ≤ (y 1).val; omega, by show (y 1).val < 1 + 256; omega⟩
      | ⟨2, _⟩ => exact ⟨by show 1 ≤ (y 2).val; omega, by show (y 2).val < 1 + 256; omega⟩
    exact ⟨⟨rMidAt, p2⟩, by simp, hy⟩

end Cert.KernelIdeal.Pad

end
-- ==== Proof.KBody.lean ====
/-
  The body of the padding region, run once: it loads each of its five input blocks whole and stores it into its place
  in the output block. Before each store it also loads that place of the output block and drops what it loaded, so the
  output block may hold anything at the start; the five places cover it, so at the end it holds the five pieces and
  nothing of what it held before (`padBlock`). The input blocks are left as they were.
-/
import proofs.«116597_j71528385347689_2_alg».proof.Proof.KFrame

set_option maxRecDepth 16384

noncomputable section

namespace Cert.KernelIdeal.Pad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers — the five inputs at contents read as `xf`, `xt`, `xb`, `xl`, `xr`, the
    output at anything — runs to the end, leaving the inputs as they were and the output at `padBlock` of them. -/
theorem sound_kernel (c : Dev nD) (E : Set ℕ) (i : grid0.Coords)
    (arg1 : Memref sig .tc .vmem S16x256x256 .f32) (harg1 : arg1.IsWhole) (arg2 : Memref sig .tc .vmem S16x1x256 .f32) (harg2 : arg2.IsWhole)
    (arg3 : Memref sig .tc .vmem S16x1x256 .f32) (harg3 : arg3.IsWhole) (arg4 : Memref sig .tc .vmem S16x258x1 .f32) (harg4 : arg4.IsWhole)
    (arg5 : Memref sig .tc .vmem S16x258x1 .f32) (harg5 : arg5.IsWhole) (arg6 : Memref sig .tc .vmem S16x258x258 .f32) (harg6 : arg6.IsWhole)
    (xf : Vec F S16x256x256 .f32) (xt xb : Vec F S16x1x256 .f32) (xl xr : Vec F S16x258x1 .f32) (K : PUnit → sProp 𝕄) :
    iprop(owns (c : Thread nD τ) arg1 fullShare xf ∗ owns (c : Thread nD τ) arg2 fullShare xt ∗ owns (c : Thread nD τ) arg3 fullShare xb
        ∗ owns (c : Thread nD τ) arg4 fullShare xl ∗ owns (c : Thread nD τ) arg5 fullShare xr ∗ (∃ d, owns (c : Thread nD τ) arg6 fullShare d)
        ∗ (iprop(owns (c : Thread nD τ) arg1 fullShare xf ∗ owns (c : Thread nD τ) arg2 fullShare xt ∗ owns (c : Thread nD τ) arg3 fullShare xb
            ∗ owns (c : Thread nD τ) arg4 fullShare xl ∗ owns (c : Thread nD τ) arg5 fullShare xr
            ∗ owns (c : Thread nD τ) arg6 fullShare (padBlock xf xt xb xl xr)) -∗ K ⟨⟩))
      ⊢ wp frame (wpE (defs₀ (F := F)) Variants.none c none) E
          (cc0__pad_kernel i arg1 harg1 arg2 harg2 arg3 harg3 arg4 harg4 arg5 harg5 arg6 harg6) K := by
  simp only [cc0__pad_kernel_eq_skeleton]; unfold cc0__pad_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (padBlock_cover _ _ _ _ _)

end Cert.KernelIdeal.Pad

end
-- ==== Proof.KRun.lean ====
/-
  The whole run. At point `t` each input window's staging buffer holds that window's block of 16 images, and after
  the body the output window's buffer holds `padBlock` of the five blocks, which the region writes back as block
  `t` of the result. With that as the proof data the region runs at every point, and around it the program's other
  operations: every execution ends, nothing faults, and the input array is as it was at the start.
-/
import proofs.«116597_j71528385347689_2_alg».proof.Proof.KBody

set_option maxRecDepth 16384

noncomputable section

namespace Cert.KernelIdeal.Pad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer still at its
    block and the output's at `padBlock` of the five blocks; the rest of the core's memory untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => padBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = padBlock (iblk m c 0 t) (iblk m c 1 t) (iblk m c 2 t) (iblk m c 3 t) (iblk m c 4 t) := by dsimp only [dats]

theorem held_0 (c : Dev nD) (t : Fin cfg0.N) (d) : (dats m 0 c).before 0 t d = iblk m c 0 t :=
  held0_of m (dats m 0 c) (A_eq m c 0) (after_0 m c) t d
theorem held_1 (c : Dev nD) (t : Fin cfg0.N) (d) : (dats m 0 c).before 1 t d = iblk m c 1 t :=
  held1_of m (dats m 0 c) (A_eq m c 1) (after_1 m c) t d
theorem held_2 (c : Dev nD) (t : Fin cfg0.N) (d) : (dats m 0 c).before 2 t d = iblk m c 2 t :=
  held2_of m (dats m 0 c) (A_eq m c 2) (after_2 m c) t d
theorem held_3 (c : Dev nD) (t : Fin cfg0.N) (d) : (dats m 0 c).before 3 t d = iblk m c 3 t :=
  held3_of m (dats m 0 c) (A_eq m c 3) (after_3 m c) t d
theorem held_4 (c : Dev nD) (t : Fin cfg0.N) (d) : (dats m 0 c).before 4 t d = iblk m c 4 t :=
  held4_of m (dats m 0 c) (A_eq m c 4) (after_4 m c) t d

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the rest of the
    core's memory passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every execution of the program ends, nothing faulting, with every array of
    the region at what the proof data says (the result array: every block at what its point wrote back) and every
    other buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the program runs and the input array ends as it began, for any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.KernelIdeal.Pad

end
-- ==== Proof.Spec.lean ====
/-
  The padded cube faces, as one function of the faces and of the 24 edge pieces.

  The input is 12 = 2 · 6 images (two cubes, six faces each: front, right, back, left, top, down), 64 channels,
  256 × 256 pixels. The result pads every face by one pixel on each side, to 258 × 258: the interior is the face
  itself; the top and bottom border rows and the left and right border columns are edge pieces taken from the
  neighbouring faces of the same cube (a row or a column of a neighbour, possibly transposed and reversed); and each
  corner pixel repeats the end pixel of the border row it closes.

  Here the pieces are PARAMETERS: `top f`, `bot f` are face `f`'s border rows (2 × 64 × 1 × 256) and `lef f`,
  `rig f` its border columns (2 × 64 × 256 × 1). Which pixels of which neighbour a piece holds does not matter for
  the assembly, and both programs compute the pieces by the same operations of the input.
-/
import Idealize.ShloMosaic.PureOps
import Idealize.ShloMosaic.Lib.ValueIdx

namespace Cert.CubePad

open Idealize.ShloMosaic Idealize.ShloMosaic.ValueIdx

/-- The input seen as cubes × faces × channels × rows × columns. -/
abbrev Faces : Shape := ⟨5, ![2, 6, 64, 256, 256]⟩
/-- A border row of one face, for both cubes and all channels. -/
abbrev RowS : Shape := ⟨4, ![2, 64, 1, 256]⟩
/-- A border column of one face, for both cubes and all channels. -/
abbrev ColS : Shape := ⟨4, ![2, 64, 256, 1]⟩
/-- The padded result. -/
abbrev Out : Shape := ⟨4, ![12, 64, 258, 258]⟩

section
variable {α : Type} (top bot : Fin 6 → RowS.Idx → α) (lef rig : Fin 6 → ColS.Idx → α) (X : Faces.Idx → α)

/-- Padded row `r` of face `f` of cube `n`, channel `c`, at interior column `q`: the top border row, the
    bottom border row, or row `r - 1` of the face itself. -/
def midAt (n : Fin 2) (f : Fin 6) (c : Fin 64) (r : Fin 258) (q : Fin 256) : α :=
  if r.val = 0 then top f (ix4 n c 0 q)
  else if h : r.val = 257 then bot f (ix4 n c 0 q)
  else X (ix5 n f c ⟨r.val - 1, by have := r.isLt; omega⟩ q)

/-- Padded row `r` in a border column built from the column piece `side`: its two ends are the corner pixels,
    which repeat pixel `q` of the top and of the bottom border row (`q = 0` on the left, `q = 255` on the
    right); between them, row `r - 1` of the column piece. -/
def colAt (side : Fin 6 → ColS.Idx → α) (q : Fin 256) (n : Fin 2) (f : Fin 6) (c : Fin 64) (r : Fin 258) : α :=
  if r.val = 0 then top f (ix4 n c 0 q)
  else if h : r.val = 257 then bot f (ix4 n c 0 q)
  else side f (ix4 n c ⟨r.val - 1, by have := r.isLt; omega⟩ 0)

/-- The padded pixel at row `r`, column `s`. -/
def cell (n : Fin 2) (f : Fin 6) (c : Fin 64) (r s : Fin 258) : α :=
  if s.val = 0 then colAt top bot lef 0 n f c r
  else if h : s.val = 257 then colAt top bot rig 255 n f c r
  else midAt top bot X n f c r ⟨s.val - 1, by have := s.isLt; omega⟩

/-- The padded result, index by index: image `b = 6 n + f` is face `f` of cube `n`. -/
def padded (i : Out.Idx) : α :=
  cell top bot lef rig X ⟨(i 0).val / 6, by have h : (i 0).val < 12 := (i 0).isLt; omega⟩ ⟨(i 0).val % 6, Nat.mod_lt _ (by decide)⟩
    (i 1) (i 2) (i 3)

/-- The region works on the 768 = 2 · 6 · 64 images one after the other: image `b = (6 n + f) · 64 + c` is channel
    `c` of face `f` of cube `n`. -/
def cubeOf (b : Fin 768) : Fin 2 := ⟨b.val / 384, by have := b.isLt; omega⟩
def faceOf (b : Fin 768) : Fin 6 := ⟨b.val / 64 % 6, Nat.mod_lt _ (by decide)⟩
def chanOf (b : Fin 768) : Fin 64 := ⟨b.val % 64, Nat.mod_lt _ (by decide)⟩

/-- The padded result before it is cut back into cubes and channels: 768 padded images. -/
abbrev Flat : Shape := ⟨3, ![768, 258, 258]⟩

/-- The padded images, index by index. -/
def flatPadded (j : Flat.Idx) : α :=
  cell top bot lef rig X (cubeOf (j 0)) (faceOf (j 0)) (chanOf (j 0)) (j 1) (j 2)

end

end Cert.CubePad
-- ==== Proof.KValue.lean ====
/-
  What the program computes. Point `t` of the region writes back block `t` of its result array, images
  `16 t … 16 t + 15`; the 48 blocks fill the array. Inside a block the five stores put, at image `b`, row `r`,
  column `s`: the left or right border column (with its corner pixels) at `s = 0` or `s = 257`; otherwise the top
  or bottom border row at `r = 0` or `r = 257`; otherwise pixel `(r - 1, s - 1)` of the face. So if the five arrays
  the region reads hold, image by image, the faces, the border rows and the border columns built from edge pieces
  `top`, `bot`, `lef`, `rig` (the hypotheses `hF … hR` below), the result array is the padded images
  (`Cert.CubePad.flatPadded`), and the program's result — that array cut back into 12 × 64 images — is
  `Cert.CubePad.padded`.
-/
import proofs.«116597_j71528385347689_2_alg».proof.Proof.KRun
import proofs.«116597_j71528385347689_2_alg».proof.Proof.Spec
import Idealize.ShloMosaic.Lib.Pipeline.Value
import Idealize.ShloMosaic.Lib.StableHlo.Run

set_option maxRecDepth 16384

noncomputable section

namespace Cert.KernelIdeal.Pad

open Cert.KernelIdeal Cert.KernelIdeal.Gen Cert.CubePad
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## Where the blocks lie -/

/-- At point `t` every window's block is block `t` along the images and the only block along rows and columns. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Every one of the 48 image blocks is some point's. -/
theorem block_onto : ∀ q : Fin 48, ∃ t : Fin cfg0.N, t.val = q.val :=
  (by decide +kernel : ∀ q : Fin 48, ∃ t : Fin grid0.N, t.val = q.val)

theorem zero3 : (![0, 0, 0] : Fin 3 → Nat) = fun _ => 0 := funext fun a => by fin_cases a <;> rfl

section Assembly

variable (c : Dev nD)
  (top bot : Fin 6 → RowS.Idx → Elt F .f32) (lef rig : Fin 6 → ColS.Idx → Elt F .f32) (X : Faces.Idx → Elt F .f32)
  (hF : ∀ (b : Fin 768) (r s : Fin 256), (V m c main_v90 : S768x256x256.Idx → Elt F .f32) (ix3 b r s)
      = X (ix5 (cubeOf b) (faceOf b) (chanOf b) r s))
  (hT : ∀ (b : Fin 768) (q : Fin 256), (V m c main_v91 : S768x1x256.Idx → Elt F .f32) (ix3 b 0 q)
      = top (faceOf b) (ix4 (cubeOf b) (chanOf b) 0 q))
  (hB : ∀ (b : Fin 768) (q : Fin 256), (V m c main_v92 : S768x1x256.Idx → Elt F .f32) (ix3 b 0 q)
      = bot (faceOf b) (ix4 (cubeOf b) (chanOf b) 0 q))
  (hL : ∀ (b : Fin 768) (r : Fin 258), (V m c main_v93 : S768x258x1.Idx → Elt F .f32) (ix3 b r 0)
      = colAt top bot lef 0 (cubeOf b) (faceOf b) (chanOf b) r)
  (hR : ∀ (b : Fin 768) (r : Fin 258), (V m c main_v94 : S768x258x1.Idx → Elt F .f32) (ix3 b r 0)
      = colAt top bot rig 255 (cubeOf b) (faceOf b) (chanOf b) r)

/-- Image `16 t + a`. -/
abbrev img (t : Fin cfg0.N) (a : Fin 16) : Fin 768 :=
  ⟨t.val * 16 + a.val, by have := t.isLt; have h : cfg0.N = 48 := N_0; have := a.isLt; omega⟩

/-- The padded images at explicit coordinates. -/
theorem flatPadded_ix3 (b : Fin 768) (r s : Fin 258) :
    flatPadded top bot lef rig X (ix3 b r s) = cell top bot lef rig X (cubeOf b) (faceOf b) (chanOf b) r s := rfl

/-! ## What the input blocks hold -/

/-- The faces block at point `t`: images `16 t …` of the faces array. -/
theorem iblk0_apply (t : Fin cfg0.N) (a : Fin 16) (r s : Fin 256) :
    iblk m c 0 t (ix3 a r s : S16x256x256.Idx) = (V m c main_v90 : S768x256x256.Idx → Elt F .f32) (ix3 (img t a) r s) := by
  obtain ⟨a0, a1, a2, b0, b1, b2, c0, c1, c2, d0, d1, d2, e0, e1, e2, f0, f1, f2⟩ := block_index t
  show (V m c main_v90 : S768x256x256.Idx → Elt F .f32) (((cfg0.win 0).blk t).view.emb (ix3 a r s : S16x256x256.Idx)) = _
  refine congrArg _ (funext fun d => Fin.ext ?_)
  match d with
  | ⟨0, _⟩ => show win0_0.index t (0 : Fin 3) * 16 + 1 * a.val = t.val * 16 + a.val; rw [a0]; omega
  | ⟨1, _⟩ => show win0_0.index t (1 : Fin 3) * 256 + 1 * r.val = r.val; rw [a1]; omega
  | ⟨2, _⟩ => show win0_0.index t (2 : Fin 3) * 256 + 1 * s.val = s.val; rw [a2]; omega

/-- The top-row block. -/
theorem iblk1_apply (t : Fin cfg0.N) (a : Fin 16) (q : Fin 256) :
    iblk m c 1 t (ix3 a (0 : Fin 1) q : S16x1x256.Idx) = (V m c main_v91 : S768x1x256.Idx → Elt F .f32) (ix3 (img t a) (0 : Fin 1) q) := by
  obtain ⟨a0, a1, a2, b0, b1, b2, c0, c1, c2, d0, d1, d2, e0, e1, e2, f0, f1, f2⟩ := block_index t
  show (V m c main_v91 : S768x1x256.Idx → Elt F .f32) (((cfg0.win 1).blk t).view.emb (ix3 a (0 : Fin 1) q : S16x1x256.Idx)) = _
  refine congrArg _ (funext fun d => Fin.ext ?_)
  match d with
  | ⟨0, _⟩ => show win0_1.index t (0 : Fin 3) * 16 + 1 * a.val = t.val * 16 + a.val; rw [b0]; omega
  | ⟨1, _⟩ => show win0_1.index t (1 : Fin 3) * 1 + 1 * (0 : Fin 1).val = (0 : Fin 1).val; rw [b1]; omega
  | ⟨2, _⟩ => show win0_1.index t (2 : Fin 3) * 256 + 1 * q.val = q.val; rw [b2]; omega

/-- The bottom-row block. -/
theorem iblk2_apply (t : Fin cfg0.N) (a : Fin 16) (q : Fin 256) :
    iblk m c 2 t (ix3 a (0 : Fin 1) q : S16x1x256.Idx) = (V m c main_v92 : S768x1x256.Idx → Elt F .f32) (ix3 (img t a) (0 : Fin 1) q) := by
  obtain ⟨a0, a1, a2, b0, b1, b2, c0, c1, c2, d0, d1, d2, e0, e1, e2, f0, f1, f2⟩ := block_index t
  show (V m c main_v92 : S768x1x256.Idx → Elt F .f32) (((cfg0.win 2).blk t).view.emb (ix3 a (0 : Fin 1) q : S16x1x256.Idx)) = _
  refine congrArg _ (funext fun d => Fin.ext ?_)
  match d with
  | ⟨0, _⟩ => show win0_2.index t (0 : Fin 3) * 16 + 1 * a.val = t.val * 16 + a.val; rw [c0]; omega
  | ⟨1, _⟩ => show win0_2.index t (1 : Fin 3) * 1 + 1 * (0 : Fin 1).val = (0 : Fin 1).val; rw [c1]; omega
  | ⟨2, _⟩ => show win0_2.index t (2 : Fin 3) * 256 + 1 * q.val = q.val; rw [c2]; omega

/-- The left-column block. -/
theorem iblk3_apply (t : Fin cfg0.N) (a : Fin 16) (r : Fin 258) :
    iblk m c 3 t (ix3 a r (0 : Fin 1) : S16x258x1.Idx) = (V m c main_v93 : S768x258x1.Idx → Elt F .f32) (ix3 (img t a) r (0 : Fin 1)) := by
  obtain ⟨a0, a1, a2, b0, b1, b2, c0, c1, c2, d0, d1, d2, e0, e1, e2, f0, f1, f2⟩ := block_index t
  show (V m c main_v93 : S768x258x1.Idx → Elt F .f32) (((cfg0.win 3).blk t).view.emb (ix3 a r (0 : Fin 1) : S16x258x1.Idx)) = _
  refine congrArg _ (funext fun d => Fin.ext ?_)
  match d with
  | ⟨0, _⟩ => show win0_3.index t (0 : Fin 3) * 16 + 1 * a.val = t.val * 16 + a.val; rw [d0]; omega
  | ⟨1, _⟩ => show win0_3.index t (1 : Fin 3) * 258 + 1 * r.val = r.val; rw [d1]; omega
  | ⟨2, _⟩ => show win0_3.index t (2 : Fin 3) * 1 + 1 * (0 : Fin 1).val = (0 : Fin 1).val; rw [d2]; omega

/-- The right-column block. -/
theorem iblk4_apply (t : Fin cfg0.N) (a : Fin 16) (r : Fin 258) :
    iblk m c 4 t (ix3 a r (0 : Fin 1) : S16x258x1.Idx) = (V m c main_v94 : S768x258x1.Idx → Elt F .f32) (ix3 (img t a) r (0 : Fin 1)) := by
  obtain ⟨a0, a1, a2, b0, b1, b2, c0, c1, c2, d0, d1, d2, e0, e1, e2, f0, f1, f2⟩ := block_index t
  show (V m c main_v94 : S768x258x1.Idx → Elt F .f32) (((cfg0.win 4).blk t).view.emb (ix3 a r (0 : Fin 1) : S16x258x1.Idx)) = _
  refine congrArg _ (funext fun d => Fin.ext ?_)
  match d with
  | ⟨0, _⟩ => show win0_4.index t (0 : Fin 3) * 16 + 1 * a.val = t.val * 16 + a.val; rw [e0]; omega
  | ⟨1, _⟩ => show win0_4.index t (1 : Fin 3) * 258 + 1 * r.val = r.val; rw [e1]; omega
  | ⟨2, _⟩ => show win0_4.index t (2 : Fin 3) * 1 + 1 * (0 : Fin 1).val = (0 : Fin 1).val; rw [e2]; omega

/-! ## The five stores, pixel by pixel -/

include hT in
/-- The top row's store: block pixel `(a, 0, q)` goes to row 0, column `1 + q`, which the padded image fills from the top border row. -/
theorem piece_top (t : Fin cfg0.N) (a : Fin 16) (q : Fin 256) :
    k0_pay1 (View.ld (iblk m c 1 t) rRow) (ix3 a (0 : Fin 1) q : S16x1x256.Idx)
      = flatPadded top bot lef rig X (((cfg0.win 5).blk t).view.emb (rTopAt.emb (ix3 a (0 : Fin 1) q : S16x1x256.Idx))) := by
  have hq : q.val < 256 := q.isLt
  have hl : k0_pay1 (View.ld (iblk m c 1 t) rRow) (ix3 a (0 : Fin 1) q : S16x1x256.Idx) = top (faceOf (img t a)) (ix4 (cubeOf (img t a)) (chanOf (img t a)) 0 q) := by
    unfold k0_pay1
    rw [shapeCast_self, View.ld_unit_zero (S := S16x1x256) zero3]
    exact (iblk1_apply m c t a q).trans (hT _ _)
  have hr : ((cfg0.win 5).blk t).view.emb (rTopAt.emb (ix3 a (0 : Fin 1) q : S16x1x256.Idx)) = (ix3 (img t a) (0 : Fin 258) ⟨1 + q.val, by have := q.isLt; omega⟩ : S768x258x258.Idx) := by
    obtain ⟨a0, a1, a2, b0, b1, b2, c0, c1, c2, d0, d1, d2, e0, e1, e2, f0, f1, f2⟩ := block_index t
    funext d; apply Fin.ext
    match d with
    | ⟨0, _⟩ => show win0_5.index t (0 : Fin 3) * 16 + 1 * (0 + 1 * a.val) = t.val * 16 + a.val; rw [f0]; omega
    | ⟨1, _⟩ => show win0_5.index t (1 : Fin 3) * 258 + 1 * (0 + 1 * (0 : Fin 1).val) = (0 : Fin 258).val; rw [f1]; omega
    | ⟨2, _⟩ => show win0_5.index t (2 : Fin 3) * 258 + 1 * (1 + 1 * q.val) = 1 + q.val; rw [f2]; omega
  rw [hl, hr, flatPadded_ix3]
  unfold cell
  rw [if_neg (by show ¬ (1 + q.val = 0); omega), dif_neg (by show ¬ (1 + q.val = 257); omega)]
  unfold midAt
  rw [if_pos (show (0 : Fin 258).val = 0 from rfl)]
  refine congrArg _ (congrArg _ (Fin.ext ?_))
  show q.val = 1 + q.val - 1; omega

include hB in
/-- The bottom row's store: to row 257, column `1 + q`. -/
theorem piece_bot (t : Fin cfg0.N) (a : Fin 16) (q : Fin 256) :
    k0_pay3 (View.ld (iblk m c 2 t) rRow) (ix3 a (0 : Fin 1) q : S16x1x256.Idx)
      = flatPadded top bot lef rig X (((cfg0.win 5).blk t).view.emb (rBotAt.emb (ix3 a (0 : Fin 1) q : S16x1x256.Idx))) := by
  have hq : q.val < 256 := q.isLt
  have hl : k0_pay3 (View.ld (iblk m c 2 t) rRow) (ix3 a (0 : Fin 1) q : S16x1x256.Idx) = bot (faceOf (img t a)) (ix4 (cubeOf (img t a)) (chanOf (img t a)) 0 q) := by
    unfold k0_pay3
    rw [shapeCast_self, View.ld_unit_zero (S := S16x1x256) zero3]
    exact (iblk2_apply m c t a q).trans (hB _ _)
  have hr : ((cfg0.win 5).blk t).view.emb (rBotAt.emb (ix3 a (0 : Fin 1) q : S16x1x256.Idx)) = (ix3 (img t a) (257 : Fin 258) ⟨1 + q.val, by have := q.isLt; omega⟩ : S768x258x258.Idx) := by
    obtain ⟨a0, a1, a2, b0, b1, b2, c0, c1, c2, d0, d1, d2, e0, e1, e2, f0, f1, f2⟩ := block_index t
    funext d; apply Fin.ext
    match d with
    | ⟨0, _⟩ => show win0_5.index t (0 : Fin 3) * 16 + 1 * (0 + 1 * a.val) = t.val * 16 + a.val; rw [f0]; omega
    | ⟨1, _⟩ => show win0_5.index t (1 : Fin 3) * 258 + 1 * (257 + 1 * (0 : Fin 1).val) = (257 : Fin 258).val; rw [f1]; omega
    | ⟨2, _⟩ => show win0_5.index t (2 : Fin 3) * 258 + 1 * (1 + 1 * q.val) = 1 + q.val; rw [f2]; omega
  rw [hl, hr, flatPadded_ix3]
  unfold cell
  rw [if_neg (by show ¬ (1 + q.val = 0); omega), dif_neg (by show ¬ (1 + q.val = 257); omega)]
  unfold midAt
  rw [if_neg (by show ¬ ((257 : Fin 258).val = 0); decide), dif_pos (by show (257 : Fin 258).val = 257; rfl)]
  refine congrArg _ (congrArg _ (Fin.ext ?_))
  show q.val = 1 + q.val - 1; omega

include hF in
/-- The faces' store: block pixel `(a, r, s)` goes to row `1 + r`, column `1 + s`: the interior. -/
theorem piece_mid (t : Fin cfg0.N) (a : Fin 16) (r s : Fin 256) :
    k0_pay2 (View.ld (iblk m c 0 t) rFaces) (ix3 a r s : S16x256x256.Idx)
      = flatPadded top bot lef rig X (((cfg0.win 5).blk t).view.emb (rMidAt.emb (ix3 a r s : S16x256x256.Idx))) := by
  have hr' : r.val < 256 := r.isLt
  have hs' : s.val < 256 := s.isLt
  have hl : k0_pay2 (View.ld (iblk m c 0 t) rFaces) (ix3 a r s : S16x256x256.Idx) = X (ix5 (cubeOf (img t a)) (faceOf (img t a)) (chanOf (img t a)) r s) := by
    unfold k0_pay2
    rw [shapeCast_self, View.ld_unit_zero (S := S16x256x256) zero3]
    exact (iblk0_apply m c t a r s).trans (hF _ _ _)
  have hr : ((cfg0.win 5).blk t).view.emb (rMidAt.emb (ix3 a r s : S16x256x256.Idx)) = (ix3 (img t a) ⟨1 + r.val, by have := r.isLt; omega⟩ ⟨1 + s.val, by have := s.isLt; omega⟩ : S768x258x258.Idx) := by
    obtain ⟨a0, a1, a2, b0, b1, b2, c0, c1, c2, d0, d1, d2, e0, e1, e2, f0, f1, f2⟩ := block_index t
    funext d; apply Fin.ext
    match d with
    | ⟨0, _⟩ => show win0_5.index t (0 : Fin 3) * 16 + 1 * (0 + 1 * a.val) = t.val * 16 + a.val; rw [f0]; omega
    | ⟨1, _⟩ => show win0_5.index t (1 : Fin 3) * 258 + 1 * (1 + 1 * r.val) = 1 + r.val; rw [f1]; omega
    | ⟨2, _⟩ => show win0_5.index t (2 : Fin 3) * 258 + 1 * (1 + 1 * s.val) = 1 + s.val; rw [f2]; omega
  rw [hl, hr, flatPadded_ix3]
  unfold cell
  rw [if_neg (by show ¬ (1 + s.val = 0); omega), dif_neg (by show ¬ (1 + s.val = 257); omega)]
  unfold midAt
  rw [if_neg (by show ¬ (1 + r.val = 0); omega), dif_neg (by show ¬ (1 + r.val = 257); omega)]
  refine congrArg X (funext fun d => ?_)
  match d with
  | ⟨0, _⟩ => rfl
  | ⟨1, _⟩ => rfl
  | ⟨2, _⟩ => rfl
  | ⟨3, _⟩ => exact Fin.ext (by show r.val = 1 + r.val - 1; omega)
  | ⟨4, _⟩ => exact Fin.ext (by show s.val = 1 + s.val - 1; omega)

include hL in
/-- The left column's store: to column 0, every row. -/
theorem piece_lef (t : Fin cfg0.N) (a : Fin 16) (r : Fin 258) :
    k0_pay4 (View.ld (iblk m c 3 t) rCol) (ix3 a r (0 : Fin 1) : S16x258x1.Idx)
      = flatPadded top bot lef rig X (((cfg0.win 5).blk t).view.emb (rLefAt.emb (ix3 a r (0 : Fin 1) : S16x258x1.Idx))) := by
  have hr' : r.val < 258 := r.isLt
  have hl : k0_pay4 (View.ld (iblk m c 3 t) rCol) (ix3 a r (0 : Fin 1) : S16x258x1.Idx) = colAt top bot lef 0 (cubeOf (img t a)) (faceOf (img t a)) (chanOf (img t a)) r := by
    unfold k0_pay4
    rw [shapeCast_self, View.ld_unit_zero (S := S16x258x1) zero3]
    exact (iblk3_apply m c t a r).trans (hL _ _)
  have hr : ((cfg0.win 5).blk t).view.emb (rLefAt.emb (ix3 a r (0 : Fin 1) : S16x258x1.Idx)) = (ix3 (img t a) r (0 : Fin 258) : S768x258x258.Idx) := by
    obtain ⟨a0, a1, a2, b0, b1, b2, c0, c1, c2, d0, d1, d2, e0, e1, e2, f0, f1, f2⟩ := block_index t
    funext d; apply Fin.ext
    match d with
    | ⟨0, _⟩ => show win0_5.index t (0 : Fin 3) * 16 + 1 * (0 + 1 * a.val) = t.val * 16 + a.val; rw [f0]; omega
    | ⟨1, _⟩ => show win0_5.index t (1 : Fin 3) * 258 + 1 * (0 + 1 * r.val) = r.val; rw [f1]; omega
    | ⟨2, _⟩ => show win0_5.index t (2 : Fin 3) * 258 + 1 * (0 + 1 * (0 : Fin 1).val) = (0 : Fin 258).val; rw [f2]; omega
  rw [hl, hr, flatPadded_ix3]
  unfold cell
  rw [if_pos (show (0 : Fin 258).val = 0 from rfl)]

include hR in
/-- The right column's store: to column 257, every row. -/
theorem piece_rig (t : Fin cfg0.N) (a : Fin 16) (r : Fin 258) :
    k0_pay5 (View.ld (iblk m c 4 t) rCol) (ix3 a r (0 : Fin 1) : S16x258x1.Idx)
      = flatPadded top bot lef rig X (((cfg0.win 5).blk t).view.emb (rRigAt.emb (ix3 a r (0 : Fin 1) : S16x258x1.Idx))) := by
  have hr' : r.val < 258 := r.isLt
  have hl : k0_pay5 (View.ld (iblk m c 4 t) rCol) (ix3 a r (0 : Fin 1) : S16x258x1.Idx) = colAt top bot rig 255 (cubeOf (img t a)) (faceOf (img t a)) (chanOf (img t a)) r := by
    unfold k0_pay5
    rw [shapeCast_self, View.ld_unit_zero (S := S16x258x1) zero3]
    exact (iblk4_apply m c t a r).trans (hR _ _)
  have hr : ((cfg0.win 5).blk t).view.emb (rRigAt.emb (ix3 a r (0 : Fin 1) : S16x258x1.Idx)) = (ix3 (img t a) r (257 : Fin 258) : S768x258x258.Idx) := by
    obtain ⟨a0, a1, a2, b0, b1, b2, c0, c1, c2, d0, d1, d2, e0, e1, e2, f0, f1, f2⟩ := block_index t
    funext d; apply Fin.ext
    match d with
    | ⟨0, _⟩ => show win0_5.index t (0 : Fin 3) * 16 + 1 * (0 + 1 * a.val) = t.val * 16 + a.val; rw [f0]; omega
    | ⟨1, _⟩ => show win0_5.index t (1 : Fin 3) * 258 + 1 * (0 + 1 * r.val) = r.val; rw [f1]; omega
    | ⟨2, _⟩ => show win0_5.index t (2 : Fin 3) * 258 + 1 * (257 + 1 * (0 : Fin 1).val) = (257 : Fin 258).val; rw [f2]; omega
  rw [hl, hr, flatPadded_ix3]
  unfold cell
  rw [if_neg (by show ¬ ((257 : Fin 258).val = 0); decide), dif_pos (by show (257 : Fin 258).val = 257; rfl)]

/-! ## From blocks to the array -/

include hF hT hB hL hR in
set_option maxHeartbeats 2000000 in
/-- What point `t` writes back is block `t` of the padded images. -/
theorem flushed_eq (t : Fin cfg0.N) :
    (dats m 0 c).flushed 5 t = ((cfg0.win 5).blk t).view.read (Elt F) (flatPadded top bot lef rig X) := by
  show (cfg0.win 5).cut (grid0.coords t) ((dats m 0 c).after 5 t) = _
  rw [after_5]
  unfold padBlock
  funext y
  change View.canon _ y = flatPadded top bot lef rig X (((cfg0.win 5).blk t).view.emb y)
  refine View.canon_apply_of_pieces (fun y => flatPadded top bot lef rig X (((cfg0.win 5).blk t).view.emb y)) _ ?_ y
    (padBlock_cover _ _ _ _ _ y)
  intro p hp
  rcases List.mem_cons.mp hp with rfl | hp
  · intro x
    obtain ⟨a, r, z, rfl⟩ : ∃ (a : Fin 16) (r : Fin 258) (z : Fin 1), x = (ix3 a r z : S16x258x1.Idx) := ⟨x 0, x 1, x 2, eq_ix3 x⟩
    obtain rfl : z = 0 := Subsingleton.elim _ _
    exact piece_rig m c top bot lef rig X hR t a r
  rcases List.mem_cons.mp hp with rfl | hp
  · intro x
    obtain ⟨a, r, z, rfl⟩ : ∃ (a : Fin 16) (r : Fin 258) (z : Fin 1), x = (ix3 a r z : S16x258x1.Idx) := ⟨x 0, x 1, x 2, eq_ix3 x⟩
    obtain rfl : z = 0 := Subsingleton.elim _ _
    exact piece_lef m c top bot lef rig X hL t a r
  rcases List.mem_cons.mp hp with rfl | hp
  · intro x
    obtain ⟨a, z, q, rfl⟩ : ∃ (a : Fin 16) (z : Fin 1) (q : Fin 256), x = (ix3 a z q : S16x1x256.Idx) := ⟨x 0, x 1, x 2, eq_ix3 x⟩
    obtain rfl : z = 0 := Subsingleton.elim _ _
    exact piece_bot m c top bot lef rig X hB t a q
  rcases List.mem_cons.mp hp with rfl | hp
  · intro x
    obtain ⟨a, r, s, rfl⟩ : ∃ (a : Fin 16) (r s : Fin 256), x = (ix3 a r s : S16x256x256.Idx) := ⟨x 0, x 1, x 2, eq_ix3 x⟩
    exact piece_mid m c top bot lef rig X hF t a r s
  rcases List.mem_cons.mp hp with rfl | hp
  · intro x
    obtain ⟨a, z, q, rfl⟩ : ∃ (a : Fin 16) (z : Fin 1) (q : Fin 256), x = (ix3 a z q : S16x1x256.Idx) := ⟨x 0, x 1, x 2, eq_ix3 x⟩
    obtain rfl : z = 0 := Subsingleton.elim _ _
    exact piece_top m c top bot lef rig X hT t a q
  exact absurd hp List.not_mem_nil

end Assembly

end Cert.KernelIdeal.Pad

end
-- ==== Proof.KResult.lean ====
/-
  From the region's blocks to the program's result. The 48 blocks of 16 images fill the region's result array, so that
  array is the padded images (`flatPadded`); the one operation after the region cuts the 768 images back into
  12 × 64, which turns `flatPadded` into `padded`: image `64 b + ch` of the flat array is channel `ch` of image
  `b`, and `b = 6 n + f` is face `f` of cube `n`.
-/
import proofs.«116597_j71528385347689_2_alg».proof.Proof.KValue

set_option maxRecDepth 16384

noncomputable section

namespace Cert.CubePad

open Idealize.ShloMosaic Idealize.ShloMosaic.ValueIdx

/-- Cutting the 768 padded images back into 12 × 64 gives the padded result. -/
theorem unflatten {α : Type} (top bot : Fin 6 → RowS.Idx → α) (lef rig : Fin 6 → ColS.Idx → α) (X : Faces.Idx → α)
    (h : Flat.ShapeCasts Out) :
    shapeCast Out (flatPadded top bot lef rig X) h = padded top bot lef rig X := by
  funext i
  have h0 : (i 0).val < 12 := (i 0).isLt
  have h1 : (i 1).val < 64 := (i 1).isLt
  refine (shapeCast_apply (flatPadded top bot lef rig X) h i
    (ix3 (⟨(i 0).val * 64 + (i 1).val, by omega⟩ : Fin 768) (i 2) (i 3)) ?_).trans ?_
  · rw [Shape.rowMajor_val_three, Shape.rowMajor_val_four]
    rfl
  · show cell top bot lef rig X (cubeOf _) (faceOf _) (chanOf _) (i 2) (i 3) = cell top bot lef rig X _ _ (i 1) (i 2) (i 3)
    have e1 : cubeOf (⟨(i 0).val * 64 + (i 1).val, by omega⟩ : Fin 768) = ⟨(i 0).val / 6, by omega⟩ :=
      Fin.ext (by show ((i 0).val * 64 + (i 1).val) / 384 = (i 0).val / 6; omega)
    have e2 : faceOf (⟨(i 0).val * 64 + (i 1).val, by omega⟩ : Fin 768) = ⟨(i 0).val % 6, Nat.mod_lt _ (by decide)⟩ :=
      Fin.ext (by show ((i 0).val * 64 + (i 1).val) / 64 % 6 = (i 0).val % 6; omega)
    have e3 : chanOf (⟨(i 0).val * 64 + (i 1).val, by omega⟩ : Fin 768) = i 1 :=
      Fin.ext (by show ((i 0).val * 64 + (i 1).val) % 64 = (i 1).val; omega)
    rw [e1, e2, e3]

end Cert.CubePad

namespace Cert.KernelIdeal.Pad

open Cert.KernelIdeal Cert.KernelIdeal.Gen Cert.CubePad
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A pixel of the result array lies in point `t`'s block iff its image number lies in `16 t … 16 t + 15`. -/
theorem mem_oblk (t : Fin cfg0.N) (i : S768x258x258.Idx) :
    i ∈ ((cfg0.win 5).blk t).view.set ↔ ∀ a : Fin 3, win0_5.index t a * S16x258x258.size a ≤ (i a).val
      ∧ (i a).val < win0_5.index t a * S16x258x258.size a + S16x258x258.size a := by
  show i ∈ ((View.whole main_v95).slice (win0_5.rect t)).set ↔ _
  rw [View.set_slice_whole, Rect.mem_set_unit]
  exact Iff.rfl

/-- Every pixel of the result array is written back by some point: image `b` by point `b / 16`. -/
theorem covered (i : S768x258x258.Idx) :
    ∃ t : Fin cfg0.N, (cfg0.win 5).flush t = true ∧ i ∈ ((cfg0.win 5).blk t).view.set := by
  have hi0 : (i 0).val < 768 := (i 0).isLt
  have hi1 : (i 1).val < 258 := (i 1).isLt
  have hi2 : (i 2).val < 258 := (i 2).isLt
  obtain ⟨t, ht⟩ := block_onto ⟨(i 0).val / 16, by omega⟩
  have ht' : t.val = (i 0).val / 16 := ht
  obtain ⟨a0, a1, a2, b0, b1, b2, c0, c1, c2, d0, d1, d2, e0, e1, e2, f0, f1, f2⟩ := block_index t
  refine ⟨t, flush0_5 t, (mem_oblk t i).mpr fun a => ?_⟩
  match a with
  | ⟨0, _⟩ => show win0_5.index t (0 : Fin 3) * 16 ≤ (i 0).val ∧ (i 0).val < win0_5.index t (0 : Fin 3) * 16 + 16; rw [f0, ht']; omega
  | ⟨1, _⟩ => show win0_5.index t (1 : Fin 3) * 258 ≤ (i 1).val ∧ (i 1).val < win0_5.index t (1 : Fin 3) * 258 + 258; rw [f1]; omega
  | ⟨2, _⟩ => show win0_5.index t (2 : Fin 3) * 258 ≤ (i 2).val ∧ (i 2).val < win0_5.index t (2 : Fin 3) * 258 + 258; rw [f2]; omega

section Assembly

variable (c : Dev nD)
  (top bot : Fin 6 → RowS.Idx → Elt F .f32) (lef rig : Fin 6 → ColS.Idx → Elt F .f32) (X : Faces.Idx → Elt F .f32)
  (hF : ∀ (b : Fin 768) (r s : Fin 256), (V m c main_v90 : S768x256x256.Idx → Elt F .f32) (ix3 b r s)
      = X (ix5 (cubeOf b) (faceOf b) (chanOf b) r s))
  (hT : ∀ (b : Fin 768) (q : Fin 256), (V m c main_v91 : S768x1x256.Idx → Elt F .f32) (ix3 b 0 q)
      = top (faceOf b) (ix4 (cubeOf b) (chanOf b) 0 q))
  (hB : ∀ (b : Fin 768) (q : Fin 256), (V m c main_v92 : S768x1x256.Idx → Elt F .f32) (ix3 b 0 q)
      = bot (faceOf b) (ix4 (cubeOf b) (chanOf b) 0 q))
  (hL : ∀ (b : Fin 768) (r : Fin 258), (V m c main_v93 : S768x258x1.Idx → Elt F .f32) (ix3 b r 0)
      = colAt top bot lef 0 (cubeOf b) (faceOf b) (chanOf b) r)
  (hR : ∀ (b : Fin 768) (r : Fin 258), (V m c main_v94 : S768x258x1.Idx → Elt F .f32) (ix3 b r 0)
      = colAt top bot rig 255 (cubeOf b) (faceOf b) (chanOf b) r)

include hF hT hB hL hR in
/-- The region's result array after the run: the padded images. -/
theorem final : ((dats m 0 c).arrAt 5 cfg0.N : S768x258x258.Idx → Elt F .f32) = flatPadded top bot lef rig X :=
  (dats m 0 c).arrAt_eq_of_cover 5 (flatPadded top bot lef rig X)
    (fun t _ => flushed_eq m c top bot lef rig X hF hT hB hL hR t) covered

/-- What the operation after the region leaves in the program's result: the region's result array, cut back into
    12 × 64 images. -/
theorem tail_result :
    (Pipeline.afterTail₀ cfgs (dats m) 0 (V0 m) [hostOps1] c main_v96 : S12x64x258x258.Idx → Elt F .f32)
      = shapeCast S12x64x258x258 ((dats m 0 c).arrAt 5 cfg0.N : S768x258x258.Idx → Elt F .f32)
          shapeCasts_S768x258x258_S12x64x258x258 := by
  unfold Pipeline.afterTail₀
  show StableHlo.after hostOps1 _ (Proc.devRef .tc main_v96) = _
  after_results
  exact congrArg (fun z => shapeCast S12x64x258x258 z shapeCasts_S768x258x258_S12x64x258x258)
    (Pipeline.withArrays_arr spec0 launch0.win.arr_inj c _ _ 5)

include hF hT hB hL hR in
/-- So the program's result is the padded result. -/
theorem result_padded :
    (Pipeline.afterTail₀ cfgs (dats m) 0 (V0 m) [hostOps1] c main_v96 : S12x64x258x258.Idx → Elt F .f32)
      = padded top bot lef rig X := by
  rw [tail_result, final m c top bot lef rig X hF hT hB hL hR]
  exact unflatten top bot lef rig X shapeCasts_S768x258x258_S12x64x258x258

end Assembly

end Cert.KernelIdeal.Pad

end
-- ==== Proof.LibHostLine.lean ====
/-
  Reading a straight line of host operations one operation at a time.

  When every operation of a line writes one buffer of its own, what the line leaves in the buffer the `k`-th
  operation writes is that operation's function of what the line leaves in its operands: the operations after the
  `k`-th write neither its result nor (writing once only, after their operands are written) its operands. The
  lemmas state this for any line whose written references are listed, one per operation, in order.
-/
import Idealize.ShloMosaic.Lib.StableHlo.Run
import Mathlib.Data.List.Forall2

namespace Cert.CubePad.Line

open Idealize.ShloMosaic Idealize.ShloMosaic.StableHlo

variable {τ : Topo} {sig : RefSig} {Val : EltTy → Type}

/-- A line run in two parts. -/
theorem after_append (l₁ l₂ : List (HloOp τ sig Val)) (V : Valuation τ sig Val) :
    after (l₁ ++ l₂) V = after l₂ (after l₁ V) := by
  induction l₁ generalizing V with
  | nil => rfl
  | cons op l ih => exact ih _

/-- The line `ops` writes the references `W`, one each, in order. -/
abbrev Writes (ops : List (HloOp τ sig Val)) (W : List (Ref sig .tc)) : Prop :=
  List.Forall₂ (fun op r => op.writes = {Proc.devRef (τ := τ) .tc r}) ops W

/-- A reference the line does not write keeps its contents. -/
theorem Writes.keeps {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | cons e _ ih =>
    intro V r hr
    rw [after_cons, ih _ (fun hm => hr (List.mem_cons_of_mem _ hm)), HloOp.result_of_not_mem]
    rw [e, Finset.mem_singleton]
    exact devRef_ne_of_ne fun e' => hr (e' ▸ List.mem_cons_self)

/-- At a reference the operations from the `k`-th on do not write, the first `k` operations decide the contents. -/
theorem Writes.read_take {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  conv_lhs => rw [← List.take_append_drop k ops]
  rw [after_append]
  exact Writes.keeps (List.forall₂_drop k h) _ hr

/-- At the reference the `k`-th operation writes (and no later one): that operation's result from what the first
    `k` operations leave. -/
theorem Writes.read_at {ops : List (HloOp τ sig Val)} {W : List (Ref sig .tc)} (h : Writes ops W) (V : Valuation τ sig Val)
    (k : Nat) (op : HloOp τ sig Val) (hk : ops[k]? = some op) {y : Ref sig .tc} (hy : y ∉ W.drop (k + 1)) :
    after ops V (Proc.devRef .tc y) = op.result (after (ops.take k) V) (Proc.devRef .tc y) := by
  rw [h.read_take (k + 1) V hy, List.take_succ, hk, after_append]
  rfl

/-- A one-operand operation, the `k`-th of the line: its result buffer ends at its function of what its operand's
    buffer ends at. -/
theorem Writes.unary_at {ops : List (HloOp τ sig Val)} {W : List (Ref sig .tc)} (h : Writes ops W) (V : Valuation τ sig Val)
    (k : Nat) (x y : Ref sig .tc) (f : x.ty.Contents Val → y.ty.Contents Val) (hx hy)
    (hk : ops[k]? = some (unary x y f hx hy)) (hyW : y ∉ W.drop (k + 1)) (hxW : x ∉ W.drop k) :
    after ops V (Proc.devRef .tc y) = f (after ops V (Proc.devRef .tc x)) := by
  rw [h.read_at V k _ hk hyW, unary_result, h.read_take k V hxW]

/-- A reshape, the `k`-th of the line. -/
theorem Writes.reshape_at {ops : List (HloOp τ sig Val)} {W : List (Ref sig .tc)} (h : Writes ops W) (V : Valuation τ sig Val)
    (k : Nat) (x y : Ref sig .tc) (he : x.ty.elt = y.ty.elt) (hn : x.ty.shape.ShapeCasts y.ty.shape) (hx hy)
    (hk : ops[k]? = some (reshape x y he hn hx hy)) (hyW : y ∉ W.drop (k + 1)) (hxW : x ∉ W.drop k) :
    after ops V (Proc.devRef .tc y) = fun i => he ▸ shapeCast y.ty.shape (after ops V (Proc.devRef .tc x)) hn i := by
  rw [h.read_at V k _ hk hyW, reshape_result, h.read_take k V hxW]

/-- An operation of several operands, the `k`-th of the line. -/
theorem Writes.nary_at {ops : List (HloOp τ sig Val)} {W : List (Ref sig .tc)} (h : Writes ops W) (V : Valuation τ sig Val)
    (k : Nat) {n : Nat} (xs : Fin n → Ref sig .tc) (y : Ref sig .tc)
    (f : ((j : Fin n) → (xs j).ty.Contents Val) → y.ty.Contents Val) (hxs hy)
    (hk : ops[k]? = some (nary xs y f hxs hy)) (hyW : y ∉ W.drop (k + 1)) (hxW : ∀ j, xs j ∉ W.drop k) :
    after ops V (Proc.devRef .tc y) = f (fun j => after ops V (Proc.devRef .tc (xs j))) := by
  rw [h.read_at V k _ hk hyW, nary_result]
  exact congrArg f (funext fun j => (h.read_take k V (hxW j)).symm)

/-- A reference the line never writes (an argument) keeps its contents. -/
theorem Writes.arg {ops : List (HloOp τ sig Val)} {W : List (Ref sig .tc)} (h : Writes ops W) (V : Valuation τ sig Val)
    {r : Ref sig .tc} (hr : r ∉ W) : after ops V (Proc.devRef .tc r) = V (Proc.devRef .tc r) :=
  h.keeps V hr

end Cert.CubePad.Line
-- ==== Proof.KHSteps.lean ====
/-
  The operations before the padding region, one at a time.

  The 95 operations write 95 buffers, one each and in program order, so each buffer ends at its operation's function
  of what its operands' buffers end at (the general fact is in LibHostLine). This module lists the written buffers and
  states that equation for every operation: a reshape, a slice, a transpose, a reversal, the insertion of a unit axis,
  or a concatenation, exactly as the program text has it.
-/
import proofs.«116597_j71528385347689_2_alg».proof.Proof.KEntry
import proofs.«116597_j71528385347689_2_alg».proof.Proof.LibHostLine

noncomputable section

namespace Cert.KernelIdeal.Pad

open Cert.KernelIdeal Cert.KernelIdeal.Gen Idealize.ShloMosaic Idealize.ShloMosaic.TcCoe
open Idealize.SL Idealize.SL.Sem
open Idealize.ShloMosaic.StableHlo Cert.CubePad.Line

variable {F : FTy → Type} [FloatOps F]

/-- The references the operations before the region write, in program order: each operation writes one. -/
abbrev wrote : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94]

/-- The operations before the region write those references, one each, in that order. -/
theorem entry_writes : Writes (List.flatten (entryOps (F := F))) wrote := by
  simp only [entryOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  repeat (first | exact List.Forall₂.nil | refine List.Forall₂.cons rfl ?_)

variable (m : (ℓ : Loc nD τ sig) → Buf (Elt F) ℓ) (c : Dev nD)

/-- The argument array is not written before the region. -/
theorem arg0_eq : (V m c main_arg0 : S12x64x256x256.Idx → Elt F .f32) = m ((c.tc : Thread nD τ).loc main_arg0) :=
  (entry_writes (F := F)).arg (fun b => m (c, b)) (by decide)

theorem v0_eq : (V m c main_v0 : S2x6x64x256x256.Idx → Elt F .f32) = shapeCast S2x6x64x256x256 (V m c main_arg0) shapeCasts_S12x64x256x256_S2x6x64x256x256 := by
  have h := (entry_writes (F := F)).reshape_at (fun b => m (c, b)) 0 main_arg0 main_v0 _ _ _ _ rfl (by decide) (by decide)
  exact h

theorem v1_eq : (V m c main_v1 : S2x1x64x256x256.Idx → Elt F .f32) = extractStridedSlice S2x1x64x256x256 ![0, 0, 0, 0, 0] (V m c main_v0) slices_S2x6x64x256x256_S2x1x64x256x256_0_0_0_0_0 := by
  have h := (entry_writes (F := F)).unary_at (fun b => m (c, b)) 1 main_v0 main_v1 _ _ _ rfl (by decide) (by decide)
  exact h

theorem v2_eq : (V m c main_v2 : S2x64x256x256.Idx → Elt F .f32) = shapeCast S2x64x256x256 (V m c main_v1) shapeCasts_S2x1x64x256x256_S2x64x256x256 := by
  have h := (entry_writes (F := F)).reshape_at (fun b => m (c, b)) 2 main_v1 main_v2 _ _ _ _ rfl (by decide) (by decide)
  exact h

theorem v3_eq : (V m c main_v3 : S2x1x64x256x256.Idx → Elt F .f32) = extractStridedSlice S2x1x64x256x256 ![0, 1, 0, 0, 0] (V m c main_v0) slices_S2x6x64x256x256_S2x1x64x256x256_0_1_0_0_0 := by
  have h := (entry_writes (F := F)).unary_at (fun b => m (c, b)) 3 main_v0 main_v3 _ _ _ rfl (by decide) (by decide)
  exact h

theorem v4_eq : (V m c main_v4 : S2x64x256x256.Idx → Elt F .f32) = shapeCast S2x64x256x256 (V m c main_v3) shapeCasts_S2x1x64x256x256_S2x64x256x256 := by
  have h := (entry_writes (F := F)).reshape_at (fun b => m (c, b)) 4 main_v3 main_v4 _ _ _ _ rfl (by decide) (by decide)
  exact h

theorem v5_eq : (V m c main_v5 : S2x1x64x256x256.Idx → Elt F .f32) = extractStridedSlice S2x1x64x256x256 ![0, 2, 0, 0, 0] (V m c main_v0) slices_S2x6x64x256x256_S2x1x64x256x256_0_2_0_0_0 := by
  have h := (entry_writes (F := F)).unary_at (fun b => m (c, b)) 5 main_v0 main_v5 _ _ _ rfl (by decide) (by decide)
  exact h

theorem v6_eq : (V m c main_v6 : S2x64x256x256.Idx → Elt F .f32) = shapeCast S2x64x256x256 (V m c main_v5) shapeCasts_S2x1x64x256x256_S2x64x256x256 := by
  have h := (entry_writes (F := F)).reshape_at (fun b => m (c, b)) 6 main_v5 main_v6 _ _ _ _ rfl (by decide) (by decide)
  exact h

theorem v7_eq : (V m c main_v7 : S2x1x64x256x256.Idx → Elt F .f32) = extractStridedSlice S2x1x64x256x256 ![0, 3, 0, 0, 0] (V m c main_v0) slices_S2x6x64x256x256_S2x1x64x256x256_0_3_0_0_0 := by
  have h := (entry_writes (F := F)).unary_at (fun b => m (c, b)) 7 main_v0 main_v7 _ _ _ rfl (by decide) (by decide)
  exact h

theorem v8_eq : (V m c main_v8 : S2x64x256x256.Idx → Elt F .f32) = shapeCast S2x64x256x256 (V m c main_v7) shapeCasts_S2x1x64x256x256_S2x64x256x256 := by
  have h := (entry_writes (F := F)).reshape_at (fun b => m (c, b)) 8 main_v7 main_v8 _ _ _ _ rfl (by decide) (by decide)
  exact h

theorem v9_eq : (V m c main_v9 : S2x1x64x256x256.Idx → Elt F .f32) = extractStridedSlice S2x1x64x256x256 ![0, 4, 0, 0, 0] (V m c main_v0) slices_S2x6x64x256x256_S2x1x64x256x256_0_4_0_0_0 := by
  have h := (entry_writes (F := F)).unary_at (fun b => m (c, b)) 9 main_v0 main_v9 _ _ _ rfl (by decide) (by decide)
  exact h

theorem v10_eq : (V m c main_v10 : S2x64x256x256.Idx → Elt F .f32) = shapeCast S2x64x256x256 (V m c main_v9) shapeCasts_S2x1x64x256x256_S2x64x256x256 := by
  have h := (entry_writes (F := F)).reshape_at (fun b => m (c, b)) 10 main_v9 main_v10 _ _ _ _ rfl (by decide) (by decide)
  exact h

theorem v11_eq : (V m c main_v11 : S2x1x64x256x256.Idx → Elt F .f32) = extractStridedSlice S2x1x64x256x256 ![0, 5, 0, 0, 0] (V m c main_v0) slices_S2x6x64x256x256_S2x1x64x256x256_0_5_0_0_0 := by
  have h := (entry_writes (F := F)).unary_at (fun b => m (c, b)) 11 main_v0 main_v11 _ _ _ rfl (by decide) (by decide)
  exact h

theorem v12_eq : (V m c main_v12 : S2x64x256x256.Idx → Elt F .f32) = shapeCast S2x64x256x256 (V m c main_v11) shapeCasts_S2x1x64x256x256_S2x64x256x256 := by
  have h := (entry_writes (F := F)).reshape_at (fun b => m (c, b)) 12 main_v11 main_v12 _ _ _ _ rfl (by decide) (by decide)
  exact h

theorem v13_eq : (V m c main_v13 : S2x64x1x256.Idx → Elt F .f32) = extractStridedSlice S2x64x1x256 ![0, 0, 255, 0] (V m c main_v10) slices_S2x64x256x256_S2x64x1x256_0_0_255_0 := by
  have h := (entry_writes (F := F)).unary_at (fun b => m (c, b)) 13 main_v10 main_v13 _ _ _ rfl (by decide) (by decide)
  exact h

theorem v14_eq : (V m c main_v14 : S2x64x256x1.Idx → Elt F .f32) = extractStridedSlice S2x64x256x1 ![0, 0, 0, 255] (V m c main_v10) slices_S2x64x256x256_S2x64x256x1_0_0_0_255 := by
  have h := (entry_writes (F := F)).unary_at (fun b => m (c, b)) 14 main_v10 main_v14 _ _ _ rfl (by decide) (by decide)
  exact h

theorem v15_eq : (V m c main_v15 : S2x64x1x256.Idx → Elt F .f32) = transpose S2x64x1x256 [0, 1, 3, 2] (V m c main_v14) transposes_S2x64x256x1_S2x64x1x256_0_1_3_2 := by
  have h := (entry_writes (F := F)).unary_at (fun b => m (c, b)) 15 main_v14 main_v15 _ _ _ rfl (by decide) (by decide)
  exact h

theorem v16_eq : (V m c main_v16 : S2x64x1x256.Idx → Elt F .f32) = Host.reverse [3] (V m c main_v15) := by
  have h := (entry_writes (F := F)).unary_at (fun b => m (c, b)) 16 main_v15 main_v16 _ _ _ rfl (by decide) (by decide)
  exact h

theorem v17_eq : (V m c main_v17 : S2x64x1x256.Idx → Elt F .f32) = extractStridedSlice S2x64x1x256 ![0, 0, 0, 0] (V m c main_v10) slices_S2x64x256x256_S2x64x1x256_0_0_0_0 := by
  have h := (entry_writes (F := F)).unary_at (fun b => m (c, b)) 17 main_v10 main_v17 _ _ _ rfl (by decide) (by decide)
  exact h

theorem v18_eq : (V m c main_v18 : S2x64x1x256.Idx → Elt F .f32) = Host.reverse [3] (V m c main_v17) := by
  have h := (entry_writes (F := F)).unary_at (fun b => m (c, b)) 18 main_v17 main_v18 _ _ _ rfl (by decide) (by decide)
  exact h

theorem v19_eq : (V m c main_v19 : S2x64x256x1.Idx → Elt F .f32) = extractStridedSlice S2x64x256x1 ![0, 0, 0, 0] (V m c main_v10) slices_S2x64x256x256_S2x64x256x1_0_0_0_0 := by
  have h := (entry_writes (F := F)).unary_at (fun b => m (c, b)) 19 main_v10 main_v19 _ _ _ rfl (by decide) (by decide)
  exact h

theorem v20_eq : (V m c main_v20 : S2x64x1x256.Idx → Elt F .f32) = transpose S2x64x1x256 [0, 1, 3, 2] (V m c main_v19) transposes_S2x64x256x1_S2x64x1x256_0_1_3_2 := by
  have h := (entry_writes (F := F)).unary_at (fun b => m (c, b)) 20 main_v19 main_v20 _ _ _ rfl (by decide) (by decide)
  exact h

theorem v21_eq : (V m c main_v21 : S2x64x1x256.Idx → Elt F .f32) = Host.reverse [2] (V m c main_v20) := by
  have h := (entry_writes (F := F)).unary_at (fun b => m (c, b)) 21 main_v20 main_v21 _ _ _ rfl (by decide) (by decide)
  exact h

theorem v22_eq : (V m c main_v22 : S2x64x1x256.Idx → Elt F .f32) = extractStridedSlice S2x64x1x256 ![0, 0, 0, 0] (V m c main_v6) slices_S2x64x256x256_S2x64x1x256_0_0_0_0 := by
  have h := (entry_writes (F := F)).unary_at (fun b => m (c, b)) 22 main_v6 main_v22 _ _ _ rfl (by decide) (by decide)
  exact h

theorem v23_eq : (V m c main_v23 : S2x64x1x256.Idx → Elt F .f32) = Host.reverse [2, 3] (V m c main_v22) := by
  have h := (entry_writes (F := F)).unary_at (fun b => m (c, b)) 23 main_v22 main_v23 _ _ _ rfl (by decide) (by decide)
  exact h

theorem v24_eq : (V m c main_v24 : S2x64x1x256.Idx → Elt F .f32) = extractStridedSlice S2x64x1x256 ![0, 0, 255, 0] (V m c main_v2) slices_S2x64x256x256_S2x64x1x256_0_0_255_0 := by
  have h := (entry_writes (F := F)).unary_at (fun b => m (c, b)) 24 main_v2 main_v24 _ _ _ rfl (by decide) (by decide)
  exact h

theorem v25_eq : (V m c main_v25 : S2x1x64x1x256.Idx → Elt F .f32) = broadcastInDim S2x1x64x1x256 ![0, 2, 3, 4] bcast_S2x64x1x256_S2x1x64x1x256_0_2_3_4 (V m c main_v13) := by
  have h := (entry_writes (F := F)).unary_at (fun b => m (c, b)) 25 main_v13 main_v25 _ _ _ rfl (by decide) (by decide)
  exact h

theorem v26_eq : (V m c main_v26 : S2x1x64x1x256.Idx → Elt F .f32) = broadcastInDim S2x1x64x1x256 ![0, 2, 3, 4] bcast_S2x64x1x256_S2x1x64x1x256_0_2_3_4 (V m c main_v16) := by
  have h := (entry_writes (F := F)).unary_at (fun b => m (c, b)) 26 main_v16 main_v26 _ _ _ rfl (by decide) (by decide)
  exact h

theorem v27_eq : (V m c main_v27 : S2x1x64x1x256.Idx → Elt F .f32) = broadcastInDim S2x1x64x1x256 ![0, 2, 3, 4] bcast_S2x64x1x256_S2x1x64x1x256_0_2_3_4 (V m c main_v18) := by
  have h := (entry_writes (F := F)).unary_at (fun b => m (c, b)) 27 main_v18 main_v27 _ _ _ rfl (by decide) (by decide)
  exact h

theorem v28_eq : (V m c main_v28 : S2x1x64x1x256.Idx → Elt F .f32) = broadcastInDim S2x1x64x1x256 ![0, 2, 3, 4] bcast_S2x64x1x256_S2x1x64x1x256_0_2_3_4 (V m c main_v21) := by
  have h := (entry_writes (F := F)).unary_at (fun b => m (c, b)) 28 main_v21 main_v28 _ _ _ rfl (by decide) (by decide)
  exact h

theorem v29_eq : (V m c main_v29 : S2x1x64x1x256.Idx → Elt F .f32) = broadcastInDim S2x1x64x1x256 ![0, 2, 3, 4] bcast_S2x64x1x256_S2x1x64x1x256_0_2_3_4 (V m c main_v23) := by
  have h := (entry_writes (F := F)).unary_at (fun b => m (c, b)) 29 main_v23 main_v29 _ _ _ rfl (by decide) (by decide)
  exact h

theorem v30_eq : (V m c main_v30 : S2x1x64x1x256.Idx → Elt F .f32) = broadcastInDim S2x1x64x1x256 ![0, 2, 3, 4] bcast_S2x64x1x256_S2x1x64x1x256_0_2_3_4 (V m c main_v24) := by
  have h := (entry_writes (F := F)).unary_at (fun b => m (c, b)) 30 main_v24 main_v30 _ _ _ rfl (by decide) (by decide)
  exact h

theorem v31_eq : (V m c main_v31 : S2x6x64x1x256.Idx → Elt F .f32) = concatenate S2x6x64x1x256 1 [⟨S2x1x64x1x256, V m c main_v25⟩, ⟨S2x1x64x1x256, V m c main_v26⟩, ⟨S2x1x64x1x256, V m c main_v27⟩, ⟨S2x1x64x1x256, V m c main_v28⟩, ⟨S2x1x64x1x256, V m c main_v29⟩, ⟨S2x1x64x1x256, V m c main_v30⟩] concatenates_S2x1x64x1x256_S2x1x64x1x256_S2x1x64x1x256_S2x1x64x1x256_S2x1x64x1x256_S2x1x64x1x256_S2x6x64x1x256_d1 := by
  have h := (entry_writes (F := F)).nary_at (fun b => m (c, b)) 31 ![main_v25, main_v26, main_v27, main_v28, main_v29, main_v30] main_v31 _ _ _ rfl (by decide) (by decide)
  exact h

theorem v32_eq : (V m c main_v32 : S2x64x1x256.Idx → Elt F .f32) = extractStridedSlice S2x64x1x256 ![0, 0, 0, 0] (V m c main_v12) slices_S2x64x256x256_S2x64x1x256_0_0_0_0 := by
  have h := (entry_writes (F := F)).unary_at (fun b => m (c, b)) 32 main_v12 main_v32 _ _ _ rfl (by decide) (by decide)
  exact h

theorem v33_eq : (V m c main_v33 : S2x64x256x1.Idx → Elt F .f32) = extractStridedSlice S2x64x256x1 ![0, 0, 0, 255] (V m c main_v12) slices_S2x64x256x256_S2x64x256x1_0_0_0_255 := by
  have h := (entry_writes (F := F)).unary_at (fun b => m (c, b)) 33 main_v12 main_v33 _ _ _ rfl (by decide) (by decide)
  exact h

theorem v34_eq : (V m c main_v34 : S2x64x1x256.Idx → Elt F .f32) = transpose S2x64x1x256 [0, 1, 3, 2] (V m c main_v33) transposes_S2x64x256x1_S2x64x1x256_0_1_3_2 := by
  have h := (entry_writes (F := F)).unary_at (fun b => m (c, b)) 34 main_v33 main_v34 _ _ _ rfl (by decide) (by decide)
  exact h

theorem v35_eq : (V m c main_v35 : S2x64x1x256.Idx → Elt F .f32) = Host.reverse [2] (V m c main_v34) := by
  have h := (entry_writes (F := F)).unary_at (fun b => m (c, b)) 35 main_v34 main_v35 _ _ _ rfl (by decide) (by decide)
  exact h

theorem v36_eq : (V m c main_v36 : S2x64x1x256.Idx → Elt F .f32) = extractStridedSlice S2x64x1x256 ![0, 0, 255, 0] (V m c main_v12) slices_S2x64x256x256_S2x64x1x256_0_0_255_0 := by
  have h := (entry_writes (F := F)).unary_at (fun b => m (c, b)) 36 main_v12 main_v36 _ _ _ rfl (by decide) (by decide)
  exact h

theorem v37_eq : (V m c main_v37 : S2x64x1x256.Idx → Elt F .f32) = Host.reverse [2, 3] (V m c main_v36) := by
  have h := (entry_writes (F := F)).unary_at (fun b => m (c, b)) 37 main_v36 main_v37 _ _ _ rfl (by decide) (by decide)
  exact h

theorem v38_eq : (V m c main_v38 : S2x64x256x1.Idx → Elt F .f32) = extractStridedSlice S2x64x256x1 ![0, 0, 0, 0] (V m c main_v12) slices_S2x64x256x256_S2x64x256x1_0_0_0_0 := by
  have h := (entry_writes (F := F)).unary_at (fun b => m (c, b)) 38 main_v12 main_v38 _ _ _ rfl (by decide) (by decide)
  exact h

theorem v39_eq : (V m c main_v39 : S2x64x1x256.Idx → Elt F .f32) = transpose S2x64x1x256 [0, 1, 3, 2] (V m c main_v38) transposes_S2x64x256x1_S2x64x1x256_0_1_3_2 := by
  have h := (entry_writes (F := F)).unary_at (fun b => m (c, b)) 39 main_v38 main_v39 _ _ _ rfl (by decide) (by decide)
  exact h

theorem v40_eq : (V m c main_v40 : S2x64x1x256.Idx → Elt F .f32) = Host.reverse [3] (V m c main_v39) := by
  have h := (entry_writes (F := F)).unary_at (fun b => m (c, b)) 40 main_v39 main_v40 _ _ _ rfl (by decide) (by decide)
  exact h

theorem v41_eq : (V m c main_v41 : S2x64x1x256.Idx → Elt F .f32) = extractStridedSlice S2x64x1x256 ![0, 0, 0, 0] (V m c main_v2) slices_S2x64x256x256_S2x64x1x256_0_0_0_0 := by
  have h := (entry_writes (F := F)).unary_at (fun b => m (c, b)) 41 main_v2 main_v41 _ _ _ rfl (by decide) (by decide)
  exact h

theorem v42_eq : (V m c main_v42 : S2x64x1x256.Idx → Elt F .f32) = extractStridedSlice S2x64x1x256 ![0, 0, 255, 0] (V m c main_v6) slices_S2x64x256x256_S2x64x1x256_0_0_255_0 := by
  have h := (entry_writes (F := F)).unary_at (fun b => m (c, b)) 42 main_v6 main_v42 _ _ _ rfl (by decide) (by decide)
  exact h

theorem v43_eq : (V m c main_v43 : S2x64x1x256.Idx → Elt F .f32) = Host.reverse [2, 3] (V m c main_v42) := by
  have h := (entry_writes (F := F)).unary_at (fun b => m (c, b)) 43 main_v42 main_v43 _ _ _ rfl (by decide) (by decide)
  exact h

theorem v44_eq : (V m c main_v44 : S2x1x64x1x256.Idx → Elt F .f32) = broadcastInDim S2x1x64x1x256 ![0, 2, 3, 4] bcast_S2x64x1x256_S2x1x64x1x256_0_2_3_4 (V m c main_v32) := by
  have h := (entry_writes (F := F)).unary_at (fun b => m (c, b)) 44 main_v32 main_v44 _ _ _ rfl (by decide) (by decide)
  exact h

theorem v45_eq : (V m c main_v45 : S2x1x64x1x256.Idx → Elt F .f32) = broadcastInDim S2x1x64x1x256 ![0, 2, 3, 4] bcast_S2x64x1x256_S2x1x64x1x256_0_2_3_4 (V m c main_v35) := by
  have h := (entry_writes (F := F)).unary_at (fun b => m (c, b)) 45 main_v35 main_v45 _ _ _ rfl (by decide) (by decide)
  exact h

theorem v46_eq : (V m c main_v46 : S2x1x64x1x256.Idx → Elt F .f32) = broadcastInDim S2x1x64x1x256 ![0, 2, 3, 4] bcast_S2x64x1x256_S2x1x64x1x256_0_2_3_4 (V m c main_v37) := by
  have h := (entry_writes (F := F)).unary_at (fun b => m (c, b)) 46 main_v37 main_v46 _ _ _ rfl (by decide) (by decide)
  exact h

theorem v47_eq : (V m c main_v47 : S2x1x64x1x256.Idx → Elt F .f32) = broadcastInDim S2x1x64x1x256 ![0, 2, 3, 4] bcast_S2x64x1x256_S2x1x64x1x256_0_2_3_4 (V m c main_v40) := by
  have h := (entry_writes (F := F)).unary_at (fun b => m (c, b)) 47 main_v40 main_v47 _ _ _ rfl (by decide) (by decide)
  exact h

theorem v48_eq : (V m c main_v48 : S2x1x64x1x256.Idx → Elt F .f32) = broadcastInDim S2x1x64x1x256 ![0, 2, 3, 4] bcast_S2x64x1x256_S2x1x64x1x256_0_2_3_4 (V m c main_v41) := by
  have h := (entry_writes (F := F)).unary_at (fun b => m (c, b)) 48 main_v41 main_v48 _ _ _ rfl (by decide) (by decide)
  exact h

theorem v49_eq : (V m c main_v49 : S2x1x64x1x256.Idx → Elt F .f32) = broadcastInDim S2x1x64x1x256 ![0, 2, 3, 4] bcast_S2x64x1x256_S2x1x64x1x256_0_2_3_4 (V m c main_v43) := by
  have h := (entry_writes (F := F)).unary_at (fun b => m (c, b)) 49 main_v43 main_v49 _ _ _ rfl (by decide) (by decide)
  exact h

theorem v50_eq : (V m c main_v50 : S2x6x64x1x256.Idx → Elt F .f32) = concatenate S2x6x64x1x256 1 [⟨S2x1x64x1x256, V m c main_v44⟩, ⟨S2x1x64x1x256, V m c main_v45⟩, ⟨S2x1x64x1x256, V m c main_v46⟩, ⟨S2x1x64x1x256, V m c main_v47⟩, ⟨S2x1x64x1x256, V m c main_v48⟩, ⟨S2x1x64x1x256, V m c main_v49⟩] concatenates_S2x1x64x1x256_S2x1x64x1x256_S2x1x64x1x256_S2x1x64x1x256_S2x1x64x1x256_S2x1x64x1x256_S2x6x64x1x256_d1 := by
  have h := (entry_writes (F := F)).nary_at (fun b => m (c, b)) 50 ![main_v44, main_v45, main_v46, main_v47, main_v48, main_v49] main_v50 _ _ _ rfl (by decide) (by decide)
  exact h

theorem v51_eq : (V m c main_v51 : S2x64x256x1.Idx → Elt F .f32) = extractStridedSlice S2x64x256x1 ![0, 0, 0, 255] (V m c main_v8) slices_S2x64x256x256_S2x64x256x1_0_0_0_255 := by
  have h := (entry_writes (F := F)).unary_at (fun b => m (c, b)) 51 main_v8 main_v51 _ _ _ rfl (by decide) (by decide)
  exact h

theorem v52_eq : (V m c main_v52 : S2x64x256x1.Idx → Elt F .f32) = extractStridedSlice S2x64x256x1 ![0, 0, 0, 255] (V m c main_v2) slices_S2x64x256x256_S2x64x256x1_0_0_0_255 := by
  have h := (entry_writes (F := F)).unary_at (fun b => m (c, b)) 52 main_v2 main_v52 _ _ _ rfl (by decide) (by decide)
  exact h

theorem v53_eq : (V m c main_v53 : S2x64x256x1.Idx → Elt F .f32) = extractStridedSlice S2x64x256x1 ![0, 0, 0, 255] (V m c main_v4) slices_S2x64x256x256_S2x64x256x1_0_0_0_255 := by
  have h := (entry_writes (F := F)).unary_at (fun b => m (c, b)) 53 main_v4 main_v53 _ _ _ rfl (by decide) (by decide)
  exact h

theorem v54_eq : (V m c main_v54 : S2x64x256x1.Idx → Elt F .f32) = extractStridedSlice S2x64x256x1 ![0, 0, 0, 255] (V m c main_v6) slices_S2x64x256x256_S2x64x256x1_0_0_0_255 := by
  have h := (entry_writes (F := F)).unary_at (fun b => m (c, b)) 54 main_v6 main_v54 _ _ _ rfl (by decide) (by decide)
  exact h

theorem v55_eq : (V m c main_v55 : S2x64x1x256.Idx → Elt F .f32) = extractStridedSlice S2x64x1x256 ![0, 0, 0, 0] (V m c main_v8) slices_S2x64x256x256_S2x64x1x256_0_0_0_0 := by
  have h := (entry_writes (F := F)).unary_at (fun b => m (c, b)) 55 main_v8 main_v55 _ _ _ rfl (by decide) (by decide)
  exact h

theorem v56_eq : (V m c main_v56 : S2x64x256x1.Idx → Elt F .f32) = transpose S2x64x256x1 [0, 1, 3, 2] (V m c main_v55) transposes_S2x64x1x256_S2x64x256x1_0_1_3_2 := by
  have h := (entry_writes (F := F)).unary_at (fun b => m (c, b)) 56 main_v55 main_v56 _ _ _ rfl (by decide) (by decide)
  exact h

theorem v57_eq : (V m c main_v57 : S2x64x1x256.Idx → Elt F .f32) = extractStridedSlice S2x64x1x256 ![0, 0, 255, 0] (V m c main_v8) slices_S2x64x256x256_S2x64x1x256_0_0_255_0 := by
  have h := (entry_writes (F := F)).unary_at (fun b => m (c, b)) 57 main_v8 main_v57 _ _ _ rfl (by decide) (by decide)
  exact h

theorem v58_eq : (V m c main_v58 : S2x64x256x1.Idx → Elt F .f32) = transpose S2x64x256x1 [0, 1, 3, 2] (V m c main_v57) transposes_S2x64x1x256_S2x64x256x1_0_1_3_2 := by
  have h := (entry_writes (F := F)).unary_at (fun b => m (c, b)) 58 main_v57 main_v58 _ _ _ rfl (by decide) (by decide)
  exact h

theorem v59_eq : (V m c main_v59 : S2x64x256x1.Idx → Elt F .f32) = Host.reverse [2] (V m c main_v58) := by
  have h := (entry_writes (F := F)).unary_at (fun b => m (c, b)) 59 main_v58 main_v59 _ _ _ rfl (by decide) (by decide)
  exact h

theorem v60_eq : (V m c main_v60 : S2x1x64x256x1.Idx → Elt F .f32) = broadcastInDim S2x1x64x256x1 ![0, 2, 3, 4] bcast_S2x64x256x1_S2x1x64x256x1_0_2_3_4 (V m c main_v51) := by
  have h := (entry_writes (F := F)).unary_at (fun b => m (c, b)) 60 main_v51 main_v60 _ _ _ rfl (by decide) (by decide)
  exact h

theorem v61_eq : (V m c main_v61 : S2x1x64x256x1.Idx → Elt F .f32) = broadcastInDim S2x1x64x256x1 ![0, 2, 3, 4] bcast_S2x64x256x1_S2x1x64x256x1_0_2_3_4 (V m c main_v52) := by
  have h := (entry_writes (F := F)).unary_at (fun b => m (c, b)) 61 main_v52 main_v61 _ _ _ rfl (by decide) (by decide)
  exact h

theorem v62_eq : (V m c main_v62 : S2x1x64x256x1.Idx → Elt F .f32) = broadcastInDim S2x1x64x256x1 ![0, 2, 3, 4] bcast_S2x64x256x1_S2x1x64x256x1_0_2_3_4 (V m c main_v53) := by
  have h := (entry_writes (F := F)).unary_at (fun b => m (c, b)) 62 main_v53 main_v62 _ _ _ rfl (by decide) (by decide)
  exact h

theorem v63_eq : (V m c main_v63 : S2x1x64x256x1.Idx → Elt F .f32) = broadcastInDim S2x1x64x256x1 ![0, 2, 3, 4] bcast_S2x64x256x1_S2x1x64x256x1_0_2_3_4 (V m c main_v54) := by
  have h := (entry_writes (F := F)).unary_at (fun b => m (c, b)) 63 main_v54 main_v63 _ _ _ rfl (by decide) (by decide)
  exact h

theorem v64_eq : (V m c main_v64 : S2x1x64x256x1.Idx → Elt F .f32) = broadcastInDim S2x1x64x256x1 ![0, 2, 3, 4] bcast_S2x64x256x1_S2x1x64x256x1_0_2_3_4 (V m c main_v56) := by
  have h := (entry_writes (F := F)).unary_at (fun b => m (c, b)) 64 main_v56 main_v64 _ _ _ rfl (by decide) (by decide)
  exact h

theorem v65_eq : (V m c main_v65 : S2x1x64x256x1.Idx → Elt F .f32) = broadcastInDim S2x1x64x256x1 ![0, 2, 3, 4] bcast_S2x64x256x1_S2x1x64x256x1_0_2_3_4 (V m c main_v59) := by
  have h := (entry_writes (F := F)).unary_at (fun b => m (c, b)) 65 main_v59 main_v65 _ _ _ rfl (by decide) (by decide)
  exact h

theorem v66_eq : (V m c main_v66 : S2x6x64x256x1.Idx → Elt F .f32) = concatenate S2x6x64x256x1 1 [⟨S2x1x64x256x1, V m c main_v60⟩, ⟨S2x1x64x256x1, V m c main_v61⟩, ⟨S2x1x64x256x1, V m c main_v62⟩, ⟨S2x1x64x256x1, V m c main_v63⟩, ⟨S2x1x64x256x1, V m c main_v64⟩, ⟨S2x1x64x256x1, V m c main_v65⟩] concatenates_S2x1x64x256x1_S2x1x64x256x1_S2x1x64x256x1_S2x1x64x256x1_S2x1x64x256x1_S2x1x64x256x1_S2x6x64x256x1_d1 := by
  have h := (entry_writes (F := F)).nary_at (fun b => m (c, b)) 66 ![main_v60, main_v61, main_v62, main_v63, main_v64, main_v65] main_v66 _ _ _ rfl (by decide) (by decide)
  exact h

theorem v67_eq : (V m c main_v67 : S2x64x256x1.Idx → Elt F .f32) = extractStridedSlice S2x64x256x1 ![0, 0, 0, 0] (V m c main_v4) slices_S2x64x256x256_S2x64x256x1_0_0_0_0 := by
  have h := (entry_writes (F := F)).unary_at (fun b => m (c, b)) 67 main_v4 main_v67 _ _ _ rfl (by decide) (by decide)
  exact h

theorem v68_eq : (V m c main_v68 : S2x64x256x1.Idx → Elt F .f32) = extractStridedSlice S2x64x256x1 ![0, 0, 0, 0] (V m c main_v6) slices_S2x64x256x256_S2x64x256x1_0_0_0_0 := by
  have h := (entry_writes (F := F)).unary_at (fun b => m (c, b)) 68 main_v6 main_v68 _ _ _ rfl (by decide) (by decide)
  exact h

theorem v69_eq : (V m c main_v69 : S2x64x256x1.Idx → Elt F .f32) = extractStridedSlice S2x64x256x1 ![0, 0, 0, 0] (V m c main_v8) slices_S2x64x256x256_S2x64x256x1_0_0_0_0 := by
  have h := (entry_writes (F := F)).unary_at (fun b => m (c, b)) 69 main_v8 main_v69 _ _ _ rfl (by decide) (by decide)
  exact h

theorem v70_eq : (V m c main_v70 : S2x64x256x1.Idx → Elt F .f32) = extractStridedSlice S2x64x256x1 ![0, 0, 0, 0] (V m c main_v2) slices_S2x64x256x256_S2x64x256x1_0_0_0_0 := by
  have h := (entry_writes (F := F)).unary_at (fun b => m (c, b)) 70 main_v2 main_v70 _ _ _ rfl (by decide) (by decide)
  exact h

theorem v71_eq : (V m c main_v71 : S2x64x1x256.Idx → Elt F .f32) = extractStridedSlice S2x64x1x256 ![0, 0, 0, 0] (V m c main_v4) slices_S2x64x256x256_S2x64x1x256_0_0_0_0 := by
  have h := (entry_writes (F := F)).unary_at (fun b => m (c, b)) 71 main_v4 main_v71 _ _ _ rfl (by decide) (by decide)
  exact h

theorem v72_eq : (V m c main_v72 : S2x64x256x1.Idx → Elt F .f32) = transpose S2x64x256x1 [0, 1, 3, 2] (V m c main_v71) transposes_S2x64x1x256_S2x64x256x1_0_1_3_2 := by
  have h := (entry_writes (F := F)).unary_at (fun b => m (c, b)) 72 main_v71 main_v72 _ _ _ rfl (by decide) (by decide)
  exact h

theorem v73_eq : (V m c main_v73 : S2x64x256x1.Idx → Elt F .f32) = Host.reverse [2] (V m c main_v72) := by
  have h := (entry_writes (F := F)).unary_at (fun b => m (c, b)) 73 main_v72 main_v73 _ _ _ rfl (by decide) (by decide)
  exact h

theorem v74_eq : (V m c main_v74 : S2x64x1x256.Idx → Elt F .f32) = extractStridedSlice S2x64x1x256 ![0, 0, 255, 0] (V m c main_v4) slices_S2x64x256x256_S2x64x1x256_0_0_255_0 := by
  have h := (entry_writes (F := F)).unary_at (fun b => m (c, b)) 74 main_v4 main_v74 _ _ _ rfl (by decide) (by decide)
  exact h

theorem v75_eq : (V m c main_v75 : S2x64x1x256.Idx → Elt F .f32) = Host.reverse [2] (V m c main_v74) := by
  have h := (entry_writes (F := F)).unary_at (fun b => m (c, b)) 75 main_v74 main_v75 _ _ _ rfl (by decide) (by decide)
  exact h

theorem v76_eq : (V m c main_v76 : S2x64x256x1.Idx → Elt F .f32) = transpose S2x64x256x1 [0, 1, 3, 2] (V m c main_v75) transposes_S2x64x1x256_S2x64x256x1_0_1_3_2 := by
  have h := (entry_writes (F := F)).unary_at (fun b => m (c, b)) 76 main_v75 main_v76 _ _ _ rfl (by decide) (by decide)
  exact h

theorem v77_eq : (V m c main_v77 : S2x1x64x256x1.Idx → Elt F .f32) = broadcastInDim S2x1x64x256x1 ![0, 2, 3, 4] bcast_S2x64x256x1_S2x1x64x256x1_0_2_3_4 (V m c main_v67) := by
  have h := (entry_writes (F := F)).unary_at (fun b => m (c, b)) 77 main_v67 main_v77 _ _ _ rfl (by decide) (by decide)
  exact h

theorem v78_eq : (V m c main_v78 : S2x1x64x256x1.Idx → Elt F .f32) = broadcastInDim S2x1x64x256x1 ![0, 2, 3, 4] bcast_S2x64x256x1_S2x1x64x256x1_0_2_3_4 (V m c main_v68) := by
  have h := (entry_writes (F := F)).unary_at (fun b => m (c, b)) 78 main_v68 main_v78 _ _ _ rfl (by decide) (by decide)
  exact h

theorem v79_eq : (V m c main_v79 : S2x1x64x256x1.Idx → Elt F .f32) = broadcastInDim S2x1x64x256x1 ![0, 2, 3, 4] bcast_S2x64x256x1_S2x1x64x256x1_0_2_3_4 (V m c main_v69) := by
  have h := (entry_writes (F := F)).unary_at (fun b => m (c, b)) 79 main_v69 main_v79 _ _ _ rfl (by decide) (by decide)
  exact h

theorem v80_eq : (V m c main_v80 : S2x1x64x256x1.Idx → Elt F .f32) = broadcastInDim S2x1x64x256x1 ![0, 2, 3, 4] bcast_S2x64x256x1_S2x1x64x256x1_0_2_3_4 (V m c main_v70) := by
  have h := (entry_writes (F := F)).unary_at (fun b => m (c, b)) 80 main_v70 main_v80 _ _ _ rfl (by decide) (by decide)
  exact h

theorem v81_eq : (V m c main_v81 : S2x1x64x256x1.Idx → Elt F .f32) = broadcastInDim S2x1x64x256x1 ![0, 2, 3, 4] bcast_S2x64x256x1_S2x1x64x256x1_0_2_3_4 (V m c main_v73) := by
  have h := (entry_writes (F := F)).unary_at (fun b => m (c, b)) 81 main_v73 main_v81 _ _ _ rfl (by decide) (by decide)
  exact h

theorem v82_eq : (V m c main_v82 : S2x1x64x256x1.Idx → Elt F .f32) = broadcastInDim S2x1x64x256x1 ![0, 2, 3, 4] bcast_S2x64x256x1_S2x1x64x256x1_0_2_3_4 (V m c main_v76) := by
  have h := (entry_writes (F := F)).unary_at (fun b => m (c, b)) 82 main_v76 main_v82 _ _ _ rfl (by decide) (by decide)
  exact h

theorem v83_eq : (V m c main_v83 : S2x6x64x256x1.Idx → Elt F .f32) = concatenate S2x6x64x256x1 1 [⟨S2x1x64x256x1, V m c main_v77⟩, ⟨S2x1x64x256x1, V m c main_v78⟩, ⟨S2x1x64x256x1, V m c main_v79⟩, ⟨S2x1x64x256x1, V m c main_v80⟩, ⟨S2x1x64x256x1, V m c main_v81⟩, ⟨S2x1x64x256x1, V m c main_v82⟩] concatenates_S2x1x64x256x1_S2x1x64x256x1_S2x1x64x256x1_S2x1x64x256x1_S2x1x64x256x1_S2x1x64x256x1_S2x6x64x256x1_d1 := by
  have h := (entry_writes (F := F)).nary_at (fun b => m (c, b)) 83 ![main_v77, main_v78, main_v79, main_v80, main_v81, main_v82] main_v83 _ _ _ rfl (by decide) (by decide)
  exact h

theorem v84_eq : (V m c main_v84 : S2x6x64x1x1.Idx → Elt F .f32) = extractStridedSlice S2x6x64x1x1 ![0, 0, 0, 0, 255] (V m c main_v31) slices_S2x6x64x1x256_S2x6x64x1x1_0_0_0_0_255 := by
  have h := (entry_writes (F := F)).unary_at (fun b => m (c, b)) 84 main_v31 main_v84 _ _ _ rfl (by decide) (by decide)
  exact h

theorem v85_eq : (V m c main_v85 : S2x6x64x1x1.Idx → Elt F .f32) = extractStridedSlice S2x6x64x1x1 ![0, 0, 0, 0, 0] (V m c main_v31) slices_S2x6x64x1x256_S2x6x64x1x1_0_0_0_0_0 := by
  have h := (entry_writes (F := F)).unary_at (fun b => m (c, b)) 85 main_v31 main_v85 _ _ _ rfl (by decide) (by decide)
  exact h

theorem v86_eq : (V m c main_v86 : S2x6x64x1x1.Idx → Elt F .f32) = extractStridedSlice S2x6x64x1x1 ![0, 0, 0, 0, 255] (V m c main_v50) slices_S2x6x64x1x256_S2x6x64x1x1_0_0_0_0_255 := by
  have h := (entry_writes (F := F)).unary_at (fun b => m (c, b)) 86 main_v50 main_v86 _ _ _ rfl (by decide) (by decide)
  exact h

theorem v87_eq : (V m c main_v87 : S2x6x64x1x1.Idx → Elt F .f32) = extractStridedSlice S2x6x64x1x1 ![0, 0, 0, 0, 0] (V m c main_v50) slices_S2x6x64x1x256_S2x6x64x1x1_0_0_0_0_0 := by
  have h := (entry_writes (F := F)).unary_at (fun b => m (c, b)) 87 main_v50 main_v87 _ _ _ rfl (by decide) (by decide)
  exact h

theorem v88_eq : (V m c main_v88 : S2x6x64x258x1.Idx → Elt F .f32) = concatenate S2x6x64x258x1 3 [⟨S2x6x64x1x1, V m c main_v85⟩, ⟨S2x6x64x256x1, V m c main_v66⟩, ⟨S2x6x64x1x1, V m c main_v87⟩] concatenates_S2x6x64x1x1_S2x6x64x256x1_S2x6x64x1x1_S2x6x64x258x1_d3 := by
  have h := (entry_writes (F := F)).nary_at (fun b => m (c, b)) 88 ![main_v85, main_v66, main_v87] main_v88 _ _ _ rfl (by decide) (by decide)
  exact h

theorem v89_eq : (V m c main_v89 : S2x6x64x258x1.Idx → Elt F .f32) = concatenate S2x6x64x258x1 3 [⟨S2x6x64x1x1, V m c main_v84⟩, ⟨S2x6x64x256x1, V m c main_v83⟩, ⟨S2x6x64x1x1, V m c main_v86⟩] concatenates_S2x6x64x1x1_S2x6x64x256x1_S2x6x64x1x1_S2x6x64x258x1_d3 := by
  have h := (entry_writes (F := F)).nary_at (fun b => m (c, b)) 89 ![main_v84, main_v83, main_v86] main_v89 _ _ _ rfl (by decide) (by decide)
  exact h

theorem v90_eq : (V m c main_v90 : S768x256x256.Idx → Elt F .f32) = shapeCast S768x256x256 (V m c main_v0) shapeCasts_S2x6x64x256x256_S768x256x256 := by
  have h := (entry_writes (F := F)).reshape_at (fun b => m (c, b)) 90 main_v0 main_v90 _ _ _ _ rfl (by decide) (by decide)
  exact h

theorem v91_eq : (V m c main_v91 : S768x1x256.Idx → Elt F .f32) = shapeCast S768x1x256 (V m c main_v31) shapeCasts_S2x6x64x1x256_S768x1x256 := by
  have h := (entry_writes (F := F)).reshape_at (fun b => m (c, b)) 91 main_v31 main_v91 _ _ _ _ rfl (by decide) (by decide)
  exact h

theorem v92_eq : (V m c main_v92 : S768x1x256.Idx → Elt F .f32) = shapeCast S768x1x256 (V m c main_v50) shapeCasts_S2x6x64x1x256_S768x1x256 := by
  have h := (entry_writes (F := F)).reshape_at (fun b => m (c, b)) 92 main_v50 main_v92 _ _ _ _ rfl (by decide) (by decide)
  exact h

theorem v93_eq : (V m c main_v93 : S768x258x1.Idx → Elt F .f32) = shapeCast S768x258x1 (V m c main_v88) shapeCasts_S2x6x64x258x1_S768x258x1 := by
  have h := (entry_writes (F := F)).reshape_at (fun b => m (c, b)) 93 main_v88 main_v93 _ _ _ _ rfl (by decide) (by decide)
  exact h

theorem v94_eq : (V m c main_v94 : S768x258x1.Idx → Elt F .f32) = shapeCast S768x258x1 (V m c main_v89) shapeCasts_S2x6x64x258x1_S768x258x1 := by
  have h := (entry_writes (F := F)).reshape_at (fun b => m (c, b)) 94 main_v89 main_v94 _ _ _ _ rfl (by decide) (by decide)
  exact h

end Cert.KernelIdeal.Pad

end
-- ==== Proof.KHStack.lean ====
/-
  Reading the stacked border arrays index by index.

  Six border rows (or columns), one per face, each for both cubes and all 64 channels, are given a unit face axis
  and laid side by side along it; a corner pixel is one column cut out of such a stack of rows; a border column is
  closed by putting a corner pixel above it and one below it; and every array is finally flattened so that its three
  leading axes (cube, face, channel) become one axis of 768 images. Each lemma says which entry of the pieces an entry
  of the assembled array is. Nothing here depends on what the pieces hold.
-/
import Idealize.ShloMosaic.PureOps
import Idealize.ShloMosaic.Lib.ValueIdx
import Idealize.ShloMosaic.Lib.Pipeline.Value

namespace Cert.CubePad.Stack

open Idealize.ShloMosaic Idealize.ShloMosaic.ValueIdx

/-- One face's border row, and its border column, for both cubes and all channels. -/
abbrev Row : Shape := ⟨4, ![2, 64, 1, 256]⟩
abbrev Col : Shape := ⟨4, ![2, 64, 256, 1]⟩
/-- The same with a unit face axis. -/
abbrev Row1 : Shape := ⟨5, ![2, 1, 64, 1, 256]⟩
abbrev Col1 : Shape := ⟨5, ![2, 1, 64, 256, 1]⟩
/-- Six of them side by side along the face axis. -/
abbrev Row6 : Shape := ⟨5, ![2, 6, 64, 1, 256]⟩
abbrev Col6 : Shape := ⟨5, ![2, 6, 64, 256, 1]⟩
/-- One pixel for every cube, face and channel. -/
abbrev Pix6 : Shape := ⟨5, ![2, 6, 64, 1, 1]⟩
/-- The border columns with a corner pixel at each end. -/
abbrev Col6c : Shape := ⟨5, ![2, 6, 64, 258, 1]⟩
/-- The faces, cube by cube. -/
abbrev Face6 : Shape := ⟨5, ![2, 6, 64, 256, 256]⟩
/-- The same arrays as 768 images. -/
abbrev ImgFace : Shape := ⟨3, ![768, 256, 256]⟩
abbrev ImgRow : Shape := ⟨3, ![768, 1, 256]⟩
abbrev ImgCol : Shape := ⟨3, ![768, 258, 1]⟩

variable {α : Type}

/-! ## The unit face axis -/

/-- A border row given a unit face axis holds, at face coordinate 0, what the row holds. -/
theorem addFace_row_apply (hb : Row.BroadcastsInDim Row1 ![0, 2, 3, 4]) (x : Row.Idx → α) (n : Fin 2) (ch : Fin 64)
    (q : Fin 256) : broadcastInDim Row1 ![0, 2, 3, 4] hb x (ix5 n 0 ch 0 q) = x (ix4 n ch 0 q) :=
  broadcastInDim_apply _ hb x _ _ fun a => match a with
    | ⟨0, _⟩ => rfl | ⟨1, _⟩ => rfl | ⟨2, _⟩ => rfl | ⟨3, _⟩ => rfl

/-- A border column given a unit face axis holds, at face coordinate 0, what the column holds. -/
theorem addFace_col_apply (hb : Col.BroadcastsInDim Col1 ![0, 2, 3, 4]) (x : Col.Idx → α) (n : Fin 2) (ch : Fin 64)
    (r : Fin 256) : broadcastInDim Col1 ![0, 2, 3, 4] hb x (ix5 n 0 ch r 0) = x (ix4 n ch r 0) :=
  broadcastInDim_apply _ hb x _ _ fun a => match a with
    | ⟨0, _⟩ => rfl | ⟨1, _⟩ => rfl | ⟨2, _⟩ => rfl | ⟨3, _⟩ => rfl

/-! ## Six pieces side by side -/

/-- The six border rows `p 0 … p 5`, each with its unit face axis. -/
abbrev rowPieces (hb : Row.BroadcastsInDim Row1 ![0, 2, 3, 4]) (p : Fin 6 → Row.Idx → α) : List ((s : Shape) × (s.Idx → α)) :=
    [ ⟨Row1, broadcastInDim Row1 ![0, 2, 3, 4] hb (p 0)⟩,
      ⟨Row1, broadcastInDim Row1 ![0, 2, 3, 4] hb (p 1)⟩,
      ⟨Row1, broadcastInDim Row1 ![0, 2, 3, 4] hb (p 2)⟩,
      ⟨Row1, broadcastInDim Row1 ![0, 2, 3, 4] hb (p 3)⟩,
      ⟨Row1, broadcastInDim Row1 ![0, 2, 3, 4] hb (p 4)⟩,
      ⟨Row1, broadcastInDim Row1 ![0, 2, 3, 4] hb (p 5)⟩ ]

/-- The six border columns `p 0 … p 5`, each with its unit face axis. -/
abbrev colPieces (hb : Col.BroadcastsInDim Col1 ![0, 2, 3, 4]) (p : Fin 6 → Col.Idx → α) : List ((s : Shape) × (s.Idx → α)) :=
    [ ⟨Col1, broadcastInDim Col1 ![0, 2, 3, 4] hb (p 0)⟩,
      ⟨Col1, broadcastInDim Col1 ![0, 2, 3, 4] hb (p 1)⟩,
      ⟨Col1, broadcastInDim Col1 ![0, 2, 3, 4] hb (p 2)⟩,
      ⟨Col1, broadcastInDim Col1 ![0, 2, 3, 4] hb (p 3)⟩,
      ⟨Col1, broadcastInDim Col1 ![0, 2, 3, 4] hb (p 4)⟩,
      ⟨Col1, broadcastInDim Col1 ![0, 2, 3, 4] hb (p 5)⟩ ]

/-- The six border rows side by side along the face axis. -/
abbrev stackRows (hb : Row.BroadcastsInDim Row1 ![0, 2, 3, 4]) (hc : Shape.Concatenates [Row1, Row1, Row1, Row1, Row1, Row1] Row6 1)
    (p : Fin 6 → Row.Idx → α) : Row6.Idx → α :=
  concatenate Row6 1 (rowPieces hb p) hc

/-- The six border columns side by side along the face axis. -/
abbrev stackCols (hb : Col.BroadcastsInDim Col1 ![0, 2, 3, 4]) (hc : Shape.Concatenates [Col1, Col1, Col1, Col1, Col1, Col1] Col6 1)
    (p : Fin 6 → Col.Idx → α) : Col6.Idx → α :=
  concatenate Col6 1 (colPieces hb p) hc

/-- Face `f` of the stacked rows is row piece `f`: the pieces before it take up `f` face coordinates, and inside
    its own piece the face coordinate is 0. -/
theorem stackRows_apply (hb : Row.BroadcastsInDim Row1 ![0, 2, 3, 4]) (hc : Shape.Concatenates [Row1, Row1, Row1, Row1, Row1, Row1] Row6 1)
    (p : Fin 6 → Row.Idx → α) (n : Fin 2) (f : Fin 6) (ch : Fin 64) (q : Fin 256) :
    stackRows hb hc p (ix5 n f ch 0 q) = p f (ix4 n ch 0 q) :=
  match f with
  | ⟨0, _⟩ =>
    (concatenate_apply_piece (t := Row6) 1 (rowPieces hb p) hc _ 0 (by show 0 < 6; omega) Row1 _ rfl rfl 0 rfl (ix5 n 0 ch 0 q)
      (fun b hb' => match b with
        | ⟨0, _⟩ => rfl | ⟨1, _⟩ => absurd rfl hb' | ⟨2, _⟩ => rfl | ⟨3, _⟩ => rfl | ⟨4, _⟩ => rfl) rfl).trans
      (addFace_row_apply hb (p 0) n ch q)
  | ⟨1, _⟩ =>
    (concatenate_apply_piece (t := Row6) 1 (rowPieces hb p) hc _ 1 (by show 1 < 6; omega) Row1 _ rfl rfl 1 rfl (ix5 n 0 ch 0 q)
      (fun b hb' => match b with
        | ⟨0, _⟩ => rfl | ⟨1, _⟩ => absurd rfl hb' | ⟨2, _⟩ => rfl | ⟨3, _⟩ => rfl | ⟨4, _⟩ => rfl) rfl).trans
      (addFace_row_apply hb (p 1) n ch q)
  | ⟨2, _⟩ =>
    (concatenate_apply_piece (t := Row6) 1 (rowPieces hb p) hc _ 2 (by show 2 < 6; omega) Row1 _ rfl rfl 2 rfl (ix5 n 0 ch 0 q)
      (fun b hb' => match b with
        | ⟨0, _⟩ => rfl | ⟨1, _⟩ => absurd rfl hb' | ⟨2, _⟩ => rfl | ⟨3, _⟩ => rfl | ⟨4, _⟩ => rfl) rfl).trans
      (addFace_row_apply hb (p 2) n ch q)
  | ⟨3, _⟩ =>
    (concatenate_apply_piece (t := Row6) 1 (rowPieces hb p) hc _ 3 (by show 3 < 6; omega) Row1 _ rfl rfl 3 rfl (ix5 n 0 ch 0 q)
      (fun b hb' => match b with
        | ⟨0, _⟩ => rfl | ⟨1, _⟩ => absurd rfl hb' | ⟨2, _⟩ => rfl | ⟨3, _⟩ => rfl | ⟨4, _⟩ => rfl) rfl).trans
      (addFace_row_apply hb (p 3) n ch q)
  | ⟨4, _⟩ =>
    (concatenate_apply_piece (t := Row6) 1 (rowPieces hb p) hc _ 4 (by show 4 < 6; omega) Row1 _ rfl rfl 4 rfl (ix5 n 0 ch 0 q)
      (fun b hb' => match b with
        | ⟨0, _⟩ => rfl | ⟨1, _⟩ => absurd rfl hb' | ⟨2, _⟩ => rfl | ⟨3, _⟩ => rfl | ⟨4, _⟩ => rfl) rfl).trans
      (addFace_row_apply hb (p 4) n ch q)
  | ⟨5, _⟩ =>
    (concatenate_apply_piece (t := Row6) 1 (rowPieces hb p) hc _ 5 (by show 5 < 6; omega) Row1 _ rfl rfl 5 rfl (ix5 n 0 ch 0 q)
      (fun b hb' => match b with
        | ⟨0, _⟩ => rfl | ⟨1, _⟩ => absurd rfl hb' | ⟨2, _⟩ => rfl | ⟨3, _⟩ => rfl | ⟨4, _⟩ => rfl) rfl).trans
      (addFace_row_apply hb (p 5) n ch q)
  | ⟨k + 6, h⟩ => absurd h (by omega)

/-- Face `f` of the stacked columns is column piece `f`. -/
theorem stackCols_apply (hb : Col.BroadcastsInDim Col1 ![0, 2, 3, 4]) (hc : Shape.Concatenates [Col1, Col1, Col1, Col1, Col1, Col1] Col6 1)
    (p : Fin 6 → Col.Idx → α) (n : Fin 2) (f : Fin 6) (ch : Fin 64) (r : Fin 256) :
    stackCols hb hc p (ix5 n f ch r 0) = p f (ix4 n ch r 0) :=
  match f with
  | ⟨0, _⟩ =>
    (concatenate_apply_piece (t := Col6) 1 (colPieces hb p) hc _ 0 (by show 0 < 6; omega) Col1 _ rfl rfl 0 rfl (ix5 n 0 ch r 0)
      (fun b hb' => match b with
        | ⟨0, _⟩ => rfl | ⟨1, _⟩ => absurd rfl hb' | ⟨2, _⟩ => rfl | ⟨3, _⟩ => rfl | ⟨4, _⟩ => rfl) rfl).trans
      (addFace_col_apply hb (p 0) n ch r)
  | ⟨1, _⟩ =>
    (concatenate_apply_piece (t := Col6) 1 (colPieces hb p) hc _ 1 (by show 1 < 6; omega) Col1 _ rfl rfl 1 rfl (ix5 n 0 ch r 0)
      (fun b hb' => match b with
        | ⟨0, _⟩ => rfl | ⟨1, _⟩ => absurd rfl hb' | ⟨2, _⟩ => rfl | ⟨3, _⟩ => rfl | ⟨4, _⟩ => rfl) rfl).trans
      (addFace_col_apply hb (p 1) n ch r)
  | ⟨2, _⟩ =>
    (concatenate_apply_piece (t := Col6) 1 (colPieces hb p) hc _ 2 (by show 2 < 6; omega) Col1 _ rfl rfl 2 rfl (ix5 n 0 ch r 0)
      (fun b hb' => match b with
        | ⟨0, _⟩ => rfl | ⟨1, _⟩ => absurd rfl hb' | ⟨2, _⟩ => rfl | ⟨3, _⟩ => rfl | ⟨4, _⟩ => rfl) rfl).trans
      (addFace_col_apply hb (p 2) n ch r)
  | ⟨3, _⟩ =>
    (concatenate_apply_piece (t := Col6) 1 (colPieces hb p) hc _ 3 (by show 3 < 6; omega) Col1 _ rfl rfl 3 rfl (ix5 n 0 ch r 0)
      (fun b hb' => match b with
        | ⟨0, _⟩ => rfl | ⟨1, _⟩ => absurd rfl hb' | ⟨2, _⟩ => rfl | ⟨3, _⟩ => rfl | ⟨4, _⟩ => rfl) rfl).trans
      (addFace_col_apply hb (p 3) n ch r)
  | ⟨4, _⟩ =>
    (concatenate_apply_piece (t := Col6) 1 (colPieces hb p) hc _ 4 (by show 4 < 6; omega) Col1 _ rfl rfl 4 rfl (ix5 n 0 ch r 0)
      (fun b hb' => match b with
        | ⟨0, _⟩ => rfl | ⟨1, _⟩ => absurd rfl hb' | ⟨2, _⟩ => rfl | ⟨3, _⟩ => rfl | ⟨4, _⟩ => rfl) rfl).trans
      (addFace_col_apply hb (p 4) n ch r)
  | ⟨5, _⟩ =>
    (concatenate_apply_piece (t := Col6) 1 (colPieces hb p) hc _ 5 (by show 5 < 6; omega) Col1 _ rfl rfl 5 rfl (ix5 n 0 ch r 0)
      (fun b hb' => match b with
        | ⟨0, _⟩ => rfl | ⟨1, _⟩ => absurd rfl hb' | ⟨2, _⟩ => rfl | ⟨3, _⟩ => rfl | ⟨4, _⟩ => rfl) rfl).trans
      (addFace_col_apply hb (p 5) n ch r)
  | ⟨k + 6, h⟩ => absurd h (by omega)

/-! ## A corner pixel -/

/-- The one-column cut of the stacked rows at column `off` holds their pixel `q = off`. -/
theorem corner_apply (off : Nat) (X : Row6.Idx → α) (hs : Row6.Slices ![0, 0, 0, 0, off] Pix6) (n : Fin 2) (f : Fin 6)
    (ch : Fin 64) (q : Fin 256) (hq : q.val = off) :
    extractStridedSlice Pix6 ![0, 0, 0, 0, off] X hs (ix5 n f ch 0 0) = X (ix5 n f ch 0 q) :=
  extractStridedSlice_apply _ X hs _ _ fun a => match a with
    | ⟨0, _⟩ => by show n.val = 0 + n.val; omega
    | ⟨1, _⟩ => by show f.val = 0 + f.val; omega
    | ⟨2, _⟩ => by show ch.val = 0 + ch.val; omega
    | ⟨3, _⟩ => by show 0 = 0 + 0; omega
    | ⟨4, _⟩ => by show q.val = off + 0; omega

/-! ## A border column closed by its corners -/

/-- Row `r` of the closed column: the upper corner at `r = 0`, the lower corner at `r = 257`, and row `r - 1` of the
    column between them. -/
theorem closed_apply (T B : Pix6.Idx → α) (S : Col6.Idx → α) (hc : Shape.Concatenates [Pix6, Col6, Pix6] Col6c 3)
    (n : Fin 2) (f : Fin 6) (ch : Fin 64) (r : Fin 258) :
    concatenate Col6c 3 [⟨Pix6, T⟩, ⟨Col6, S⟩, ⟨Pix6, B⟩] hc (ix5 n f ch r 0)
      = if r.val = 0 then T (ix5 n f ch 0 0)
        else if h : r.val = 257 then B (ix5 n f ch 0 0)
        else S (ix5 n f ch ⟨r.val - 1, by have := r.isLt; omega⟩ 0) := by
  have hr := r.isLt
  by_cases h0 : r.val = 0
  · rw [if_pos h0]
    exact concatenate_apply_piece (t := Col6c) 3 [⟨Pix6, T⟩, ⟨Col6, S⟩, ⟨Pix6, B⟩] hc _ 0 (by show 0 < 3; omega) Pix6 T rfl rfl 0 rfl (ix5 n f ch 0 0)
      (fun b hb' => match b with
        | ⟨0, _⟩ => rfl | ⟨1, _⟩ => rfl | ⟨2, _⟩ => rfl | ⟨3, _⟩ => absurd rfl hb' | ⟨4, _⟩ => rfl)
      (by show 0 + 0 = r.val; omega)
  · rw [if_neg h0]
    by_cases h1 : r.val = 257
    · rw [dif_pos h1]
      exact concatenate_apply_piece (t := Col6c) 3 [⟨Pix6, T⟩, ⟨Col6, S⟩, ⟨Pix6, B⟩] hc _ 2 (by show 2 < 3; omega) Pix6 B rfl rfl 257 rfl (ix5 n f ch 0 0)
        (fun b hb' => match b with
          | ⟨0, _⟩ => rfl | ⟨1, _⟩ => rfl | ⟨2, _⟩ => rfl | ⟨3, _⟩ => absurd rfl hb' | ⟨4, _⟩ => rfl)
        (by show 257 + 0 = r.val; omega)
    · rw [dif_neg h1]
      exact concatenate_apply_piece (t := Col6c) 3 [⟨Pix6, T⟩, ⟨Col6, S⟩, ⟨Pix6, B⟩] hc _ 1 (by show 1 < 3; omega) Col6 S rfl rfl 1 rfl
        (ix5 n f ch ⟨r.val - 1, by omega⟩ 0)
        (fun b hb' => match b with
          | ⟨0, _⟩ => rfl | ⟨1, _⟩ => rfl | ⟨2, _⟩ => rfl | ⟨3, _⟩ => absurd rfl hb' | ⟨4, _⟩ => rfl)
        (by show 1 + (r.val - 1) = r.val; omega)

/-! ## The 768 images -/

/-- Image `b = (6 n + f) · 64 + ch` of the flattened faces is channel `ch` of face `f` of cube `n`. -/
theorem flat_face_apply (X : Face6.Idx → α) (h : Face6.ShapeCasts ImgFace) (b : Fin 768) (n : Fin 2) (f : Fin 6)
    (ch : Fin 64) (hb : b.val = (n.val * 6 + f.val) * 64 + ch.val) (r s : Fin 256) :
    shapeCast ImgFace X h (ix3 b r s) = X (ix5 n f ch r s) :=
  shapeCast_apply X h _ _ (by
    rw [Shape.rowMajor_val_five, Shape.rowMajor_val_three]
    show (((n.val * 6 + f.val) * 64 + ch.val) * 256 + r.val) * 256 + s.val = (b.val * 256 + r.val) * 256 + s.val
    rw [hb])

/-- The same for the flattened border rows. -/
theorem flat_row_apply (X : Row6.Idx → α) (h : Row6.ShapeCasts ImgRow) (b : Fin 768) (n : Fin 2) (f : Fin 6)
    (ch : Fin 64) (hb : b.val = (n.val * 6 + f.val) * 64 + ch.val) (q : Fin 256) :
    shapeCast ImgRow X h (ix3 b 0 q) = X (ix5 n f ch 0 q) :=
  shapeCast_apply X h _ _ (by
    rw [Shape.rowMajor_val_five, Shape.rowMajor_val_three]
    show (((n.val * 6 + f.val) * 64 + ch.val) * 1 + 0) * 256 + q.val = (b.val * 1 + 0) * 256 + q.val
    rw [hb])

/-- The same for the flattened closed columns. -/
theorem flat_col_apply (X : Col6c.Idx → α) (h : Col6c.ShapeCasts ImgCol) (b : Fin 768) (n : Fin 2) (f : Fin 6)
    (ch : Fin 64) (hb : b.val = (n.val * 6 + f.val) * 64 + ch.val) (r : Fin 258) :
    shapeCast ImgCol X h (ix3 b r 0) = X (ix5 n f ch r 0) :=
  shapeCast_apply X h _ _ (by
    rw [Shape.rowMajor_val_five, Shape.rowMajor_val_three]
    show (((n.val * 6 + f.val) * 64 + ch.val) * 258 + r.val) * 1 + 0 = (b.val * 258 + r.val) * 1 + 0
    rw [hb])

/-! ## A closed column of the flattened array, from the pieces -/

/-- Row `r` of image `b`'s closed border column, built from the row pieces `top`, `bot` (whose pixel `q`, at column
    `off`, gives the corners) and the column pieces `side`. -/
theorem flat_closed_apply (hbr : Row.BroadcastsInDim Row1 ![0, 2, 3, 4]) (hcr : Shape.Concatenates [Row1, Row1, Row1, Row1, Row1, Row1] Row6 1)
    (hbc : Col.BroadcastsInDim Col1 ![0, 2, 3, 4]) (hcc : Shape.Concatenates [Col1, Col1, Col1, Col1, Col1, Col1] Col6 1)
    (off : Nat) (hs : Row6.Slices ![0, 0, 0, 0, off] Pix6) (hc : Shape.Concatenates [Pix6, Col6, Pix6] Col6c 3)
    (h : Col6c.ShapeCasts ImgCol)
    (top bot : Fin 6 → Row.Idx → α) (side : Fin 6 → Col.Idx → α) (q : Fin 256) (hq : q.val = off)
    (b : Fin 768) (n : Fin 2) (f : Fin 6) (ch : Fin 64) (hb : b.val = (n.val * 6 + f.val) * 64 + ch.val) (r : Fin 258) :
    shapeCast ImgCol
        (concatenate Col6c 3
          [⟨Pix6, extractStridedSlice Pix6 ![0, 0, 0, 0, off] (stackRows hbr hcr top) hs⟩,
           ⟨Col6, stackCols hbc hcc side⟩,
           ⟨Pix6, extractStridedSlice Pix6 ![0, 0, 0, 0, off] (stackRows hbr hcr bot) hs⟩] hc) h (ix3 b r 0)
      = if r.val = 0 then top f (ix4 n ch 0 q)
        else if h : r.val = 257 then bot f (ix4 n ch 0 q)
        else side f (ix4 n ch ⟨r.val - 1, by have := r.isLt; omega⟩ 0) := by
  rw [flat_col_apply _ h b n f ch hb r, closed_apply _ _ _ hc n f ch r,
    corner_apply off _ hs n f ch q hq, corner_apply off _ hs n f ch q hq,
    stackRows_apply hbr hcr top n f ch q, stackRows_apply hbr hcr bot n f ch q]
  by_cases h0 : r.val = 0
  · rw [if_pos h0, if_pos h0]
  · rw [if_neg h0, if_neg h0]
    by_cases h1 : r.val = 257
    · rw [dif_pos h1, dif_pos h1]
    · rw [dif_neg h1, dif_neg h1]
      exact stackCols_apply hbc hcc side n f ch _

end Cert.CubePad.Stack
-- ==== Proof.KHost.lean ====
/-
  What the padding region finds in the five arrays it reads, image by image.

  The program cuts the six faces out of the input, takes the 24 edge pieces from them, gives each piece a unit face
  axis and lays the six pieces of a kind side by side, cuts the corner pixels out of the stacked top and bottom rows
  (column 0 for the left border, column 255 for the right), closes each stacked border column with its two corners,
  and flattens everything to 768 images. Read at image `b = (6 n + f) · 64 + c`: the faces array holds channel `c`
  of face `f` of cube `n`; the row arrays hold face `f`'s top and bottom pieces; the column arrays hold face `f`'s
  left and right pieces between the corner pixels. What the pieces themselves hold is not looked at here.
-/
import proofs.«116597_j71528385347689_2_alg».proof.Proof.KHSteps
import proofs.«116597_j71528385347689_2_alg».proof.Proof.KHStack
import proofs.«116597_j71528385347689_2_alg».proof.Proof.Spec

noncomputable section

namespace Cert.KernelIdeal.Pad

open Cert.KernelIdeal Cert.KernelIdeal.Gen Idealize.ShloMosaic Idealize.ShloMosaic.TcCoe
open Idealize.SL Idealize.SL.Sem
open Idealize.ShloMosaic.ValueIdx Cert.CubePad.Stack

variable {F : FTy → Type} [FloatOps F]
variable (m : (ℓ : Loc nD τ sig) → Buf (Elt F) ℓ) (c : Dev nD)

/-! ## The faces and the 24 edge pieces, as the region's program has them -/

/-- The input as cubes × faces × channels × rows × columns. -/
def kFaces : Cert.CubePad.Faces.Idx → Elt F .f32 := V m c main_v0

/-- The top border rows, face by face. -/
def kTop : Fin 6 → Cert.CubePad.RowS.Idx → Elt F .f32
  | 0 => V m c main_v13 | 1 => V m c main_v16 | 2 => V m c main_v18
  | 3 => V m c main_v21 | 4 => V m c main_v23 | 5 => V m c main_v24

/-- The bottom border rows, face by face. -/
def kBot : Fin 6 → Cert.CubePad.RowS.Idx → Elt F .f32
  | 0 => V m c main_v32 | 1 => V m c main_v35 | 2 => V m c main_v37
  | 3 => V m c main_v40 | 4 => V m c main_v41 | 5 => V m c main_v43

/-- The left border columns (without corners), face by face. -/
def kLef : Fin 6 → Cert.CubePad.ColS.Idx → Elt F .f32
  | 0 => V m c main_v51 | 1 => V m c main_v52 | 2 => V m c main_v53
  | 3 => V m c main_v54 | 4 => V m c main_v56 | 5 => V m c main_v59

/-- The right border columns (without corners), face by face. -/
def kRig : Fin 6 → Cert.CubePad.ColS.Idx → Elt F .f32
  | 0 => V m c main_v67 | 1 => V m c main_v68 | 2 => V m c main_v69
  | 3 => V m c main_v70 | 4 => V m c main_v73 | 5 => V m c main_v76

/-! ## The four stacks -/

/-- The stacked top rows are the six top pieces, each given a unit face axis, side by side. -/
theorem topStack_eq : (V m c main_v31 : S2x6x64x1x256.Idx → Elt F .f32) = stackRows bcast_S2x64x1x256_S2x1x64x1x256_0_2_3_4 concatenates_S2x1x64x1x256_S2x1x64x1x256_S2x1x64x1x256_S2x1x64x1x256_S2x1x64x1x256_S2x1x64x1x256_S2x6x64x1x256_d1 (kTop m c) := by
  rw [v31_eq, v25_eq, v26_eq, v27_eq, v28_eq, v29_eq, v30_eq]
  simp only [stackRows, rowPieces, kTop]

/-- The stacked bottom rows are the six bottom pieces side by side. -/
theorem botStack_eq : (V m c main_v50 : S2x6x64x1x256.Idx → Elt F .f32) = stackRows bcast_S2x64x1x256_S2x1x64x1x256_0_2_3_4 concatenates_S2x1x64x1x256_S2x1x64x1x256_S2x1x64x1x256_S2x1x64x1x256_S2x1x64x1x256_S2x1x64x1x256_S2x6x64x1x256_d1 (kBot m c) := by
  rw [v50_eq, v44_eq, v45_eq, v46_eq, v47_eq, v48_eq, v49_eq]
  simp only [stackRows, rowPieces, kBot]

/-- The stacked left columns are the six left pieces side by side. -/
theorem lefStack_eq : (V m c main_v66 : S2x6x64x256x1.Idx → Elt F .f32) = stackCols bcast_S2x64x256x1_S2x1x64x256x1_0_2_3_4 concatenates_S2x1x64x256x1_S2x1x64x256x1_S2x1x64x256x1_S2x1x64x256x1_S2x1x64x256x1_S2x1x64x256x1_S2x6x64x256x1_d1 (kLef m c) := by
  rw [v66_eq, v60_eq, v61_eq, v62_eq, v63_eq, v64_eq, v65_eq]
  simp only [stackCols, colPieces, kLef]

/-- The stacked right columns are the six right pieces side by side. -/
theorem rigStack_eq : (V m c main_v83 : S2x6x64x256x1.Idx → Elt F .f32) = stackCols bcast_S2x64x256x1_S2x1x64x256x1_0_2_3_4 concatenates_S2x1x64x256x1_S2x1x64x256x1_S2x1x64x256x1_S2x1x64x256x1_S2x1x64x256x1_S2x1x64x256x1_S2x6x64x256x1_d1 (kRig m c) := by
  rw [v83_eq, v77_eq, v78_eq, v79_eq, v80_eq, v81_eq, v82_eq]
  simp only [stackCols, colPieces, kRig]

/-! ## The five arrays the region reads, image by image -/

/-- Image `b` is channel `b mod 64` of face `(b / 64) mod 6` of cube `b / 384`. -/
theorem img_eq (b : Fin 768) :
    b.val = ((Cert.CubePad.cubeOf b).val * 6 + (Cert.CubePad.faceOf b).val) * 64 + (Cert.CubePad.chanOf b).val := by
  show b.val = (b.val / 384 * 6 + b.val / 64 % 6) * 64 + b.val % 64
  omega

/-- The first array: the faces themselves. -/
theorem arr0_apply (b : Fin 768) (r s : Fin 256) :
    (V m c main_v90 : S768x256x256.Idx → Elt F .f32) (ix3 b r s)
      = kFaces m c (ix5 (Cert.CubePad.cubeOf b) (Cert.CubePad.faceOf b) (Cert.CubePad.chanOf b) r s) := by
  rw [v90_eq]
  unfold kFaces
  exact flat_face_apply _ _ b _ _ _ (img_eq b) r s

/-- The second array: the top border rows. -/
theorem arr1_apply (b : Fin 768) (q : Fin 256) :
    (V m c main_v91 : S768x1x256.Idx → Elt F .f32) (ix3 b 0 q)
      = kTop m c (Cert.CubePad.faceOf b) (ix4 (Cert.CubePad.cubeOf b) (Cert.CubePad.chanOf b) 0 q) := by
  rw [v91_eq, topStack_eq]
  exact (flat_row_apply _ _ b _ _ _ (img_eq b) q).trans (stackRows_apply _ _ (kTop m c) _ _ _ q)

/-- The third array: the bottom border rows. -/
theorem arr2_apply (b : Fin 768) (q : Fin 256) :
    (V m c main_v92 : S768x1x256.Idx → Elt F .f32) (ix3 b 0 q)
      = kBot m c (Cert.CubePad.faceOf b) (ix4 (Cert.CubePad.cubeOf b) (Cert.CubePad.chanOf b) 0 q) := by
  rw [v92_eq, botStack_eq]
  exact (flat_row_apply _ _ b _ _ _ (img_eq b) q).trans (stackRows_apply _ _ (kBot m c) _ _ _ q)

/-- The fourth array: the left border columns, each closed by pixel 0 of the top row above it and of the bottom row
    below it. -/
theorem arr3_apply (b : Fin 768) (r : Fin 258) :
    (V m c main_v93 : S768x258x1.Idx → Elt F .f32) (ix3 b r 0)
      = Cert.CubePad.colAt (kTop m c) (kBot m c) (kLef m c) 0 (Cert.CubePad.cubeOf b) (Cert.CubePad.faceOf b)
          (Cert.CubePad.chanOf b) r := by
  rw [v93_eq, v88_eq, v85_eq, v87_eq, topStack_eq, botStack_eq, lefStack_eq]
  exact flat_closed_apply _ _ _ _ 0 _ _ _ (kTop m c) (kBot m c) (kLef m c) 0 rfl b _ _ _ (img_eq b) r

/-- The fifth array: the right border columns, each closed by pixel 255 of the top row and of the bottom row. -/
theorem arr4_apply (b : Fin 768) (r : Fin 258) :
    (V m c main_v94 : S768x258x1.Idx → Elt F .f32) (ix3 b r 0)
      = Cert.CubePad.colAt (kTop m c) (kBot m c) (kRig m c) 255 (Cert.CubePad.cubeOf b) (Cert.CubePad.faceOf b)
          (Cert.CubePad.chanOf b) r := by
  rw [v94_eq, v89_eq, v84_eq, v86_eq, topStack_eq, botStack_eq, rigStack_eq]
  exact flat_closed_apply _ _ _ _ 255 _ _ _ (kTop m c) (kBot m c) (kRig m c) 255 rfl b _ _ _ (img_eq b) r

end Cert.KernelIdeal.Pad

end
-- ==== Proof.RefPieces.lean ====
/-
  The 24 edge pieces as the reference program computes them, each a function of the input array: for every face
  its top and bottom border rows and its left and right border columns, in the order front, right, back, left, top,
  down. (Each is a row or a column of a neighbouring face of the same cube, some transposed and reversed; the
  assembly of the padded faces never looks inside them.)
-/
import proofs.«116597_j71528385347689_2_alg».proof.Proof.RefRead
import proofs.«116597_j71528385347689_2_alg».proof.Proof.Spec

noncomputable section

namespace Cert.ReferenceIdeal.RefValue

open Idealize.ShloMosaic Cert.ReferenceIdeal Cert.ReferenceIdeal.Read Cert.CubePad

variable {F : FTy → Type} [FloatOps F]
variable (x : (⟨S12x64x256x256, .f32⟩ : BufTy).Contents (Elt F))

/-- The input as cubes × faces × channels × rows × columns. -/
def faces : Faces.Idx → Elt F .f32 := val_main_v0 (F := F) x

/-- The top border rows, face by face. -/
def rTop : Fin 6 → RowS.Idx → Elt F .f32
  | 0 => val_main_v13 (F := F) x | 1 => val_main_v16 (F := F) x | 2 => val_main_v18 (F := F) x
  | 3 => val_main_v21 (F := F) x | 4 => val_main_v23 (F := F) x | 5 => val_main_v24 (F := F) x

/-- The bottom border rows. -/
def rBot : Fin 6 → RowS.Idx → Elt F .f32
  | 0 => val_main_v32 (F := F) x | 1 => val_main_v35 (F := F) x | 2 => val_main_v37 (F := F) x
  | 3 => val_main_v40 (F := F) x | 4 => val_main_v41 (F := F) x | 5 => val_main_v43 (F := F) x

/-- The left border columns (without their corner pixels). -/
def rLef : Fin 6 → ColS.Idx → Elt F .f32
  | 0 => val_main_v51 (F := F) x | 1 => val_main_v52 (F := F) x | 2 => val_main_v53 (F := F) x
  | 3 => val_main_v54 (F := F) x | 4 => val_main_v56 (F := F) x | 5 => val_main_v59 (F := F) x

/-- The right border columns (without their corner pixels). -/
def rRig : Fin 6 → ColS.Idx → Elt F .f32
  | 0 => val_main_v67 (F := F) x | 1 => val_main_v68 (F := F) x | 2 => val_main_v69 (F := F) x
  | 3 => val_main_v70 (F := F) x | 4 => val_main_v73 (F := F) x | 5 => val_main_v76 (F := F) x

end Cert.ReferenceIdeal.RefValue

end
-- ==== Proof.KPieces.lean ====
/-
  The faces and the 24 edge pieces are the same functions of the input in the two programs.

  Up to the point where the pieces are stacked, the program that launches the padding region and the reference program
  apply the same operations in the same order: the input is cut into the six faces, and each piece is a row or a
  column of one face, some transposed and some reversed. Going through those operations one at a time, each result
  agrees because its operand does.
-/
import proofs.«116597_j71528385347689_2_alg».proof.Proof.KHost
import proofs.«116597_j71528385347689_2_alg».proof.Proof.RefPieces

noncomputable section

namespace Cert.KernelIdeal.Pad

open Cert.KernelIdeal Cert.KernelIdeal.Gen Idealize.ShloMosaic Idealize.ShloMosaic.TcCoe
open Idealize.SL Idealize.SL.Sem

variable {F : FTy → Type} [FloatOps F]
variable (m : (ℓ : Loc nD τ sig) → Buf (Elt F) ℓ) (c : Dev nD)

/-! ## One operation at a time

Each buffer below is written by the same operation, of the same earlier buffers, in the two programs; so if the operands
agree with the reference's values, so does the result. -/

theorem rv0 : (V m c main_v0 : S2x6x64x256x256.Idx → Elt F .f32) = Cert.ReferenceIdeal.Read.val_main_v0 (F := F) (m ((c.tc : Thread nD τ).loc main_arg0)) := by
  rw [v0_eq, arg0_eq]
  rfl

theorem rv1 : (V m c main_v1 : S2x1x64x256x256.Idx → Elt F .f32) = Cert.ReferenceIdeal.Read.val_main_v1 (F := F) (m ((c.tc : Thread nD τ).loc main_arg0)) := by
  rw [v1_eq, rv0]
  rfl

theorem rv2 : (V m c main_v2 : S2x64x256x256.Idx → Elt F .f32) = Cert.ReferenceIdeal.Read.val_main_v2 (F := F) (m ((c.tc : Thread nD τ).loc main_arg0)) := by
  rw [v2_eq, rv1]
  rfl

theorem rv3 : (V m c main_v3 : S2x1x64x256x256.Idx → Elt F .f32) = Cert.ReferenceIdeal.Read.val_main_v3 (F := F) (m ((c.tc : Thread nD τ).loc main_arg0)) := by
  rw [v3_eq, rv0]
  rfl

theorem rv4 : (V m c main_v4 : S2x64x256x256.Idx → Elt F .f32) = Cert.ReferenceIdeal.Read.val_main_v4 (F := F) (m ((c.tc : Thread nD τ).loc main_arg0)) := by
  rw [v4_eq, rv3]
  rfl

theorem rv5 : (V m c main_v5 : S2x1x64x256x256.Idx → Elt F .f32) = Cert.ReferenceIdeal.Read.val_main_v5 (F := F) (m ((c.tc : Thread nD τ).loc main_arg0)) := by
  rw [v5_eq, rv0]
  rfl

theorem rv6 : (V m c main_v6 : S2x64x256x256.Idx → Elt F .f32) = Cert.ReferenceIdeal.Read.val_main_v6 (F := F) (m ((c.tc : Thread nD τ).loc main_arg0)) := by
  rw [v6_eq, rv5]
  rfl

theorem rv7 : (V m c main_v7 : S2x1x64x256x256.Idx → Elt F .f32) = Cert.ReferenceIdeal.Read.val_main_v7 (F := F) (m ((c.tc : Thread nD τ).loc main_arg0)) := by
  rw [v7_eq, rv0]
  rfl

theorem rv8 : (V m c main_v8 : S2x64x256x256.Idx → Elt F .f32) = Cert.ReferenceIdeal.Read.val_main_v8 (F := F) (m ((c.tc : Thread nD τ).loc main_arg0)) := by
  rw [v8_eq, rv7]
  rfl

theorem rv9 : (V m c main_v9 : S2x1x64x256x256.Idx → Elt F .f32) = Cert.ReferenceIdeal.Read.val_main_v9 (F := F) (m ((c.tc : Thread nD τ).loc main_arg0)) := by
  rw [v9_eq, rv0]
  rfl

theorem rv10 : (V m c main_v10 : S2x64x256x256.Idx → Elt F .f32) = Cert.ReferenceIdeal.Read.val_main_v10 (F := F) (m ((c.tc : Thread nD τ).loc main_arg0)) := by
  rw [v10_eq, rv9]
  rfl

theorem rv11 : (V m c main_v11 : S2x1x64x256x256.Idx → Elt F .f32) = Cert.ReferenceIdeal.Read.val_main_v11 (F := F) (m ((c.tc : Thread nD τ).loc main_arg0)) := by
  rw [v11_eq, rv0]
  rfl

theorem rv12 : (V m c main_v12 : S2x64x256x256.Idx → Elt F .f32) = Cert.ReferenceIdeal.Read.val_main_v12 (F := F) (m ((c.tc : Thread nD τ).loc main_arg0)) := by
  rw [v12_eq, rv11]
  rfl

theorem rv13 : (V m c main_v13 : S2x64x1x256.Idx → Elt F .f32) = Cert.ReferenceIdeal.Read.val_main_v13 (F := F) (m ((c.tc : Thread nD τ).loc main_arg0)) := by
  rw [v13_eq, rv10]
  rfl

theorem rv14 : (V m c main_v14 : S2x64x256x1.Idx → Elt F .f32) = Cert.ReferenceIdeal.Read.val_main_v14 (F := F) (m ((c.tc : Thread nD τ).loc main_arg0)) := by
  rw [v14_eq, rv10]
  rfl

theorem rv15 : (V m c main_v15 : S2x64x1x256.Idx → Elt F .f32) = Cert.ReferenceIdeal.Read.val_main_v15 (F := F) (m ((c.tc : Thread nD τ).loc main_arg0)) := by
  rw [v15_eq, rv14]
  rfl

theorem rv16 : (V m c main_v16 : S2x64x1x256.Idx → Elt F .f32) = Cert.ReferenceIdeal.Read.val_main_v16 (F := F) (m ((c.tc : Thread nD τ).loc main_arg0)) := by
  rw [v16_eq, rv15]
  rfl

theorem rv17 : (V m c main_v17 : S2x64x1x256.Idx → Elt F .f32) = Cert.ReferenceIdeal.Read.val_main_v17 (F := F) (m ((c.tc : Thread nD τ).loc main_arg0)) := by
  rw [v17_eq, rv10]
  rfl

theorem rv18 : (V m c main_v18 : S2x64x1x256.Idx → Elt F .f32) = Cert.ReferenceIdeal.Read.val_main_v18 (F := F) (m ((c.tc : Thread nD τ).loc main_arg0)) := by
  rw [v18_eq, rv17]
  rfl

theorem rv19 : (V m c main_v19 : S2x64x256x1.Idx → Elt F .f32) = Cert.ReferenceIdeal.Read.val_main_v19 (F := F) (m ((c.tc : Thread nD τ).loc main_arg0)) := by
  rw [v19_eq, rv10]
  rfl

theorem rv20 : (V m c main_v20 : S2x64x1x256.Idx → Elt F .f32) = Cert.ReferenceIdeal.Read.val_main_v20 (F := F) (m ((c.tc : Thread nD τ).loc main_arg0)) := by
  rw [v20_eq, rv19]
  rfl

theorem rv21 : (V m c main_v21 : S2x64x1x256.Idx → Elt F .f32) = Cert.ReferenceIdeal.Read.val_main_v21 (F := F) (m ((c.tc : Thread nD τ).loc main_arg0)) := by
  rw [v21_eq, rv20]
  rfl

theorem rv22 : (V m c main_v22 : S2x64x1x256.Idx → Elt F .f32) = Cert.ReferenceIdeal.Read.val_main_v22 (F := F) (m ((c.tc : Thread nD τ).loc main_arg0)) := by
  rw [v22_eq, rv6]
  rfl

theorem rv23 : (V m c main_v23 : S2x64x1x256.Idx → Elt F .f32) = Cert.ReferenceIdeal.Read.val_main_v23 (F := F) (m ((c.tc : Thread nD τ).loc main_arg0)) := by
  rw [v23_eq, rv22]
  rfl

theorem rv24 : (V m c main_v24 : S2x64x1x256.Idx → Elt F .f32) = Cert.ReferenceIdeal.Read.val_main_v24 (F := F) (m ((c.tc : Thread nD τ).loc main_arg0)) := by
  rw [v24_eq, rv2]
  rfl

theorem rv32 : (V m c main_v32 : S2x64x1x256.Idx → Elt F .f32) = Cert.ReferenceIdeal.Read.val_main_v32 (F := F) (m ((c.tc : Thread nD τ).loc main_arg0)) := by
  rw [v32_eq, rv12]
  rfl

theorem rv33 : (V m c main_v33 : S2x64x256x1.Idx → Elt F .f32) = Cert.ReferenceIdeal.Read.val_main_v33 (F := F) (m ((c.tc : Thread nD τ).loc main_arg0)) := by
  rw [v33_eq, rv12]
  rfl

theorem rv34 : (V m c main_v34 : S2x64x1x256.Idx → Elt F .f32) = Cert.ReferenceIdeal.Read.val_main_v34 (F := F) (m ((c.tc : Thread nD τ).loc main_arg0)) := by
  rw [v34_eq, rv33]
  rfl

theorem rv35 : (V m c main_v35 : S2x64x1x256.Idx → Elt F .f32) = Cert.ReferenceIdeal.Read.val_main_v35 (F := F) (m ((c.tc : Thread nD τ).loc main_arg0)) := by
  rw [v35_eq, rv34]
  rfl

theorem rv36 : (V m c main_v36 : S2x64x1x256.Idx → Elt F .f32) = Cert.ReferenceIdeal.Read.val_main_v36 (F := F) (m ((c.tc : Thread nD τ).loc main_arg0)) := by
  rw [v36_eq, rv12]
  rfl

theorem rv37 : (V m c main_v37 : S2x64x1x256.Idx → Elt F .f32) = Cert.ReferenceIdeal.Read.val_main_v37 (F := F) (m ((c.tc : Thread nD τ).loc main_arg0)) := by
  rw [v37_eq, rv36]
  rfl

theorem rv38 : (V m c main_v38 : S2x64x256x1.Idx → Elt F .f32) = Cert.ReferenceIdeal.Read.val_main_v38 (F := F) (m ((c.tc : Thread nD τ).loc main_arg0)) := by
  rw [v38_eq, rv12]
  rfl

theorem rv39 : (V m c main_v39 : S2x64x1x256.Idx → Elt F .f32) = Cert.ReferenceIdeal.Read.val_main_v39 (F := F) (m ((c.tc : Thread nD τ).loc main_arg0)) := by
  rw [v39_eq, rv38]
  rfl

theorem rv40 : (V m c main_v40 : S2x64x1x256.Idx → Elt F .f32) = Cert.ReferenceIdeal.Read.val_main_v40 (F := F) (m ((c.tc : Thread nD τ).loc main_arg0)) := by
  rw [v40_eq, rv39]
  rfl

theorem rv41 : (V m c main_v41 : S2x64x1x256.Idx → Elt F .f32) = Cert.ReferenceIdeal.Read.val_main_v41 (F := F) (m ((c.tc : Thread nD τ).loc main_arg0)) := by
  rw [v41_eq, rv2]
  rfl

theorem rv42 : (V m c main_v42 : S2x64x1x256.Idx → Elt F .f32) = Cert.ReferenceIdeal.Read.val_main_v42 (F := F) (m ((c.tc : Thread nD τ).loc main_arg0)) := by
  rw [v42_eq, rv6]
  rfl

theorem rv43 : (V m c main_v43 : S2x64x1x256.Idx → Elt F .f32) = Cert.ReferenceIdeal.Read.val_main_v43 (F := F) (m ((c.tc : Thread nD τ).loc main_arg0)) := by
  rw [v43_eq, rv42]
  rfl

theorem rv51 : (V m c main_v51 : S2x64x256x1.Idx → Elt F .f32) = Cert.ReferenceIdeal.Read.val_main_v51 (F := F) (m ((c.tc : Thread nD τ).loc main_arg0)) := by
  rw [v51_eq, rv8]
  rfl

theorem rv52 : (V m c main_v52 : S2x64x256x1.Idx → Elt F .f32) = Cert.ReferenceIdeal.Read.val_main_v52 (F := F) (m ((c.tc : Thread nD τ).loc main_arg0)) := by
  rw [v52_eq, rv2]
  rfl

theorem rv53 : (V m c main_v53 : S2x64x256x1.Idx → Elt F .f32) = Cert.ReferenceIdeal.Read.val_main_v53 (F := F) (m ((c.tc : Thread nD τ).loc main_arg0)) := by
  rw [v53_eq, rv4]
  rfl

theorem rv54 : (V m c main_v54 : S2x64x256x1.Idx → Elt F .f32) = Cert.ReferenceIdeal.Read.val_main_v54 (F := F) (m ((c.tc : Thread nD τ).loc main_arg0)) := by
  rw [v54_eq, rv6]
  rfl

theorem rv55 : (V m c main_v55 : S2x64x1x256.Idx → Elt F .f32) = Cert.ReferenceIdeal.Read.val_main_v55 (F := F) (m ((c.tc : Thread nD τ).loc main_arg0)) := by
  rw [v55_eq, rv8]
  rfl

theorem rv56 : (V m c main_v56 : S2x64x256x1.Idx → Elt F .f32) = Cert.ReferenceIdeal.Read.val_main_v56 (F := F) (m ((c.tc : Thread nD τ).loc main_arg0)) := by
  rw [v56_eq, rv55]
  rfl

theorem rv57 : (V m c main_v57 : S2x64x1x256.Idx → Elt F .f32) = Cert.ReferenceIdeal.Read.val_main_v57 (F := F) (m ((c.tc : Thread nD τ).loc main_arg0)) := by
  rw [v57_eq, rv8]
  rfl

theorem rv58 : (V m c main_v58 : S2x64x256x1.Idx → Elt F .f32) = Cert.ReferenceIdeal.Read.val_main_v58 (F := F) (m ((c.tc : Thread nD τ).loc main_arg0)) := by
  rw [v58_eq, rv57]
  rfl

theorem rv59 : (V m c main_v59 : S2x64x256x1.Idx → Elt F .f32) = Cert.ReferenceIdeal.Read.val_main_v59 (F := F) (m ((c.tc : Thread nD τ).loc main_arg0)) := by
  rw [v59_eq, rv58]
  rfl

theorem rv67 : (V m c main_v67 : S2x64x256x1.Idx → Elt F .f32) = Cert.ReferenceIdeal.Read.val_main_v67 (F := F) (m ((c.tc : Thread nD τ).loc main_arg0)) := by
  rw [v67_eq, rv4]
  rfl

theorem rv68 : (V m c main_v68 : S2x64x256x1.Idx → Elt F .f32) = Cert.ReferenceIdeal.Read.val_main_v68 (F := F) (m ((c.tc : Thread nD τ).loc main_arg0)) := by
  rw [v68_eq, rv6]
  rfl

theorem rv69 : (V m c main_v69 : S2x64x256x1.Idx → Elt F .f32) = Cert.ReferenceIdeal.Read.val_main_v69 (F := F) (m ((c.tc : Thread nD τ).loc main_arg0)) := by
  rw [v69_eq, rv8]
  rfl

theorem rv70 : (V m c main_v70 : S2x64x256x1.Idx → Elt F .f32) = Cert.ReferenceIdeal.Read.val_main_v70 (F := F) (m ((c.tc : Thread nD τ).loc main_arg0)) := by
  rw [v70_eq, rv2]
  rfl

theorem rv71 : (V m c main_v71 : S2x64x1x256.Idx → Elt F .f32) = Cert.ReferenceIdeal.Read.val_main_v71 (F := F) (m ((c.tc : Thread nD τ).loc main_arg0)) := by
  rw [v71_eq, rv4]
  rfl

theorem rv72 : (V m c main_v72 : S2x64x256x1.Idx → Elt F .f32) = Cert.ReferenceIdeal.Read.val_main_v72 (F := F) (m ((c.tc : Thread nD τ).loc main_arg0)) := by
  rw [v72_eq, rv71]
  rfl

theorem rv73 : (V m c main_v73 : S2x64x256x1.Idx → Elt F .f32) = Cert.ReferenceIdeal.Read.val_main_v73 (F := F) (m ((c.tc : Thread nD τ).loc main_arg0)) := by
  rw [v73_eq, rv72]
  rfl

theorem rv74 : (V m c main_v74 : S2x64x1x256.Idx → Elt F .f32) = Cert.ReferenceIdeal.Read.val_main_v74 (F := F) (m ((c.tc : Thread nD τ).loc main_arg0)) := by
  rw [v74_eq, rv4]
  rfl

theorem rv75 : (V m c main_v75 : S2x64x1x256.Idx → Elt F .f32) = Cert.ReferenceIdeal.Read.val_main_v75 (F := F) (m ((c.tc : Thread nD τ).loc main_arg0)) := by
  rw [v75_eq, rv74]
  rfl

theorem rv76 : (V m c main_v76 : S2x64x256x1.Idx → Elt F .f32) = Cert.ReferenceIdeal.Read.val_main_v76 (F := F) (m ((c.tc : Thread nD τ).loc main_arg0)) := by
  rw [v76_eq, rv75]
  rfl

/-! ## The faces and the pieces -/

/-- The faces array is the reference's. -/
theorem kFaces_eq : kFaces m c = Cert.ReferenceIdeal.RefValue.faces (F := F) (m ((c.tc : Thread nD τ).loc main_arg0)) := by
  unfold kFaces Cert.ReferenceIdeal.RefValue.faces
  exact rv0 m c

/-- The top border rows are the reference's, face by face. -/
theorem kTop_eq (f : Fin 6) : kTop m c f = Cert.ReferenceIdeal.RefValue.rTop (F := F) (m ((c.tc : Thread nD τ).loc main_arg0)) f :=
  match f with
  | 0 => by simp only [kTop, Cert.ReferenceIdeal.RefValue.rTop]; exact rv13 m c
  | 1 => by simp only [kTop, Cert.ReferenceIdeal.RefValue.rTop]; exact rv16 m c
  | 2 => by simp only [kTop, Cert.ReferenceIdeal.RefValue.rTop]; exact rv18 m c
  | 3 => by simp only [kTop, Cert.ReferenceIdeal.RefValue.rTop]; exact rv21 m c
  | 4 => by simp only [kTop, Cert.ReferenceIdeal.RefValue.rTop]; exact rv23 m c
  | 5 => by simp only [kTop, Cert.ReferenceIdeal.RefValue.rTop]; exact rv24 m c

/-- The bottom border rows are the reference's. -/
theorem kBot_eq (f : Fin 6) : kBot m c f = Cert.ReferenceIdeal.RefValue.rBot (F := F) (m ((c.tc : Thread nD τ).loc main_arg0)) f :=
  match f with
  | 0 => by simp only [kBot, Cert.ReferenceIdeal.RefValue.rBot]; exact rv32 m c
  | 1 => by simp only [kBot, Cert.ReferenceIdeal.RefValue.rBot]; exact rv35 m c
  | 2 => by simp only [kBot, Cert.ReferenceIdeal.RefValue.rBot]; exact rv37 m c
  | 3 => by simp only [kBot, Cert.ReferenceIdeal.RefValue.rBot]; exact rv40 m c
  | 4 => by simp only [kBot, Cert.ReferenceIdeal.RefValue.rBot]; exact rv41 m c
  | 5 => by simp only [kBot, Cert.ReferenceIdeal.RefValue.rBot]; exact rv43 m c

/-- The left border columns are the reference's. -/
theorem kLef_eq (f : Fin 6) : kLef m c f = Cert.ReferenceIdeal.RefValue.rLef (F := F) (m ((c.tc : Thread nD τ).loc main_arg0)) f :=
  match f with
  | 0 => by simp only [kLef, Cert.ReferenceIdeal.RefValue.rLef]; exact rv51 m c
  | 1 => by simp only [kLef, Cert.ReferenceIdeal.RefValue.rLef]; exact rv52 m c
  | 2 => by simp only [kLef, Cert.ReferenceIdeal.RefValue.rLef]; exact rv53 m c
  | 3 => by simp only [kLef, Cert.ReferenceIdeal.RefValue.rLef]; exact rv54 m c
  | 4 => by simp only [kLef, Cert.ReferenceIdeal.RefValue.rLef]; exact rv56 m c
  | 5 => by simp only [kLef, Cert.ReferenceIdeal.RefValue.rLef]; exact rv59 m c

/-- The right border columns are the reference's. -/
theorem kRig_eq (f : Fin 6) : kRig m c f = Cert.ReferenceIdeal.RefValue.rRig (F := F) (m ((c.tc : Thread nD τ).loc main_arg0)) f :=
  match f with
  | 0 => by simp only [kRig, Cert.ReferenceIdeal.RefValue.rRig]; exact rv67 m c
  | 1 => by simp only [kRig, Cert.ReferenceIdeal.RefValue.rRig]; exact rv68 m c
  | 2 => by simp only [kRig, Cert.ReferenceIdeal.RefValue.rRig]; exact rv69 m c
  | 3 => by simp only [kRig, Cert.ReferenceIdeal.RefValue.rRig]; exact rv70 m c
  | 4 => by simp only [kRig, Cert.ReferenceIdeal.RefValue.rRig]; exact rv73 m c
  | 5 => by simp only [kRig, Cert.ReferenceIdeal.RefValue.rRig]; exact rv76 m c

end Cert.KernelIdeal.Pad

end
-- ==== Proof.RefLayout.lean ====
/-
  Layout operations of the cube padding, read at an index.

  The padded faces are put together from arrays by data movement only: six pieces of one shape stacked on a new
  leading axis, the exchange of the two leading axes (faces × cubes to cubes × faces), three pieces laid end to end
  along the row axis or along the column axis (one line, 256 lines, one line), the slice that keeps one column of
  a stack of border rows, a reshape to rank 10 and back around a broadcast that changes nothing, and the last reshape
  that merges the cube and face axes. Each lemma here says which element of which operand one element of the result is,
  with every index written out by its coordinates. Nothing depends on what the arrays hold.
-/
import Idealize.ShloMosaic.Lib.Pipeline.Value
import Idealize.ShloMosaic.Lib.ValueIdx

namespace Cert.CubePad.Layout

open Idealize.ShloMosaic Idealize.ShloMosaic.ValueIdx

variable {α : Type}

/-! ### Exchanging the two leading axes -/

/-- The transpose that exchanges the two leading axes (faces × cubes to cubes × faces), read at an index. -/
theorem swap01_apply {h w : Nat} (y : (⟨5, ![6, 2, 64, h, w]⟩ : Shape).Idx → α)
    (ht : (⟨5, ![6, 2, 64, h, w]⟩ : Shape).Transposes [1, 0, 2, 3, 4] ⟨5, ![2, 6, 64, h, w]⟩)
    (n : Fin 2) (f : Fin 6) (c : Fin 64) (r : Fin h) (q : Fin w) :
    transpose ⟨5, ![2, 6, 64, h, w]⟩ [1, 0, 2, 3, 4] y ht (ix5 n f c r q) = y (ix5 f n c r q) :=
  transpose_apply [1, 0, 2, 3, 4] y ht (ix5 n f c r q) (ix5 f n c r q) (fun b => match b with
    | ⟨0, _⟩ => rfl
    | ⟨1, _⟩ => rfl
    | ⟨2, _⟩ => rfl
    | ⟨3, _⟩ => rfl
    | ⟨4, _⟩ => rfl)

/-! ### Three pieces of 1, 256 and 1 rows laid end to end along the row axis -/

/-- Row 0 of the joined array is the one row of the first piece. -/
theorem cat3_rows_first {w : Nat}
    (A C : (⟨5, ![2, 6, 64, 1, w]⟩ : Shape).Idx → α) (B : (⟨5, ![2, 6, 64, 256, w]⟩ : Shape).Idx → α)
    (hc : Shape.Concatenates [⟨5, ![2, 6, 64, 1, w]⟩, ⟨5, ![2, 6, 64, 256, w]⟩, ⟨5, ![2, 6, 64, 1, w]⟩] ⟨5, ![2, 6, 64, 258, w]⟩ 3)
    (n : Fin 2) (f : Fin 6) (c : Fin 64) (r : Fin 258) (q : Fin w) (hr : r.val = 0) :
    concatenate ⟨5, ![2, 6, 64, 258, w]⟩ 3 [⟨⟨5, ![2, 6, 64, 1, w]⟩, A⟩, ⟨⟨5, ![2, 6, 64, 256, w]⟩, B⟩, ⟨⟨5, ![2, 6, 64, 1, w]⟩, C⟩] hc (ix5 n f c r q)
      = A (ix5 n f c 0 q) :=
  concatenate_apply_piece (t := ⟨5, ![2, 6, 64, 258, w]⟩) 3 [⟨⟨5, ![2, 6, 64, 1, w]⟩, A⟩, ⟨⟨5, ![2, 6, 64, 256, w]⟩, B⟩, ⟨⟨5, ![2, 6, 64, 1, w]⟩, C⟩] hc (ix5 n f c r q)
    0 (Nat.zero_lt_succ _) ⟨5, ![2, 6, 64, 1, w]⟩ A rfl rfl 0 rfl (ix5 n f c 0 q)
    (fun b => match b with
      | ⟨0, _⟩ => fun _ => rfl
      | ⟨1, _⟩ => fun _ => rfl
      | ⟨2, _⟩ => fun _ => rfl
      | ⟨3, _⟩ => fun hb => absurd rfl hb
      | ⟨4, _⟩ => fun _ => rfl)
    (by show 0 + 0 = r.val; omega)

/-- Row 257 of the joined array is the one row of the last piece (1 + 256 rows come before it). -/
theorem cat3_rows_last {w : Nat}
    (A C : (⟨5, ![2, 6, 64, 1, w]⟩ : Shape).Idx → α) (B : (⟨5, ![2, 6, 64, 256, w]⟩ : Shape).Idx → α)
    (hc : Shape.Concatenates [⟨5, ![2, 6, 64, 1, w]⟩, ⟨5, ![2, 6, 64, 256, w]⟩, ⟨5, ![2, 6, 64, 1, w]⟩] ⟨5, ![2, 6, 64, 258, w]⟩ 3)
    (n : Fin 2) (f : Fin 6) (c : Fin 64) (r : Fin 258) (q : Fin w) (hr : r.val = 257) :
    concatenate ⟨5, ![2, 6, 64, 258, w]⟩ 3 [⟨⟨5, ![2, 6, 64, 1, w]⟩, A⟩, ⟨⟨5, ![2, 6, 64, 256, w]⟩, B⟩, ⟨⟨5, ![2, 6, 64, 1, w]⟩, C⟩] hc (ix5 n f c r q)
      = C (ix5 n f c 0 q) :=
  concatenate_apply_piece (t := ⟨5, ![2, 6, 64, 258, w]⟩) 3 [⟨⟨5, ![2, 6, 64, 1, w]⟩, A⟩, ⟨⟨5, ![2, 6, 64, 256, w]⟩, B⟩, ⟨⟨5, ![2, 6, 64, 1, w]⟩, C⟩] hc (ix5 n f c r q)
    2 (by show 2 < 3; omega) ⟨5, ![2, 6, 64, 1, w]⟩ C rfl rfl 257 rfl (ix5 n f c 0 q)
    (fun b => match b with
      | ⟨0, _⟩ => fun _ => rfl
      | ⟨1, _⟩ => fun _ => rfl
      | ⟨2, _⟩ => fun _ => rfl
      | ⟨3, _⟩ => fun hb => absurd rfl hb
      | ⟨4, _⟩ => fun _ => rfl)
    (by show 257 + 0 = r.val; omega)

/-- Rows 1 … 256 of the joined array are the rows 0 … 255 of the middle piece. -/
theorem cat3_rows_mid {w : Nat}
    (A C : (⟨5, ![2, 6, 64, 1, w]⟩ : Shape).Idx → α) (B : (⟨5, ![2, 6, 64, 256, w]⟩ : Shape).Idx → α)
    (hc : Shape.Concatenates [⟨5, ![2, 6, 64, 1, w]⟩, ⟨5, ![2, 6, 64, 256, w]⟩, ⟨5, ![2, 6, 64, 1, w]⟩] ⟨5, ![2, 6, 64, 258, w]⟩ 3)
    (n : Fin 2) (f : Fin 6) (c : Fin 64) (r : Fin 258) (q : Fin w) (h0 : r.val ≠ 0) (h1 : r.val ≠ 257) :
    concatenate ⟨5, ![2, 6, 64, 258, w]⟩ 3 [⟨⟨5, ![2, 6, 64, 1, w]⟩, A⟩, ⟨⟨5, ![2, 6, 64, 256, w]⟩, B⟩, ⟨⟨5, ![2, 6, 64, 1, w]⟩, C⟩] hc (ix5 n f c r q)
      = B (ix5 n f c ⟨r.val - 1, by have := r.isLt; omega⟩ q) :=
  concatenate_apply_piece (t := ⟨5, ![2, 6, 64, 258, w]⟩) 3 [⟨⟨5, ![2, 6, 64, 1, w]⟩, A⟩, ⟨⟨5, ![2, 6, 64, 256, w]⟩, B⟩, ⟨⟨5, ![2, 6, 64, 1, w]⟩, C⟩] hc (ix5 n f c r q)
    1 (by show 1 < 3; omega) ⟨5, ![2, 6, 64, 256, w]⟩ B rfl rfl 1 rfl (ix5 n f c ⟨r.val - 1, by have := r.isLt; omega⟩ q)
    (fun b => match b with
      | ⟨0, _⟩ => fun _ => rfl
      | ⟨1, _⟩ => fun _ => rfl
      | ⟨2, _⟩ => fun _ => rfl
      | ⟨3, _⟩ => fun hb => absurd rfl hb
      | ⟨4, _⟩ => fun _ => rfl)
    (by show 1 + (r.val - 1) = r.val; omega)

/-! ### Three pieces of 1, 256 and 1 columns laid end to end along the column axis -/

/-- Column 0 of the joined array is the one column of the first piece. -/
theorem cat3_cols_first (L R : (⟨5, ![2, 6, 64, 258, 1]⟩ : Shape).Idx → α) (M : (⟨5, ![2, 6, 64, 258, 256]⟩ : Shape).Idx → α)
    (hc : Shape.Concatenates [⟨5, ![2, 6, 64, 258, 1]⟩, ⟨5, ![2, 6, 64, 258, 256]⟩, ⟨5, ![2, 6, 64, 258, 1]⟩] ⟨5, ![2, 6, 64, 258, 258]⟩ 4)
    (n : Fin 2) (f : Fin 6) (c : Fin 64) (r s : Fin 258) (hs : s.val = 0) :
    concatenate ⟨5, ![2, 6, 64, 258, 258]⟩ 4 [⟨⟨5, ![2, 6, 64, 258, 1]⟩, L⟩, ⟨⟨5, ![2, 6, 64, 258, 256]⟩, M⟩, ⟨⟨5, ![2, 6, 64, 258, 1]⟩, R⟩] hc (ix5 n f c r s)
      = L (ix5 n f c r 0) :=
  concatenate_apply_piece (t := ⟨5, ![2, 6, 64, 258, 258]⟩) 4 [⟨⟨5, ![2, 6, 64, 258, 1]⟩, L⟩, ⟨⟨5, ![2, 6, 64, 258, 256]⟩, M⟩, ⟨⟨5, ![2, 6, 64, 258, 1]⟩, R⟩] hc (ix5 n f c r s)
    0 (Nat.zero_lt_succ _) ⟨5, ![2, 6, 64, 258, 1]⟩ L rfl rfl 0 rfl (ix5 n f c r 0)
    (fun b => match b with
      | ⟨0, _⟩ => fun _ => rfl
      | ⟨1, _⟩ => fun _ => rfl
      | ⟨2, _⟩ => fun _ => rfl
      | ⟨3, _⟩ => fun _ => rfl
      | ⟨4, _⟩ => fun hb => absurd rfl hb)
    (by show 0 + 0 = s.val; omega)

/-- Column 257 of the joined array is the one column of the last piece. -/
theorem cat3_cols_last (L R : (⟨5, ![2, 6, 64, 258, 1]⟩ : Shape).Idx → α) (M : (⟨5, ![2, 6, 64, 258, 256]⟩ : Shape).Idx → α)
    (hc : Shape.Concatenates [⟨5, ![2, 6, 64, 258, 1]⟩, ⟨5, ![2, 6, 64, 258, 256]⟩, ⟨5, ![2, 6, 64, 258, 1]⟩] ⟨5, ![2, 6, 64, 258, 258]⟩ 4)
    (n : Fin 2) (f : Fin 6) (c : Fin 64) (r s : Fin 258) (hs : s.val = 257) :
    concatenate ⟨5, ![2, 6, 64, 258, 258]⟩ 4 [⟨⟨5, ![2, 6, 64, 258, 1]⟩, L⟩, ⟨⟨5, ![2, 6, 64, 258, 256]⟩, M⟩, ⟨⟨5, ![2, 6, 64, 258, 1]⟩, R⟩] hc (ix5 n f c r s)
      = R (ix5 n f c r 0) :=
  concatenate_apply_piece (t := ⟨5, ![2, 6, 64, 258, 258]⟩) 4 [⟨⟨5, ![2, 6, 64, 258, 1]⟩, L⟩, ⟨⟨5, ![2, 6, 64, 258, 256]⟩, M⟩, ⟨⟨5, ![2, 6, 64, 258, 1]⟩, R⟩] hc (ix5 n f c r s)
    2 (by show 2 < 3; omega) ⟨5, ![2, 6, 64, 258, 1]⟩ R rfl rfl 257 rfl (ix5 n f c r 0)
    (fun b => match b with
      | ⟨0, _⟩ => fun _ => rfl
      | ⟨1, _⟩ => fun _ => rfl
      | ⟨2, _⟩ => fun _ => rfl
      | ⟨3, _⟩ => fun _ => rfl
      | ⟨4, _⟩ => fun hb => absurd rfl hb)
    (by show 257 + 0 = s.val; omega)

/-- Columns 1 … 256 of the joined array are the columns 0 … 255 of the middle piece. -/
theorem cat3_cols_mid (L R : (⟨5, ![2, 6, 64, 258, 1]⟩ : Shape).Idx → α) (M : (⟨5, ![2, 6, 64, 258, 256]⟩ : Shape).Idx → α)
    (hc : Shape.Concatenates [⟨5, ![2, 6, 64, 258, 1]⟩, ⟨5, ![2, 6, 64, 258, 256]⟩, ⟨5, ![2, 6, 64, 258, 1]⟩] ⟨5, ![2, 6, 64, 258, 258]⟩ 4)
    (n : Fin 2) (f : Fin 6) (c : Fin 64) (r s : Fin 258) (h0 : s.val ≠ 0) (h1 : s.val ≠ 257) :
    concatenate ⟨5, ![2, 6, 64, 258, 258]⟩ 4 [⟨⟨5, ![2, 6, 64, 258, 1]⟩, L⟩, ⟨⟨5, ![2, 6, 64, 258, 256]⟩, M⟩, ⟨⟨5, ![2, 6, 64, 258, 1]⟩, R⟩] hc (ix5 n f c r s)
      = M (ix5 n f c r ⟨s.val - 1, by have := s.isLt; omega⟩) :=
  concatenate_apply_piece (t := ⟨5, ![2, 6, 64, 258, 258]⟩) 4 [⟨⟨5, ![2, 6, 64, 258, 1]⟩, L⟩, ⟨⟨5, ![2, 6, 64, 258, 256]⟩, M⟩, ⟨⟨5, ![2, 6, 64, 258, 1]⟩, R⟩] hc (ix5 n f c r s)
    1 (by show 1 < 3; omega) ⟨5, ![2, 6, 64, 258, 256]⟩ M rfl rfl 1 rfl (ix5 n f c r ⟨s.val - 1, by have := s.isLt; omega⟩)
    (fun b => match b with
      | ⟨0, _⟩ => fun _ => rfl
      | ⟨1, _⟩ => fun _ => rfl
      | ⟨2, _⟩ => fun _ => rfl
      | ⟨3, _⟩ => fun _ => rfl
      | ⟨4, _⟩ => fun hb => absurd rfl hb)
    (by show 1 + (s.val - 1) = s.val; omega)

/-! ### Six pieces stacked on a new leading axis -/

/-- A piece given a new leading axis of extent one, read at an index: the piece at the remaining coordinates. -/
theorem lead_apply {h w : Nat} (g : (⟨4, ![2, 64, h, w]⟩ : Shape).Idx → α)
    (hb : (⟨4, ![2, 64, h, w]⟩ : Shape).BroadcastsInDim ⟨5, ![1, 2, 64, h, w]⟩ ![1, 2, 3, 4])
    (z : Fin 1) (n : Fin 2) (c : Fin 64) (r : Fin h) (q : Fin w) :
    broadcastInDim ⟨5, ![1, 2, 64, h, w]⟩ ![1, 2, 3, 4] hb g (ix5 z n c r q) = g (ix4 n c r q) :=
  broadcastInDim_apply ![1, 2, 3, 4] hb g (ix5 z n c r q) (ix4 n c r q) (fun a => match a with
    | ⟨0, _⟩ => by show n.val = if (2 : Nat) = 1 then 0 else n.val; rw [if_neg (by decide)]
    | ⟨1, _⟩ => by show c.val = if (64 : Nat) = 1 then 0 else c.val; rw [if_neg (by decide)]
    | ⟨2, _⟩ => by show r.val = if h = 1 then 0 else r.val; have := r.isLt; split <;> omega
    | ⟨3, _⟩ => by show q.val = if w = 1 then 0 else q.val; have := q.isLt; split <;> omega)

/-- Six pieces of one shape, each given a leading unit axis and joined along it: slab `f` of the stack is piece `f`. -/
theorem stack6_apply {h w : Nat} (g : Fin 6 → (⟨4, ![2, 64, h, w]⟩ : Shape).Idx → α)
    (hb : (⟨4, ![2, 64, h, w]⟩ : Shape).BroadcastsInDim ⟨5, ![1, 2, 64, h, w]⟩ ![1, 2, 3, 4])
    (hc : Shape.Concatenates [⟨5, ![1, 2, 64, h, w]⟩, ⟨5, ![1, 2, 64, h, w]⟩, ⟨5, ![1, 2, 64, h, w]⟩, ⟨5, ![1, 2, 64, h, w]⟩, ⟨5, ![1, 2, 64, h, w]⟩, ⟨5, ![1, 2, 64, h, w]⟩] ⟨5, ![6, 2, 64, h, w]⟩ 0)
    (f : Fin 6) (n : Fin 2) (c : Fin 64) (r : Fin h) (q : Fin w) :
    concatenate ⟨5, ![6, 2, 64, h, w]⟩ 0 [⟨⟨5, ![1, 2, 64, h, w]⟩, broadcastInDim ⟨5, ![1, 2, 64, h, w]⟩ ![1, 2, 3, 4] hb (g 0)⟩, ⟨⟨5, ![1, 2, 64, h, w]⟩, broadcastInDim ⟨5, ![1, 2, 64, h, w]⟩ ![1, 2, 3, 4] hb (g 1)⟩, ⟨⟨5, ![1, 2, 64, h, w]⟩, broadcastInDim ⟨5, ![1, 2, 64, h, w]⟩ ![1, 2, 3, 4] hb (g 2)⟩, ⟨⟨5, ![1, 2, 64, h, w]⟩, broadcastInDim ⟨5, ![1, 2, 64, h, w]⟩ ![1, 2, 3, 4] hb (g 3)⟩, ⟨⟨5, ![1, 2, 64, h, w]⟩, broadcastInDim ⟨5, ![1, 2, 64, h, w]⟩ ![1, 2, 3, 4] hb (g 4)⟩, ⟨⟨5, ![1, 2, 64, h, w]⟩, broadcastInDim ⟨5, ![1, 2, 64, h, w]⟩ ![1, 2, 3, 4] hb (g 5)⟩] hc (ix5 f n c r q) = g f (ix4 n c r q) :=
  match f with
  | ⟨0, hf⟩ =>
    (concatenate_apply_piece (t := ⟨5, ![6, 2, 64, h, w]⟩) 0 [⟨⟨5, ![1, 2, 64, h, w]⟩, broadcastInDim ⟨5, ![1, 2, 64, h, w]⟩ ![1, 2, 3, 4] hb (g 0)⟩, ⟨⟨5, ![1, 2, 64, h, w]⟩, broadcastInDim ⟨5, ![1, 2, 64, h, w]⟩ ![1, 2, 3, 4] hb (g 1)⟩, ⟨⟨5, ![1, 2, 64, h, w]⟩, broadcastInDim ⟨5, ![1, 2, 64, h, w]⟩ ![1, 2, 3, 4] hb (g 2)⟩, ⟨⟨5, ![1, 2, 64, h, w]⟩, broadcastInDim ⟨5, ![1, 2, 64, h, w]⟩ ![1, 2, 3, 4] hb (g 3)⟩, ⟨⟨5, ![1, 2, 64, h, w]⟩, broadcastInDim ⟨5, ![1, 2, 64, h, w]⟩ ![1, 2, 3, 4] hb (g 4)⟩, ⟨⟨5, ![1, 2, 64, h, w]⟩, broadcastInDim ⟨5, ![1, 2, 64, h, w]⟩ ![1, 2, 3, 4] hb (g 5)⟩] hc (ix5 ⟨0, hf⟩ n c r q)
      0 (by show 0 < 6; omega) ⟨5, ![1, 2, 64, h, w]⟩ (broadcastInDim ⟨5, ![1, 2, 64, h, w]⟩ ![1, 2, 3, 4] hb (g 0)) rfl rfl 0 rfl (ix5 0 n c r q)
      (fun b => match b with
        | ⟨0, _⟩ => fun hb0 => absurd rfl hb0
        | ⟨1, _⟩ => fun _ => rfl
        | ⟨2, _⟩ => fun _ => rfl
        | ⟨3, _⟩ => fun _ => rfl
        | ⟨4, _⟩ => fun _ => rfl)
      rfl).trans (lead_apply (g 0) hb 0 n c r q)
  | ⟨1, hf⟩ =>
    (concatenate_apply_piece (t := ⟨5, ![6, 2, 64, h, w]⟩) 0 [⟨⟨5, ![1, 2, 64, h, w]⟩, broadcastInDim ⟨5, ![1, 2, 64, h, w]⟩ ![1, 2, 3, 4] hb (g 0)⟩, ⟨⟨5, ![1, 2, 64, h, w]⟩, broadcastInDim ⟨5, ![1, 2, 64, h, w]⟩ ![1, 2, 3, 4] hb (g 1)⟩, ⟨⟨5, ![1, 2, 64, h, w]⟩, broadcastInDim ⟨5, ![1, 2, 64, h, w]⟩ ![1, 2, 3, 4] hb (g 2)⟩, ⟨⟨5, ![1, 2, 64, h, w]⟩, broadcastInDim ⟨5, ![1, 2, 64, h, w]⟩ ![1, 2, 3, 4] hb (g 3)⟩, ⟨⟨5, ![1, 2, 64, h, w]⟩, broadcastInDim ⟨5, ![1, 2, 64, h, w]⟩ ![1, 2, 3, 4] hb (g 4)⟩, ⟨⟨5, ![1, 2, 64, h, w]⟩, broadcastInDim ⟨5, ![1, 2, 64, h, w]⟩ ![1, 2, 3, 4] hb (g 5)⟩] hc (ix5 ⟨1, hf⟩ n c r q)
      1 (by show 1 < 6; omega) ⟨5, ![1, 2, 64, h, w]⟩ (broadcastInDim ⟨5, ![1, 2, 64, h, w]⟩ ![1, 2, 3, 4] hb (g 1)) rfl rfl 1 rfl (ix5 0 n c r q)
      (fun b => match b with
        | ⟨0, _⟩ => fun hb0 => absurd rfl hb0
        | ⟨1, _⟩ => fun _ => rfl
        | ⟨2, _⟩ => fun _ => rfl
        | ⟨3, _⟩ => fun _ => rfl
        | ⟨4, _⟩ => fun _ => rfl)
      rfl).trans (lead_apply (g 1) hb 0 n c r q)
  | ⟨2, hf⟩ =>
    (concatenate_apply_piece (t := ⟨5, ![6, 2, 64, h, w]⟩) 0 [⟨⟨5, ![1, 2, 64, h, w]⟩, broadcastInDim ⟨5, ![1, 2, 64, h, w]⟩ ![1, 2, 3, 4] hb (g 0)⟩, ⟨⟨5, ![1, 2, 64, h, w]⟩, broadcastInDim ⟨5, ![1, 2, 64, h, w]⟩ ![1, 2, 3, 4] hb (g 1)⟩, ⟨⟨5, ![1, 2, 64, h, w]⟩, broadcastInDim ⟨5, ![1, 2, 64, h, w]⟩ ![1, 2, 3, 4] hb (g 2)⟩, ⟨⟨5, ![1, 2, 64, h, w]⟩, broadcastInDim ⟨5, ![1, 2, 64, h, w]⟩ ![1, 2, 3, 4] hb (g 3)⟩, ⟨⟨5, ![1, 2, 64, h, w]⟩, broadcastInDim ⟨5, ![1, 2, 64, h, w]⟩ ![1, 2, 3, 4] hb (g 4)⟩, ⟨⟨5, ![1, 2, 64, h, w]⟩, broadcastInDim ⟨5, ![1, 2, 64, h, w]⟩ ![1, 2, 3, 4] hb (g 5)⟩] hc (ix5 ⟨2, hf⟩ n c r q)
      2 (by show 2 < 6; omega) ⟨5, ![1, 2, 64, h, w]⟩ (broadcastInDim ⟨5, ![1, 2, 64, h, w]⟩ ![1, 2, 3, 4] hb (g 2)) rfl rfl 2 rfl (ix5 0 n c r q)
      (fun b => match b with
        | ⟨0, _⟩ => fun hb0 => absurd rfl hb0
        | ⟨1, _⟩ => fun _ => rfl
        | ⟨2, _⟩ => fun _ => rfl
        | ⟨3, _⟩ => fun _ => rfl
        | ⟨4, _⟩ => fun _ => rfl)
      rfl).trans (lead_apply (g 2) hb 0 n c r q)
  | ⟨3, hf⟩ =>
    (concatenate_apply_piece (t := ⟨5, ![6, 2, 64, h, w]⟩) 0 [⟨⟨5, ![1, 2, 64, h, w]⟩, broadcastInDim ⟨5, ![1, 2, 64, h, w]⟩ ![1, 2, 3, 4] hb (g 0)⟩, ⟨⟨5, ![1, 2, 64, h, w]⟩, broadcastInDim ⟨5, ![1, 2, 64, h, w]⟩ ![1, 2, 3, 4] hb (g 1)⟩, ⟨⟨5, ![1, 2, 64, h, w]⟩, broadcastInDim ⟨5, ![1, 2, 64, h, w]⟩ ![1, 2, 3, 4] hb (g 2)⟩, ⟨⟨5, ![1, 2, 64, h, w]⟩, broadcastInDim ⟨5, ![1, 2, 64, h, w]⟩ ![1, 2, 3, 4] hb (g 3)⟩, ⟨⟨5, ![1, 2, 64, h, w]⟩, broadcastInDim ⟨5, ![1, 2, 64, h, w]⟩ ![1, 2, 3, 4] hb (g 4)⟩, ⟨⟨5, ![1, 2, 64, h, w]⟩, broadcastInDim ⟨5, ![1, 2, 64, h, w]⟩ ![1, 2, 3, 4] hb (g 5)⟩] hc (ix5 ⟨3, hf⟩ n c r q)
      3 (by show 3 < 6; omega) ⟨5, ![1, 2, 64, h, w]⟩ (broadcastInDim ⟨5, ![1, 2, 64, h, w]⟩ ![1, 2, 3, 4] hb (g 3)) rfl rfl 3 rfl (ix5 0 n c r q)
      (fun b => match b with
        | ⟨0, _⟩ => fun hb0 => absurd rfl hb0
        | ⟨1, _⟩ => fun _ => rfl
        | ⟨2, _⟩ => fun _ => rfl
        | ⟨3, _⟩ => fun _ => rfl
        | ⟨4, _⟩ => fun _ => rfl)
      rfl).trans (lead_apply (g 3) hb 0 n c r q)
  | ⟨4, hf⟩ =>
    (concatenate_apply_piece (t := ⟨5, ![6, 2, 64, h, w]⟩) 0 [⟨⟨5, ![1, 2, 64, h, w]⟩, broadcastInDim ⟨5, ![1, 2, 64, h, w]⟩ ![1, 2, 3, 4] hb (g 0)⟩, ⟨⟨5, ![1, 2, 64, h, w]⟩, broadcastInDim ⟨5, ![1, 2, 64, h, w]⟩ ![1, 2, 3, 4] hb (g 1)⟩, ⟨⟨5, ![1, 2, 64, h, w]⟩, broadcastInDim ⟨5, ![1, 2, 64, h, w]⟩ ![1, 2, 3, 4] hb (g 2)⟩, ⟨⟨5, ![1, 2, 64, h, w]⟩, broadcastInDim ⟨5, ![1, 2, 64, h, w]⟩ ![1, 2, 3, 4] hb (g 3)⟩, ⟨⟨5, ![1, 2, 64, h, w]⟩, broadcastInDim ⟨5, ![1, 2, 64, h, w]⟩ ![1, 2, 3, 4] hb (g 4)⟩, ⟨⟨5, ![1, 2, 64, h, w]⟩, broadcastInDim ⟨5, ![1, 2, 64, h, w]⟩ ![1, 2, 3, 4] hb (g 5)⟩] hc (ix5 ⟨4, hf⟩ n c r q)
      4 (by show 4 < 6; omega) ⟨5, ![1, 2, 64, h, w]⟩ (broadcastInDim ⟨5, ![1, 2, 64, h, w]⟩ ![1, 2, 3, 4] hb (g 4)) rfl rfl 4 rfl (ix5 0 n c r q)
      (fun b => match b with
        | ⟨0, _⟩ => fun hb0 => absurd rfl hb0
        | ⟨1, _⟩ => fun _ => rfl
        | ⟨2, _⟩ => fun _ => rfl
        | ⟨3, _⟩ => fun _ => rfl
        | ⟨4, _⟩ => fun _ => rfl)
      rfl).trans (lead_apply (g 4) hb 0 n c r q)
  | ⟨5, hf⟩ =>
    (concatenate_apply_piece (t := ⟨5, ![6, 2, 64, h, w]⟩) 0 [⟨⟨5, ![1, 2, 64, h, w]⟩, broadcastInDim ⟨5, ![1, 2, 64, h, w]⟩ ![1, 2, 3, 4] hb (g 0)⟩, ⟨⟨5, ![1, 2, 64, h, w]⟩, broadcastInDim ⟨5, ![1, 2, 64, h, w]⟩ ![1, 2, 3, 4] hb (g 1)⟩, ⟨⟨5, ![1, 2, 64, h, w]⟩, broadcastInDim ⟨5, ![1, 2, 64, h, w]⟩ ![1, 2, 3, 4] hb (g 2)⟩, ⟨⟨5, ![1, 2, 64, h, w]⟩, broadcastInDim ⟨5, ![1, 2, 64, h, w]⟩ ![1, 2, 3, 4] hb (g 3)⟩, ⟨⟨5, ![1, 2, 64, h, w]⟩, broadcastInDim ⟨5, ![1, 2, 64, h, w]⟩ ![1, 2, 3, 4] hb (g 4)⟩, ⟨⟨5, ![1, 2, 64, h, w]⟩, broadcastInDim ⟨5, ![1, 2, 64, h, w]⟩ ![1, 2, 3, 4] hb (g 5)⟩] hc (ix5 ⟨5, hf⟩ n c r q)
      5 (by show 5 < 6; omega) ⟨5, ![1, 2, 64, h, w]⟩ (broadcastInDim ⟨5, ![1, 2, 64, h, w]⟩ ![1, 2, 3, 4] hb (g 5)) rfl rfl 5 rfl (ix5 0 n c r q)
      (fun b => match b with
        | ⟨0, _⟩ => fun hb0 => absurd rfl hb0
        | ⟨1, _⟩ => fun _ => rfl
        | ⟨2, _⟩ => fun _ => rfl
        | ⟨3, _⟩ => fun _ => rfl
        | ⟨4, _⟩ => fun _ => rfl)
      rfl).trans (lead_apply (g 5) hb 0 n c r q)

/-! ### One column of a stack of border rows -/

/-- The slice that keeps column `off` of every border row, read at an index. -/
theorem col_slice_apply (off : Nat) (ho : off < 256) (y : (⟨5, ![6, 2, 64, 1, 256]⟩ : Shape).Idx → α)
    (hs : (⟨5, ![6, 2, 64, 1, 256]⟩ : Shape).Slices ![0, 0, 0, 0, off] ⟨5, ![6, 2, 64, 1, 1]⟩)
    (f : Fin 6) (n : Fin 2) (c : Fin 64) (z z' : Fin 1) :
    extractStridedSlice ⟨5, ![6, 2, 64, 1, 1]⟩ ![0, 0, 0, 0, off] y hs (ix5 f n c z z') = y (ix5 f n c 0 ⟨off, ho⟩) :=
  extractStridedSlice_apply ![0, 0, 0, 0, off] y hs (ix5 f n c z z') (ix5 f n c 0 ⟨off, ho⟩) (fun a => match a with
    | ⟨0, _⟩ => by show f.val = 0 + f.val; omega
    | ⟨1, _⟩ => by show n.val = 0 + n.val; omega
    | ⟨2, _⟩ => by show c.val = 0 + c.val; omega
    | ⟨3, _⟩ => by show 0 = 0 + z.val; have := z.isLt; omega
    | ⟨4, _⟩ => by show off = off + z'.val; have := z'.isLt; omega)

/-! ### The corner pixels' round trip through rank 10 -/

/-- A `broadcast_in_dim` to the operand's own shape along the identity map of the axes changes nothing. -/
theorem bcast10_id (z : (⟨10, ![1, 6, 1, 2, 1, 64, 1, 1, 1, 1]⟩ : Shape).Idx → α)
    (hb : (⟨10, ![1, 6, 1, 2, 1, 64, 1, 1, 1, 1]⟩ : Shape).BroadcastsInDim ⟨10, ![1, 6, 1, 2, 1, 64, 1, 1, 1, 1]⟩ ![0, 1, 2, 3, 4, 5, 6, 7, 8, 9]) :
    broadcastInDim ⟨10, ![1, 6, 1, 2, 1, 64, 1, 1, 1, 1]⟩ ![0, 1, 2, 3, 4, 5, 6, 7, 8, 9] hb z = z :=
  funext fun j => broadcastInDim_apply ![0, 1, 2, 3, 4, 5, 6, 7, 8, 9] hb z j j (fun a => match a with
    | ⟨0, _⟩ => by show (j 0).val = if (1 : Nat) = 1 then 0 else (j 0).val; rw [if_pos rfl]; have h : (j 0).val < 1 := (j 0).isLt; omega
    | ⟨1, _⟩ => by show (j 1).val = if (6 : Nat) = 1 then 0 else (j 1).val; rw [if_neg (by decide)]
    | ⟨2, _⟩ => by show (j 2).val = if (1 : Nat) = 1 then 0 else (j 2).val; rw [if_pos rfl]; have h : (j 2).val < 1 := (j 2).isLt; omega
    | ⟨3, _⟩ => by show (j 3).val = if (2 : Nat) = 1 then 0 else (j 3).val; rw [if_neg (by decide)]
    | ⟨4, _⟩ => by show (j 4).val = if (1 : Nat) = 1 then 0 else (j 4).val; rw [if_pos rfl]; have h : (j 4).val < 1 := (j 4).isLt; omega
    | ⟨5, _⟩ => by show (j 5).val = if (64 : Nat) = 1 then 0 else (j 5).val; rw [if_neg (by decide)]
    | ⟨6, _⟩ => by show (j 6).val = if (1 : Nat) = 1 then 0 else (j 6).val; rw [if_pos rfl]; have h : (j 6).val < 1 := (j 6).isLt; omega
    | ⟨7, _⟩ => by show (j 7).val = if (1 : Nat) = 1 then 0 else (j 7).val; rw [if_pos rfl]; have h : (j 7).val < 1 := (j 7).isLt; omega
    | ⟨8, _⟩ => by show (j 8).val = if (1 : Nat) = 1 then 0 else (j 8).val; rw [if_pos rfl]; have h : (j 8).val < 1 := (j 8).isLt; omega
    | ⟨9, _⟩ => by show (j 9).val = if (1 : Nat) = 1 then 0 else (j 9).val; rw [if_pos rfl]; have h : (j 9).val < 1 := (j 9).isLt; omega)

/-- The 768 corner pixels reshaped to rank 10, broadcast to their own shape, and reshaped back are the same array:
    the broadcast is the identity, and a reshape there and back keeps every element at its row-major position. -/
theorem corner_roundtrip (y : (⟨5, ![6, 2, 64, 1, 1]⟩ : Shape).Idx → α)
    (h1 : (⟨5, ![6, 2, 64, 1, 1]⟩ : Shape).ShapeCasts ⟨10, ![1, 6, 1, 2, 1, 64, 1, 1, 1, 1]⟩)
    (hb : (⟨10, ![1, 6, 1, 2, 1, 64, 1, 1, 1, 1]⟩ : Shape).BroadcastsInDim ⟨10, ![1, 6, 1, 2, 1, 64, 1, 1, 1, 1]⟩ ![0, 1, 2, 3, 4, 5, 6, 7, 8, 9])
    (h2 : (⟨10, ![1, 6, 1, 2, 1, 64, 1, 1, 1, 1]⟩ : Shape).ShapeCasts ⟨5, ![6, 2, 64, 1, 1]⟩) :
    shapeCast ⟨5, ![6, 2, 64, 1, 1]⟩ (broadcastInDim ⟨10, ![1, 6, 1, 2, 1, 64, 1, 1, 1, 1]⟩ ![0, 1, 2, 3, 4, 5, 6, 7, 8, 9] hb (shapeCast ⟨10, ![1, 6, 1, 2, 1, 64, 1, 1, 1, 1]⟩ y h1)) h2 = y := by
  rw [bcast10_id]
  exact shapeCast_shapeCast y h1 h2

/-! ### Cubes × faces flattened to images -/

/-- The last reshape merges the cube and face axes: image `b` is face `b % 6` of cube `b / 6`. -/
theorem merge_apply (y : (⟨5, ![2, 6, 64, 258, 258]⟩ : Shape).Idx → α)
    (hsc : (⟨5, ![2, 6, 64, 258, 258]⟩ : Shape).ShapeCasts ⟨4, ![12, 64, 258, 258]⟩)
    (i : (⟨4, ![12, 64, 258, 258]⟩ : Shape).Idx) :
    shapeCast ⟨4, ![12, 64, 258, 258]⟩ y hsc i
      = y (ix5 (⟨(i 0).val / 6, by have h : (i 0).val < 12 := (i 0).isLt; omega⟩ : Fin 2)
            (⟨(i 0).val % 6, Nat.mod_lt _ (by decide)⟩ : Fin 6) (i 1) (i 2) (i 3)) :=
  shapeCast_apply y hsc i _ (by
    rw [Shape.rowMajor_val_five, Shape.rowMajor_val_four]
    show (((((i 0).val / 6) * 6 + (i 0).val % 6) * 64 + (i 1).val) * 258 + (i 2).val) * 258 + (i 3).val
        = (((i 0).val * 64 + (i 1).val) * 258 + (i 2).val) * 258 + (i 3).val
    have h : (i 0).val / 6 * 6 + (i 0).val % 6 = (i 0).val := by omega
    rw [h])

end Cert.CubePad.Layout
-- ==== Proof.RefPadded.lean ====
/-
  The reference program's result is the padded cube faces, assembled from its own 24 edge pieces.

  Reading the program from its end: the result is the reshape (cubes × faces merged into images) of three vertical
  strips laid side by side — the left border column, the 256 interior columns, the right border column. The interior
  strip is the stack of top border rows, the faces, and the stack of bottom border rows, one above the other. A border
  column strip is a corner pixel, the stack of left (right) column pieces, and a corner pixel; a corner pixel is
  pixel 0 (pixel 255) of the top or bottom border row of the same face. The stacks are built with the face axis in
  front, so each is read through the exchange of its two leading axes. The edge pieces themselves are never opened.
-/
import proofs.«116597_j71528385347689_2_alg».proof.Proof.RefPieces
import proofs.«116597_j71528385347689_2_alg».proof.Proof.RefLayout

noncomputable section

namespace Cert.ReferenceIdeal.RefValue

open Idealize.ShloMosaic Idealize.ShloMosaic.ValueIdx Cert.ReferenceIdeal Cert.ReferenceIdeal.Gen Cert.ReferenceIdeal.Read
  Cert.CubePad Cert.CubePad.Layout

variable {F : FTy → Type} [FloatOps F]
variable (x : (⟨S12x64x256x256, .f32⟩ : BufTy).Contents (Elt F))

/-! ### The four stacks of edge pieces

Each kind of piece is stacked face by face on a new leading axis; slab `f` of a stack is face `f`'s piece. -/

/-- Slab `f` of the stack of top border rows is face `f`'s top border row. -/
theorem top_stack (f : Fin 6) (n : Fin 2) (c : Fin 64) (z : Fin 1) (q : Fin 256) :
    val_main_v31 (F := F) x (ix5 f n c z q) = rTop x f (ix4 n c 0 q) := by
  obtain rfl : z = 0 := Subsingleton.elim _ _
  unfold val_main_v31 val_main_v25 val_main_v26 val_main_v27 val_main_v28 val_main_v29 val_main_v30
  exact stack6_apply (rTop x) _ _ f n c 0 q

/-- Slab `f` of the stack of bottom border rows is face `f`'s bottom border row. -/
theorem bot_stack (f : Fin 6) (n : Fin 2) (c : Fin 64) (z : Fin 1) (q : Fin 256) :
    val_main_v50 (F := F) x (ix5 f n c z q) = rBot x f (ix4 n c 0 q) := by
  obtain rfl : z = 0 := Subsingleton.elim _ _
  unfold val_main_v50 val_main_v44 val_main_v45 val_main_v46 val_main_v47 val_main_v48 val_main_v49
  exact stack6_apply (rBot x) _ _ f n c 0 q

/-- Slab `f` of the stack of left border columns is face `f`'s left border column. -/
theorem lef_stack (f : Fin 6) (n : Fin 2) (c : Fin 64) (r : Fin 256) (z : Fin 1) :
    val_main_v66 (F := F) x (ix5 f n c r z) = rLef x f (ix4 n c r 0) := by
  obtain rfl : z = 0 := Subsingleton.elim _ _
  unfold val_main_v66 val_main_v60 val_main_v61 val_main_v62 val_main_v63 val_main_v64 val_main_v65
  exact stack6_apply (rLef x) _ _ f n c r 0

/-- Slab `f` of the stack of right border columns is face `f`'s right border column. -/
theorem rig_stack (f : Fin 6) (n : Fin 2) (c : Fin 64) (r : Fin 256) (z : Fin 1) :
    val_main_v83 (F := F) x (ix5 f n c r z) = rRig x f (ix4 n c r 0) := by
  obtain rfl : z = 0 := Subsingleton.elim _ _
  unfold val_main_v83 val_main_v77 val_main_v78 val_main_v79 val_main_v80 val_main_v81 val_main_v82
  exact stack6_apply (rRig x) _ _ f n c r 0

/-! ### The corner pixels

A corner pixel is one end pixel of a border row: column 0 or column 255 of the stack of top (bottom) border rows,
sent through a reshape to rank 10, a broadcast to its own shape and the reshape back, which together change nothing. -/

theorem tl_roundtrip : val_main_v93 (F := F) x = val_main_v89 (F := F) x := by
  unfold val_main_v93 val_main_v92 val_main_v91
  exact corner_roundtrip (val_main_v89 (F := F) x) _ _ _

theorem tr_roundtrip : val_main_v88 (F := F) x = val_main_v84 (F := F) x := by
  unfold val_main_v88 val_main_v87 val_main_v86
  exact corner_roundtrip (val_main_v84 (F := F) x) _ _ _

theorem bl_roundtrip : val_main_v103 (F := F) x = val_main_v99 (F := F) x := by
  unfold val_main_v103 val_main_v102 val_main_v101
  exact corner_roundtrip (val_main_v99 (F := F) x) _ _ _

theorem br_roundtrip : val_main_v98 (F := F) x = val_main_v94 (F := F) x := by
  unfold val_main_v98 val_main_v97 val_main_v96
  exact corner_roundtrip (val_main_v94 (F := F) x) _ _ _

/-- The top-left corner pixels: pixel 0 of the top border rows. -/
theorem corner_tl (f : Fin 6) (n : Fin 2) (c : Fin 64) (z z' : Fin 1) :
    val_main_v93 (F := F) x (ix5 f n c z z') = rTop x f (ix4 n c 0 0) := by
  rw [tl_roundtrip]
  unfold val_main_v89
  refine (col_slice_apply 0 (by decide) (val_main_v31 (F := F) x) _ f n c z z').trans ?_
  exact top_stack x f n c 0 _

/-- The top-right corner pixels: pixel 255 of the top border rows. -/
theorem corner_tr (f : Fin 6) (n : Fin 2) (c : Fin 64) (z z' : Fin 1) :
    val_main_v88 (F := F) x (ix5 f n c z z') = rTop x f (ix4 n c 0 255) := by
  rw [tr_roundtrip]
  unfold val_main_v84
  refine (col_slice_apply 255 (by decide) (val_main_v31 (F := F) x) _ f n c z z').trans ?_
  exact top_stack x f n c 0 _

/-- The bottom-left corner pixels: pixel 0 of the bottom border rows. -/
theorem corner_bl (f : Fin 6) (n : Fin 2) (c : Fin 64) (z z' : Fin 1) :
    val_main_v103 (F := F) x (ix5 f n c z z') = rBot x f (ix4 n c 0 0) := by
  rw [bl_roundtrip]
  unfold val_main_v99
  refine (col_slice_apply 0 (by decide) (val_main_v50 (F := F) x) _ f n c z z').trans ?_
  exact bot_stack x f n c 0 _

/-- The bottom-right corner pixels: pixel 255 of the bottom border rows. -/
theorem corner_br (f : Fin 6) (n : Fin 2) (c : Fin 64) (z z' : Fin 1) :
    val_main_v98 (F := F) x (ix5 f n c z z') = rBot x f (ix4 n c 0 255) := by
  rw [br_roundtrip]
  unfold val_main_v94
  refine (col_slice_apply 255 (by decide) (val_main_v50 (F := F) x) _ f n c z z').trans ?_
  exact bot_stack x f n c 0 _

/-! ### The three vertical strips of a padded face -/

/-- The left border column of the padded faces: top-left corner, the left column piece, bottom-left corner. -/
theorem left_col (n : Fin 2) (f : Fin 6) (c : Fin 64) (r : Fin 258) (z : Fin 1) :
    val_main_v107 (F := F) x (ix5 n f c r z) = colAt (rTop x) (rBot x) (rLef x) 0 n f c r := by
  obtain rfl : z = 0 := Subsingleton.elim _ _
  unfold val_main_v107 colAt
  by_cases h0 : r.val = 0
  · rw [if_pos h0]
    refine (cat3_rows_first _ _ _ _ n f c r 0 h0).trans ?_
    unfold val_main_v104
    refine (swap01_apply _ _ n f c 0 0).trans ?_
    exact corner_tl x f n c 0 0
  · rw [if_neg h0]
    by_cases h1 : r.val = 257
    · rw [dif_pos h1]
      refine (cat3_rows_last _ _ _ _ n f c r 0 h1).trans ?_
      unfold val_main_v106
      refine (swap01_apply _ _ n f c 0 0).trans ?_
      exact corner_bl x f n c 0 0
    · rw [dif_neg h1]
      refine (cat3_rows_mid _ _ _ _ n f c r 0 h0 h1).trans ?_
      unfold val_main_v105
      refine (swap01_apply _ _ n f c _ 0).trans ?_
      exact lef_stack x f n c _ 0

/-- The right border column of the padded faces: top-right corner, the right column piece, bottom-right corner. -/
theorem right_col (n : Fin 2) (f : Fin 6) (c : Fin 64) (r : Fin 258) (z : Fin 1) :
    val_main_v111 (F := F) x (ix5 n f c r z) = colAt (rTop x) (rBot x) (rRig x) 255 n f c r := by
  obtain rfl : z = 0 := Subsingleton.elim _ _
  unfold val_main_v111 colAt
  by_cases h0 : r.val = 0
  · rw [if_pos h0]
    refine (cat3_rows_first _ _ _ _ n f c r 0 h0).trans ?_
    unfold val_main_v108
    refine (swap01_apply _ _ n f c 0 0).trans ?_
    exact corner_tr x f n c 0 0
  · rw [if_neg h0]
    by_cases h1 : r.val = 257
    · rw [dif_pos h1]
      refine (cat3_rows_last _ _ _ _ n f c r 0 h1).trans ?_
      unfold val_main_v110
      refine (swap01_apply _ _ n f c 0 0).trans ?_
      exact corner_br x f n c 0 0
    · rw [dif_neg h1]
      refine (cat3_rows_mid _ _ _ _ n f c r 0 h0 h1).trans ?_
      unfold val_main_v109
      refine (swap01_apply _ _ n f c _ 0).trans ?_
      exact rig_stack x f n c _ 0

/-- The 256 interior columns of the padded faces: the top border row, the face, the bottom border row. -/
theorem mid_rows (n : Fin 2) (f : Fin 6) (c : Fin 64) (r : Fin 258) (q : Fin 256) :
    val_main_v114 (F := F) x (ix5 n f c r q) = midAt (rTop x) (rBot x) (faces x) n f c r q := by
  unfold val_main_v114 midAt
  by_cases h0 : r.val = 0
  · rw [if_pos h0]
    refine (cat3_rows_first _ _ _ _ n f c r q h0).trans ?_
    unfold val_main_v112
    refine (swap01_apply _ _ n f c 0 q).trans ?_
    exact top_stack x f n c 0 q
  · rw [if_neg h0]
    by_cases h1 : r.val = 257
    · rw [dif_pos h1]
      refine (cat3_rows_last _ _ _ _ n f c r q h1).trans ?_
      unfold val_main_v113
      refine (swap01_apply _ _ n f c 0 q).trans ?_
      exact bot_stack x f n c 0 q
    · rw [dif_neg h1]
      exact cat3_rows_mid _ _ _ _ n f c r q h0 h1

/-! ### The padded faces -/

/-- The three strips side by side: a pixel of the padded faces by its cube, face, channel, row and column. -/
theorem cell_eq (n : Fin 2) (f : Fin 6) (c : Fin 64) (r s : Fin 258) :
    val_main_v115 (F := F) x (ix5 n f c r s) = cell (rTop x) (rBot x) (rLef x) (rRig x) (faces x) n f c r s := by
  unfold val_main_v115 cell
  by_cases h0 : s.val = 0
  · rw [if_pos h0]
    refine (cat3_cols_first _ _ _ _ n f c r s h0).trans ?_
    exact left_col x n f c r 0
  · rw [if_neg h0]
    by_cases h1 : s.val = 257
    · rw [dif_pos h1]
      refine (cat3_cols_last _ _ _ _ n f c r s h1).trans ?_
      exact right_col x n f c r 0
    · rw [dif_neg h1]
      refine (cat3_cols_mid _ _ _ _ n f c r s h0 h1).trans ?_
      exact mid_rows x n f c r _

/-- **The reference's result is the padded faces** assembled from its own edge pieces: the last reshape only merges
    the cube and face axes, image `6 n + f` being face `f` of cube `n`. -/
theorem result_eq :
    Cert.ReferenceIdeal.Read.val_main_v116 (F := F) x
      = Cert.CubePad.padded (rTop x) (rBot x) (rLef x) (rRig x) (faces x) := by
  funext i
  unfold val_main_v116
  refine (merge_apply _ _ i).trans ?_
  exact cell_eq x _ _ _ _ _

end Cert.ReferenceIdeal.RefValue

end
-- ==== Proof.RefOps.lean ====
/-
  The reference program as one straight line of operations.

  The program's @main is 117 operations, each reading buffers written earlier (or the argument) and writing one
  buffer of its own: reshapes, slices, transposes, reversals, insertions of a unit axis and concatenations. This
  module lists them in program order, says that running @main is running the list, that every buffer the list
  touches is a device buffer outside any scope, and that the k-th operation writes the k-th result buffer and
  nothing else. The reading of the results, one operation at a time, is built on these facts.
-/
import proofs.«116597_j71528385347689_2_alg».proof.Proof.Gen.ReferenceIdeal
import proofs.«116597_j71528385347689_2_alg».proof.Proof.LibHostLine
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo
open Cert.CubePad.Line

variable {F : FTy → Type} [FloatOps F]

set_option maxHeartbeats 4000000 in
/-- @main's 117 operations, in program order (an operation of a called function stands where the call is). -/
abbrev ops : List (HloOp τ sig (Elt F)) :=
  [ reshape main_arg0 main_v0 rfl shapeCasts_S12x64x256x256_S2x6x64x256x256,
    unary main_v0 main_v1 ((extractStridedSlice S2x1x64x256x256 ![0, 0, 0, 0, 0] · slices_S2x6x64x256x256_S2x1x64x256x256_0_0_0_0_0) : (⟨S2x6x64x256x256, .f32⟩ : BufTy).Contents (Elt F) → (⟨S2x1x64x256x256, .f32⟩ : BufTy).Contents (Elt F)),
    reshape main_v1 main_v2 rfl shapeCasts_S2x1x64x256x256_S2x64x256x256,
    unary main_v0 main_v3 ((extractStridedSlice S2x1x64x256x256 ![0, 1, 0, 0, 0] · slices_S2x6x64x256x256_S2x1x64x256x256_0_1_0_0_0) : (⟨S2x6x64x256x256, .f32⟩ : BufTy).Contents (Elt F) → (⟨S2x1x64x256x256, .f32⟩ : BufTy).Contents (Elt F)),
    reshape main_v3 main_v4 rfl shapeCasts_S2x1x64x256x256_S2x64x256x256,
    unary main_v0 main_v5 ((extractStridedSlice S2x1x64x256x256 ![0, 2, 0, 0, 0] · slices_S2x6x64x256x256_S2x1x64x256x256_0_2_0_0_0) : (⟨S2x6x64x256x256, .f32⟩ : BufTy).Contents (Elt F) → (⟨S2x1x64x256x256, .f32⟩ : BufTy).Contents (Elt F)),
    reshape main_v5 main_v6 rfl shapeCasts_S2x1x64x256x256_S2x64x256x256,
    unary main_v0 main_v7 ((extractStridedSlice S2x1x64x256x256 ![0, 3, 0, 0, 0] · slices_S2x6x64x256x256_S2x1x64x256x256_0_3_0_0_0) : (⟨S2x6x64x256x256, .f32⟩ : BufTy).Contents (Elt F) → (⟨S2x1x64x256x256, .f32⟩ : BufTy).Contents (Elt F)),
    reshape main_v7 main_v8 rfl shapeCasts_S2x1x64x256x256_S2x64x256x256,
    unary main_v0 main_v9 ((extractStridedSlice S2x1x64x256x256 ![0, 4, 0, 0, 0] · slices_S2x6x64x256x256_S2x1x64x256x256_0_4_0_0_0) : (⟨S2x6x64x256x256, .f32⟩ : BufTy).Contents (Elt F) → (⟨S2x1x64x256x256, .f32⟩ : BufTy).Contents (Elt F)),
    reshape main_v9 main_v10 rfl shapeCasts_S2x1x64x256x256_S2x64x256x256,
    unary main_v0 main_v11 ((extractStridedSlice S2x1x64x256x256 ![0, 5, 0, 0, 0] · slices_S2x6x64x256x256_S2x1x64x256x256_0_5_0_0_0) : (⟨S2x6x64x256x256, .f32⟩ : BufTy).Contents (Elt F) → (⟨S2x1x64x256x256, .f32⟩ : BufTy).Contents (Elt F)),
    reshape main_v11 main_v12 rfl shapeCasts_S2x1x64x256x256_S2x64x256x256,
    unary main_v10 main_v13 ((extractStridedSlice S2x64x1x256 ![0, 0, 255, 0] · slices_S2x64x256x256_S2x64x1x256_0_0_255_0) : (⟨S2x64x256x256, .f32⟩ : BufTy).Contents (Elt F) → (⟨S2x64x1x256, .f32⟩ : BufTy).Contents (Elt F)),
    unary main_v10 main_v14 ((extractStridedSlice S2x64x256x1 ![0, 0, 0, 255] · slices_S2x64x256x256_S2x64x256x1_0_0_0_255) : (⟨S2x64x256x256, .f32⟩ : BufTy).Contents (Elt F) → (⟨S2x64x256x1, .f32⟩ : BufTy).Contents (Elt F)),
    unary main_v14 main_v15 ((transpose S2x64x1x256 [0, 1, 3, 2] · transposes_S2x64x256x1_S2x64x1x256_0_1_3_2) : (⟨S2x64x256x1, .f32⟩ : BufTy).Contents (Elt F) → (⟨S2x64x1x256, .f32⟩ : BufTy).Contents (Elt F)),
    TRef.unary (TRef.of (T := ⟨S2x64x1x256, .f32⟩) main_v15) (TRef.of (T := ⟨S2x64x1x256, .f32⟩) main_v16) (Host.reverse [3]),
    unary main_v10 main_v17 ((extractStridedSlice S2x64x1x256 ![0, 0, 0, 0] · slices_S2x64x256x256_S2x64x1x256_0_0_0_0) : (⟨S2x64x256x256, .f32⟩ : BufTy).Contents (Elt F) → (⟨S2x64x1x256, .f32⟩ : BufTy).Contents (Elt F)),
    TRef.unary (TRef.of (T := ⟨S2x64x1x256, .f32⟩) main_v17) (TRef.of (T := ⟨S2x64x1x256, .f32⟩) main_v18) (Host.reverse [3]),
    unary main_v10 main_v19 ((extractStridedSlice S2x64x256x1 ![0, 0, 0, 0] · slices_S2x64x256x256_S2x64x256x1_0_0_0_0) : (⟨S2x64x256x256, .f32⟩ : BufTy).Contents (Elt F) → (⟨S2x64x256x1, .f32⟩ : BufTy).Contents (Elt F)),
    unary main_v19 main_v20 ((transpose S2x64x1x256 [0, 1, 3, 2] · transposes_S2x64x256x1_S2x64x1x256_0_1_3_2) : (⟨S2x64x256x1, .f32⟩ : BufTy).Contents (Elt F) → (⟨S2x64x1x256, .f32⟩ : BufTy).Contents (Elt F)),
    TRef.unary (TRef.of (T := ⟨S2x64x1x256, .f32⟩) main_v20) (TRef.of (T := ⟨S2x64x1x256, .f32⟩) main_v21) (Host.reverse [2]),
    unary main_v6 main_v22 ((extractStridedSlice S2x64x1x256 ![0, 0, 0, 0] · slices_S2x64x256x256_S2x64x1x256_0_0_0_0) : (⟨S2x64x256x256, .f32⟩ : BufTy).Contents (Elt F) → (⟨S2x64x1x256, .f32⟩ : BufTy).Contents (Elt F)),
    TRef.unary (TRef.of (T := ⟨S2x64x1x256, .f32⟩) main_v22) (TRef.of (T := ⟨S2x64x1x256, .f32⟩) main_v23) (Host.reverse [2, 3]),
    unary main_v2 main_v24 ((extractStridedSlice S2x64x1x256 ![0, 0, 255, 0] · slices_S2x64x256x256_S2x64x1x256_0_0_255_0) : (⟨S2x64x256x256, .f32⟩ : BufTy).Contents (Elt F) → (⟨S2x64x1x256, .f32⟩ : BufTy).Contents (Elt F)),
    unary main_v13 main_v25 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    unary main_v16 main_v26 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    unary main_v18 main_v27 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    unary main_v21 main_v28 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    unary main_v23 main_v29 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    unary main_v24 main_v30 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    nary ![main_v25, main_v26, main_v27, main_v28, main_v29, main_v30] main_v31 (fun u => concatenate S6x2x64x1x256 0 [⟨S1x2x64x1x256, u 0⟩, ⟨S1x2x64x1x256, u 1⟩, ⟨S1x2x64x1x256, u 2⟩, ⟨S1x2x64x1x256, u 3⟩, ⟨S1x2x64x1x256, u 4⟩, ⟨S1x2x64x1x256, u 5⟩] concatenates_S1x2x64x1x256_S1x2x64x1x256_S1x2x64x1x256_S1x2x64x1x256_S1x2x64x1x256_S1x2x64x1x256_S6x2x64x1x256_d0),
    unary main_v12 main_v32 ((extractStridedSlice S2x64x1x256 ![0, 0, 0, 0] · slices_S2x64x256x256_S2x64x1x256_0_0_0_0) : (⟨S2x64x256x256, .f32⟩ : BufTy).Contents (Elt F) → (⟨S2x64x1x256, .f32⟩ : BufTy).Contents (Elt F)),
    unary main_v12 main_v33 ((extractStridedSlice S2x64x256x1 ![0, 0, 0, 255] · slices_S2x64x256x256_S2x64x256x1_0_0_0_255) : (⟨S2x64x256x256, .f32⟩ : BufTy).Contents (Elt F) → (⟨S2x64x256x1, .f32⟩ : BufTy).Contents (Elt F)),
    unary main_v33 main_v34 ((transpose S2x64x1x256 [0, 1, 3, 2] · transposes_S2x64x256x1_S2x64x1x256_0_1_3_2) : (⟨S2x64x256x1, .f32⟩ : BufTy).Contents (Elt F) → (⟨S2x64x1x256, .f32⟩ : BufTy).Contents (Elt F)),
    TRef.unary (TRef.of (T := ⟨S2x64x1x256, .f32⟩) main_v34) (TRef.of (T := ⟨S2x64x1x256, .f32⟩) main_v35) (Host.reverse [2]),
    unary main_v12 main_v36 ((extractStridedSlice S2x64x1x256 ![0, 0, 255, 0] · slices_S2x64x256x256_S2x64x1x256_0_0_255_0) : (⟨S2x64x256x256, .f32⟩ : BufTy).Contents (Elt F) → (⟨S2x64x1x256, .f32⟩ : BufTy).Contents (Elt F)),
    TRef.unary (TRef.of (T := ⟨S2x64x1x256, .f32⟩) main_v36) (TRef.of (T := ⟨S2x64x1x256, .f32⟩) main_v37) (Host.reverse [2, 3]),
    unary main_v12 main_v38 ((extractStridedSlice S2x64x256x1 ![0, 0, 0, 0] · slices_S2x64x256x256_S2x64x256x1_0_0_0_0) : (⟨S2x64x256x256, .f32⟩ : BufTy).Contents (Elt F) → (⟨S2x64x256x1, .f32⟩ : BufTy).Contents (Elt F)),
    unary main_v38 main_v39 ((transpose S2x64x1x256 [0, 1, 3, 2] · transposes_S2x64x256x1_S2x64x1x256_0_1_3_2) : (⟨S2x64x256x1, .f32⟩ : BufTy).Contents (Elt F) → (⟨S2x64x1x256, .f32⟩ : BufTy).Contents (Elt F)),
    TRef.unary (TRef.of (T := ⟨S2x64x1x256, .f32⟩) main_v39) (TRef.of (T := ⟨S2x64x1x256, .f32⟩) main_v40) (Host.reverse [3]),
    unary main_v2 main_v41 ((extractStridedSlice S2x64x1x256 ![0, 0, 0, 0] · slices_S2x64x256x256_S2x64x1x256_0_0_0_0) : (⟨S2x64x256x256, .f32⟩ : BufTy).Contents (Elt F) → (⟨S2x64x1x256, .f32⟩ : BufTy).Contents (Elt F)),
    unary main_v6 main_v42 ((extractStridedSlice S2x64x1x256 ![0, 0, 255, 0] · slices_S2x64x256x256_S2x64x1x256_0_0_255_0) : (⟨S2x64x256x256, .f32⟩ : BufTy).Contents (Elt F) → (⟨S2x64x1x256, .f32⟩ : BufTy).Contents (Elt F)),
    TRef.unary (TRef.of (T := ⟨S2x64x1x256, .f32⟩) main_v42) (TRef.of (T := ⟨S2x64x1x256, .f32⟩) main_v43) (Host.reverse [2, 3]),
    unary main_v32 main_v44 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    unary main_v35 main_v45 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    unary main_v37 main_v46 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    unary main_v40 main_v47 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    unary main_v41 main_v48 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    unary main_v43 main_v49 (broadcastInDim S1x2x64x1x256 ![1, 2, 3, 4] bcast_S2x64x1x256_S1x2x64x1x256_1_2_3_4 : (⟨S2x64x1x256, .f32⟩ : BufTy).Contents (Elt F) → (⟨S1x2x64x1x256, .f32⟩ : BufTy).Contents (Elt F)),
    nary ![main_v44, main_v45, main_v46, main_v47, main_v48, main_v49] main_v50 (fun u => concatenate S6x2x64x1x256 0 [⟨S1x2x64x1x256, u 0⟩, ⟨S1x2x64x1x256, u 1⟩, ⟨S1x2x64x1x256, u 2⟩, ⟨S1x2x64x1x256, u 3⟩, ⟨S1x2x64x1x256, u 4⟩, ⟨S1x2x64x1x256, u 5⟩] concatenates_S1x2x64x1x256_S1x2x64x1x256_S1x2x64x1x256_S1x2x64x1x256_S1x2x64x1x256_S1x2x64x1x256_S6x2x64x1x256_d0),
    unary main_v8 main_v51 ((extractStridedSlice S2x64x256x1 ![0, 0, 0, 255] · slices_S2x64x256x256_S2x64x256x1_0_0_0_255) : (⟨S2x64x256x256, .f32⟩ : BufTy).Contents (Elt F) → (⟨S2x64x256x1, .f32⟩ : BufTy).Contents (Elt F)),
    unary main_v2 main_v52 ((extractStridedSlice S2x64x256x1 ![0, 0, 0, 255] · slices_S2x64x256x256_S2x64x256x1_0_0_0_255) : (⟨S2x64x256x256, .f32⟩ : BufTy).Contents (Elt F) → (⟨S2x64x256x1, .f32⟩ : BufTy).Contents (Elt F)),
    unary main_v4 main_v53 ((extractStridedSlice S2x64x256x1 ![0, 0, 0, 255] · slices_S2x64x256x256_S2x64x256x1_0_0_0_255) : (⟨S2x64x256x256, .f32⟩ : BufTy).Contents (Elt F) → (⟨S2x64x256x1, .f32⟩ : BufTy).Contents (Elt F)),
    unary main_v6 main_v54 ((extractStridedSlice S2x64x256x1 ![0, 0, 0, 255] · slices_S2x64x256x256_S2x64x256x1_0_0_0_255) : (⟨S2x64x256x256, .f32⟩ : BufTy).Contents (Elt F) → (⟨S2x64x256x1, .f32⟩ : BufTy).Contents (Elt F)),
    unary main_v8 main_v55 ((extractStridedSlice S2x64x1x256 ![0, 0, 0, 0] · slices_S2x64x256x256_S2x64x1x256_0_0_0_0) : (⟨S2x64x256x256, .f32⟩ : BufTy).Contents (Elt F) → (⟨S2x64x1x256, .f32⟩ : BufTy).Contents (Elt F)),
    unary main_v55 main_v56 ((transpose S2x64x256x1 [0, 1, 3, 2] · transposes_S2x64x1x256_S2x64x256x1_0_1_3_2) : (⟨S2x64x1x256, .f32⟩ : BufTy).Contents (Elt F) → (⟨S2x64x256x1, .f32⟩ : BufTy).Contents (Elt F)),
    unary main_v8 main_v57 ((extractStridedSlice S2x64x1x256 ![0, 0, 255, 0] · slices_S2x64x256x256_S2x64x1x256_0_0_255_0) : (⟨S2x64x256x256, .f32⟩ : BufTy).Contents (Elt F) → (⟨S2x64x1x256, .f32⟩ : BufTy).Contents (Elt F)),
    unary main_v57 main_v58 ((transpose S2x64x256x1 [0, 1, 3, 2] · transposes_S2x64x1x256_S2x64x256x1_0_1_3_2) : (⟨S2x64x1x256, .f32⟩ : BufTy).Contents (Elt F) → (⟨S2x64x256x1, .f32⟩ : BufTy).Contents (Elt F)),
    TRef.unary (TRef.of (T := ⟨S2x64x256x1, .f32⟩) main_v58) (TRef.of (T := ⟨S2x64x256x1, .f32⟩) main_v59) (Host.reverse [2]),
    unary main_v51 main_v60 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    unary main_v52 main_v61 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    unary main_v53 main_v62 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    unary main_v54 main_v63 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    unary main_v56 main_v64 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    unary main_v59 main_v65 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    nary ![main_v60, main_v61, main_v62, main_v63, main_v64, main_v65] main_v66 (fun u => concatenate S6x2x64x256x1 0 [⟨S1x2x64x256x1, u 0⟩, ⟨S1x2x64x256x1, u 1⟩, ⟨S1x2x64x256x1, u 2⟩, ⟨S1x2x64x256x1, u 3⟩, ⟨S1x2x64x256x1, u 4⟩, ⟨S1x2x64x256x1, u 5⟩] concatenates_S1x2x64x256x1_S1x2x64x256x1_S1x2x64x256x1_S1x2x64x256x1_S1x2x64x256x1_S1x2x64x256x1_S6x2x64x256x1_d0),
    unary main_v4 main_v67 ((extractStridedSlice S2x64x256x1 ![0, 0, 0, 0] · slices_S2x64x256x256_S2x64x256x1_0_0_0_0) : (⟨S2x64x256x256, .f32⟩ : BufTy).Contents (Elt F) → (⟨S2x64x256x1, .f32⟩ : BufTy).Contents (Elt F)),
    unary main_v6 main_v68 ((extractStridedSlice S2x64x256x1 ![0, 0, 0, 0] · slices_S2x64x256x256_S2x64x256x1_0_0_0_0) : (⟨S2x64x256x256, .f32⟩ : BufTy).Contents (Elt F) → (⟨S2x64x256x1, .f32⟩ : BufTy).Contents (Elt F)),
    unary main_v8 main_v69 ((extractStridedSlice S2x64x256x1 ![0, 0, 0, 0] · slices_S2x64x256x256_S2x64x256x1_0_0_0_0) : (⟨S2x64x256x256, .f32⟩ : BufTy).Contents (Elt F) → (⟨S2x64x256x1, .f32⟩ : BufTy).Contents (Elt F)),
    unary main_v2 main_v70 ((extractStridedSlice S2x64x256x1 ![0, 0, 0, 0] · slices_S2x64x256x256_S2x64x256x1_0_0_0_0) : (⟨S2x64x256x256, .f32⟩ : BufTy).Contents (Elt F) → (⟨S2x64x256x1, .f32⟩ : BufTy).Contents (Elt F)),
    unary main_v4 main_v71 ((extractStridedSlice S2x64x1x256 ![0, 0, 0, 0] · slices_S2x64x256x256_S2x64x1x256_0_0_0_0) : (⟨S2x64x256x256, .f32⟩ : BufTy).Contents (Elt F) → (⟨S2x64x1x256, .f32⟩ : BufTy).Contents (Elt F)),
    unary main_v71 main_v72 ((transpose S2x64x256x1 [0, 1, 3, 2] · transposes_S2x64x1x256_S2x64x256x1_0_1_3_2) : (⟨S2x64x1x256, .f32⟩ : BufTy).Contents (Elt F) → (⟨S2x64x256x1, .f32⟩ : BufTy).Contents (Elt F)),
    TRef.unary (TRef.of (T := ⟨S2x64x256x1, .f32⟩) main_v72) (TRef.of (T := ⟨S2x64x256x1, .f32⟩) main_v73) (Host.reverse [2]),
    unary main_v4 main_v74 ((extractStridedSlice S2x64x1x256 ![0, 0, 255, 0] · slices_S2x64x256x256_S2x64x1x256_0_0_255_0) : (⟨S2x64x256x256, .f32⟩ : BufTy).Contents (Elt F) → (⟨S2x64x1x256, .f32⟩ : BufTy).Contents (Elt F)),
    TRef.unary (TRef.of (T := ⟨S2x64x1x256, .f32⟩) main_v74) (TRef.of (T := ⟨S2x64x1x256, .f32⟩) main_v75) (Host.reverse [2]),
    unary main_v75 main_v76 ((transpose S2x64x256x1 [0, 1, 3, 2] · transposes_S2x64x1x256_S2x64x256x1_0_1_3_2) : (⟨S2x64x1x256, .f32⟩ : BufTy).Contents (Elt F) → (⟨S2x64x256x1, .f32⟩ : BufTy).Contents (Elt F)),
    unary main_v67 main_v77 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    unary main_v68 main_v78 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    unary main_v69 main_v79 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    unary main_v70 main_v80 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    unary main_v73 main_v81 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    unary main_v76 main_v82 (broadcastInDim S1x2x64x256x1 ![1, 2, 3, 4] bcast_S2x64x256x1_S1x2x64x256x1_1_2_3_4 : (⟨S2x64x256x1, .f32⟩ : BufTy).Contents (Elt F) → (⟨S1x2x64x256x1, .f32⟩ : BufTy).Contents (Elt F)),
    nary ![main_v77, main_v78, main_v79, main_v80, main_v81, main_v82] main_v83 (fun u => concatenate S6x2x64x256x1 0 [⟨S1x2x64x256x1, u 0⟩, ⟨S1x2x64x256x1, u 1⟩, ⟨S1x2x64x256x1, u 2⟩, ⟨S1x2x64x256x1, u 3⟩, ⟨S1x2x64x256x1, u 4⟩, ⟨S1x2x64x256x1, u 5⟩] concatenates_S1x2x64x256x1_S1x2x64x256x1_S1x2x64x256x1_S1x2x64x256x1_S1x2x64x256x1_S1x2x64x256x1_S6x2x64x256x1_d0),
    unary main_v31 main_v84 ((extractStridedSlice S6x2x64x1x1 ![0, 0, 0, 0, 255] · slices_S6x2x64x1x256_S6x2x64x1x1_0_0_0_0_255) : (⟨S6x2x64x1x256, .f32⟩ : BufTy).Contents (Elt F) → (⟨S6x2x64x1x1, .f32⟩ : BufTy).Contents (Elt F)),
    unary main_v83 main_v85 ((extractStridedSlice S6x2x64x1x1 ![0, 0, 0, 0, 0] · slices_S6x2x64x256x1_S6x2x64x1x1_0_0_0_0_0) : (⟨S6x2x64x256x1, .f32⟩ : BufTy).Contents (Elt F) → (⟨S6x2x64x1x1, .f32⟩ : BufTy).Contents (Elt F)),
    reshape main_v84 main_v86 rfl shapeCasts_S6x2x64x1x1_S1x6x1x2x1x64x1x1x1x1,
    unary main_v86 main_v87 (broadcastInDim S1x6x1x2x1x64x1x1x1x1 ![0, 1, 2, 3, 4, 5, 6, 7, 8, 9] bcast_S1x6x1x2x1x64x1x1x1x1_S1x6x1x2x1x64x1x1x1x1_0_1_2_3_4_5_6_7_8_9 : (⟨S1x6x1x2x1x64x1x1x1x1, .f32⟩ : BufTy).Contents (Elt F) → (⟨S1x6x1x2x1x64x1x1x1x1, .f32⟩ : BufTy).Contents (Elt F)),
    reshape main_v87 main_v88 rfl shapeCasts_S1x6x1x2x1x64x1x1x1x1_S6x2x64x1x1,
    unary main_v31 main_v89 ((extractStridedSlice S6x2x64x1x1 ![0, 0, 0, 0, 0] · slices_S6x2x64x1x256_S6x2x64x1x1_0_0_0_0_0) : (⟨S6x2x64x1x256, .f32⟩ : BufTy).Contents (Elt F) → (⟨S6x2x64x1x1, .f32⟩ : BufTy).Contents (Elt F)),
    unary main_v66 main_v90 ((extractStridedSlice S6x2x64x1x1 ![0, 0, 0, 0, 0] · slices_S6x2x64x256x1_S6x2x64x1x1_0_0_0_0_0) : (⟨S6x2x64x256x1, .f32⟩ : BufTy).Contents (Elt F) → (⟨S6x2x64x1x1, .f32⟩ : BufTy).Contents (Elt F)),
    reshape main_v89 main_v91 rfl shapeCasts_S6x2x64x1x1_S1x6x1x2x1x64x1x1x1x1,
    unary main_v91 main_v92 (broadcastInDim S1x6x1x2x1x64x1x1x1x1 ![0, 1, 2, 3, 4, 5, 6, 7, 8, 9] bcast_S1x6x1x2x1x64x1x1x1x1_S1x6x1x2x1x64x1x1x1x1_0_1_2_3_4_5_6_7_8_9 : (⟨S1x6x1x2x1x64x1x1x1x1, .f32⟩ : BufTy).Contents (Elt F) → (⟨S1x6x1x2x1x64x1x1x1x1, .f32⟩ : BufTy).Contents (Elt F)),
    reshape main_v92 main_v93 rfl shapeCasts_S1x6x1x2x1x64x1x1x1x1_S6x2x64x1x1,
    unary main_v50 main_v94 ((extractStridedSlice S6x2x64x1x1 ![0, 0, 0, 0, 255] · slices_S6x2x64x1x256_S6x2x64x1x1_0_0_0_0_255) : (⟨S6x2x64x1x256, .f32⟩ : BufTy).Contents (Elt F) → (⟨S6x2x64x1x1, .f32⟩ : BufTy).Contents (Elt F)),
    unary main_v83 main_v95 ((extractStridedSlice S6x2x64x1x1 ![0, 0, 0, 255, 0] · slices_S6x2x64x256x1_S6x2x64x1x1_0_0_0_255_0) : (⟨S6x2x64x256x1, .f32⟩ : BufTy).Contents (Elt F) → (⟨S6x2x64x1x1, .f32⟩ : BufTy).Contents (Elt F)),
    reshape main_v94 main_v96 rfl shapeCasts_S6x2x64x1x1_S1x6x1x2x1x64x1x1x1x1,
    unary main_v96 main_v97 (broadcastInDim S1x6x1x2x1x64x1x1x1x1 ![0, 1, 2, 3, 4, 5, 6, 7, 8, 9] bcast_S1x6x1x2x1x64x1x1x1x1_S1x6x1x2x1x64x1x1x1x1_0_1_2_3_4_5_6_7_8_9 : (⟨S1x6x1x2x1x64x1x1x1x1, .f32⟩ : BufTy).Contents (Elt F) → (⟨S1x6x1x2x1x64x1x1x1x1, .f32⟩ : BufTy).Contents (Elt F)),
    reshape main_v97 main_v98 rfl shapeCasts_S1x6x1x2x1x64x1x1x1x1_S6x2x64x1x1,
    unary main_v50 main_v99 ((extractStridedSlice S6x2x64x1x1 ![0, 0, 0, 0, 0] · slices_S6x2x64x1x256_S6x2x64x1x1_0_0_0_0_0) : (⟨S6x2x64x1x256, .f32⟩ : BufTy).Contents (Elt F) → (⟨S6x2x64x1x1, .f32⟩ : BufTy).Contents (Elt F)),
    unary main_v66 main_v100 ((extractStridedSlice S6x2x64x1x1 ![0, 0, 0, 255, 0] · slices_S6x2x64x256x1_S6x2x64x1x1_0_0_0_255_0) : (⟨S6x2x64x256x1, .f32⟩ : BufTy).Contents (Elt F) → (⟨S6x2x64x1x1, .f32⟩ : BufTy).Contents (Elt F)),
    reshape main_v99 main_v101 rfl shapeCasts_S6x2x64x1x1_S1x6x1x2x1x64x1x1x1x1,
    unary main_v101 main_v102 (broadcastInDim S1x6x1x2x1x64x1x1x1x1 ![0, 1, 2, 3, 4, 5, 6, 7, 8, 9] bcast_S1x6x1x2x1x64x1x1x1x1_S1x6x1x2x1x64x1x1x1x1_0_1_2_3_4_5_6_7_8_9 : (⟨S1x6x1x2x1x64x1x1x1x1, .f32⟩ : BufTy).Contents (Elt F) → (⟨S1x6x1x2x1x64x1x1x1x1, .f32⟩ : BufTy).Contents (Elt F)),
    reshape main_v102 main_v103 rfl shapeCasts_S1x6x1x2x1x64x1x1x1x1_S6x2x64x1x1,
    unary main_v93 main_v104 ((transpose S2x6x64x1x1 [1, 0, 2, 3, 4] · transposes_S6x2x64x1x1_S2x6x64x1x1_1_0_2_3_4) : (⟨S6x2x64x1x1, .f32⟩ : BufTy).Contents (Elt F) → (⟨S2x6x64x1x1, .f32⟩ : BufTy).Contents (Elt F)),
    unary main_v66 main_v105 ((transpose S2x6x64x256x1 [1, 0, 2, 3, 4] · transposes_S6x2x64x256x1_S2x6x64x256x1_1_0_2_3_4) : (⟨S6x2x64x256x1, .f32⟩ : BufTy).Contents (Elt F) → (⟨S2x6x64x256x1, .f32⟩ : BufTy).Contents (Elt F)),
    unary main_v103 main_v106 ((transpose S2x6x64x1x1 [1, 0, 2, 3, 4] · transposes_S6x2x64x1x1_S2x6x64x1x1_1_0_2_3_4) : (⟨S6x2x64x1x1, .f32⟩ : BufTy).Contents (Elt F) → (⟨S2x6x64x1x1, .f32⟩ : BufTy).Contents (Elt F)),
    nary ![main_v104, main_v105, main_v106] main_v107 (fun u => concatenate S2x6x64x258x1 3 [⟨S2x6x64x1x1, u 0⟩, ⟨S2x6x64x256x1, u 1⟩, ⟨S2x6x64x1x1, u 2⟩] concatenates_S2x6x64x1x1_S2x6x64x256x1_S2x6x64x1x1_S2x6x64x258x1_d3),
    unary main_v88 main_v108 ((transpose S2x6x64x1x1 [1, 0, 2, 3, 4] · transposes_S6x2x64x1x1_S2x6x64x1x1_1_0_2_3_4) : (⟨S6x2x64x1x1, .f32⟩ : BufTy).Contents (Elt F) → (⟨S2x6x64x1x1, .f32⟩ : BufTy).Contents (Elt F)),
    unary main_v83 main_v109 ((transpose S2x6x64x256x1 [1, 0, 2, 3, 4] · transposes_S6x2x64x256x1_S2x6x64x256x1_1_0_2_3_4) : (⟨S6x2x64x256x1, .f32⟩ : BufTy).Contents (Elt F) → (⟨S2x6x64x256x1, .f32⟩ : BufTy).Contents (Elt F)),
    unary main_v98 main_v110 ((transpose S2x6x64x1x1 [1, 0, 2, 3, 4] · transposes_S6x2x64x1x1_S2x6x64x1x1_1_0_2_3_4) : (⟨S6x2x64x1x1, .f32⟩ : BufTy).Contents (Elt F) → (⟨S2x6x64x1x1, .f32⟩ : BufTy).Contents (Elt F)),
    nary ![main_v108, main_v109, main_v110] main_v111 (fun u => concatenate S2x6x64x258x1 3 [⟨S2x6x64x1x1, u 0⟩, ⟨S2x6x64x256x1, u 1⟩, ⟨S2x6x64x1x1, u 2⟩] concatenates_S2x6x64x1x1_S2x6x64x256x1_S2x6x64x1x1_S2x6x64x258x1_d3),
    unary main_v31 main_v112 ((transpose S2x6x64x1x256 [1, 0, 2, 3, 4] · transposes_S6x2x64x1x256_S2x6x64x1x256_1_0_2_3_4) : (⟨S6x2x64x1x256, .f32⟩ : BufTy).Contents (Elt F) → (⟨S2x6x64x1x256, .f32⟩ : BufTy).Contents (Elt F)),
    unary main_v50 main_v113 ((transpose S2x6x64x1x256 [1, 0, 2, 3, 4] · transposes_S6x2x64x1x256_S2x6x64x1x256_1_0_2_3_4) : (⟨S6x2x64x1x256, .f32⟩ : BufTy).Contents (Elt F) → (⟨S2x6x64x1x256, .f32⟩ : BufTy).Contents (Elt F)),
    nary ![main_v112, main_v0, main_v113] main_v114 (fun u => concatenate S2x6x64x258x256 3 [⟨S2x6x64x1x256, u 0⟩, ⟨S2x6x64x256x256, u 1⟩, ⟨S2x6x64x1x256, u 2⟩] concatenates_S2x6x64x1x256_S2x6x64x256x256_S2x6x64x1x256_S2x6x64x258x256_d3),
    nary ![main_v107, main_v114, main_v111] main_v115 (fun u => concatenate S2x6x64x258x258 4 [⟨S2x6x64x258x1, u 0⟩, ⟨S2x6x64x258x256, u 1⟩, ⟨S2x6x64x258x1, u 2⟩] concatenates_S2x6x64x258x1_S2x6x64x258x256_S2x6x64x258x1_S2x6x64x258x258_d4),
    reshape main_v115 main_v116 rfl shapeCasts_S2x6x64x258x258_S12x64x258x258 ]

set_option maxRecDepth 8192 in
set_option maxHeartbeats 4000000 in
/-- Running @main is running the list. -/
theorem main_eq (c : Dev nD) : main (F := F) c = seq ops := rfl

/-- No buffer of the program belongs to a scope. -/
theorem scopedRefs_eq : (Finset.univ.filter fun b : Ref sig .tc => b.isScoped) = ∅ := by decide
/-- Nor does any semaphore. -/
theorem scopedSems_eq : (Finset.univ.filter fun sm : SemLoc sig => sm.isScoped .tc) = ∅ := by decide

set_option maxRecDepth 8192 in
/-- Every operation touches device buffers only. -/
theorem ops_sub : (ops : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., reshape_bufs_sub .., unary_bufs_sub .., reshape_bufs_sub .., unary_bufs_sub .., unary_bufs_sub .., reshape_bufs_sub .., unary_bufs_sub .., reshape_bufs_sub .., unary_bufs_sub .., unary_bufs_sub .., reshape_bufs_sub .., unary_bufs_sub .., reshape_bufs_sub .., unary_bufs_sub .., unary_bufs_sub .., reshape_bufs_sub .., unary_bufs_sub .., reshape_bufs_sub .., unary_bufs_sub .., unary_bufs_sub .., unary_bufs_sub .., nary_bufs_sub .., unary_bufs_sub .., unary_bufs_sub .., unary_bufs_sub .., nary_bufs_sub .., unary_bufs_sub .., unary_bufs_sub .., nary_bufs_sub .., nary_bufs_sub .., reshape_bufs_sub ..⟩

/-- The buffers the operations write, in program order: operation `k` writes result `k`. -/
abbrev wrote : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116]

set_option maxRecDepth 8192 in
set_option maxHeartbeats 4000000 in
/-- Each operation writes its own result buffer and no other. -/
theorem writes : Writes (ops (F := F)) wrote := by
  repeat (first | exact List.Forall₂.nil | refine List.Forall₂.cons rfl ?_)

end Cert.ReferenceIdeal.Value

end
-- ==== Proof.RefRunSteps.lean ====
/-
  The reference program's run, read one operation at a time.

  Run as a straight line, the program leaves in every buffer what the operations, applied in order, make of the
  memory it started from. Since operation k writes result buffer k once and reads only the argument and earlier
  results, result k ends at operation k's function of where its operands end. Going through the 117 operations
  in program order, each result buffer is therefore the corresponding value of the reference written as a function of
  the argument alone (`val_main_vN`, which is defined by exactly that nesting). The last of these equations, with the
  fact that the argument is never written, is the statement about every execution of @main.
-/
import proofs.«116597_j71528385347689_2_alg».proof.Proof.RefOps
import proofs.«116597_j71528385347689_2_alg».proof.Proof.RefRead

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo
open Cert.CubePad.Line

variable {F : FTy → Type} [FloatOps F]

section Steps

variable (m : (ℓ : Loc nD τ sig) → Buf (Elt F) ℓ) (c : Dev nD)

/-- The argument is written by no operation: it ends as it was. -/
theorem arg0_eq : (after ops (fun b => m (c, b)) (Proc.devRef .tc main_arg0) : S12x64x256x256.Idx → Elt F .f32) = m ((c.tc : Thread nD τ).loc main_arg0) :=
  (writes (F := F)).arg (fun b => m (c, b)) (by decide)

/-! ### The six faces

The argument reshaped to cubes × faces, and each face cut out of it. -/

theorem v0_eq : (after ops (fun b => m (c, b)) (Proc.devRef .tc main_v0) : S2x6x64x256x256.Idx → Elt F .f32) = val_main_v0 (F := F) (m ((c.tc : Thread nD τ).loc main_arg0)) := by
  have h : (after ops (fun b => m (c, b)) (Proc.devRef .tc main_v0) : S2x6x64x256x256.Idx → Elt F .f32) = shapeCast _ (after ops (fun b => m (c, b)) (Proc.devRef .tc main_arg0) : S12x64x256x256.Idx → Elt F .f32) shapeCasts_S12x64x256x256_S2x6x64x256x256 :=
    (writes (F := F)).reshape_at (fun b => m (c, b)) 0 main_arg0 main_v0 _ _ _ _ rfl (by decide) (by decide)
  rw [arg0_eq m c] at h
  exact h

theorem v1_eq : (after ops (fun b => m (c, b)) (Proc.devRef .tc main_v1) : S2x1x64x256x256.Idx → Elt F .f32) = val_main_v1 (F := F) (m ((c.tc : Thread nD τ).loc main_arg0)) := by
  have h : (after ops (fun b => m (c, b)) (Proc.devRef .tc main_v1) : S2x1x64x256x256.Idx → Elt F .f32) = extractStridedSlice S2x1x64x256x256 ![0, 0, 0, 0, 0] (after ops (fun b => m (c, b)) (Proc.devRef .tc main_v0) : S2x6x64x256x256.Idx → Elt F .f32) slices_S2x6x64x256x256_S2x1x64x256x256_0_0_0_0_0 :=
    (writes (F := F)).unary_at (fun b => m (c, b)) 1 main_v0 main_v1 _ _ _ rfl (by decide) (by decide)
  rw [v0_eq m c] at h
  exact h

theorem v2_eq : (after ops (fun b => m (c, b)) (Proc.devRef .tc main_v2) : S2x64x256x256.Idx → Elt F .f32) = val_main_v2 (F := F) (m ((c.tc : Thread nD τ).loc main_arg0)) := by
  have h : (after ops (fun b => m (c, b)) (Proc.devRef .tc main_v2) : S2x64x256x256.Idx → Elt F .f32) = shapeCast _ (after ops (fun b => m (c, b)) (Proc.devRef .tc main_v1) : S2x1x64x256x256.Idx → Elt F .f32) shapeCasts_S2x1x64x256x256_S2x64x256x256 :=
    (writes (F := F)).reshape_at (fun b => m (c, b)) 2 main_v1 main_v2 _ _ _ _ rfl (by decide) (by decide)
  rw [v1_eq m c] at h
  exact h

theorem v3_eq : (after ops (fun b => m (c, b)) (Proc.devRef .tc main_v3) : S2x1x64x256x256.Idx → Elt F .f32) = val_main_v3 (F := F) (m ((c.tc : Thread nD τ).loc main_arg0)) := by
  have h : (after ops (fun b => m (c, b)) (Proc.devRef .tc main_v3) : S2x1x64x256x256.Idx → Elt F .f32) = extractStridedSlice S2x1x64x256x256 ![0, 1, 0, 0, 0] (after ops (fun b => m (c, b)) (Proc.devRef .tc main_v0) : S2x6x64x256x256.Idx → Elt F .f32) slices_S2x6x64x256x256_S2x1x64x256x256_0_1_0_0_0 :=
    (writes (F := F)).unary_at (fun b => m (c, b)) 3 main_v0 main_v3 _ _ _ rfl (by decide) (by decide)
  rw [v0_eq m c] at h
  exact h

theorem v4_eq : (after ops (fun b => m (c, b)) (Proc.devRef .tc main_v4) : S2x64x256x256.Idx → Elt F .f32) = val_main_v4 (F := F) (m ((c.tc : Thread nD τ).loc main_arg0)) := by
  have h : (after ops (fun b => m (c, b)) (Proc.devRef .tc main_v4) : S2x64x256x256.Idx → Elt F .f32) = shapeCast _ (after ops (fun b => m (c, b)) (Proc.devRef .tc main_v3) : S2x1x64x256x256.Idx → Elt F .f32) shapeCasts_S2x1x64x256x256_S2x64x256x256 :=
    (writes (F := F)).reshape_at (fun b => m (c, b)) 4 main_v3 main_v4 _ _ _ _ rfl (by decide) (by decide)
  rw [v3_eq m c] at h
  exact h

theorem v5_eq : (after ops (fun b => m (c, b)) (Proc.devRef .tc main_v5) : S2x1x64x256x256.Idx → Elt F .f32) = val_main_v5 (F := F) (m ((c.tc : Thread nD τ).loc main_arg0)) := by
  have h : (after ops (fun b => m (c, b)) (Proc.devRef .tc main_v5) : S2x1x64x256x256.Idx → Elt F .f32) = extractStridedSlice S2x1x64x256x256 ![0, 2, 0, 0, 0] (after ops (fun b => m (c, b)) (Proc.devRef .tc main_v0) : S2x6x64x256x256.Idx → Elt F .f32) slices_S2x6x64x256x256_S2x1x64x256x256_0_2_0_0_0 :=
    (writes (F := F)).unary_at (fun b => m (c, b)) 5 main_v0 main_v5 _ _ _ rfl (by decide) (by decide)
  rw [v0_eq m c] at h
  exact h

theorem v6_eq : (after ops (fun b => m (c, b)) (Proc.devRef .tc main_v6) : S2x64x256x256.Idx → Elt F .f32) = val_main_v6 (F := F) (m ((c.tc : Thread nD τ).loc main_arg0)) := by
  have h : (after ops (fun b => m (c, b)) (Proc.devRef .tc main_v6) : S2x64x256x256.Idx → Elt F .f32) = shapeCast _ (after ops (fun b => m (c, b)) (Proc.devRef .tc main_v5) : S2x1x64x256x256.Idx → Elt F .f32) shapeCasts_S2x1x64x256x256_S2x64x256x256 :=
    (writes (F := F)).reshape_at (fun b => m (c, b)) 6 main_v5 main_v6 _ _ _ _ rfl (by decide) (by decide)
  rw [v5_eq m c] at h
  exact h

theorem v7_eq : (after ops (fun b => m (c, b)) (Proc.devRef .tc main_v7) : S2x1x64x256x256.Idx → Elt F .f32) = val_main_v7 (F := F) (m ((c.tc : Thread nD τ).loc main_arg0)) := by
  have h : (after ops (fun b => m (c, b)) (Proc.devRef .tc main_v7) : S2x1x64x256x256.Idx → Elt F .f32) = extractStridedSlice S2x1x64x256x256 ![0, 3, 0, 0, 0] (after ops (fun b => m (c, b)) (Proc.devRef .tc main_v0) : S2x6x64x256x256.Idx → Elt F .f32) slices_S2x6x64x256x256_S2x1x64x256x256_0_3_0_0_0 :=
    (writes (F := F)).unary_at (fun b => m (c, b)) 7 main_v0 main_v7 _ _ _ rfl (by decide) (by decide)
  rw [v0_eq m c] at h
  exact h

theorem v8_eq : (after ops (fun b => m (c, b)) (Proc.devRef .tc main_v8) : S2x64x256x256.Idx → Elt F .f32) = val_main_v8 (F := F) (m ((c.tc : Thread nD τ).loc main_arg0)) := by
  have h : (after ops (fun b => m (c, b)) (Proc.devRef .tc main_v8) : S2x64x256x256.Idx → Elt F .f32) = shapeCast _ (after ops (fun b => m (c, b)) (Proc.devRef .tc main_v7) : S2x1x64x256x256.Idx → Elt F .f32) shapeCasts_S2x1x64x256x256_S2x64x256x256 :=
    (writes (F := F)).reshape_at (fun b => m (c, b)) 8 main_v7 main_v8 _ _ _ _ rfl (by decide) (by decide)
  rw [v7_eq m c] at h
  exact h

theorem v9_eq : (after ops (fun b => m (c, b)) (Proc.devRef .tc main_v9) : S2x1x64x256x256.Idx → Elt F .f32) = val_main_v9 (F := F) (m ((c.tc : Thread nD τ).loc main_arg0)) := by
  have h : (after ops (fun b => m (c, b)) (Proc.devRef .tc main_v9) : S2x1x64x256x256.Idx → Elt F .f32) = extractStridedSlice S2x1x64x256x256 ![0, 4, 0, 0, 0] (after ops (fun b => m (c, b)) (Proc.devRef .tc main_v0) : S2x6x64x256x256.Idx → Elt F .f32) slices_S2x6x64x256x256_S2x1x64x256x256_0_4_0_0_0 :=
    (writes (F := F)).unary_at (fun b => m (c, b)) 9 main_v0 main_v9 _ _ _ rfl (by decide) (by decide)
  rw [v0_eq m c] at h
  exact h

theorem v10_eq : (after ops (fun b => m (c, b)) (Proc.devRef .tc main_v10) : S2x64x256x256.Idx → Elt F .f32) = val_main_v10 (F := F) (m ((c.tc : Thread nD τ).loc main_arg0)) := by
  have h : (after ops (fun b => m (c, b)) (Proc.devRef .tc main_v10) : S2x64x256x256.Idx → Elt F .f32) = shapeCast _ (after ops (fun b => m (c, b)) (Proc.devRef .tc main_v9) : S2x1x64x256x256.Idx → Elt F .f32) shapeCasts_S2x1x64x256x256_S2x64x256x256 :=
    (writes (F := F)).reshape_at (fun b => m (c, b)) 10 main_v9 main_v10 _ _ _ _ rfl (by decide) (by decide)
  rw [v9_eq m c] at h
  exact h

theorem v11_eq : (after ops (fun b => m (c, b)) (Proc.devRef .tc main_v11) : S2x1x64x256x256.Idx → Elt F .f32) = val_main_v11 (F := F) (m ((c.tc : Thread nD τ).loc main_arg0)) := by
  have h : (after ops (fun b => m (c, b)) (Proc.devRef .tc main_v11) : S2x1x64x256x256.Idx → Elt F .f32) = extractStridedSlice S2x1x64x256x256 ![0, 5, 0, 0, 0] (after ops (fun b => m (c, b)) (Proc.devRef .tc main_v0) : S2x6x64x256x256.Idx → Elt F .f32) slices_S2x6x64x256x256_S2x1x64x256x256_0_5_0_0_0 :=
    (writes (F := F)).unary_at (fun b => m (c, b)) 11 main_v0 main_v11 _ _ _ rfl (by decide) (by decide)
  rw [v0_eq m c] at h
  exact h

theorem v12_eq : (after ops (fun b => m (c, b)) (Proc.devRef .tc main_v12) : S2x64x256x256.Idx → Elt F .f32) = val_main_v12 (F := F) (m ((c.tc : Thread nD τ).loc main_arg0)) := by
  have h : (after ops (fun b => m (c, b)) (Proc.devRef .tc main_v12) : S2x64x256x256.Idx → Elt F .f32) = shapeCast _ (after ops (fun b => m (c, b)) (Proc.devRef .tc main_v11) : S2x1x64x256x256.Idx → Elt F .f32) shapeCasts_S2x1x64x256x256_S2x64x256x256 :=
    (writes (F := F)).reshape_at (fun b => m (c, b)) 12 main_v11 main_v12 _ _ _ _ rfl (by decide) (by decide)
  rw [v11_eq m c] at h
  exact h

/-! ### The top border rows and their stack -/

theorem v13_eq : (after ops (fun b => m (c, b)) (Proc.devRef .tc main_v13) : S2x64x1x256.Idx → Elt F .f32) = val_main_v13 (F := F) (m ((c.tc : Thread nD τ).loc main_arg0)) := by
  have h : (after ops (fun b => m (c, b)) (Proc.devRef .tc main_v13) : S2x64x1x256.Idx → Elt F .f32) = extractStridedSlice S2x64x1x256 ![0, 0, 255, 0] (after ops (fun b => m (c, b)) (Proc.devRef .tc main_v10) : S2x64x256x256.Idx → Elt F .f32) slices_S2x64x256x256_S2x64x1x256_0_0_255_0 :=
    (writes (F := F)).unary_at (fun b => m (c, b)) 13 main_v10 main_v13 _ _ _ rfl (by decide) (by decide)
  rw [v10_eq m c] at h
  exact h

theorem v14_eq : (after ops (fun b => m (c, b)) (Proc.devRef .tc main_v14) : S2x64x256x1.Idx → Elt F .f32) = val_main_v14 (F := F) (m ((c.tc : Thread nD τ).loc main_arg0)) := by
  have h : (after ops (fun b => m (c, b)) (Proc.devRef .tc main_v14) : S2x64x256x1.Idx → Elt F .f32) = extractStridedSlice S2x64x256x1 ![0, 0, 0, 255] (after ops (fun b => m (c, b)) (Proc.devRef .tc main_v10) : S2x64x256x256.Idx → Elt F .f32) slices_S2x64x256x256_S2x64x256x1_0_0_0_255 :=
    (writes (F := F)).unary_at (fun b => m (c, b)) 14 main_v10 main_v14 _ _ _ rfl (by decide) (by decide)
  rw [v10_eq m c] at h
  exact h

theorem v15_eq : (after ops (fun b => m (c, b)) (Proc.devRef .tc main_v15) : S2x64x1x256.Idx → Elt F .f32) = val_main_v15 (F := F) (m ((c.tc : Thread nD τ).loc main_arg0)) := by
  have h : (after ops (fun b => m (c, b)) (Proc.devRef .tc main_v15) : S2x64x1x256.Idx → Elt F .f32) = transpose S2x64x1x256 [0, 1, 3, 2] (after ops (fun b => m (c, b)) (Proc.devRef .tc main_v14) : S2x64x256x1.Idx → Elt F .f32) transposes_S2x64x256x1_S2x64x1x256_0_1_3_2 :=
    (writes (F := F)).unary_at (fun b => m (c, b)) 15 main_v14 main_v15 _ _ _ rfl (by decide) (by decide)
  rw [v14_eq m c] at h
  exact h

theorem v16_eq : (after ops (fun b => m (c, b)) (Proc.devRef .tc main_v16) : S2x64x1x256.Idx → Elt F .f32) = val_main_v16 (F := F) (m ((c.tc : Thread nD τ).loc main_arg0)) := by
  have h : (after ops (fun b => m (c, b)) (Proc.devRef .tc main_v16) : S2x64x1x256.Idx → Elt F .f32) = Host.reverse [3] (after ops (fun b => m (c, b)) (Proc.devRef .tc main_v15) : S2x64x1x256.Idx → Elt F .f32) :=
    (writes (F := F)).unary_at (fun b => m (c, b)) 16 main_v15 main_v16 _ _ _ rfl (by decide) (by decide)
  rw [v15_eq m c] at h
  exact h

theorem v17_eq : (after ops (fun b => m (c, b)) (Proc.devRef .tc main_v17) : S2x64x1x256.Idx → Elt F .f32) = val_main_v17 (F := F) (m ((c.tc : Thread nD τ).loc main_arg0)) := by
  have h : (after ops (fun b => m (c, b)) (Proc.devRef .tc main_v17) : S2x64x1x256.Idx → Elt F .f32) = extractStridedSlice S2x64x1x256 ![0, 0, 0, 0] (after ops (fun b => m (c, b)) (Proc.devRef .tc main_v10) : S2x64x256x256.Idx → Elt F .f32) slices_S2x64x256x256_S2x64x1x256_0_0_0_0 :=
    (writes (F := F)).unary_at (fun b => m (c, b)) 17 main_v10 main_v17 _ _ _ rfl (by decide) (by decide)
  rw [v10_eq m c] at h
  exact h

theorem v18_eq : (after ops (fun b => m (c, b)) (Proc.devRef .tc main_v18) : S2x64x1x256.Idx → Elt F .f32) = val_main_v18 (F := F) (m ((c.tc : Thread nD τ).loc main_arg0)) := by
  have h : (after ops (fun b => m (c, b)) (Proc.devRef .tc main_v18) : S2x64x1x256.Idx → Elt F .f32) = Host.reverse [3] (after ops (fun b => m (c, b)) (Proc.devRef .tc main_v17) : S2x64x1x256.Idx → Elt F .f32) :=
    (writes (F := F)).unary_at (fun b => m (c, b)) 18 main_v17 main_v18 _ _ _ rfl (by decide) (by decide)
  rw [v17_eq m c] at h
  exact h

theorem v19_eq : (after ops (fun b => m (c, b)) (Proc.devRef .tc main_v19) : S2x64x256x1.Idx → Elt F .f32) = val_main_v19 (F := F) (m ((c.tc : Thread nD τ).loc main_arg0)) := by
  have h : (after ops (fun b => m (c, b)) (Proc.devRef .tc main_v19) : S2x64x256x1.Idx → Elt F .f32) = extractStridedSlice S2x64x256x1 ![0, 0, 0, 0] (after ops (fun b => m (c, b)) (Proc.devRef .tc main_v10) : S2x64x256x256.Idx → Elt F .f32) slices_S2x64x256x256_S2x64x256x1_0_0_0_0 :=
    (writes (F := F)).unary_at (fun b => m (c, b)) 19 main_v10 main_v19 _ _ _ rfl (by decide) (by decide)
  rw [v10_eq m c] at h
  exact h

theorem v20_eq : (after ops (fun b => m (c, b)) (Proc.devRef .tc main_v20) : S2x64x1x256.Idx → Elt F .f32) = val_main_v20 (F := F) (m ((c.tc : Thread nD τ).loc main_arg0)) := by
  have h : (after ops (fun b => m (c, b)) (Proc.devRef .tc main_v20) : S2x64x1x256.Idx → Elt F .f32) = transpose S2x64x1x256 [0, 1, 3, 2] (after ops (fun b => m (c, b)) (Proc.devRef .tc main_v19) : S2x64x256x1.Idx → Elt F .f32) transposes_S2x64x256x1_S2x64x1x256_0_1_3_2 :=
    (writes (F := F)).unary_at (fun b => m (c, b)) 20 main_v19 main_v20 _ _ _ rfl (by decide) (by decide)
  rw [v19_eq m c] at h
  exact h

theorem v21_eq : (after ops (fun b => m (c, b)) (Proc.devRef .tc main_v21) : S2x64x1x256.Idx → Elt F .f32) = val_main_v21 (F := F) (m ((c.tc : Thread nD τ).loc main_arg0)) := by
  have h : (after ops (fun b => m (c, b)) (Proc.devRef .tc main_v21) : S2x64x1x256.Idx → Elt F .f32) = Host.reverse [2] (after ops (fun b => m (c, b)) (Proc.devRef .tc main_v20) : S2x64x1x256.Idx → Elt F .f32) :=
    (writes (F := F)).unary_at (fun b => m (c, b)) 21 main_v20 main_v21 _ _ _ rfl (by decide) (by decide)
  rw [v20_eq m c] at h
  exact h

theorem v22_eq : (after ops (fun b => m (c, b)) (Proc.devRef .tc main_v22) : S2x64x1x256.Idx → Elt F .f32) = val_main_v22 (F := F) (m ((c.tc : Thread nD τ).loc main_arg0)) := by
  have h : (after ops (fun b => m (c, b)) (Proc.devRef .tc main_v22) : S2x64x1x256.Idx → Elt F .f32) = extractStridedSlice S2x64x1x256 ![0, 0, 0, 0] (after ops (fun b => m (c, b)) (Proc.devRef .tc main_v6) : S2x64x256x256.Idx → Elt F .f32) slices_S2x64x256x256_S2x64x1x256_0_0_0_0 :=
    (writes (F := F)).unary_at (fun b => m (c, b)) 22 main_v6 main_v22 _ _ _ rfl (by decide) (by decide)
  rw [v6_eq m c] at h
  exact h

theorem v23_eq : (after ops (fun b => m (c, b)) (Proc.devRef .tc main_v23) : S2x64x1x256.Idx → Elt F .f32) = val_main_v23 (F := F) (m ((c.tc : Thread nD τ).loc main_arg0)) := by
  have h : (after ops (fun b => m (c, b)) (Proc.devRef .tc main_v23) : S2x64x1x256.Idx → Elt F .f32) = Host.reverse [2, 3] (after ops (fun b => m (c, b)) (Proc.devRef .tc main_v22) : S2x64x1x256.Idx → Elt F .f32) :=
    (writes (F := F)).unary_at (fun b => m (c, b)) 23 main_v22 main_v23 _ _ _ rfl (by decide) (by decide)
  rw [v22_eq m c] at h
  exact h

theorem v24_eq : (after ops (fun b => m (c, b)) (Proc.devRef .tc main_v24) : S2x64x1x256.Idx → Elt F .f32) = val_main_v24 (F := F) (m ((c.tc : Thread nD τ).loc main_arg0)) := by
  have h : (after ops (fun b => m (c, b)) (Proc.devRef .tc main_v24) : S2x64x1x256.Idx → Elt F .f32) = extractStridedSlice S2x64x1x256 ![0, 0, 255, 0] (after ops (fun b => m (c, b)) (Proc.devRef .tc main_v2) : S2x64x256x256.Idx → Elt F .f32) slices_S2x64x256x256_S2x64x1x256_0_0_255_0 :=
    (writes (F := F)).unary_at (fun b => m (c, b)) 24 main_v2 main_v24 _ _ _ rfl (by decide) (by decide)
  rw [v2_eq m c] at h
  exact h

theorem v25_eq : (after ops (fun b => m (c, b)) (Proc.devRef .tc main_v25) : S1x2x64x1x256.Idx → Elt F .f32) = val_main_v25 (F := F) (m ((c.tc : Thread nD τ).loc main_arg0)) := by
  have h : (after ops (fun b => m (c, b)) (Proc.devRef .tc main_v25) : S1x2x64x1x256.Idx → Elt F .f32) = broadcastInDim S1x2x64x1x256 ![1, 2, 3, 4] bcast_S2x64x1x256_S1x2x64x1x256_1_2_3_4 (after ops (fun b => m (c, b)) (Proc.devRef .tc main_v13) : S2x64x1x256.Idx → Elt F .f32) :=
    (writes (F := F)).unary_at (fun b => m (c, b)) 25 main_v13 main_v25 _ _ _ rfl (by decide) (by decide)
  rw [v13_eq m c] at h
  exact h

theorem v26_eq : (after ops (fun b => m (c, b)) (Proc.devRef .tc main_v26) : S1x2x64x1x256.Idx → Elt F .f32) = val_main_v26 (F := F) (m ((c.tc : Thread nD τ).loc main_arg0)) := by
  have h : (after ops (fun b => m (c, b)) (Proc.devRef .tc main_v26) : S1x2x64x1x256.Idx → Elt F .f32) = broadcastInDim S1x2x64x1x256 ![1, 2, 3, 4] bcast_S2x64x1x256_S1x2x64x1x256_1_2_3_4 (after ops (fun b => m (c, b)) (Proc.devRef .tc main_v16) : S2x64x1x256.Idx → Elt F .f32) :=
    (writes (F := F)).unary_at (fun b => m (c, b)) 26 main_v16 main_v26 _ _ _ rfl (by decide) (by decide)
  rw [v16_eq m c] at h
  exact h

theorem v27_eq : (after ops (fun b => m (c, b)) (Proc.devRef .tc main_v27) : S1x2x64x1x256.Idx → Elt F .f32) = val_main_v27 (F := F) (m ((c.tc : Thread nD τ).loc main_arg0)) := by
  have h : (after ops (fun b => m (c, b)) (Proc.devRef .tc main_v27) : S1x2x64x1x256.Idx → Elt F .f32) = broadcastInDim S1x2x64x1x256 ![1, 2, 3, 4] bcast_S2x64x1x256_S1x2x64x1x256_1_2_3_4 (after ops (fun b => m (c, b)) (Proc.devRef .tc main_v18) : S2x64x1x256.Idx → Elt F .f32) :=
    (writes (F := F)).unary_at (fun b => m (c, b)) 27 main_v18 main_v27 _ _ _ rfl (by decide) (by decide)
  rw [v18_eq m c] at h
  exact h

theorem v28_eq : (after ops (fun b => m (c, b)) (Proc.devRef .tc main_v28) : S1x2x64x1x256.Idx → Elt F .f32) = val_main_v28 (F := F) (m ((c.tc : Thread nD τ).loc main_arg0)) := by
  have h : (after ops (fun b => m (c, b)) (Proc.devRef .tc main_v28) : S1x2x64x1x256.Idx → Elt F .f32) = broadcastInDim S1x2x64x1x256 ![1, 2, 3, 4] bcast_S2x64x1x256_S1x2x64x1x256_1_2_3_4 (after ops (fun b => m (c, b)) (Proc.devRef .tc main_v21) : S2x64x1x256.Idx → Elt F .f32) :=
    (writes (F := F)).unary_at (fun b => m (c, b)) 28 main_v21 main_v28 _ _ _ rfl (by decide) (by decide)
  rw [v21_eq m c] at h
  exact h

theorem v29_eq : (after ops (fun b => m (c, b)) (Proc.devRef .tc main_v29) : S1x2x64x1x256.Idx → Elt F .f32) = val_main_v29 (F := F) (m ((c.tc : Thread nD τ).loc main_arg0)) := by
  have h : (after ops (fun b => m (c, b)) (Proc.devRef .tc main_v29) : S1x2x64x1x256.Idx → Elt F .f32) = broadcastInDim S1x2x64x1x256 ![1, 2, 3, 4] bcast_S2x64x1x256_S1x2x64x1x256_1_2_3_4 (after ops (fun b => m (c, b)) (Proc.devRef .tc main_v23) : S2x64x1x256.Idx → Elt F .f32) :=
    (writes (F := F)).unary_at (fun b => m (c, b)) 29 main_v23 main_v29 _ _ _ rfl (by decide) (by decide)
  rw [v23_eq m c] at h
  exact h

theorem v30_eq : (after ops (fun b => m (c, b)) (Proc.devRef .tc main_v30) : S1x2x64x1x256.Idx → Elt F .f32) = val_main_v30 (F := F) (m ((c.tc : Thread nD τ).loc main_arg0)) := by
  have h : (after ops (fun b => m (c, b)) (Proc.devRef .tc main_v30) : S1x2x64x1x256.Idx → Elt F .f32) = broadcastInDim S1x2x64x1x256 ![1, 2, 3, 4] bcast_S2x64x1x256_S1x2x64x1x256_1_2_3_4 (after ops (fun b => m (c, b)) (Proc.devRef .tc main_v24) : S2x64x1x256.Idx → Elt F .f32) :=
    (writes (F := F)).unary_at (fun b => m (c, b)) 30 main_v24 main_v30 _ _ _ rfl (by decide) (by decide)
  rw [v24_eq m c] at h
  exact h

theorem v31_eq : (after ops (fun b => m (c, b)) (Proc.devRef .tc main_v31) : S6x2x64x1x256.Idx → Elt F .f32) = val_main_v31 (F := F) (m ((c.tc : Thread nD τ).loc main_arg0)) := by
  have h : (after ops (fun b => m (c, b)) (Proc.devRef .tc main_v31) : S6x2x64x1x256.Idx → Elt F .f32) = concatenate S6x2x64x1x256 0 [⟨S1x2x64x1x256, (after ops (fun b => m (c, b)) (Proc.devRef .tc main_v25) : S1x2x64x1x256.Idx → Elt F .f32)⟩, ⟨S1x2x64x1x256, (after ops (fun b => m (c, b)) (Proc.devRef .tc main_v26) : S1x2x64x1x256.Idx → Elt F .f32)⟩, ⟨S1x2x64x1x256, (after ops (fun b => m (c, b)) (Proc.devRef .tc main_v27) : S1x2x64x1x256.Idx → Elt F .f32)⟩, ⟨S1x2x64x1x256, (after ops (fun b => m (c, b)) (Proc.devRef .tc main_v28) : S1x2x64x1x256.Idx → Elt F .f32)⟩, ⟨S1x2x64x1x256, (after ops (fun b => m (c, b)) (Proc.devRef .tc main_v29) : S1x2x64x1x256.Idx → Elt F .f32)⟩, ⟨S1x2x64x1x256, (after ops (fun b => m (c, b)) (Proc.devRef .tc main_v30) : S1x2x64x1x256.Idx → Elt F .f32)⟩] concatenates_S1x2x64x1x256_S1x2x64x1x256_S1x2x64x1x256_S1x2x64x1x256_S1x2x64x1x256_S1x2x64x1x256_S6x2x64x1x256_d0 :=
    (writes (F := F)).nary_at (fun b => m (c, b)) 31 ![main_v25, main_v26, main_v27, main_v28, main_v29, main_v30] main_v31 _ _ _ rfl (by decide) (by decide)
  rw [v25_eq m c, v26_eq m c, v27_eq m c, v28_eq m c, v29_eq m c, v30_eq m c] at h
  exact h

/-! ### The bottom border rows and their stack -/

theorem v32_eq : (after ops (fun b => m (c, b)) (Proc.devRef .tc main_v32) : S2x64x1x256.Idx → Elt F .f32) = val_main_v32 (F := F) (m ((c.tc : Thread nD τ).loc main_arg0)) := by
  have h : (after ops (fun b => m (c, b)) (Proc.devRef .tc main_v32) : S2x64x1x256.Idx → Elt F .f32) = extractStridedSlice S2x64x1x256 ![0, 0, 0, 0] (after ops (fun b => m (c, b)) (Proc.devRef .tc main_v12) : S2x64x256x256.Idx → Elt F .f32) slices_S2x64x256x256_S2x64x1x256_0_0_0_0 :=
    (writes (F := F)).unary_at (fun b => m (c, b)) 32 main_v12 main_v32 _ _ _ rfl (by decide) (by decide)
  rw [v12_eq m c] at h
  exact h

theorem v33_eq : (after ops (fun b => m (c, b)) (Proc.devRef .tc main_v33) : S2x64x256x1.Idx → Elt F .f32) = val_main_v33 (F := F) (m ((c.tc : Thread nD τ).loc main_arg0)) := by
  have h : (after ops (fun b => m (c, b)) (Proc.devRef .tc main_v33) : S2x64x256x1.Idx → Elt F .f32) = extractStridedSlice S2x64x256x1 ![0, 0, 0, 255] (after ops (fun b => m (c, b)) (Proc.devRef .tc main_v12) : S2x64x256x256.Idx → Elt F .f32) slices_S2x64x256x256_S2x64x256x1_0_0_0_255 :=
    (writes (F := F)).unary_at (fun b => m (c, b)) 33 main_v12 main_v33 _ _ _ rfl (by decide) (by decide)
  rw [v12_eq m c] at h
  exact h

theorem v34_eq : (after ops (fun b => m (c, b)) (Proc.devRef .tc main_v34) : S2x64x1x256.Idx → Elt F .f32) = val_main_v34 (F := F) (m ((c.tc : Thread nD τ).loc main_arg0)) := by
  have h : (after ops (fun b => m (c, b)) (Proc.devRef .tc main_v34) : S2x64x1x256.Idx → Elt F .f32) = transpose S2x64x1x256 [0, 1, 3, 2] (after ops (fun b => m (c, b)) (Proc.devRef .tc main_v33) : S2x64x256x1.Idx → Elt F .f32) transposes_S2x64x256x1_S2x64x1x256_0_1_3_2 :=
    (writes (F := F)).unary_at (fun b => m (c, b)) 34 main_v33 main_v34 _ _ _ rfl (by decide) (by decide)
  rw [v33_eq m c] at h
  exact h

theorem v35_eq : (after ops (fun b => m (c, b)) (Proc.devRef .tc main_v35) : S2x64x1x256.Idx → Elt F .f32) = val_main_v35 (F := F) (m ((c.tc : Thread nD τ).loc main_arg0)) := by
  have h : (after ops (fun b => m (c, b)) (Proc.devRef .tc main_v35) : S2x64x1x256.Idx → Elt F .f32) = Host.reverse [2] (after ops (fun b => m (c, b)) (Proc.devRef .tc main_v34) : S2x64x1x256.Idx → Elt F .f32) :=
    (writes (F := F)).unary_at (fun b => m (c, b)) 35 main_v34 main_v35 _ _ _ rfl (by decide) (by decide)
  rw [v34_eq m c] at h
  exact h

theorem v36_eq : (after ops (fun b => m (c, b)) (Proc.devRef .tc main_v36) : S2x64x1x256.Idx → Elt F .f32) = val_main_v36 (F := F) (m ((c.tc : Thread nD τ).loc main_arg0)) := by
  have h : (after ops (fun b => m (c, b)) (Proc.devRef .tc main_v36) : S2x64x1x256.Idx → Elt F .f32) = extractStridedSlice S2x64x1x256 ![0, 0, 255, 0] (after ops (fun b => m (c, b)) (Proc.devRef .tc main_v12) : S2x64x256x256.Idx → Elt F .f32) slices_S2x64x256x256_S2x64x1x256_0_0_255_0 :=
    (writes (F := F)).unary_at (fun b => m (c, b)) 36 main_v12 main_v36 _ _ _ rfl (by decide) (by decide)
  rw [v12_eq m c] at h
  exact h

theorem v37_eq : (after ops (fun b => m (c, b)) (Proc.devRef .tc main_v37) : S2x64x1x256.Idx → Elt F .f32) = val_main_v37 (F := F) (m ((c.tc : Thread nD τ).loc main_arg0)) := by
  have h : (after ops (fun b => m (c, b)) (Proc.devRef .tc main_v37) : S2x64x1x256.Idx → Elt F .f32) = Host.reverse [2, 3] (after ops (fun b => m (c, b)) (Proc.devRef .tc main_v36) : S2x64x1x256.Idx → Elt F .f32) :=
    (writes (F := F)).unary_at (fun b => m (c, b)) 37 main_v36 main_v37 _ _ _ rfl (by decide) (by decide)
  rw [v36_eq m c] at h
  exact h

theorem v38_eq : (after ops (fun b => m (c, b)) (Proc.devRef .tc main_v38) : S2x64x256x1.Idx → Elt F .f32) = val_main_v38 (F := F) (m ((c.tc : Thread nD τ).loc main_arg0)) := by
  have h : (after ops (fun b => m (c, b)) (Proc.devRef .tc main_v38) : S2x64x256x1.Idx → Elt F .f32) = extractStridedSlice S2x64x256x1 ![0, 0, 0, 0] (after ops (fun b => m (c, b)) (Proc.devRef .tc main_v12) : S2x64x256x256.Idx → Elt F .f32) slices_S2x64x256x256_S2x64x256x1_0_0_0_0 :=
    (writes (F := F)).unary_at (fun b => m (c, b)) 38 main_v12 main_v38 _ _ _ rfl (by decide) (by decide)
  rw [v12_eq m c] at h
  exact h

theorem v39_eq : (after ops (fun b => m (c, b)) (Proc.devRef .tc main_v39) : S2x64x1x256.Idx → Elt F .f32) = val_main_v39 (F := F) (m ((c.tc : Thread nD τ).loc main_arg0)) := by
  have h : (after ops (fun b => m (c, b)) (Proc.devRef .tc main_v39) : S2x64x1x256.Idx → Elt F .f32) = transpose S2x64x1x256 [0, 1, 3, 2] (after ops (fun b => m (c, b)) (Proc.devRef .tc main_v38) : S2x64x256x1.Idx → Elt F .f32) transposes_S2x64x256x1_S2x64x1x256_0_1_3_2 :=
    (writes (F := F)).unary_at (fun b => m (c, b)) 39 main_v38 main_v39 _ _ _ rfl (by decide) (by decide)
  rw [v38_eq m c] at h
  exact h

theorem v40_eq : (after ops (fun b => m (c, b)) (Proc.devRef .tc main_v40) : S2x64x1x256.Idx → Elt F .f32) = val_main_v40 (F := F) (m ((c.tc : Thread nD τ).loc main_arg0)) := by
  have h : (after ops (fun b => m (c, b)) (Proc.devRef .tc main_v40) : S2x64x1x256.Idx → Elt F .f32) = Host.reverse [3] (after ops (fun b => m (c, b)) (Proc.devRef .tc main_v39) : S2x64x1x256.Idx → Elt F .f32) :=
    (writes (F := F)).unary_at (fun b => m (c, b)) 40 main_v39 main_v40 _ _ _ rfl (by decide) (by decide)
  rw [v39_eq m c] at h
  exact h

theorem v41_eq : (after ops (fun b => m (c, b)) (Proc.devRef .tc main_v41) : S2x64x1x256.Idx → Elt F .f32) = val_main_v41 (F := F) (m ((c.tc : Thread nD τ).loc main_arg0)) := by
  have h : (after ops (fun b => m (c, b)) (Proc.devRef .tc main_v41) : S2x64x1x256.Idx → Elt F .f32) = extractStridedSlice S2x64x1x256 ![0, 0, 0, 0] (after ops (fun b => m (c, b)) (Proc.devRef .tc main_v2) : S2x64x256x256.Idx → Elt F .f32) slices_S2x64x256x256_S2x64x1x256_0_0_0_0 :=
    (writes (F := F)).unary_at (fun b => m (c, b)) 41 main_v2 main_v41 _ _ _ rfl (by decide) (by decide)
  rw [v2_eq m c] at h
  exact h

theorem v42_eq : (after ops (fun b => m (c, b)) (Proc.devRef .tc main_v42) : S2x64x1x256.Idx → Elt F .f32) = val_main_v42 (F := F) (m ((c.tc : Thread nD τ).loc main_arg0)) := by
  have h : (after ops (fun b => m (c, b)) (Proc.devRef .tc main_v42) : S2x64x1x256.Idx → Elt F .f32) = extractStridedSlice S2x64x1x256 ![0, 0, 255, 0] (after ops (fun b => m (c, b)) (Proc.devRef .tc main_v6) : S2x64x256x256.Idx → Elt F .f32) slices_S2x64x256x256_S2x64x1x256_0_0_255_0 :=
    (writes (F := F)).unary_at (fun b => m (c, b)) 42 main_v6 main_v42 _ _ _ rfl (by decide) (by decide)
  rw [v6_eq m c] at h
  exact h

theorem v43_eq : (after ops (fun b => m (c, b)) (Proc.devRef .tc main_v43) : S2x64x1x256.Idx → Elt F .f32) = val_main_v43 (F := F) (m ((c.tc : Thread nD τ).loc main_arg0)) := by
  have h : (after ops (fun b => m (c, b)) (Proc.devRef .tc main_v43) : S2x64x1x256.Idx → Elt F .f32) = Host.reverse [2, 3] (after ops (fun b => m (c, b)) (Proc.devRef .tc main_v42) : S2x64x1x256.Idx → Elt F .f32) :=
    (writes (F := F)).unary_at (fun b => m (c, b)) 43 main_v42 main_v43 _ _ _ rfl (by decide) (by decide)
  rw [v42_eq m c] at h
  exact h

theorem v44_eq : (after ops (fun b => m (c, b)) (Proc.devRef .tc main_v44) : S1x2x64x1x256.Idx → Elt F .f32) = val_main_v44 (F := F) (m ((c.tc : Thread nD τ).loc main_arg0)) := by
  have h : (after ops (fun b => m (c, b)) (Proc.devRef .tc main_v44) : S1x2x64x1x256.Idx → Elt F .f32) = broadcastInDim S1x2x64x1x256 ![1, 2, 3, 4] bcast_S2x64x1x256_S1x2x64x1x256_1_2_3_4 (after ops (fun b => m (c, b)) (Proc.devRef .tc main_v32) : S2x64x1x256.Idx → Elt F .f32) :=
    (writes (F := F)).unary_at (fun b => m (c, b)) 44 main_v32 main_v44 _ _ _ rfl (by decide) (by decide)
  rw [v32_eq m c] at h
  exact h

theorem v45_eq : (after ops (fun b => m (c, b)) (Proc.devRef .tc main_v45) : S1x2x64x1x256.Idx → Elt F .f32) = val_main_v45 (F := F) (m ((c.tc : Thread nD τ).loc main_arg0)) := by
  have h : (after ops (fun b => m (c, b)) (Proc.devRef .tc main_v45) : S1x2x64x1x256.Idx → Elt F .f32) = broadcastInDim S1x2x64x1x256 ![1, 2, 3, 4] bcast_S2x64x1x256_S1x2x64x1x256_1_2_3_4 (after ops (fun b => m (c, b)) (Proc.devRef .tc main_v35) : S2x64x1x256.Idx → Elt F .f32) :=
    (writes (F := F)).unary_at (fun b => m (c, b)) 45 main_v35 main_v45 _ _ _ rfl (by decide) (by decide)
  rw [v35_eq m c] at h
  exact h

theorem v46_eq : (after ops (fun b => m (c, b)) (Proc.devRef .tc main_v46) : S1x2x64x1x256.Idx → Elt F .f32) = val_main_v46 (F := F) (m ((c.tc : Thread nD τ).loc main_arg0)) := by
  have h : (after ops (fun b => m (c, b)) (Proc.devRef .tc main_v46) : S1x2x64x1x256.Idx → Elt F .f32) = broadcastInDim S1x2x64x1x256 ![1, 2, 3, 4] bcast_S2x64x1x256_S1x2x64x1x256_1_2_3_4 (after ops (fun b => m (c, b)) (Proc.devRef .tc main_v37) : S2x64x1x256.Idx → Elt F .f32) :=
    (writes (F := F)).unary_at (fun b => m (c, b)) 46 main_v37 main_v46 _ _ _ rfl (by decide) (by decide)
  rw [v37_eq m c] at h
  exact h

theorem v47_eq : (after ops (fun b => m (c, b)) (Proc.devRef .tc main_v47) : S1x2x64x1x256.Idx → Elt F .f32) = val_main_v47 (F := F) (m ((c.tc : Thread nD τ).loc main_arg0)) := by
  have h : (after ops (fun b => m (c, b)) (Proc.devRef .tc main_v47) : S1x2x64x1x256.Idx → Elt F .f32) = broadcastInDim S1x2x64x1x256 ![1, 2, 3, 4] bcast_S2x64x1x256_S1x2x64x1x256_1_2_3_4 (after ops (fun b => m (c, b)) (Proc.devRef .tc main_v40) : S2x64x1x256.Idx → Elt F .f32) :=
    (writes (F := F)).unary_at (fun b => m (c, b)) 47 main_v40 main_v47 _ _ _ rfl (by decide) (by decide)
  rw [v40_eq m c] at h
  exact h

theorem v48_eq : (after ops (fun b => m (c, b)) (Proc.devRef .tc main_v48) : S1x2x64x1x256.Idx → Elt F .f32) = val_main_v48 (F := F) (m ((c.tc : Thread nD τ).loc main_arg0)) := by
  have h : (after ops (fun b => m (c, b)) (Proc.devRef .tc main_v48) : S1x2x64x1x256.Idx → Elt F .f32) = broadcastInDim S1x2x64x1x256 ![1, 2, 3, 4] bcast_S2x64x1x256_S1x2x64x1x256_1_2_3_4 (after ops (fun b => m (c, b)) (Proc.devRef .tc main_v41) : S2x64x1x256.Idx → Elt F .f32) :=
    (writes (F := F)).unary_at (fun b => m (c, b)) 48 main_v41 main_v48 _ _ _ rfl (by decide) (by decide)
  rw [v41_eq m c] at h
  exact h

theorem v49_eq : (after ops (fun b => m (c, b)) (Proc.devRef .tc main_v49) : S1x2x64x1x256.Idx → Elt F .f32) = val_main_v49 (F := F) (m ((c.tc : Thread nD τ).loc main_arg0)) := by
  have h : (after ops (fun b => m (c, b)) (Proc.devRef .tc main_v49) : S1x2x64x1x256.Idx → Elt F .f32) = broadcastInDim S1x2x64x1x256 ![1, 2, 3, 4] bcast_S2x64x1x256_S1x2x64x1x256_1_2_3_4 (after ops (fun b => m (c, b)) (Proc.devRef .tc main_v43) : S2x64x1x256.Idx → Elt F .f32) :=
    (writes (F := F)).unary_at (fun b => m (c, b)) 49 main_v43 main_v49 _ _ _ rfl (by decide) (by decide)
  rw [v43_eq m c] at h
  exact h

theorem v50_eq : (after ops (fun b => m (c, b)) (Proc.devRef .tc main_v50) : S6x2x64x1x256.Idx → Elt F .f32) = val_main_v50 (F := F) (m ((c.tc : Thread nD τ).loc main_arg0)) := by
  have h : (after ops (fun b => m (c, b)) (Proc.devRef .tc main_v50) : S6x2x64x1x256.Idx → Elt F .f32) = concatenate S6x2x64x1x256 0 [⟨S1x2x64x1x256, (after ops (fun b => m (c, b)) (Proc.devRef .tc main_v44) : S1x2x64x1x256.Idx → Elt F .f32)⟩, ⟨S1x2x64x1x256, (after ops (fun b => m (c, b)) (Proc.devRef .tc main_v45) : S1x2x64x1x256.Idx → Elt F .f32)⟩, ⟨S1x2x64x1x256, (after ops (fun b => m (c, b)) (Proc.devRef .tc main_v46) : S1x2x64x1x256.Idx → Elt F .f32)⟩, ⟨S1x2x64x1x256, (after ops (fun b => m (c, b)) (Proc.devRef .tc main_v47) : S1x2x64x1x256.Idx → Elt F .f32)⟩, ⟨S1x2x64x1x256, (after ops (fun b => m (c, b)) (Proc.devRef .tc main_v48) : S1x2x64x1x256.Idx → Elt F .f32)⟩, ⟨S1x2x64x1x256, (after ops (fun b => m (c, b)) (Proc.devRef .tc main_v49) : S1x2x64x1x256.Idx → Elt F .f32)⟩] concatenates_S1x2x64x1x256_S1x2x64x1x256_S1x2x64x1x256_S1x2x64x1x256_S1x2x64x1x256_S1x2x64x1x256_S6x2x64x1x256_d0 :=
    (writes (F := F)).nary_at (fun b => m (c, b)) 50 ![main_v44, main_v45, main_v46, main_v47, main_v48, main_v49] main_v50 _ _ _ rfl (by decide) (by decide)
  rw [v44_eq m c, v45_eq m c, v46_eq m c, v47_eq m c, v48_eq m c, v49_eq m c] at h
  exact h

/-! ### The left border columns and their stack -/

theorem v51_eq : (after ops (fun b => m (c, b)) (Proc.devRef .tc main_v51) : S2x64x256x1.Idx → Elt F .f32) = val_main_v51 (F := F) (m ((c.tc : Thread nD τ).loc main_arg0)) := by
  have h : (after ops (fun b => m (c, b)) (Proc.devRef .tc main_v51) : S2x64x256x1.Idx → Elt F .f32) = extractStridedSlice S2x64x256x1 ![0, 0, 0, 255] (after ops (fun b => m (c, b)) (Proc.devRef .tc main_v8) : S2x64x256x256.Idx → Elt F .f32) slices_S2x64x256x256_S2x64x256x1_0_0_0_255 :=
    (writes (F := F)).unary_at (fun b => m (c, b)) 51 main_v8 main_v51 _ _ _ rfl (by decide) (by decide)
  rw [v8_eq m c] at h
  exact h

theorem v52_eq : (after ops (fun b => m (c, b)) (Proc.devRef .tc main_v52) : S2x64x256x1.Idx → Elt F .f32) = val_main_v52 (F := F) (m ((c.tc : Thread nD τ).loc main_arg0)) := by
  have h : (after ops (fun b => m (c, b)) (Proc.devRef .tc main_v52) : S2x64x256x1.Idx → Elt F .f32) = extractStridedSlice S2x64x256x1 ![0, 0, 0, 255] (after ops (fun b => m (c, b)) (Proc.devRef .tc main_v2) : S2x64x256x256.Idx → Elt F .f32) slices_S2x64x256x256_S2x64x256x1_0_0_0_255 :=
    (writes (F := F)).unary_at (fun b => m (c, b)) 52 main_v2 main_v52 _ _ _ rfl (by decide) (by decide)
  rw [v2_eq m c] at h
  exact h

theorem v53_eq : (after ops (fun b => m (c, b)) (Proc.devRef .tc main_v53) : S2x64x256x1.Idx → Elt F .f32) = val_main_v53 (F := F) (m ((c.tc : Thread nD τ).loc main_arg0)) := by
  have h : (after ops (fun b => m (c, b)) (Proc.devRef .tc main_v53) : S2x64x256x1.Idx → Elt F .f32) = extractStridedSlice S2x64x256x1 ![0, 0, 0, 255] (after ops (fun b => m (c, b)) (Proc.devRef .tc main_v4) : S2x64x256x256.Idx → Elt F .f32) slices_S2x64x256x256_S2x64x256x1_0_0_0_255 :=
    (writes (F := F)).unary_at (fun b => m (c, b)) 53 main_v4 main_v53 _ _ _ rfl (by decide) (by decide)
  rw [v4_eq m c] at h
  exact h

theorem v54_eq : (after ops (fun b => m (c, b)) (Proc.devRef .tc main_v54) : S2x64x256x1.Idx → Elt F .f32) = val_main_v54 (F := F) (m ((c.tc : Thread nD τ).loc main_arg0)) := by
  have h : (after ops (fun b => m (c, b)) (Proc.devRef .tc main_v54) : S2x64x256x1.Idx → Elt F .f32) = extractStridedSlice S2x64x256x1 ![0, 0, 0, 255] (after ops (fun b => m (c, b)) (Proc.devRef .tc main_v6) : S2x64x256x256.Idx → Elt F .f32) slices_S2x64x256x256_S2x64x256x1_0_0_0_255 :=
    (writes (F := F)).unary_at (fun b => m (c, b)) 54 main_v6 main_v54 _ _ _ rfl (by decide) (by decide)
  rw [v6_eq m c] at h
  exact h

theorem v55_eq : (after ops (fun b => m (c, b)) (Proc.devRef .tc main_v55) : S2x64x1x256.Idx → Elt F .f32) = val_main_v55 (F := F) (m ((c.tc : Thread nD τ).loc main_arg0)) := by
  have h : (after ops (fun b => m (c, b)) (Proc.devRef .tc main_v55) : S2x64x1x256.Idx → Elt F .f32) = extractStridedSlice S2x64x1x256 ![0, 0, 0, 0] (after ops (fun b => m (c, b)) (Proc.devRef .tc main_v8) : S2x64x256x256.Idx → Elt F .f32) slices_S2x64x256x256_S2x64x1x256_0_0_0_0 :=
    (writes (F := F)).unary_at (fun b => m (c, b)) 55 main_v8 main_v55 _ _ _ rfl (by decide) (by decide)
  rw [v8_eq m c] at h
  exact h

theorem v56_eq : (after ops (fun b => m (c, b)) (Proc.devRef .tc main_v56) : S2x64x256x1.Idx → Elt F .f32) = val_main_v56 (F := F) (m ((c.tc : Thread nD τ).loc main_arg0)) := by
  have h : (after ops (fun b => m (c, b)) (Proc.devRef .tc main_v56) : S2x64x256x1.Idx → Elt F .f32) = transpose S2x64x256x1 [0, 1, 3, 2] (after ops (fun b => m (c, b)) (Proc.devRef .tc main_v55) : S2x64x1x256.Idx → Elt F .f32) transposes_S2x64x1x256_S2x64x256x1_0_1_3_2 :=
    (writes (F := F)).unary_at (fun b => m (c, b)) 56 main_v55 main_v56 _ _ _ rfl (by decide) (by decide)
  rw [v55_eq m c] at h
  exact h

theorem v57_eq : (after ops (fun b => m (c, b)) (Proc.devRef .tc main_v57) : S2x64x1x256.Idx → Elt F .f32) = val_main_v57 (F := F) (m ((c.tc : Thread nD τ).loc main_arg0)) := by
  have h : (after ops (fun b => m (c, b)) (Proc.devRef .tc main_v57) : S2x64x1x256.Idx → Elt F .f32) = extractStridedSlice S2x64x1x256 ![0, 0, 255, 0] (after ops (fun b => m (c, b)) (Proc.devRef .tc main_v8) : S2x64x256x256.Idx → Elt F .f32) slices_S2x64x256x256_S2x64x1x256_0_0_255_0 :=
    (writes (F := F)).unary_at (fun b => m (c, b)) 57 main_v8 main_v57 _ _ _ rfl (by decide) (by decide)
  rw [v8_eq m c] at h
  exact h

theorem v58_eq : (after ops (fun b => m (c, b)) (Proc.devRef .tc main_v58) : S2x64x256x1.Idx → Elt F .f32) = val_main_v58 (F := F) (m ((c.tc : Thread nD τ).loc main_arg0)) := by
  have h : (after ops (fun b => m (c, b)) (Proc.devRef .tc main_v58) : S2x64x256x1.Idx → Elt F .f32) = transpose S2x64x256x1 [0, 1, 3, 2] (after ops (fun b => m (c, b)) (Proc.devRef .tc main_v57) : S2x64x1x256.Idx → Elt F .f32) transposes_S2x64x1x256_S2x64x256x1_0_1_3_2 :=
    (writes (F := F)).unary_at (fun b => m (c, b)) 58 main_v57 main_v58 _ _ _ rfl (by decide) (by decide)
  rw [v57_eq m c] at h
  exact h

theorem v59_eq : (after ops (fun b => m (c, b)) (Proc.devRef .tc main_v59) : S2x64x256x1.Idx → Elt F .f32) = val_main_v59 (F := F) (m ((c.tc : Thread nD τ).loc main_arg0)) := by
  have h : (after ops (fun b => m (c, b)) (Proc.devRef .tc main_v59) : S2x64x256x1.Idx → Elt F .f32) = Host.reverse [2] (after ops (fun b => m (c, b)) (Proc.devRef .tc main_v58) : S2x64x256x1.Idx → Elt F .f32) :=
    (writes (F := F)).unary_at (fun b => m (c, b)) 59 main_v58 main_v59 _ _ _ rfl (by decide) (by decide)
  rw [v58_eq m c] at h
  exact h

theorem v60_eq : (after ops (fun b => m (c, b)) (Proc.devRef .tc main_v60) : S1x2x64x256x1.Idx → Elt F .f32) = val_main_v60 (F := F) (m ((c.tc : Thread nD τ).loc main_arg0)) := by
  have h : (after ops (fun b => m (c, b)) (Proc.devRef .tc main_v60) : S1x2x64x256x1.Idx → Elt F .f32) = broadcastInDim S1x2x64x256x1 ![1, 2, 3, 4] bcast_S2x64x256x1_S1x2x64x256x1_1_2_3_4 (after ops (fun b => m (c, b)) (Proc.devRef .tc main_v51) : S2x64x256x1.Idx → Elt F .f32) :=
    (writes (F := F)).unary_at (fun b => m (c, b)) 60 main_v51 main_v60 _ _ _ rfl (by decide) (by decide)
  rw [v51_eq m c] at h
  exact h

theorem v61_eq : (after ops (fun b => m (c, b)) (Proc.devRef .tc main_v61) : S1x2x64x256x1.Idx → Elt F .f32) = val_main_v61 (F := F) (m ((c.tc : Thread nD τ).loc main_arg0)) := by
  have h : (after ops (fun b => m (c, b)) (Proc.devRef .tc main_v61) : S1x2x64x256x1.Idx → Elt F .f32) = broadcastInDim S1x2x64x256x1 ![1, 2, 3, 4] bcast_S2x64x256x1_S1x2x64x256x1_1_2_3_4 (after ops (fun b => m (c, b)) (Proc.devRef .tc main_v52) : S2x64x256x1.Idx → Elt F .f32) :=
    (writes (F := F)).unary_at (fun b => m (c, b)) 61 main_v52 main_v61 _ _ _ rfl (by decide) (by decide)
  rw [v52_eq m c] at h
  exact h

theorem v62_eq : (after ops (fun b => m (c, b)) (Proc.devRef .tc main_v62) : S1x2x64x256x1.Idx → Elt F .f32) = val_main_v62 (F := F) (m ((c.tc : Thread nD τ).loc main_arg0)) := by
  have h : (after ops (fun b => m (c, b)) (Proc.devRef .tc main_v62) : S1x2x64x256x1.Idx → Elt F .f32) = broadcastInDim S1x2x64x256x1 ![1, 2, 3, 4] bcast_S2x64x256x1_S1x2x64x256x1_1_2_3_4 (after ops (fun b => m (c, b)) (Proc.devRef .tc main_v53) : S2x64x256x1.Idx → Elt F .f32) :=
    (writes (F := F)).unary_at (fun b => m (c, b)) 62 main_v53 main_v62 _ _ _ rfl (by decide) (by decide)
  rw [v53_eq m c] at h
  exact h

theorem v63_eq : (after ops (fun b => m (c, b)) (Proc.devRef .tc main_v63) : S1x2x64x256x1.Idx → Elt F .f32) = val_main_v63 (F := F) (m ((c.tc : Thread nD τ).loc main_arg0)) := by
  have h : (after ops (fun b => m (c, b)) (Proc.devRef .tc main_v63) : S1x2x64x256x1.Idx → Elt F .f32) = broadcastInDim S1x2x64x256x1 ![1, 2, 3, 4] bcast_S2x64x256x1_S1x2x64x256x1_1_2_3_4 (after ops (fun b => m (c, b)) (Proc.devRef .tc main_v54) : S2x64x256x1.Idx → Elt F .f32) :=
    (writes (F := F)).unary_at (fun b => m (c, b)) 63 main_v54 main_v63 _ _ _ rfl (by decide) (by decide)
  rw [v54_eq m c] at h
  exact h

theorem v64_eq : (after ops (fun b => m (c, b)) (Proc.devRef .tc main_v64) : S1x2x64x256x1.Idx → Elt F .f32) = val_main_v64 (F := F) (m ((c.tc : Thread nD τ).loc main_arg0)) := by
  have h : (after ops (fun b => m (c, b)) (Proc.devRef .tc main_v64) : S1x2x64x256x1.Idx → Elt F .f32) = broadcastInDim S1x2x64x256x1 ![1, 2, 3, 4] bcast_S2x64x256x1_S1x2x64x256x1_1_2_3_4 (after ops (fun b => m (c, b)) (Proc.devRef .tc main_v56) : S2x64x256x1.Idx → Elt F .f32) :=
    (writes (F := F)).unary_at (fun b => m (c, b)) 64 main_v56 main_v64 _ _ _ rfl (by decide) (by decide)
  rw [v56_eq m c] at h
  exact h

theorem v65_eq : (after ops (fun b => m (c, b)) (Proc.devRef .tc main_v65) : S1x2x64x256x1.Idx → Elt F .f32) = val_main_v65 (F := F) (m ((c.tc : Thread nD τ).loc main_arg0)) := by
  have h : (after ops (fun b => m (c, b)) (Proc.devRef .tc main_v65) : S1x2x64x256x1.Idx → Elt F .f32) = broadcastInDim S1x2x64x256x1 ![1, 2, 3, 4] bcast_S2x64x256x1_S1x2x64x256x1_1_2_3_4 (after ops (fun b => m (c, b)) (Proc.devRef .tc main_v59) : S2x64x256x1.Idx → Elt F .f32) :=
    (writes (F := F)).unary_at (fun b => m (c, b)) 65 main_v59 main_v65 _ _ _ rfl (by decide) (by decide)
  rw [v59_eq m c] at h
  exact h

theorem v66_eq : (after ops (fun b => m (c, b)) (Proc.devRef .tc main_v66) : S6x2x64x256x1.Idx → Elt F .f32) = val_main_v66 (F := F) (m ((c.tc : Thread nD τ).loc main_arg0)) := by
  have h : (after ops (fun b => m (c, b)) (Proc.devRef .tc main_v66) : S6x2x64x256x1.Idx → Elt F .f32) = concatenate S6x2x64x256x1 0 [⟨S1x2x64x256x1, (after ops (fun b => m (c, b)) (Proc.devRef .tc main_v60) : S1x2x64x256x1.Idx → Elt F .f32)⟩, ⟨S1x2x64x256x1, (after ops (fun b => m (c, b)) (Proc.devRef .tc main_v61) : S1x2x64x256x1.Idx → Elt F .f32)⟩, ⟨S1x2x64x256x1, (after ops (fun b => m (c, b)) (Proc.devRef .tc main_v62) : S1x2x64x256x1.Idx → Elt F .f32)⟩, ⟨S1x2x64x256x1, (after ops (fun b => m (c, b)) (Proc.devRef .tc main_v63) : S1x2x64x256x1.Idx → Elt F .f32)⟩, ⟨S1x2x64x256x1, (after ops (fun b => m (c, b)) (Proc.devRef .tc main_v64) : S1x2x64x256x1.Idx → Elt F .f32)⟩, ⟨S1x2x64x256x1, (after ops (fun b => m (c, b)) (Proc.devRef .tc main_v65) : S1x2x64x256x1.Idx → Elt F .f32)⟩] concatenates_S1x2x64x256x1_S1x2x64x256x1_S1x2x64x256x1_S1x2x64x256x1_S1x2x64x256x1_S1x2x64x256x1_S6x2x64x256x1_d0 :=
    (writes (F := F)).nary_at (fun b => m (c, b)) 66 ![main_v60, main_v61, main_v62, main_v63, main_v64, main_v65] main_v66 _ _ _ rfl (by decide) (by decide)
  rw [v60_eq m c, v61_eq m c, v62_eq m c, v63_eq m c, v64_eq m c, v65_eq m c] at h
  exact h

/-! ### The right border columns and their stack -/

theorem v67_eq : (after ops (fun b => m (c, b)) (Proc.devRef .tc main_v67) : S2x64x256x1.Idx → Elt F .f32) = val_main_v67 (F := F) (m ((c.tc : Thread nD τ).loc main_arg0)) := by
  have h : (after ops (fun b => m (c, b)) (Proc.devRef .tc main_v67) : S2x64x256x1.Idx → Elt F .f32) = extractStridedSlice S2x64x256x1 ![0, 0, 0, 0] (after ops (fun b => m (c, b)) (Proc.devRef .tc main_v4) : S2x64x256x256.Idx → Elt F .f32) slices_S2x64x256x256_S2x64x256x1_0_0_0_0 :=
    (writes (F := F)).unary_at (fun b => m (c, b)) 67 main_v4 main_v67 _ _ _ rfl (by decide) (by decide)
  rw [v4_eq m c] at h
  exact h

theorem v68_eq : (after ops (fun b => m (c, b)) (Proc.devRef .tc main_v68) : S2x64x256x1.Idx → Elt F .f32) = val_main_v68 (F := F) (m ((c.tc : Thread nD τ).loc main_arg0)) := by
  have h : (after ops (fun b => m (c, b)) (Proc.devRef .tc main_v68) : S2x64x256x1.Idx → Elt F .f32) = extractStridedSlice S2x64x256x1 ![0, 0, 0, 0] (after ops (fun b => m (c, b)) (Proc.devRef .tc main_v6) : S2x64x256x256.Idx → Elt F .f32) slices_S2x64x256x256_S2x64x256x1_0_0_0_0 :=
    (writes (F := F)).unary_at (fun b => m (c, b)) 68 main_v6 main_v68 _ _ _ rfl (by decide) (by decide)
  rw [v6_eq m c] at h
  exact h

theorem v69_eq : (after ops (fun b => m (c, b)) (Proc.devRef .tc main_v69) : S2x64x256x1.Idx → Elt F .f32) = val_main_v69 (F := F) (m ((c.tc : Thread nD τ).loc main_arg0)) := by
  have h : (after ops (fun b => m (c, b)) (Proc.devRef .tc main_v69) : S2x64x256x1.Idx → Elt F .f32) = extractStridedSlice S2x64x256x1 ![0, 0, 0, 0] (after ops (fun b => m (c, b)) (Proc.devRef .tc main_v8) : S2x64x256x256.Idx → Elt F .f32) slices_S2x64x256x256_S2x64x256x1_0_0_0_0 :=
    (writes (F := F)).unary_at (fun b => m (c, b)) 69 main_v8 main_v69 _ _ _ rfl (by decide) (by decide)
  rw [v8_eq m c] at h
  exact h

theorem v70_eq : (after ops (fun b => m (c, b)) (Proc.devRef .tc main_v70) : S2x64x256x1.Idx → Elt F .f32) = val_main_v70 (F := F) (m ((c.tc : Thread nD τ).loc main_arg0)) := by
  have h : (after ops (fun b => m (c, b)) (Proc.devRef .tc main_v70) : S2x64x256x1.Idx → Elt F .f32) = extractStridedSlice S2x64x256x1 ![0, 0, 0, 0] (after ops (fun b => m (c, b)) (Proc.devRef .tc main_v2) : S2x64x256x256.Idx → Elt F .f32) slices_S2x64x256x256_S2x64x256x1_0_0_0_0 :=
    (writes (F := F)).unary_at (fun b => m (c, b)) 70 main_v2 main_v70 _ _ _ rfl (by decide) (by decide)
  rw [v2_eq m c] at h
  exact h

theorem v71_eq : (after ops (fun b => m (c, b)) (Proc.devRef .tc main_v71) : S2x64x1x256.Idx → Elt F .f32) = val_main_v71 (F := F) (m ((c.tc : Thread nD τ).loc main_arg0)) := by
  have h : (after ops (fun b => m (c, b)) (Proc.devRef .tc main_v71) : S2x64x1x256.Idx → Elt F .f32) = extractStridedSlice S2x64x1x256 ![0, 0, 0, 0] (after ops (fun b => m (c, b)) (Proc.devRef .tc main_v4) : S2x64x256x256.Idx → Elt F .f32) slices_S2x64x256x256_S2x64x1x256_0_0_0_0 :=
    (writes (F := F)).unary_at (fun b => m (c, b)) 71 main_v4 main_v71 _ _ _ rfl (by decide) (by decide)
  rw [v4_eq m c] at h
  exact h

theorem v72_eq : (after ops (fun b => m (c, b)) (Proc.devRef .tc main_v72) : S2x64x256x1.Idx → Elt F .f32) = val_main_v72 (F := F) (m ((c.tc : Thread nD τ).loc main_arg0)) := by
  have h : (after ops (fun b => m (c, b)) (Proc.devRef .tc main_v72) : S2x64x256x1.Idx → Elt F .f32) = transpose S2x64x256x1 [0, 1, 3, 2] (after ops (fun b => m (c, b)) (Proc.devRef .tc main_v71) : S2x64x1x256.Idx → Elt F .f32) transposes_S2x64x1x256_S2x64x256x1_0_1_3_2 :=
    (writes (F := F)).unary_at (fun b => m (c, b)) 72 main_v71 main_v72 _ _ _ rfl (by decide) (by decide)
  rw [v71_eq m c] at h
  exact h

theorem v73_eq : (after ops (fun b => m (c, b)) (Proc.devRef .tc main_v73) : S2x64x256x1.Idx → Elt F .f32) = val_main_v73 (F := F) (m ((c.tc : Thread nD τ).loc main_arg0)) := by
  have h : (after ops (fun b => m (c, b)) (Proc.devRef .tc main_v73) : S2x64x256x1.Idx → Elt F .f32) = Host.reverse [2] (after ops (fun b => m (c, b)) (Proc.devRef .tc main_v72) : S2x64x256x1.Idx → Elt F .f32) :=
    (writes (F := F)).unary_at (fun b => m (c, b)) 73 main_v72 main_v73 _ _ _ rfl (by decide) (by decide)
  rw [v72_eq m c] at h
  exact h

theorem v74_eq : (after ops (fun b => m (c, b)) (Proc.devRef .tc main_v74) : S2x64x1x256.Idx → Elt F .f32) = val_main_v74 (F := F) (m ((c.tc : Thread nD τ).loc main_arg0)) := by
  have h : (after ops (fun b => m (c, b)) (Proc.devRef .tc main_v74) : S2x64x1x256.Idx → Elt F .f32) = extractStridedSlice S2x64x1x256 ![0, 0, 255, 0] (after ops (fun b => m (c, b)) (Proc.devRef .tc main_v4) : S2x64x256x256.Idx → Elt F .f32) slices_S2x64x256x256_S2x64x1x256_0_0_255_0 :=
    (writes (F := F)).unary_at (fun b => m (c, b)) 74 main_v4 main_v74 _ _ _ rfl (by decide) (by decide)
  rw [v4_eq m c] at h
  exact h

theorem v75_eq : (after ops (fun b => m (c, b)) (Proc.devRef .tc main_v75) : S2x64x1x256.Idx → Elt F .f32) = val_main_v75 (F := F) (m ((c.tc : Thread nD τ).loc main_arg0)) := by
  have h : (after ops (fun b => m (c, b)) (Proc.devRef .tc main_v75) : S2x64x1x256.Idx → Elt F .f32) = Host.reverse [2] (after ops (fun b => m (c, b)) (Proc.devRef .tc main_v74) : S2x64x1x256.Idx → Elt F .f32) :=
    (writes (F := F)).unary_at (fun b => m (c, b)) 75 main_v74 main_v75 _ _ _ rfl (by decide) (by decide)
  rw [v74_eq m c] at h
  exact h

theorem v76_eq : (after ops (fun b => m (c, b)) (Proc.devRef .tc main_v76) : S2x64x256x1.Idx → Elt F .f32) = val_main_v76 (F := F) (m ((c.tc : Thread nD τ).loc main_arg0)) := by
  have h : (after ops (fun b => m (c, b)) (Proc.devRef .tc main_v76) : S2x64x256x1.Idx → Elt F .f32) = transpose S2x64x256x1 [0, 1, 3, 2] (after ops (fun b => m (c, b)) (Proc.devRef .tc main_v75) : S2x64x1x256.Idx → Elt F .f32) transposes_S2x64x1x256_S2x64x256x1_0_1_3_2 :=
    (writes (F := F)).unary_at (fun b => m (c, b)) 76 main_v75 main_v76 _ _ _ rfl (by decide) (by decide)
  rw [v75_eq m c] at h
  exact h

theorem v77_eq : (after ops (fun b => m (c, b)) (Proc.devRef .tc main_v77) : S1x2x64x256x1.Idx → Elt F .f32) = val_main_v77 (F := F) (m ((c.tc : Thread nD τ).loc main_arg0)) := by
  have h : (after ops (fun b => m (c, b)) (Proc.devRef .tc main_v77) : S1x2x64x256x1.Idx → Elt F .f32) = broadcastInDim S1x2x64x256x1 ![1, 2, 3, 4] bcast_S2x64x256x1_S1x2x64x256x1_1_2_3_4 (after ops (fun b => m (c, b)) (Proc.devRef .tc main_v67) : S2x64x256x1.Idx → Elt F .f32) :=
    (writes (F := F)).unary_at (fun b => m (c, b)) 77 main_v67 main_v77 _ _ _ rfl (by decide) (by decide)
  rw [v67_eq m c] at h
  exact h

theorem v78_eq : (after ops (fun b => m (c, b)) (Proc.devRef .tc main_v78) : S1x2x64x256x1.Idx → Elt F .f32) = val_main_v78 (F := F) (m ((c.tc : Thread nD τ).loc main_arg0)) := by
  have h : (after ops (fun b => m (c, b)) (Proc.devRef .tc main_v78) : S1x2x64x256x1.Idx → Elt F .f32) = broadcastInDim S1x2x64x256x1 ![1, 2, 3, 4] bcast_S2x64x256x1_S1x2x64x256x1_1_2_3_4 (after ops (fun b => m (c, b)) (Proc.devRef .tc main_v68) : S2x64x256x1.Idx → Elt F .f32) :=
    (writes (F := F)).unary_at (fun b => m (c, b)) 78 main_v68 main_v78 _ _ _ rfl (by decide) (by decide)
  rw [v68_eq m c] at h
  exact h

theorem v79_eq : (after ops (fun b => m (c, b)) (Proc.devRef .tc main_v79) : S1x2x64x256x1.Idx → Elt F .f32) = val_main_v79 (F := F) (m ((c.tc : Thread nD τ).loc main_arg0)) := by
  have h : (after ops (fun b => m (c, b)) (Proc.devRef .tc main_v79) : S1x2x64x256x1.Idx → Elt F .f32) = broadcastInDim S1x2x64x256x1 ![1, 2, 3, 4] bcast_S2x64x256x1_S1x2x64x256x1_1_2_3_4 (after ops (fun b => m (c, b)) (Proc.devRef .tc main_v69) : S2x64x256x1.Idx → Elt F .f32) :=
    (writes (F := F)).unary_at (fun b => m (c, b)) 79 main_v69 main_v79 _ _ _ rfl (by decide) (by decide)
  rw [v69_eq m c] at h
  exact h

theorem v80_eq : (after ops (fun b => m (c, b)) (Proc.devRef .tc main_v80) : S1x2x64x256x1.Idx → Elt F .f32) = val_main_v80 (F := F) (m ((c.tc : Thread nD τ).loc main_arg0)) := by
  have h : (after ops (fun b => m (c, b)) (Proc.devRef .tc main_v80) : S1x2x64x256x1.Idx → Elt F .f32) = broadcastInDim S1x2x64x256x1 ![1, 2, 3, 4] bcast_S2x64x256x1_S1x2x64x256x1_1_2_3_4 (after ops (fun b => m (c, b)) (Proc.devRef .tc main_v70) : S2x64x256x1.Idx → Elt F .f32) :=
    (writes (F := F)).unary_at (fun b => m (c, b)) 80 main_v70 main_v80 _ _ _ rfl (by decide) (by decide)
  rw [v70_eq m c] at h
  exact h

theorem v81_eq : (after ops (fun b => m (c, b)) (Proc.devRef .tc main_v81) : S1x2x64x256x1.Idx → Elt F .f32) = val_main_v81 (F := F) (m ((c.tc : Thread nD τ).loc main_arg0)) := by
  have h : (after ops (fun b => m (c, b)) (Proc.devRef .tc main_v81) : S1x2x64x256x1.Idx → Elt F .f32) = broadcastInDim S1x2x64x256x1 ![1, 2, 3, 4] bcast_S2x64x256x1_S1x2x64x256x1_1_2_3_4 (after ops (fun b => m (c, b)) (Proc.devRef .tc main_v73) : S2x64x256x1.Idx → Elt F .f32) :=
    (writes (F := F)).unary_at (fun b => m (c, b)) 81 main_v73 main_v81 _ _ _ rfl (by decide) (by decide)
  rw [v73_eq m c] at h
  exact h

theorem v82_eq : (after ops (fun b => m (c, b)) (Proc.devRef .tc main_v82) : S1x2x64x256x1.Idx → Elt F .f32) = val_main_v82 (F := F) (m ((c.tc : Thread nD τ).loc main_arg0)) := by
  have h : (after ops (fun b => m (c, b)) (Proc.devRef .tc main_v82) : S1x2x64x256x1.Idx → Elt F .f32) = broadcastInDim S1x2x64x256x1 ![1, 2, 3, 4] bcast_S2x64x256x1_S1x2x64x256x1_1_2_3_4 (after ops (fun b => m (c, b)) (Proc.devRef .tc main_v76) : S2x64x256x1.Idx → Elt F .f32) :=
    (writes (F := F)).unary_at (fun b => m (c, b)) 82 main_v76 main_v82 _ _ _ rfl (by decide) (by decide)
  rw [v76_eq m c] at h
  exact h

theorem v83_eq : (after ops (fun b => m (c, b)) (Proc.devRef .tc main_v83) : S6x2x64x256x1.Idx → Elt F .f32) = val_main_v83 (F := F) (m ((c.tc : Thread nD τ).loc main_arg0)) := by
  have h : (after ops (fun b => m (c, b)) (Proc.devRef .tc main_v83) : S6x2x64x256x1.Idx → Elt F .f32) = concatenate S6x2x64x256x1 0 [⟨S1x2x64x256x1, (after ops (fun b => m (c, b)) (Proc.devRef .tc main_v77) : S1x2x64x256x1.Idx → Elt F .f32)⟩, ⟨S1x2x64x256x1, (after ops (fun b => m (c, b)) (Proc.devRef .tc main_v78) : S1x2x64x256x1.Idx → Elt F .f32)⟩, ⟨S1x2x64x256x1, (after ops (fun b => m (c, b)) (Proc.devRef .tc main_v79) : S1x2x64x256x1.Idx → Elt F .f32)⟩, ⟨S1x2x64x256x1, (after ops (fun b => m (c, b)) (Proc.devRef .tc main_v80) : S1x2x64x256x1.Idx → Elt F .f32)⟩, ⟨S1x2x64x256x1, (after ops (fun b => m (c, b)) (Proc.devRef .tc main_v81) : S1x2x64x256x1.Idx → Elt F .f32)⟩, ⟨S1x2x64x256x1, (after ops (fun b => m (c, b)) (Proc.devRef .tc main_v82) : S1x2x64x256x1.Idx → Elt F .f32)⟩] concatenates_S1x2x64x256x1_S1x2x64x256x1_S1x2x64x256x1_S1x2x64x256x1_S1x2x64x256x1_S1x2x64x256x1_S6x2x64x256x1_d0 :=
    (writes (F := F)).nary_at (fun b => m (c, b)) 83 ![main_v77, main_v78, main_v79, main_v80, main_v81, main_v82] main_v83 _ _ _ rfl (by decide) (by decide)
  rw [v77_eq m c, v78_eq m c, v79_eq m c, v80_eq m c, v81_eq m c, v82_eq m c] at h
  exact h

/-! ### The corner pixels -/

theorem v84_eq : (after ops (fun b => m (c, b)) (Proc.devRef .tc main_v84) : S6x2x64x1x1.Idx → Elt F .f32) = val_main_v84 (F := F) (m ((c.tc : Thread nD τ).loc main_arg0)) := by
  have h : (after ops (fun b => m (c, b)) (Proc.devRef .tc main_v84) : S6x2x64x1x1.Idx → Elt F .f32) = extractStridedSlice S6x2x64x1x1 ![0, 0, 0, 0, 255] (after ops (fun b => m (c, b)) (Proc.devRef .tc main_v31) : S6x2x64x1x256.Idx → Elt F .f32) slices_S6x2x64x1x256_S6x2x64x1x1_0_0_0_0_255 :=
    (writes (F := F)).unary_at (fun b => m (c, b)) 84 main_v31 main_v84 _ _ _ rfl (by decide) (by decide)
  rw [v31_eq m c] at h
  exact h

theorem v85_eq : (after ops (fun b => m (c, b)) (Proc.devRef .tc main_v85) : S6x2x64x1x1.Idx → Elt F .f32) = val_main_v85 (F := F) (m ((c.tc : Thread nD τ).loc main_arg0)) := by
  have h : (after ops (fun b => m (c, b)) (Proc.devRef .tc main_v85) : S6x2x64x1x1.Idx → Elt F .f32) = extractStridedSlice S6x2x64x1x1 ![0, 0, 0, 0, 0] (after ops (fun b => m (c, b)) (Proc.devRef .tc main_v83) : S6x2x64x256x1.Idx → Elt F .f32) slices_S6x2x64x256x1_S6x2x64x1x1_0_0_0_0_0 :=
    (writes (F := F)).unary_at (fun b => m (c, b)) 85 main_v83 main_v85 _ _ _ rfl (by decide) (by decide)
  rw [v83_eq m c] at h
  exact h

theorem v86_eq : (after ops (fun b => m (c, b)) (Proc.devRef .tc main_v86) : S1x6x1x2x1x64x1x1x1x1.Idx → Elt F .f32) = val_main_v86 (F := F) (m ((c.tc : Thread nD τ).loc main_arg0)) := by
  have h : (after ops (fun b => m (c, b)) (Proc.devRef .tc main_v86) : S1x6x1x2x1x64x1x1x1x1.Idx → Elt F .f32) = shapeCast _ (after ops (fun b => m (c, b)) (Proc.devRef .tc main_v84) : S6x2x64x1x1.Idx → Elt F .f32) shapeCasts_S6x2x64x1x1_S1x6x1x2x1x64x1x1x1x1 :=
    (writes (F := F)).reshape_at (fun b => m (c, b)) 86 main_v84 main_v86 _ _ _ _ rfl (by decide) (by decide)
  rw [v84_eq m c] at h
  exact h

theorem v87_eq : (after ops (fun b => m (c, b)) (Proc.devRef .tc main_v87) : S1x6x1x2x1x64x1x1x1x1.Idx → Elt F .f32) = val_main_v87 (F := F) (m ((c.tc : Thread nD τ).loc main_arg0)) := by
  have h : (after ops (fun b => m (c, b)) (Proc.devRef .tc main_v87) : S1x6x1x2x1x64x1x1x1x1.Idx → Elt F .f32) = broadcastInDim S1x6x1x2x1x64x1x1x1x1 ![0, 1, 2, 3, 4, 5, 6, 7, 8, 9] bcast_S1x6x1x2x1x64x1x1x1x1_S1x6x1x2x1x64x1x1x1x1_0_1_2_3_4_5_6_7_8_9 (after ops (fun b => m (c, b)) (Proc.devRef .tc main_v86) : S1x6x1x2x1x64x1x1x1x1.Idx → Elt F .f32) :=
    (writes (F := F)).unary_at (fun b => m (c, b)) 87 main_v86 main_v87 _ _ _ rfl (by decide) (by decide)
  rw [v86_eq m c] at h
  exact h

theorem v88_eq : (after ops (fun b => m (c, b)) (Proc.devRef .tc main_v88) : S6x2x64x1x1.Idx → Elt F .f32) = val_main_v88 (F := F) (m ((c.tc : Thread nD τ).loc main_arg0)) := by
  have h : (after ops (fun b => m (c, b)) (Proc.devRef .tc main_v88) : S6x2x64x1x1.Idx → Elt F .f32) = shapeCast _ (after ops (fun b => m (c, b)) (Proc.devRef .tc main_v87) : S1x6x1x2x1x64x1x1x1x1.Idx → Elt F .f32) shapeCasts_S1x6x1x2x1x64x1x1x1x1_S6x2x64x1x1 :=
    (writes (F := F)).reshape_at (fun b => m (c, b)) 88 main_v87 main_v88 _ _ _ _ rfl (by decide) (by decide)
  rw [v87_eq m c] at h
  exact h

theorem v89_eq : (after ops (fun b => m (c, b)) (Proc.devRef .tc main_v89) : S6x2x64x1x1.Idx → Elt F .f32) = val_main_v89 (F := F) (m ((c.tc : Thread nD τ).loc main_arg0)) := by
  have h : (after ops (fun b => m (c, b)) (Proc.devRef .tc main_v89) : S6x2x64x1x1.Idx → Elt F .f32) = extractStridedSlice S6x2x64x1x1 ![0, 0, 0, 0, 0] (after ops (fun b => m (c, b)) (Proc.devRef .tc main_v31) : S6x2x64x1x256.Idx → Elt F .f32) slices_S6x2x64x1x256_S6x2x64x1x1_0_0_0_0_0 :=
    (writes (F := F)).unary_at (fun b => m (c, b)) 89 main_v31 main_v89 _ _ _ rfl (by decide) (by decide)
  rw [v31_eq m c] at h
  exact h

theorem v90_eq : (after ops (fun b => m (c, b)) (Proc.devRef .tc main_v90) : S6x2x64x1x1.Idx → Elt F .f32) = val_main_v90 (F := F) (m ((c.tc : Thread nD τ).loc main_arg0)) := by
  have h : (after ops (fun b => m (c, b)) (Proc.devRef .tc main_v90) : S6x2x64x1x1.Idx → Elt F .f32) = extractStridedSlice S6x2x64x1x1 ![0, 0, 0, 0, 0] (after ops (fun b => m (c, b)) (Proc.devRef .tc main_v66) : S6x2x64x256x1.Idx → Elt F .f32) slices_S6x2x64x256x1_S6x2x64x1x1_0_0_0_0_0 :=
    (writes (F := F)).unary_at (fun b => m (c, b)) 90 main_v66 main_v90 _ _ _ rfl (by decide) (by decide)
  rw [v66_eq m c] at h
  exact h

theorem v91_eq : (after ops (fun b => m (c, b)) (Proc.devRef .tc main_v91) : S1x6x1x2x1x64x1x1x1x1.Idx → Elt F .f32) = val_main_v91 (F := F) (m ((c.tc : Thread nD τ).loc main_arg0)) := by
  have h : (after ops (fun b => m (c, b)) (Proc.devRef .tc main_v91) : S1x6x1x2x1x64x1x1x1x1.Idx → Elt F .f32) = shapeCast _ (after ops (fun b => m (c, b)) (Proc.devRef .tc main_v89) : S6x2x64x1x1.Idx → Elt F .f32) shapeCasts_S6x2x64x1x1_S1x6x1x2x1x64x1x1x1x1 :=
    (writes (F := F)).reshape_at (fun b => m (c, b)) 91 main_v89 main_v91 _ _ _ _ rfl (by decide) (by decide)
  rw [v89_eq m c] at h
  exact h

theorem v92_eq : (after ops (fun b => m (c, b)) (Proc.devRef .tc main_v92) : S1x6x1x2x1x64x1x1x1x1.Idx → Elt F .f32) = val_main_v92 (F := F) (m ((c.tc : Thread nD τ).loc main_arg0)) := by
  have h : (after ops (fun b => m (c, b)) (Proc.devRef .tc main_v92) : S1x6x1x2x1x64x1x1x1x1.Idx → Elt F .f32) = broadcastInDim S1x6x1x2x1x64x1x1x1x1 ![0, 1, 2, 3, 4, 5, 6, 7, 8, 9] bcast_S1x6x1x2x1x64x1x1x1x1_S1x6x1x2x1x64x1x1x1x1_0_1_2_3_4_5_6_7_8_9 (after ops (fun b => m (c, b)) (Proc.devRef .tc main_v91) : S1x6x1x2x1x64x1x1x1x1.Idx → Elt F .f32) :=
    (writes (F := F)).unary_at (fun b => m (c, b)) 92 main_v91 main_v92 _ _ _ rfl (by decide) (by decide)
  rw [v91_eq m c] at h
  exact h

theorem v93_eq : (after ops (fun b => m (c, b)) (Proc.devRef .tc main_v93) : S6x2x64x1x1.Idx → Elt F .f32) = val_main_v93 (F := F) (m ((c.tc : Thread nD τ).loc main_arg0)) := by
  have h : (after ops (fun b => m (c, b)) (Proc.devRef .tc main_v93) : S6x2x64x1x1.Idx → Elt F .f32) = shapeCast _ (after ops (fun b => m (c, b)) (Proc.devRef .tc main_v92) : S1x6x1x2x1x64x1x1x1x1.Idx → Elt F .f32) shapeCasts_S1x6x1x2x1x64x1x1x1x1_S6x2x64x1x1 :=
    (writes (F := F)).reshape_at (fun b => m (c, b)) 93 main_v92 main_v93 _ _ _ _ rfl (by decide) (by decide)
  rw [v92_eq m c] at h
  exact h

theorem v94_eq : (after ops (fun b => m (c, b)) (Proc.devRef .tc main_v94) : S6x2x64x1x1.Idx → Elt F .f32) = val_main_v94 (F := F) (m ((c.tc : Thread nD τ).loc main_arg0)) := by
  have h : (after ops (fun b => m (c, b)) (Proc.devRef .tc main_v94) : S6x2x64x1x1.Idx → Elt F .f32) = extractStridedSlice S6x2x64x1x1 ![0, 0, 0, 0, 255] (after ops (fun b => m (c, b)) (Proc.devRef .tc main_v50) : S6x2x64x1x256.Idx → Elt F .f32) slices_S6x2x64x1x256_S6x2x64x1x1_0_0_0_0_255 :=
    (writes (F := F)).unary_at (fun b => m (c, b)) 94 main_v50 main_v94 _ _ _ rfl (by decide) (by decide)
  rw [v50_eq m c] at h
  exact h

theorem v95_eq : (after ops (fun b => m (c, b)) (Proc.devRef .tc main_v95) : S6x2x64x1x1.Idx → Elt F .f32) = val_main_v95 (F := F) (m ((c.tc : Thread nD τ).loc main_arg0)) := by
  have h : (after ops (fun b => m (c, b)) (Proc.devRef .tc main_v95) : S6x2x64x1x1.Idx → Elt F .f32) = extractStridedSlice S6x2x64x1x1 ![0, 0, 0, 255, 0] (after ops (fun b => m (c, b)) (Proc.devRef .tc main_v83) : S6x2x64x256x1.Idx → Elt F .f32) slices_S6x2x64x256x1_S6x2x64x1x1_0_0_0_255_0 :=
    (writes (F := F)).unary_at (fun b => m (c, b)) 95 main_v83 main_v95 _ _ _ rfl (by decide) (by decide)
  rw [v83_eq m c] at h
  exact h

theorem v96_eq : (after ops (fun b => m (c, b)) (Proc.devRef .tc main_v96) : S1x6x1x2x1x64x1x1x1x1.Idx → Elt F .f32) = val_main_v96 (F := F) (m ((c.tc : Thread nD τ).loc main_arg0)) := by
  have h : (after ops (fun b => m (c, b)) (Proc.devRef .tc main_v96) : S1x6x1x2x1x64x1x1x1x1.Idx → Elt F .f32) = shapeCast _ (after ops (fun b => m (c, b)) (Proc.devRef .tc main_v94) : S6x2x64x1x1.Idx → Elt F .f32) shapeCasts_S6x2x64x1x1_S1x6x1x2x1x64x1x1x1x1 :=
    (writes (F := F)).reshape_at (fun b => m (c, b)) 96 main_v94 main_v96 _ _ _ _ rfl (by decide) (by decide)
  rw [v94_eq m c] at h
  exact h

theorem v97_eq : (after ops (fun b => m (c, b)) (Proc.devRef .tc main_v97) : S1x6x1x2x1x64x1x1x1x1.Idx → Elt F .f32) = val_main_v97 (F := F) (m ((c.tc : Thread nD τ).loc main_arg0)) := by
  have h : (after ops (fun b => m (c, b)) (Proc.devRef .tc main_v97) : S1x6x1x2x1x64x1x1x1x1.Idx → Elt F .f32) = broadcastInDim S1x6x1x2x1x64x1x1x1x1 ![0, 1, 2, 3, 4, 5, 6, 7, 8, 9] bcast_S1x6x1x2x1x64x1x1x1x1_S1x6x1x2x1x64x1x1x1x1_0_1_2_3_4_5_6_7_8_9 (after ops (fun b => m (c, b)) (Proc.devRef .tc main_v96) : S1x6x1x2x1x64x1x1x1x1.Idx → Elt F .f32) :=
    (writes (F := F)).unary_at (fun b => m (c, b)) 97 main_v96 main_v97 _ _ _ rfl (by decide) (by decide)
  rw [v96_eq m c] at h
  exact h

theorem v98_eq : (after ops (fun b => m (c, b)) (Proc.devRef .tc main_v98) : S6x2x64x1x1.Idx → Elt F .f32) = val_main_v98 (F := F) (m ((c.tc : Thread nD τ).loc main_arg0)) := by
  have h : (after ops (fun b => m (c, b)) (Proc.devRef .tc main_v98) : S6x2x64x1x1.Idx → Elt F .f32) = shapeCast _ (after ops (fun b => m (c, b)) (Proc.devRef .tc main_v97) : S1x6x1x2x1x64x1x1x1x1.Idx → Elt F .f32) shapeCasts_S1x6x1x2x1x64x1x1x1x1_S6x2x64x1x1 :=
    (writes (F := F)).reshape_at (fun b => m (c, b)) 98 main_v97 main_v98 _ _ _ _ rfl (by decide) (by decide)
  rw [v97_eq m c] at h
  exact h

theorem v99_eq : (after ops (fun b => m (c, b)) (Proc.devRef .tc main_v99) : S6x2x64x1x1.Idx → Elt F .f32) = val_main_v99 (F := F) (m ((c.tc : Thread nD τ).loc main_arg0)) := by
  have h : (after ops (fun b => m (c, b)) (Proc.devRef .tc main_v99) : S6x2x64x1x1.Idx → Elt F .f32) = extractStridedSlice S6x2x64x1x1 ![0, 0, 0, 0, 0] (after ops (fun b => m (c, b)) (Proc.devRef .tc main_v50) : S6x2x64x1x256.Idx → Elt F .f32) slices_S6x2x64x1x256_S6x2x64x1x1_0_0_0_0_0 :=
    (writes (F := F)).unary_at (fun b => m (c, b)) 99 main_v50 main_v99 _ _ _ rfl (by decide) (by decide)
  rw [v50_eq m c] at h
  exact h

theorem v100_eq : (after ops (fun b => m (c, b)) (Proc.devRef .tc main_v100) : S6x2x64x1x1.Idx → Elt F .f32) = val_main_v100 (F := F) (m ((c.tc : Thread nD τ).loc main_arg0)) := by
  have h : (after ops (fun b => m (c, b)) (Proc.devRef .tc main_v100) : S6x2x64x1x1.Idx → Elt F .f32) = extractStridedSlice S6x2x64x1x1 ![0, 0, 0, 255, 0] (after ops (fun b => m (c, b)) (Proc.devRef .tc main_v66) : S6x2x64x256x1.Idx → Elt F .f32) slices_S6x2x64x256x1_S6x2x64x1x1_0_0_0_255_0 :=
    (writes (F := F)).unary_at (fun b => m (c, b)) 100 main_v66 main_v100 _ _ _ rfl (by decide) (by decide)
  rw [v66_eq m c] at h
  exact h

theorem v101_eq : (after ops (fun b => m (c, b)) (Proc.devRef .tc main_v101) : S1x6x1x2x1x64x1x1x1x1.Idx → Elt F .f32) = val_main_v101 (F := F) (m ((c.tc : Thread nD τ).loc main_arg0)) := by
  have h : (after ops (fun b => m (c, b)) (Proc.devRef .tc main_v101) : S1x6x1x2x1x64x1x1x1x1.Idx → Elt F .f32) = shapeCast _ (after ops (fun b => m (c, b)) (Proc.devRef .tc main_v99) : S6x2x64x1x1.Idx → Elt F .f32) shapeCasts_S6x2x64x1x1_S1x6x1x2x1x64x1x1x1x1 :=
    (writes (F := F)).reshape_at (fun b => m (c, b)) 101 main_v99 main_v101 _ _ _ _ rfl (by decide) (by decide)
  rw [v99_eq m c] at h
  exact h

theorem v102_eq : (after ops (fun b => m (c, b)) (Proc.devRef .tc main_v102) : S1x6x1x2x1x64x1x1x1x1.Idx → Elt F .f32) = val_main_v102 (F := F) (m ((c.tc : Thread nD τ).loc main_arg0)) := by
  have h : (after ops (fun b => m (c, b)) (Proc.devRef .tc main_v102) : S1x6x1x2x1x64x1x1x1x1.Idx → Elt F .f32) = broadcastInDim S1x6x1x2x1x64x1x1x1x1 ![0, 1, 2, 3, 4, 5, 6, 7, 8, 9] bcast_S1x6x1x2x1x64x1x1x1x1_S1x6x1x2x1x64x1x1x1x1_0_1_2_3_4_5_6_7_8_9 (after ops (fun b => m (c, b)) (Proc.devRef .tc main_v101) : S1x6x1x2x1x64x1x1x1x1.Idx → Elt F .f32) :=
    (writes (F := F)).unary_at (fun b => m (c, b)) 102 main_v101 main_v102 _ _ _ rfl (by decide) (by decide)
  rw [v101_eq m c] at h
  exact h

theorem v103_eq : (after ops (fun b => m (c, b)) (Proc.devRef .tc main_v103) : S6x2x64x1x1.Idx → Elt F .f32) = val_main_v103 (F := F) (m ((c.tc : Thread nD τ).loc main_arg0)) := by
  have h : (after ops (fun b => m (c, b)) (Proc.devRef .tc main_v103) : S6x2x64x1x1.Idx → Elt F .f32) = shapeCast _ (after ops (fun b => m (c, b)) (Proc.devRef .tc main_v102) : S1x6x1x2x1x64x1x1x1x1.Idx → Elt F .f32) shapeCasts_S1x6x1x2x1x64x1x1x1x1_S6x2x64x1x1 :=
    (writes (F := F)).reshape_at (fun b => m (c, b)) 103 main_v102 main_v103 _ _ _ _ rfl (by decide) (by decide)
  rw [v102_eq m c] at h
  exact h

/-! ### The strips of the padded faces, side by side, and the last reshape -/

theorem v104_eq : (after ops (fun b => m (c, b)) (Proc.devRef .tc main_v104) : S2x6x64x1x1.Idx → Elt F .f32) = val_main_v104 (F := F) (m ((c.tc : Thread nD τ).loc main_arg0)) := by
  have h : (after ops (fun b => m (c, b)) (Proc.devRef .tc main_v104) : S2x6x64x1x1.Idx → Elt F .f32) = transpose S2x6x64x1x1 [1, 0, 2, 3, 4] (after ops (fun b => m (c, b)) (Proc.devRef .tc main_v93) : S6x2x64x1x1.Idx → Elt F .f32) transposes_S6x2x64x1x1_S2x6x64x1x1_1_0_2_3_4 :=
    (writes (F := F)).unary_at (fun b => m (c, b)) 104 main_v93 main_v104 _ _ _ rfl (by decide) (by decide)
  rw [v93_eq m c] at h
  exact h

theorem v105_eq : (after ops (fun b => m (c, b)) (Proc.devRef .tc main_v105) : S2x6x64x256x1.Idx → Elt F .f32) = val_main_v105 (F := F) (m ((c.tc : Thread nD τ).loc main_arg0)) := by
  have h : (after ops (fun b => m (c, b)) (Proc.devRef .tc main_v105) : S2x6x64x256x1.Idx → Elt F .f32) = transpose S2x6x64x256x1 [1, 0, 2, 3, 4] (after ops (fun b => m (c, b)) (Proc.devRef .tc main_v66) : S6x2x64x256x1.Idx → Elt F .f32) transposes_S6x2x64x256x1_S2x6x64x256x1_1_0_2_3_4 :=
    (writes (F := F)).unary_at (fun b => m (c, b)) 105 main_v66 main_v105 _ _ _ rfl (by decide) (by decide)
  rw [v66_eq m c] at h
  exact h

theorem v106_eq : (after ops (fun b => m (c, b)) (Proc.devRef .tc main_v106) : S2x6x64x1x1.Idx → Elt F .f32) = val_main_v106 (F := F) (m ((c.tc : Thread nD τ).loc main_arg0)) := by
  have h : (after ops (fun b => m (c, b)) (Proc.devRef .tc main_v106) : S2x6x64x1x1.Idx → Elt F .f32) = transpose S2x6x64x1x1 [1, 0, 2, 3, 4] (after ops (fun b => m (c, b)) (Proc.devRef .tc main_v103) : S6x2x64x1x1.Idx → Elt F .f32) transposes_S6x2x64x1x1_S2x6x64x1x1_1_0_2_3_4 :=
    (writes (F := F)).unary_at (fun b => m (c, b)) 106 main_v103 main_v106 _ _ _ rfl (by decide) (by decide)
  rw [v103_eq m c] at h
  exact h

theorem v107_eq : (after ops (fun b => m (c, b)) (Proc.devRef .tc main_v107) : S2x6x64x258x1.Idx → Elt F .f32) = val_main_v107 (F := F) (m ((c.tc : Thread nD τ).loc main_arg0)) := by
  have h : (after ops (fun b => m (c, b)) (Proc.devRef .tc main_v107) : S2x6x64x258x1.Idx → Elt F .f32) = concatenate S2x6x64x258x1 3 [⟨S2x6x64x1x1, (after ops (fun b => m (c, b)) (Proc.devRef .tc main_v104) : S2x6x64x1x1.Idx → Elt F .f32)⟩, ⟨S2x6x64x256x1, (after ops (fun b => m (c, b)) (Proc.devRef .tc main_v105) : S2x6x64x256x1.Idx → Elt F .f32)⟩, ⟨S2x6x64x1x1, (after ops (fun b => m (c, b)) (Proc.devRef .tc main_v106) : S2x6x64x1x1.Idx → Elt F .f32)⟩] concatenates_S2x6x64x1x1_S2x6x64x256x1_S2x6x64x1x1_S2x6x64x258x1_d3 :=
    (writes (F := F)).nary_at (fun b => m (c, b)) 107 ![main_v104, main_v105, main_v106] main_v107 _ _ _ rfl (by decide) (by decide)
  rw [v104_eq m c, v105_eq m c, v106_eq m c] at h
  exact h

theorem v108_eq : (after ops (fun b => m (c, b)) (Proc.devRef .tc main_v108) : S2x6x64x1x1.Idx → Elt F .f32) = val_main_v108 (F := F) (m ((c.tc : Thread nD τ).loc main_arg0)) := by
  have h : (after ops (fun b => m (c, b)) (Proc.devRef .tc main_v108) : S2x6x64x1x1.Idx → Elt F .f32) = transpose S2x6x64x1x1 [1, 0, 2, 3, 4] (after ops (fun b => m (c, b)) (Proc.devRef .tc main_v88) : S6x2x64x1x1.Idx → Elt F .f32) transposes_S6x2x64x1x1_S2x6x64x1x1_1_0_2_3_4 :=
    (writes (F := F)).unary_at (fun b => m (c, b)) 108 main_v88 main_v108 _ _ _ rfl (by decide) (by decide)
  rw [v88_eq m c] at h
  exact h

theorem v109_eq : (after ops (fun b => m (c, b)) (Proc.devRef .tc main_v109) : S2x6x64x256x1.Idx → Elt F .f32) = val_main_v109 (F := F) (m ((c.tc : Thread nD τ).loc main_arg0)) := by
  have h : (after ops (fun b => m (c, b)) (Proc.devRef .tc main_v109) : S2x6x64x256x1.Idx → Elt F .f32) = transpose S2x6x64x256x1 [1, 0, 2, 3, 4] (after ops (fun b => m (c, b)) (Proc.devRef .tc main_v83) : S6x2x64x256x1.Idx → Elt F .f32) transposes_S6x2x64x256x1_S2x6x64x256x1_1_0_2_3_4 :=
    (writes (F := F)).unary_at (fun b => m (c, b)) 109 main_v83 main_v109 _ _ _ rfl (by decide) (by decide)
  rw [v83_eq m c] at h
  exact h

theorem v110_eq : (after ops (fun b => m (c, b)) (Proc.devRef .tc main_v110) : S2x6x64x1x1.Idx → Elt F .f32) = val_main_v110 (F := F) (m ((c.tc : Thread nD τ).loc main_arg0)) := by
  have h : (after ops (fun b => m (c, b)) (Proc.devRef .tc main_v110) : S2x6x64x1x1.Idx → Elt F .f32) = transpose S2x6x64x1x1 [1, 0, 2, 3, 4] (after ops (fun b => m (c, b)) (Proc.devRef .tc main_v98) : S6x2x64x1x1.Idx → Elt F .f32) transposes_S6x2x64x1x1_S2x6x64x1x1_1_0_2_3_4 :=
    (writes (F := F)).unary_at (fun b => m (c, b)) 110 main_v98 main_v110 _ _ _ rfl (by decide) (by decide)
  rw [v98_eq m c] at h
  exact h

theorem v111_eq : (after ops (fun b => m (c, b)) (Proc.devRef .tc main_v111) : S2x6x64x258x1.Idx → Elt F .f32) = val_main_v111 (F := F) (m ((c.tc : Thread nD τ).loc main_arg0)) := by
  have h : (after ops (fun b => m (c, b)) (Proc.devRef .tc main_v111) : S2x6x64x258x1.Idx → Elt F .f32) = concatenate S2x6x64x258x1 3 [⟨S2x6x64x1x1, (after ops (fun b => m (c, b)) (Proc.devRef .tc main_v108) : S2x6x64x1x1.Idx → Elt F .f32)⟩, ⟨S2x6x64x256x1, (after ops (fun b => m (c, b)) (Proc.devRef .tc main_v109) : S2x6x64x256x1.Idx → Elt F .f32)⟩, ⟨S2x6x64x1x1, (after ops (fun b => m (c, b)) (Proc.devRef .tc main_v110) : S2x6x64x1x1.Idx → Elt F .f32)⟩] concatenates_S2x6x64x1x1_S2x6x64x256x1_S2x6x64x1x1_S2x6x64x258x1_d3 :=
    (writes (F := F)).nary_at (fun b => m (c, b)) 111 ![main_v108, main_v109, main_v110] main_v111 _ _ _ rfl (by decide) (by decide)
  rw [v108_eq m c, v109_eq m c, v110_eq m c] at h
  exact h

theorem v112_eq : (after ops (fun b => m (c, b)) (Proc.devRef .tc main_v112) : S2x6x64x1x256.Idx → Elt F .f32) = val_main_v112 (F := F) (m ((c.tc : Thread nD τ).loc main_arg0)) := by
  have h : (after ops (fun b => m (c, b)) (Proc.devRef .tc main_v112) : S2x6x64x1x256.Idx → Elt F .f32) = transpose S2x6x64x1x256 [1, 0, 2, 3, 4] (after ops (fun b => m (c, b)) (Proc.devRef .tc main_v31) : S6x2x64x1x256.Idx → Elt F .f32) transposes_S6x2x64x1x256_S2x6x64x1x256_1_0_2_3_4 :=
    (writes (F := F)).unary_at (fun b => m (c, b)) 112 main_v31 main_v112 _ _ _ rfl (by decide) (by decide)
  rw [v31_eq m c] at h
  exact h

theorem v113_eq : (after ops (fun b => m (c, b)) (Proc.devRef .tc main_v113) : S2x6x64x1x256.Idx → Elt F .f32) = val_main_v113 (F := F) (m ((c.tc : Thread nD τ).loc main_arg0)) := by
  have h : (after ops (fun b => m (c, b)) (Proc.devRef .tc main_v113) : S2x6x64x1x256.Idx → Elt F .f32) = transpose S2x6x64x1x256 [1, 0, 2, 3, 4] (after ops (fun b => m (c, b)) (Proc.devRef .tc main_v50) : S6x2x64x1x256.Idx → Elt F .f32) transposes_S6x2x64x1x256_S2x6x64x1x256_1_0_2_3_4 :=
    (writes (F := F)).unary_at (fun b => m (c, b)) 113 main_v50 main_v113 _ _ _ rfl (by decide) (by decide)
  rw [v50_eq m c] at h
  exact h

theorem v114_eq : (after ops (fun b => m (c, b)) (Proc.devRef .tc main_v114) : S2x6x64x258x256.Idx → Elt F .f32) = val_main_v114 (F := F) (m ((c.tc : Thread nD τ).loc main_arg0)) := by
  have h : (after ops (fun b => m (c, b)) (Proc.devRef .tc main_v114) : S2x6x64x258x256.Idx → Elt F .f32) = concatenate S2x6x64x258x256 3 [⟨S2x6x64x1x256, (after ops (fun b => m (c, b)) (Proc.devRef .tc main_v112) : S2x6x64x1x256.Idx → Elt F .f32)⟩, ⟨S2x6x64x256x256, (after ops (fun b => m (c, b)) (Proc.devRef .tc main_v0) : S2x6x64x256x256.Idx → Elt F .f32)⟩, ⟨S2x6x64x1x256, (after ops (fun b => m (c, b)) (Proc.devRef .tc main_v113) : S2x6x64x1x256.Idx → Elt F .f32)⟩] concatenates_S2x6x64x1x256_S2x6x64x256x256_S2x6x64x1x256_S2x6x64x258x256_d3 :=
    (writes (F := F)).nary_at (fun b => m (c, b)) 114 ![main_v112, main_v0, main_v113] main_v114 _ _ _ rfl (by decide) (by decide)
  rw [v112_eq m c, v0_eq m c, v113_eq m c] at h
  exact h

theorem v115_eq : (after ops (fun b => m (c, b)) (Proc.devRef .tc main_v115) : S2x6x64x258x258.Idx → Elt F .f32) = val_main_v115 (F := F) (m ((c.tc : Thread nD τ).loc main_arg0)) := by
  have h : (after ops (fun b => m (c, b)) (Proc.devRef .tc main_v115) : S2x6x64x258x258.Idx → Elt F .f32) = concatenate S2x6x64x258x258 4 [⟨S2x6x64x258x1, (after ops (fun b => m (c, b)) (Proc.devRef .tc main_v107) : S2x6x64x258x1.Idx → Elt F .f32)⟩, ⟨S2x6x64x258x256, (after ops (fun b => m (c, b)) (Proc.devRef .tc main_v114) : S2x6x64x258x256.Idx → Elt F .f32)⟩, ⟨S2x6x64x258x1, (after ops (fun b => m (c, b)) (Proc.devRef .tc main_v111) : S2x6x64x258x1.Idx → Elt F .f32)⟩] concatenates_S2x6x64x258x1_S2x6x64x258x256_S2x6x64x258x1_S2x6x64x258x258_d4 :=
    (writes (F := F)).nary_at (fun b => m (c, b)) 115 ![main_v107, main_v114, main_v111] main_v115 _ _ _ rfl (by decide) (by decide)
  rw [v107_eq m c, v114_eq m c, v111_eq m c] at h
  exact h

theorem v116_eq : (after ops (fun b => m (c, b)) (Proc.devRef .tc main_v116) : S12x64x258x258.Idx → Elt F .f32) = val_main_v116 (F := F) (m ((c.tc : Thread nD τ).loc main_arg0)) := by
  have h : (after ops (fun b => m (c, b)) (Proc.devRef .tc main_v116) : S12x64x258x258.Idx → Elt F .f32) = shapeCast _ (after ops (fun b => m (c, b)) (Proc.devRef .tc main_v115) : S2x6x64x258x258.Idx → Elt F .f32) shapeCasts_S2x6x64x258x258_S12x64x258x258 :=
    (writes (F := F)).reshape_at (fun b => m (c, b)) 116 main_v115 main_v116 _ _ _ _ rfl (by decide) (by decide)
  rw [v115_eq m c] at h
  exact h

end Steps

/-! ### The run -/

/-- On every device, for any float values, from any memory with zero counters: every weakly fair execution of @main
    terminates with the result buffer at the reference's value of the argument, and the argument as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116) = Cert.ReferenceIdeal.Read.val_main_v116 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v116).trans (v116_eq m c), (h c main_arg0).trans (arg0_eq m c)⟩)
    (run_seq scopedRefs_eq scopedSems_eq defs main (fun _ => ops) main_eq (fun _ => ops_sub) m ρ)

end Cert.ReferenceIdeal.Value

end
-- ==== Proof.lean ====
/-
  Cube padding: the kernel program and the reference compute the same padded faces.

  The input is 2 cubes × 6 faces × 64 channels of 256 × 256 pixels; the result pads every face by one pixel on each
  side, the border rows and columns taken from the neighbouring faces of the same cube, each corner repeating the end
  pixel of the border row it closes (`Cert.CubePad.padded`, Proof/Spec.lean). No float is ever computed with: both
  programs only move pixels, so the equality holds for every input and the precondition is never opened.

  The kernel program prepares five arrays — the faces, the top and bottom border rows, the left and right border
  columns with their corners, each flattened to 768 images (Proof/KHSteps.lean, KHost.lean read them at an index) — and
  one region walks them 16 images at a time, storing the five pieces of each padded block: the region runs and leaves
  the input alone (Proof/KFrame.lean, KBody.lean, KRun.lean), and what it leaves is `padded` of the 24 edge pieces
  (Proof/KValue.lean, KResult.lean). The reference stacks the same 24 pieces on another axis, transposes them back and
  concatenates: its result is `padded` of its pieces (Proof/RefLayout.lean, RefPadded.lean), and it runs, one operation
  after the other (Proof/RefOps.lean, RefRunSteps.lean). The two programs compute each edge piece by the same
  operations of the input (Proof/KPieces.lean), so the results are equal.

  The word-level kernel program has the same text as its idealization (no operation was rewritten), and its frame is the
  same proof read at the words (Proof/WEntry.lean, WFrame.lean, WBody.lean, WRun.lean).
-/
import proofs.«116597_j71528385347689_2_alg».proof.Defs
import proofs.«116597_j71528385347689_2_alg».proof.Proof.Gen.Kernel
import proofs.«116597_j71528385347689_2_alg».proof.Proof.Gen.KernelIdeal
import proofs.«116597_j71528385347689_2_alg».proof.Proof.Gen.ReferenceIdeal
import proofs.«116597_j71528385347689_2_alg».proof.Proof.Gen.Pre_finite_inputs
import proofs.«116597_j71528385347689_2_alg».proof.Proof.WRun
import proofs.«116597_j71528385347689_2_alg».proof.Proof.KResult
import proofs.«116597_j71528385347689_2_alg».proof.Proof.KPieces
import proofs.«116597_j71528385347689_2_alg».proof.Proof.RefPadded
import proofs.«116597_j71528385347689_2_alg».proof.Proof.RefRunSteps

noncomputable section

namespace Cert.Proof

open Idealize.ShloMosaic Idealize.ShloMosaic.TcCoe Idealize.SL.Sem Cert.CubePad

/-- The word-level kernel program runs and leaves its input alone. -/
theorem frame_kernel : @Cert.frame_Kernel Cert.Kernel.Gen.facts Cert.Pre_finite_inputs.Gen.facts :=
  fun m ρ _ => Cert.Kernel.Pad.frame m ρ

/-- So does its idealization. -/
theorem frame_kernelIdeal : @Cert.frame_KernelIdeal Cert.KernelIdeal.Gen.facts Cert.Pre_finite_inputs.Gen.facts :=
  fun m ρ _ => Cert.KernelIdeal.Pad.frame m ρ

/-- The reference is host operations only: its run, with the result dropped. -/
theorem frame_reference : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal Cert.KernelIdeal.Gen Cert.KernelIdeal.Pad in
/-- The idealized kernel program ends with its result at `padded` of the edge pieces it computed, its input as it
    was: the region's run, the result read through the operation after the region. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v96)
            = padded (kTop m c) (kBot m c) (kLef m c) (kRig m c) (kFaces m c)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)) :=
  (θ_run Cert.KernelIdeal.defs _ _).mono (fun _ h c =>
    ⟨((h c).2 main_v96 (Pipeline.mem_restRefs_of main_v96 (by decide) (by decide))).trans
        (result_padded m c (kTop m c) (kBot m c) (kLef m c) (kRig m c) (kFaces m c)
          (arr0_apply m c) (arr1_apply m c) (arr2_apply m c) (arr3_apply m c) (arr4_apply m c)),
      ((h c).2 main_arg0 (Pipeline.mem_restRefs_of main_arg0 (by decide) (by decide))).trans (W_arg m (dats m) c)⟩)
    (run_main m ρ)

open Cert.KernelIdeal.Pad Cert.ReferenceIdeal.RefValue in
/-- From memories that agree on the input, both programs end with the same padded faces: each is `padded` of its own
    edge pieces, and the pieces are the same functions of the input. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => padded (kTop m c) (kBot m c) (kLef m c) (kRig m c) (kFaces m c), kernel_run m ρ, ?_⟩
  refine (θ_run Cert.ReferenceIdeal.defs _ _).mono (fun _ h c => ⟨(h c).1.trans ?_, (h c).2⟩)
    (Cert.ReferenceIdeal.Value.run (F := Ideal) m' ρ')
  have eT : kTop m c = rTop (F := Ideal) (m ((c.tc : Thread Cert.KernelIdeal.nD Cert.KernelIdeal.τ).loc Cert.KernelIdeal.main_arg0)) := funext (kTop_eq m c)
  have eB : kBot m c = rBot (F := Ideal) (m ((c.tc : Thread Cert.KernelIdeal.nD Cert.KernelIdeal.τ).loc Cert.KernelIdeal.main_arg0)) := funext (kBot_eq m c)
  have eL : kLef m c = rLef (F := Ideal) (m ((c.tc : Thread Cert.KernelIdeal.nD Cert.KernelIdeal.τ).loc Cert.KernelIdeal.main_arg0)) := funext (kLef_eq m c)
  have eR : kRig m c = rRig (F := Ideal) (m ((c.tc : Thread Cert.KernelIdeal.nD Cert.KernelIdeal.τ).loc Cert.KernelIdeal.main_arg0)) := funext (kRig_eq m c)
  show _ = padded (kTop m c) (kBot m c) (kLef m c) (kRig m c) (kFaces m c)
  rw [eT, eB, eL, eR, kFaces_eq m c, result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
